-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v229)) (v1 : (c : Dev Cert.KernelIdeal.nD) → Buf (Elt Ideal) ((c.tc : Thread Cert.KernelIdeal.nD Cert.KernelIdeal.τ).loc Cert.KernelIdeal.main_v93)) (v2 : (c : Dev Cert.KernelIdeal.nD) → Buf (Elt Ideal) ((c.tc : Thread Cert.KernelIdeal.nD Cert.KernelIdeal.τ).loc Cert.KernelIdeal.main_v228)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v229) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_v228) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v252) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x100000 : Shape := ⟨2, ![2, 100000]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg10 : FVec F S128x16 .f32) (main_arg11 : FVec F S16 .f32) (main_v33 : IVec S_ 1) : IVec S_ 1 :=
  let main_v34 : FVec F S128x16 .f32 := Host.absf main_arg10
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg11
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg7 : FVec F S128 .f32) (main_arg8 : FVec F S256x128 .f32) (main_arg9 : FVec F S128 .f32) (main_arg10 : FVec F S128x16 .f32) (main_arg11 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg8
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S50000x256 .f32) (main_arg1 : IVec S2x100000 32) (main_arg2 : IVec S2x100000 32) (main_arg3 : IVec S2x800000 32) (main_arg4 : FVec F S256x128 .f32) (main_arg5 : FVec F S128 .f32) (main_arg6 : FVec F S128x128 .f32) (main_arg7 : FVec F S128 .f32) (main_arg8 : FVec F S256x128 .f32) (main_arg9 : FVec F S128 .f32) (main_arg10 : FVec F S128x16 .f32) (main_arg11 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S50000x256 : Shape := ⟨2, ![50000, 256]⟩
abbrev S2x100000 : Shape := ⟨2, ![2, 100000]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S50000x128 : Shape := ⟨2, ![50000, 128]⟩
abbrev S2000x256 : Shape := ⟨2, ![2000, 256]⟩
abbrev S2000x128 : Shape := ⟨2, ![2000, 128]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2x200000 : Shape := ⟨2, ![2, 200000]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200704x128 : Shape := ⟨2, ![200704, 128]⟩
abbrev S1568x128x128 : Shape := ⟨3, ![1568, 128, 128]⟩
abbrev S1568x128 : Shape := ⟨2, ![1568, 128]⟩
abbrev S32x128x128 : Shape := ⟨3, ![32, 128, 128]⟩
abbrev S32x128 : Shape := ⟨2, ![32, 128]⟩
abbrev S200704 : Shape := ⟨1, ![200704]⟩
abbrev S1200000 : Shape := ⟨1, ![1200000]⟩
abbrev S5000x256 : Shape := ⟨2, ![5000, 256]⟩
abbrev S5000x128 : Shape := ⟨2, ![5000, 128]⟩
abbrev S1200000x1 : Shape := ⟨2, ![1200000, 1]⟩
abbrev S1200000x128 : Shape := ⟨2, ![1200000, 128]⟩
abbrev S50000x16 : Shape := ⟨2, ![50000, 16]⟩
abbrev S5000x16 : Shape := ⟨2, ![5000, 16]⟩
abbrev S1200000x16 : Shape := ⟨2, ![1200000, 16]⟩
abbrev S1x16 : Shape := ⟨2, ![1, 16]⟩

abbrev nBuf : Space → Nat
  | .hbm => 307
  | .vmem => 26
  | .smem => 0
  | _ => 0

abbrev hbmTy0_0 (i : Nat) : BufTy := match i % 128 with
  | 0 => ⟨S50000x256, .f32⟩
  | 1 => ⟨S2x100000, .i32⟩
  | 2 => ⟨S2x100000, .i32⟩
  | 3 => ⟨S2x800000, .i32⟩
  | 4 => ⟨S256x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x16, .f32⟩
  | 11 => ⟨S16, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S50000x128, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S800000x1, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S2x200000, .i32⟩
  | _ => ⟨S50000x256, .f32⟩

abbrev hbmTy0_1 (i : Nat) : BufTy := match i % 128 with
  | 0 => ⟨S1x200000, .i32⟩
  | 1 => ⟨S200000, .i32⟩
  | 2 => ⟨S_, .i32⟩
  | 3 => ⟨S200000, .i32⟩
  | 4 => ⟨S200000, .i1⟩
  | 5 => ⟨S_, .i32⟩
  | 6 => ⟨S200000, .i32⟩
  | 7 => ⟨S200000, .i32⟩
  | 8 => ⟨S200000, .i32⟩
  | 9 => ⟨S200000x1, .i32⟩
  | 10 => ⟨S200000x128, .f32⟩
  | 11 => ⟨S1x200000, .i32⟩
  | 12 => ⟨S200000, .i32⟩
  | 13 => ⟨S_, .i32⟩
  | 14 => ⟨S200000, .i32⟩
  | 15 => ⟨S200000, .i1⟩
  | 16 => ⟨S_, .i32⟩
  | 17 => ⟨S200000, .i32⟩
  | 18 => ⟨S200000, .i32⟩
  | 19 => ⟨S200000, .i32⟩
  | 20 => ⟨S200000x1, .i32⟩
  | 21 => ⟨S200000x128, .f32⟩
  | 22 => ⟨S_, .i32⟩
  | 23 => ⟨S_, .f32⟩
  | 24 => ⟨S200704x128, .f32⟩
  | 25 => ⟨S_, .i32⟩
  | 26 => ⟨S_, .f32⟩
  | 27 => ⟨S200704x128, .f32⟩
  | 28 => ⟨S1568x128x128, .f32⟩
  | 29 => ⟨S1568x128x128, .f32⟩
  | 30 => ⟨S1568x128, .f32⟩
  | 31 => ⟨S200704, .f32⟩
  | 32 => ⟨S200000, .f32⟩
  | 33 => ⟨S_, .f32⟩
  | 34 => ⟨S200000, .f32⟩
  | 35 => ⟨S200000, .i1⟩
  | 36 => ⟨S200000, .f32⟩
  | 37 => ⟨S1x200000, .i32⟩
  | 38 => ⟨S200000, .i32⟩
  | 39 => ⟨S1x200000, .i32⟩
  | 40 => ⟨S200000, .i32⟩
  | 41 => ⟨S1200000, .i32⟩
  | 42 => ⟨S1x200000, .i32⟩
  | 43 => ⟨S200000, .i32⟩
  | 44 => ⟨S1x200000, .i32⟩
  | 45 => ⟨S200000, .i32⟩
  | 46 => ⟨S1200000, .i32⟩
  | 47 => ⟨S1200000, .f32⟩
  | 48 => ⟨S50000x128, .f32⟩
  | 49 => ⟨S_, .f32⟩
  | 50 => ⟨S50000, .f32⟩
  | 51 => ⟨S1200000x1, .i32⟩
  | 52 => ⟨S50000, .f32⟩
  | 53 => ⟨S_, .f32⟩
  | 54 => ⟨S50000, .f32⟩
  | 55 => ⟨S50000, .f32⟩
  | 56 => ⟨S50000, .f32⟩
  | 57 => ⟨S_, .i32⟩
  | 58 => ⟨S1200000, .i32⟩
  | 59 => ⟨S1200000, .i1⟩
  | 60 => ⟨S_, .i32⟩
  | 61 => ⟨S1200000, .i32⟩
  | 62 => ⟨S1200000, .i32⟩
  | 63 => ⟨S1200000, .i32⟩
  | 64 => ⟨S1200000x1, .i32⟩
  | 65 => ⟨S1200000, .f32⟩
  | 66 => ⟨S1200000, .f32⟩
  | 67 => ⟨S_, .i32⟩
  | 68 => ⟨S1200000, .i32⟩
  | 69 => ⟨S1200000, .i1⟩
  | 70 => ⟨S_, .i32⟩
  | 71 => ⟨S1200000, .i32⟩
  | 72 => ⟨S1200000, .i32⟩
  | 73 => ⟨S1200000, .i32⟩
  | 74 => ⟨S1200000x1, .i32⟩
  | 75 => ⟨S1200000, .f32⟩
  | 76 => ⟨S1200000, .f32⟩
  | 77 => ⟨S1200000x1, .f32⟩
  | 78 => ⟨S50000x128, .bf16⟩
  | 79 => ⟨S_, .i32⟩
  | 80 => ⟨S1200000, .i32⟩
  | 81 => ⟨S1200000, .i1⟩
  | 82 => ⟨S_, .i32⟩
  | 83 => ⟨S1200000, .i32⟩
  | 84 => ⟨S1200000, .i32⟩
  | 85 => ⟨S1200000, .i32⟩
  | 86 => ⟨S1200000x1, .i32⟩
  | 87 => ⟨S1200000x128, .bf16⟩
  | 88 => ⟨S1200000x128, .f32⟩
  | 89 => ⟨S1200000x128, .f32⟩
  | 90 => ⟨S1200000x128, .f32⟩
  | 91 => ⟨S_, .f32⟩
  | 92 => ⟨S50000x128, .f32⟩
  | 93 => ⟨S1200000x1, .i32⟩
  | 94 => ⟨S50000x128, .f32⟩
  | 95 => ⟨S50000, .f32⟩
  | 96 => ⟨S50000x1, .f32⟩
  | 97 => ⟨S50000x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x16, .f32⟩
  | 107 => ⟨S_, .f32⟩
  | 108 => ⟨S50000, .f32⟩
  | 109 => ⟨S1200000x1, .i32⟩
  | 110 => ⟨S50000, .f32⟩
  | 111 => ⟨S_, .f32⟩
  | 112 => ⟨S50000, .f32⟩
  | 113 => ⟨S50000, .f32⟩
  | 114 => ⟨S50000, .f32⟩
  | 115 => ⟨S_, .i32⟩
  | 116 => ⟨S1200000, .i32⟩
  | 117 => ⟨S1200000, .i1⟩
  | 118 => ⟨S_, .i32⟩
  | 119 => ⟨S1200000, .i32⟩
  | 120 => ⟨S1200000, .i32⟩
  | 121 => ⟨S1200000, .i32⟩
  | 122 => ⟨S1200000x1, .i32⟩
  | 123 => ⟨S1200000, .f32⟩
  | 124 => ⟨S1200000, .f32⟩
  | 125 => ⟨S_, .i32⟩
  | 126 => ⟨S1200000, .i32⟩
  | 127 => ⟨S1200000, .i1⟩
  | _ => ⟨S50000x256, .f32⟩

abbrev hbmTy0_2 (i : Nat) : BufTy := match i % 128 with
  | 0 => ⟨S_, .i32⟩
  | 1 => ⟨S1200000, .i32⟩
  | 2 => ⟨S1200000, .i32⟩
  | 3 => ⟨S1200000, .i32⟩
  | 4 => ⟨S1200000x1, .i32⟩
  | 5 => ⟨S1200000, .f32⟩
  | 6 => ⟨S1200000, .f32⟩
  | 7 => ⟨S1200000x1, .f32⟩
  | 8 => ⟨S50000x16, .bf16⟩
  | 9 => ⟨S_, .i32⟩
  | 10 => ⟨S1200000, .i32⟩
  | 11 => ⟨S1200000, .i1⟩
  | 12 => ⟨S_, .i32⟩
  | 13 => ⟨S1200000, .i32⟩
  | 14 => ⟨S1200000, .i32⟩
  | 15 => ⟨S1200000, .i32⟩
  | 16 => ⟨S1200000x1, .i32⟩
  | 17 => ⟨S1200000x16, .bf16⟩
  | 18 => ⟨S1200000x16, .f32⟩
  | 19 => ⟨S1200000x16, .f32⟩
  | 20 => ⟨S1200000x16, .f32⟩
  | 21 => ⟨S_, .f32⟩
  | 22 => ⟨S50000x16, .f32⟩
  | 23 => ⟨S1200000x1, .i32⟩
  | 24 => ⟨S50000x16, .f32⟩
  | 25 => ⟨S50000, .f32⟩
  | 26 => ⟨S50000x1, .f32⟩
  | 27 => ⟨S50000x16, .f32⟩
  | 28 => ⟨S50000x16, .f32⟩
  | 29 => ⟨S50000x16, .f32⟩
  | 30 => ⟨S1x16, .f32⟩
  | 31 => ⟨S50000x16, .f32⟩
  | 32 => ⟨S50000x16, .f32⟩
  | 33 => ⟨S_, .f32⟩
  | 34 => ⟨S_, .f32⟩
  | 35 => ⟨S_, .i32⟩
  | 36 => ⟨S_, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x16, .f32⟩
  | 43 => ⟨S50000x16, .f32⟩
  | 44 => ⟨S50000x16, .f32⟩
  | 45 => ⟨S_, .f32⟩
  | 46 => ⟨S50000, .f32⟩
  | 47 => ⟨S50000x1, .f32⟩
  | 48 => ⟨S50000x1, .f32⟩
  | 49 => ⟨S50000x16, .f32⟩
  | 50 => ⟨S50000x16, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S32x128x128, .f32⟩
  | .local _ .vmem, ⟨11, _⟩ => ⟨S32x128x128, .f32⟩
  | .local _ .vmem, ⟨12, _⟩ => ⟨S32x128x128, .f32⟩
  | .local _ .vmem, ⟨13, _⟩ => ⟨S32x128x128, .f32⟩
  | .local _ .vmem, ⟨14, _⟩ => ⟨S32x128, .f32⟩
  | .local _ .vmem, ⟨15, _⟩ => ⟨S32x128, .f32⟩
  | .local _ .vmem, ⟨16, _⟩ => ⟨S5000x256, .f32⟩
  | .local _ .vmem, ⟨17, _⟩ => ⟨S5000x256, .f32⟩
  | .local _ .vmem, ⟨18, _⟩ => ⟨S256x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x16, .f32⟩
  | .local _ .vmem, ⟨24, _⟩ => ⟨S5000x16, .f32⟩
  | .local _ .vmem, ⟨25, _⟩ => ⟨S5000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_14 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_17 : Ref sig .tc := ⟨.hbm, 130, rfl⟩
abbrev main_v97 : Ref sig .tc := ⟨.hbm, 131, rfl⟩
abbrev main_v98 : Ref sig .tc := ⟨.hbm, 132, rfl⟩
abbrev main_c_18 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_19 : Ref sig .tc := ⟨.hbm, 141, rfl⟩
abbrev main_v106 : Ref sig .tc := ⟨.hbm, 142, rfl⟩
abbrev main_v107 : Ref sig .tc := ⟨.hbm, 143, rfl⟩
abbrev main_c_20 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_c_21 : Ref sig .tc := ⟨.hbm, 150, rfl⟩
abbrev main_call1_v0 : Ref sig .tc := ⟨.hbm, 151, rfl⟩
abbrev main_v113 : Ref sig .tc := ⟨.hbm, 152, rfl⟩
abbrev main_c_22 : Ref sig .tc := ⟨.hbm, 153, rfl⟩
abbrev main_call2_v0 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_23 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_24 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_25 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_c_26 : Ref sig .tc := ⟨.hbm, 185, rfl⟩
abbrev main_v141 : Ref sig .tc := ⟨.hbm, 186, rfl⟩
abbrev main_v142 : Ref sig .tc := ⟨.hbm, 187, rfl⟩
abbrev main_c_27 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_c_28 : Ref sig .tc := ⟨.hbm, 195, rfl⟩
abbrev main_v149 : Ref sig .tc := ⟨.hbm, 196, rfl⟩
abbrev main_v150 : Ref sig .tc := ⟨.hbm, 197, rfl⟩
abbrev main_c_29 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_c_30 : Ref sig .tc := ⟨.hbm, 207, rfl⟩
abbrev main_v159 : Ref sig .tc := ⟨.hbm, 208, rfl⟩
abbrev main_v160 : Ref sig .tc := ⟨.hbm, 209, rfl⟩
abbrev main_c_31 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_cst_32 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_call3_cst : Ref sig .tc := ⟨.hbm, 231, rfl⟩
abbrev main_call3_v0 : Ref sig .tc := ⟨.hbm, 232, rfl⟩
abbrev main_v180 : Ref sig .tc := ⟨.hbm, 233, rfl⟩
abbrev main_v181 : Ref sig .tc := ⟨.hbm, 234, rfl⟩
abbrev main_cst_33 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_cst_34 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_c_35 : Ref sig .tc := ⟨.hbm, 243, rfl⟩
abbrev main_v188 : Ref sig .tc := ⟨.hbm, 244, rfl⟩
abbrev main_v189 : Ref sig .tc := ⟨.hbm, 245, rfl⟩
abbrev main_c_36 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_c_37 : Ref sig .tc := ⟨.hbm, 253, rfl⟩
abbrev main_v196 : Ref sig .tc := ⟨.hbm, 254, rfl⟩
abbrev main_v197 : Ref sig .tc := ⟨.hbm, 255, rfl⟩
abbrev main_c_38 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_c_39 : Ref sig .tc := ⟨.hbm, 265, rfl⟩
abbrev main_v206 : Ref sig .tc := ⟨.hbm, 266, rfl⟩
abbrev main_v207 : Ref sig .tc := ⟨.hbm, 267, rfl⟩
abbrev main_c_40 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_cst_41 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_cst_42 : Ref sig .tc := ⟨.hbm, 289, rfl⟩
abbrev main_v227 : Ref sig .tc := ⟨.hbm, 290, rfl⟩
abbrev main_v228 : Ref sig .tc := ⟨.hbm, 291, rfl⟩
abbrev main_call4_cst : Ref sig .tc := ⟨.hbm, 292, rfl⟩
abbrev main_call4_v0 : Ref sig .tc := ⟨.hbm, 293, rfl⟩
abbrev main_call4_cst_0 : Ref sig .tc := ⟨.hbm, 294, rfl⟩
abbrev main_call4_v1 : Ref sig .tc := ⟨.hbm, 295, rfl⟩
abbrev main_call4_v2 : Ref sig .tc := ⟨.hbm, 296, rfl⟩
abbrev main_call4_v3 : Ref sig .tc := ⟨.hbm, 297, rfl⟩
abbrev main_call4_v4 : Ref sig .tc := ⟨.hbm, 298, rfl⟩
abbrev main_call4_v5 : Ref sig .tc := ⟨.hbm, 299, rfl⟩
abbrev main_call4_v6 : Ref sig .tc := ⟨.hbm, 300, rfl⟩
abbrev main_call4_cst_1 : Ref sig .tc := ⟨.hbm, 301, rfl⟩
abbrev main_call4_v7 : Ref sig .tc := ⟨.hbm, 302, rfl⟩
abbrev main_call4_v8 : Ref sig .tc := ⟨.hbm, 303, rfl⟩
abbrev main_call4_v9 : Ref sig .tc := ⟨.hbm, 304, rfl⟩
abbrev main_call4_v10 : Ref sig .tc := ⟨.hbm, 305, rfl⟩
abbrev main_v229 : Ref sig .tc := ⟨.hbm, 306, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![49], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  concatenates_S2x100000_S2x100000_S2x200000_d1 : Shape.Concatenates [S2x100000, S2x100000] S2x200000 1
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  pads_S200000x128_S200704x128_07040_000 : S200000x128.Pads (![0, 0] : Fin 2 → Nat) ![704, 0] ![0, 0] S200704x128
  h_S_ : 0 < S_.numel
  shapeCasts_S200704x128_S1568x128x128 : S200704x128.ShapeCasts S1568x128x128
  inb_S32x128x128_S32x128x128_0_0_0 : ∀ a, (![0, 0, 0] : Fin 3 → Nat) a + S32x128x128.size a ≤ S32x128x128.size a
  h_S32x128x128 : 0 < S32x128x128.numel
  shapeCasts_S32x128x128_S32x128x128 : S32x128x128.ShapeCasts S32x128x128
  reduces_S32x128x128_S32x128 : S32x128x128.Reduces [2] S32x128
  inb_S32x128_S32x128_0_0 : ∀ a, (![0, 0] : Fin 2 → Nat) a + S32x128.size a ≤ S32x128.size a
  h_S32x128 : 0 < S32x128.numel
  shapeCasts_S1568x128_S200704 : S1568x128.ShapeCasts S200704
  slices_S200704_S200000_0 : S200704.Slices ![0] S200000
  concatenates_S800000_S200000_S200000_S1200000_d0 : Shape.Concatenates [S800000, S200000, S200000] S1200000 0
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x128_0_1 : S1200000x1.BroadcastsInDim S1200000x128 (![0, 1] : Fin 2 → Fin S1200000x128.rank)
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1200000x1_S1200000x16_0_1 : S1200000x1.BroadcastsInDim S1200000x16 (![0, 1] : Fin 2 → Fin S1200000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S200000_S_d0 : S200000.ReducesTo [0] S_
  reducesTo_S50000x16_S50000_d1 : S50000x16.ReducesTo [1] S50000
  dot_S2000x256_S256x128_S2000x128_1_0_0_1_n_n_wf : DotDims.WF S2000x256 S256x128 S2000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  gather_S50000x128_S200000x1_S200000x128_1_0_n_n_0_1_1128_wf : GatherDims.WF S50000x128 S200000x1 S200000x128 [1] [0] [] [0] [] 1 ![1, 128]
  dot_S5000x256_S256x128_S5000x128_1_0_0_1_n_n_wf : DotDims.WF S5000x256 S256x128 S5000x128 [1] [0] [0] [1] [] []
  scatter_S50000_S1200000x1_S1200000_n_0_0_1_wf : ScatterDims.WF S50000 S1200000x1 S1200000 [] [0] [0] 1
  gather_S50000_S1200000x1_S1200000_n_0_n_n_0_1_1_wf : GatherDims.WF S50000 S1200000x1 S1200000 [] [0] [] [0] [] 1 ![1]
  gather_S50000x128_S1200000x1_S1200000x128_1_0_n_n_0_1_1128_wf : GatherDims.WF S50000x128 S1200000x1 S1200000x128 [1] [0] [] [0] [] 1 ![1, 128]
  scatter_S50000x128_S1200000x1_S1200000x128_1_0_0_1_wf : ScatterDims.WF S50000x128 S1200000x1 S1200000x128 [1] [0] [0] 1
  dot_S5000x128_S128x16_S5000x16_1_0_0_1_n_n_wf : DotDims.WF S5000x128 S128x16 S5000x16 [1] [0] [0] [1] [] []
  gather_S50000x16_S1200000x1_S1200000x16_1_0_n_n_0_1_116_wf : GatherDims.WF S50000x16 S1200000x1 S1200000x16 [1] [0] [] [0] [] 1 ![1, 16]
  scatter_S50000x16_S1200000x1_S1200000x16_1_0_0_1_wf : ScatterDims.WF S50000x16 S1200000x1 S1200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x128x128.size a ≤ S1568x128x128.size a
  hwx2_0 : ∀ i : grid2.Coords, EltTy.bits .f32 = 32 ∨ (Rect.block (s := S1568x128x128) S32x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x128x128.size a ≤ S1568x128x128.size a
  hwx2_1 : ∀ i : grid2.Coords, EltTy.bits .f32 = 32 ∨ (Rect.block (s := S1568x128x128) S32x128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x128.size a ≤ S1568x128.size a
  hwx2_2 : ∀ i : grid2.Coords, EltTy.bits .f32 = 32 ∨ (Rect.block (s := S1568x128) S32x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S50000x16.size a
  hwx4_2 : ∀ i : grid4.Coords, EltTy.bits .f32 = 32 ∨ (Rect.block (s := S50000x16) S5000x16.size (cc4_transform_2 i) (hinb4_2 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf
def gather_S50000_S1200000x1_S1200000_n_0_n_n_0_1_1 : GatherDims S50000 S1200000x1 S1200000 where
  offsetDims := []
  collapsedSliceDims := [0]
  operandBatchingDims := []
  startIndicesBatchingDims := []
  startIndexMap := [0]
  indexVectorDim := 1
  sliceSizes := ![1]
  wf := gather_S50000_S1200000x1_S1200000_n_0_n_n_0_1_1_wf
def gather_S50000x128_S1200000x1_S1200000x128_1_0_n_n_0_1_1128 : GatherDims S50000x128 S1200000x1 S1200000x128 where
  offsetDims := [1]
  collapsedSliceDims := [0]
  operandBatchingDims := []
  startIndicesBatchingDims := []
  startIndexMap := [0]
  indexVectorDim := 1
  sliceSizes := ![1, 128]
  wf := gather_S50000x128_S1200000x1_S1200000x128_1_0_n_n_0_1_1128_wf
def scatter_S50000x128_S1200000x1_S1200000x128_1_0_0_1 : ScatterDims S50000x128 S1200000x1 S1200000x128 where
  updateWindowDims := [1]
  insertedWindowDims := [0]
  scatterDimsToOperandDims := [0]
  indexVectorDim := 1
  wf := scatter_S50000x128_S1200000x1_S1200000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S1200000x1_S1200000x16_1_0_n_n_0_1_116 : GatherDims S50000x16 S1200000x1 S1200000x16 where
  offsetDims := [1]
  collapsedSliceDims := [0]
  operandBatchingDims := []
  startIndicesBatchingDims := []
  startIndexMap := [0]
  indexVectorDim := 1
  sliceSizes := ![1, 16]
  wf := gather_S50000x16_S1200000x1_S1200000x16_1_0_n_n_0_1_116_wf
def scatter_S50000x16_S1200000x1_S1200000x16_1_0_0_1 : ScatterDims S50000x16 S1200000x1 S1200000x16 where
  updateWindowDims := [1]
  insertedWindowDims := [0]
  scatterDimsToOperandDims := [0]
  indexVectorDim := 1
  wf := scatter_S50000x16_S1200000x1_S1200000x16_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v115) S32x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v116) S32x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v117) S32x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v134) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v180) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v181) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x100000 : Shape := ⟨2, ![2, 100000]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S50000x128 : Shape := ⟨2, ![50000, 128]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x100000 : Shape := ⟨2, ![1, 100000]⟩
abbrev S100000 : Shape := ⟨1, ![100000]⟩
abbrev S100000x1 : Shape := ⟨2, ![100000, 1]⟩
abbrev S100000x128 : Shape := ⟨2, ![100000, 128]⟩
abbrev S200000 : Shape := ⟨1, ![200000]⟩
abbrev S2x200000 : Shape := ⟨2, ![2, 200000]⟩
abbrev S1x200000 : Shape := ⟨2, ![1, 200000]⟩
abbrev S1200000 : Shape := ⟨1, ![1200000]⟩
abbrev S1200000x1 : Shape := ⟨2, ![1200000, 1]⟩
abbrev S1200000x128 : Shape := ⟨2, ![1200000, 128]⟩
abbrev S50000x16 : Shape := ⟨2, ![50000, 16]⟩
abbrev S1200000x16 : Shape := ⟨2, ![1200000, 16]⟩
abbrev S1x16 : Shape := ⟨2, ![1, 16]⟩

abbrev nBuf : Space → Nat
  | .hbm => 337
  | .vmem => 0
  | .smem => 0
  | _ => 0

abbrev hbmTy0_0 (i : Nat) : BufTy := match i % 128 with
  | 0 => ⟨S50000x256, .f32⟩
  | 1 => ⟨S2x100000, .i32⟩
  | 2 => ⟨S2x100000, .i32⟩
  | 3 => ⟨S2x800000, .i32⟩
  | 4 => ⟨S256x128, .f32⟩
  | 5 => ⟨S128, .f32⟩
  | 6 => ⟨S128x128, .f32⟩
  | 7 => ⟨S128, .f32⟩
  | 8 => ⟨S256x128, .f32⟩
  | 9 => ⟨S128, .f32⟩
  | 10 => ⟨S128x16, .f32⟩
  | 11 => ⟨S16, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S50000x128, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S800000x1, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .f32⟩
  | 76 => ⟨S50000, .f32⟩
  | 77 => ⟨S800000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S800000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000, .f32⟩
  | 102 => ⟨S800000, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S1x100000, .i32⟩
  | _ => ⟨S50000x256, .f32⟩

abbrev hbmTy0_1 (i : Nat) : BufTy := match i % 128 with
  | 0 => ⟨S100000, .i32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S100000x128, .f32⟩
  | 10 => ⟨S1x100000, .i32⟩
  | 11 => ⟨S100000, .i32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x128, .f32⟩
  | 21 => ⟨S100000x128, .f32⟩
  | 22 => ⟨S_, .f32⟩
  | 23 => ⟨S100000, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S1x100000, .i32⟩
  | 33 => ⟨S100000, .i32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S1x100000, .i32⟩
  | 44 => ⟨S100000, .i32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S100000x128, .f32⟩
  | 54 => ⟨S100000x128, .f32⟩
  | 55 => ⟨S_, .f32⟩
  | 56 => ⟨S100000, .f32⟩
  | 57 => ⟨S100000, .f32⟩
  | 58 => ⟨S100000, .f32⟩
  | 59 => ⟨S_, .f32⟩
  | 60 => ⟨S100000, .f32⟩
  | 61 => ⟨S100000, .f32⟩
  | 62 => ⟨S_, .f32⟩
  | 63 => ⟨S100000, .f32⟩
  | 64 => ⟨S100000, .f32⟩
  | 65 => ⟨S200000, .f32⟩
  | 66 => ⟨S2x200000, .i32⟩
  | 67 => ⟨S_, .f32⟩
  | 68 => ⟨S200000, .f32⟩
  | 69 => ⟨S200000, .i1⟩
  | 70 => ⟨S200000, .f32⟩
  | 71 => ⟨S1x200000, .i32⟩
  | 72 => ⟨S200000, .i32⟩
  | 73 => ⟨S1x200000, .i32⟩
  | 74 => ⟨S200000, .i32⟩
  | 75 => ⟨S1200000, .i32⟩
  | 76 => ⟨S1x200000, .i32⟩
  | 77 => ⟨S200000, .i32⟩
  | 78 => ⟨S1x200000, .i32⟩
  | 79 => ⟨S200000, .i32⟩
  | 80 => ⟨S1200000, .i32⟩
  | 81 => ⟨S1200000, .f32⟩
  | 82 => ⟨S50000x128, .f32⟩
  | 83 => ⟨S_, .f32⟩
  | 84 => ⟨S50000, .f32⟩
  | 85 => ⟨S1200000x1, .i32⟩
  | 86 => ⟨S50000, .f32⟩
  | 87 => ⟨S_, .f32⟩
  | 88 => ⟨S50000, .f32⟩
  | 89 => ⟨S50000, .f32⟩
  | 90 => ⟨S50000, .f32⟩
  | 91 => ⟨S_, .i32⟩
  | 92 => ⟨S1200000, .i32⟩
  | 93 => ⟨S1200000, .i1⟩
  | 94 => ⟨S_, .i32⟩
  | 95 => ⟨S1200000, .i32⟩
  | 96 => ⟨S1200000, .i32⟩
  | 97 => ⟨S1200000, .i32⟩
  | 98 => ⟨S1200000x1, .i32⟩
  | 99 => ⟨S1200000, .f32⟩
  | 100 => ⟨S1200000, .f32⟩
  | 101 => ⟨S_, .i32⟩
  | 102 => ⟨S1200000, .i32⟩
  | 103 => ⟨S1200000, .i1⟩
  | 104 => ⟨S_, .i32⟩
  | 105 => ⟨S1200000, .i32⟩
  | 106 => ⟨S1200000, .i32⟩
  | 107 => ⟨S1200000, .i32⟩
  | 108 => ⟨S1200000x1, .i32⟩
  | 109 => ⟨S1200000, .f32⟩
  | 110 => ⟨S1200000, .f32⟩
  | 111 => ⟨S1200000x1, .f32⟩
  | 112 => ⟨S_, .i32⟩
  | 113 => ⟨S1200000, .i32⟩
  | 114 => ⟨S1200000, .i1⟩
  | 115 => ⟨S_, .i32⟩
  | 116 => ⟨S1200000, .i32⟩
  | 117 => ⟨S1200000, .i32⟩
  | 118 => ⟨S1200000, .i32⟩
  | 119 => ⟨S1200000x1, .i32⟩
  | 120 => ⟨S1200000x128, .f32⟩
  | 121 => ⟨S1200000x128, .f32⟩
  | 122 => ⟨S1200000x128, .f32⟩
  | 123 => ⟨S_, .f32⟩
  | 124 => ⟨S50000x128, .f32⟩
  | 125 => ⟨S1200000x1, .i32⟩
  | 126 => ⟨S50000x128, .f32⟩
  | 127 => ⟨S50000, .f32⟩
  | _ => ⟨S50000x256, .f32⟩

abbrev hbmTy0_2 (i : Nat) : BufTy := match i % 128 with
  | 0 => ⟨S50000x1, .f32⟩
  | 1 => ⟨S50000x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S50000x16, .f32⟩
  | 11 => ⟨S_, .f32⟩
  | 12 => ⟨S50000, .f32⟩
  | 13 => ⟨S1200000x1, .i32⟩
  | 14 => ⟨S50000, .f32⟩
  | 15 => ⟨S_, .f32⟩
  | 16 => ⟨S50000, .f32⟩
  | 17 => ⟨S50000, .f32⟩
  | 18 => ⟨S50000, .f32⟩
  | 19 => ⟨S_, .i32⟩
  | 20 => ⟨S1200000, .i32⟩
  | 21 => ⟨S1200000, .i1⟩
  | 22 => ⟨S_, .i32⟩
  | 23 => ⟨S1200000, .i32⟩
  | 24 => ⟨S1200000, .i32⟩
  | 25 => ⟨S1200000, .i32⟩
  | 26 => ⟨S1200000x1, .i32⟩
  | 27 => ⟨S1200000, .f32⟩
  | 28 => ⟨S1200000, .f32⟩
  | 29 => ⟨S_, .i32⟩
  | 30 => ⟨S1200000, .i32⟩
  | 31 => ⟨S1200000, .i1⟩
  | 32 => ⟨S_, .i32⟩
  | 33 => ⟨S1200000, .i32⟩
  | 34 => ⟨S1200000, .i32⟩
  | 35 => ⟨S1200000, .i32⟩
  | 36 => ⟨S1200000x1, .i32⟩
  | 37 => ⟨S1200000, .f32⟩
  | 38 => ⟨S1200000, .f32⟩
  | 39 => ⟨S1200000x1, .f32⟩
  | 40 => ⟨S_, .i32⟩
  | 41 => ⟨S1200000, .i32⟩
  | 42 => ⟨S1200000, .i1⟩
  | 43 => ⟨S_, .i32⟩
  | 44 => ⟨S1200000, .i32⟩
  | 45 => ⟨S1200000, .i32⟩
  | 46 => ⟨S1200000, .i32⟩
  | 47 => ⟨S1200000x1, .i32⟩
  | 48 => ⟨S1200000x16, .f32⟩
  | 49 => ⟨S1200000x16, .f32⟩
  | 50 => ⟨S1200000x16, .f32⟩
  | 51 => ⟨S_, .f32⟩
  | 52 => ⟨S50000x16, .f32⟩
  | 53 => ⟨S1200000x1, .i32⟩
  | 54 => ⟨S50000x16, .f32⟩
  | 55 => ⟨S50000, .f32⟩
  | 56 => ⟨S50000x1, .f32⟩
  | 57 => ⟨S50000x16, .f32⟩
  | 58 => ⟨S50000x16, .f32⟩
  | 59 => ⟨S50000x16, .f32⟩
  | 60 => ⟨S1x16, .f32⟩
  | 61 => ⟨S50000x16, .f32⟩
  | 62 => ⟨S50000x16, .f32⟩
  | 63 => ⟨S_, .f32⟩
  | 64 => ⟨S_, .f32⟩
  | 65 => ⟨S_, .i32⟩
  | 66 => ⟨S_, .f32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x16, .f32⟩
  | 73 => ⟨S50000x16, .f32⟩
  | 74 => ⟨S50000x16, .f32⟩
  | 75 => ⟨S_, .f32⟩
  | 76 => ⟨S50000, .f32⟩
  | 77 => ⟨S50000x1, .f32⟩
  | 78 => ⟨S50000x1, .f32⟩
  | 79 => ⟨S50000x16, .f32⟩
  | 80 => ⟨S50000x16, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_14 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_17 : Ref sig .tc := ⟨.hbm, 129, rfl⟩
abbrev main_v96 : Ref sig .tc := ⟨.hbm, 130, rfl⟩
abbrev main_v97 : Ref sig .tc := ⟨.hbm, 131, rfl⟩
abbrev main_c_18 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_19 : Ref sig .tc := ⟨.hbm, 140, rfl⟩
abbrev main_v105 : Ref sig .tc := ⟨.hbm, 141, rfl⟩
abbrev main_v106 : Ref sig .tc := ⟨.hbm, 142, rfl⟩
abbrev main_c_20 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_21 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_22 : Ref sig .tc := ⟨.hbm, 154, rfl⟩
abbrev main_v116 : Ref sig .tc := ⟨.hbm, 155, rfl⟩
abbrev main_v117 : Ref sig .tc := ⟨.hbm, 156, rfl⟩
abbrev main_cst_23 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_c_24 : Ref sig .tc := ⟨.hbm, 162, rfl⟩
abbrev main_v122 : Ref sig .tc := ⟨.hbm, 163, rfl⟩
abbrev main_v123 : Ref sig .tc := ⟨.hbm, 164, rfl⟩
abbrev main_c_25 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_c_26 : Ref sig .tc := ⟨.hbm, 173, rfl⟩
abbrev main_v131 : Ref sig .tc := ⟨.hbm, 174, rfl⟩
abbrev main_v132 : Ref sig .tc := ⟨.hbm, 175, rfl⟩
abbrev main_c_27 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_28 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_29 : Ref sig .tc := ⟨.hbm, 187, rfl⟩
abbrev main_v142 : Ref sig .tc := ⟨.hbm, 188, rfl⟩
abbrev main_v143 : Ref sig .tc := ⟨.hbm, 189, rfl⟩
abbrev main_cst_30 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_31 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_cst_32 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_cst_33 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_c_34 : Ref sig .tc := ⟨.hbm, 219, rfl⟩
abbrev main_v169 : Ref sig .tc := ⟨.hbm, 220, rfl⟩
abbrev main_v170 : Ref sig .tc := ⟨.hbm, 221, rfl⟩
abbrev main_c_35 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_c_36 : Ref sig .tc := ⟨.hbm, 229, rfl⟩
abbrev main_v177 : Ref sig .tc := ⟨.hbm, 230, rfl⟩
abbrev main_v178 : Ref sig .tc := ⟨.hbm, 231, rfl⟩
abbrev main_c_37 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_c_38 : Ref sig .tc := ⟨.hbm, 240, rfl⟩
abbrev main_v186 : Ref sig .tc := ⟨.hbm, 241, rfl⟩
abbrev main_v187 : Ref sig .tc := ⟨.hbm, 242, rfl⟩
abbrev main_c_39 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_cst_40 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_call1_cst : Ref sig .tc := ⟨.hbm, 263, rfl⟩
abbrev main_call1_v0 : Ref sig .tc := ⟨.hbm, 264, rfl⟩
abbrev main_v206 : Ref sig .tc := ⟨.hbm, 265, rfl⟩
abbrev main_v207 : Ref sig .tc := ⟨.hbm, 266, rfl⟩
abbrev main_cst_41 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_cst_42 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_c_43 : Ref sig .tc := ⟨.hbm, 275, rfl⟩
abbrev main_v214 : Ref sig .tc := ⟨.hbm, 276, rfl⟩
abbrev main_v215 : Ref sig .tc := ⟨.hbm, 277, rfl⟩
abbrev main_c_44 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_c_45 : Ref sig .tc := ⟨.hbm, 285, rfl⟩
abbrev main_v222 : Ref sig .tc := ⟨.hbm, 286, rfl⟩
abbrev main_v223 : Ref sig .tc := ⟨.hbm, 287, rfl⟩
abbrev main_c_46 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_c_47 : Ref sig .tc := ⟨.hbm, 296, rfl⟩
abbrev main_v231 : Ref sig .tc := ⟨.hbm, 297, rfl⟩
abbrev main_v232 : Ref sig .tc := ⟨.hbm, 298, rfl⟩
abbrev main_c_48 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_cst_49 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_cst_50 : Ref sig .tc := ⟨.hbm, 319, rfl⟩
abbrev main_v251 : Ref sig .tc := ⟨.hbm, 320, rfl⟩
abbrev main_v252 : Ref sig .tc := ⟨.hbm, 321, rfl⟩
abbrev main_call2_cst : Ref sig .tc := ⟨.hbm, 322, rfl⟩
abbrev main_call2_v0 : Ref sig .tc := ⟨.hbm, 323, rfl⟩
abbrev main_call2_cst_0 : Ref sig .tc := ⟨.hbm, 324, rfl⟩
abbrev main_call2_v1 : Ref sig .tc := ⟨.hbm, 325, rfl⟩
abbrev main_call2_v2 : Ref sig .tc := ⟨.hbm, 326, rfl⟩
abbrev main_call2_v3 : Ref sig .tc := ⟨.hbm, 327, rfl⟩
abbrev main_call2_v4 : Ref sig .tc := ⟨.hbm, 328, rfl⟩
abbrev main_call2_v5 : Ref sig .tc := ⟨.hbm, 329, rfl⟩
abbrev main_call2_v6 : Ref sig .tc := ⟨.hbm, 330, rfl⟩
abbrev main_call2_cst_1 : Ref sig .tc := ⟨.hbm, 331, rfl⟩
abbrev main_call2_v7 : Ref sig .tc := ⟨.hbm, 332, rfl⟩
abbrev main_call2_v8 : Ref sig .tc := ⟨.hbm, 333, rfl⟩
abbrev main_call2_v9 : Ref sig .tc := ⟨.hbm, 334, rfl⟩
abbrev main_call2_v10 : Ref sig .tc := ⟨.hbm, 335, rfl⟩
abbrev main_v253 : Ref sig .tc := ⟨.hbm, 336, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  reducesTo_S100000x128_S100000_d1 : S100000x128.ReducesTo [1] S100000
  h_S_ : 0 < S_.numel
  concatenates_S100000_S100000_S200000_d0 : Shape.Concatenates [S100000, S100000] S200000 0
  concatenates_S2x100000_S2x100000_S2x200000_d1 : Shape.Concatenates [S2x100000, S2x100000] S2x200000 1
  bcast_S_S200000 : S_.BroadcastsInDim S200000 (![] : Fin 0 → Fin S200000.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  concatenates_S800000_S200000_S200000_S1200000_d0 : Shape.Concatenates [S800000, S200000, S200000] S1200000 0
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x128_0_1 : S1200000x1.BroadcastsInDim S1200000x128 (![0, 1] : Fin 2 → Fin S1200000x128.rank)
  bcast_S1200000x1_S1200000x16_0_1 : S1200000x1.BroadcastsInDim S1200000x16 (![0, 1] : Fin 2 → Fin S1200000x16.rank)
  bcast_S_S50000x16 : S_.BroadcastsInDim S50000x16 (![] : Fin 0 → Fin S50000x16.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S200000_S_d0 : S200000.ReducesTo [0] S_
  reducesTo_S50000x16_S50000_d1 : S50000x16.ReducesTo [1] S50000
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x128_S100000x1_S100000x128_1_0_n_n_0_1_1128_wf : GatherDims.WF S50000x128 S100000x1 S100000x128 [1] [0] [] [0] [] 1 ![1, 128]
  scatter_S50000_S1200000x1_S1200000_n_0_0_1_wf : ScatterDims.WF S50000 S1200000x1 S1200000 [] [0] [0] 1
  gather_S50000_S1200000x1_S1200000_n_0_n_n_0_1_1_wf : GatherDims.WF S50000 S1200000x1 S1200000 [] [0] [] [0] [] 1 ![1]
  gather_S50000x128_S1200000x1_S1200000x128_1_0_n_n_0_1_1128_wf : GatherDims.WF S50000x128 S1200000x1 S1200000x128 [1] [0] [] [0] [] 1 ![1, 128]
  scatter_S50000x128_S1200000x1_S1200000x128_1_0_0_1_wf : ScatterDims.WF S50000x128 S1200000x1 S1200000x128 [1] [0] [0] 1
  dot_S50000x128_S128x16_S50000x16_1_0_0_1_n_n_wf : DotDims.WF S50000x128 S128x16 S50000x16 [1] [0] [0] [1] [] []
  gather_S50000x16_S1200000x1_S1200000x16_1_0_n_n_0_1_116_wf : GatherDims.WF S50000x16 S1200000x1 S1200000x16 [1] [0] [] [0] [] 1 ![1, 16]
  scatter_S50000x16_S1200000x1_S1200000x16_1_0_0_1_wf : ScatterDims.WF S50000x16 S1200000x1 S1200000x16 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf
def gather_S50000_S1200000x1_S1200000_n_0_n_n_0_1_1 : GatherDims S50000 S1200000x1 S1200000 where
  offsetDims := []
  collapsedSliceDims := [0]
  operandBatchingDims := []
  startIndicesBatchingDims := []
  startIndexMap := [0]
  indexVectorDim := 1
  sliceSizes := ![1]
  wf := gather_S50000_S1200000x1_S1200000_n_0_n_n_0_1_1_wf
def gather_S50000x128_S1200000x1_S1200000x128_1_0_n_n_0_1_1128 : GatherDims S50000x128 S1200000x1 S1200000x128 where
  offsetDims := [1]
  collapsedSliceDims := [0]
  operandBatchingDims := []
  startIndicesBatchingDims := []
  startIndexMap := [0]
  indexVectorDim := 1
  sliceSizes := ![1, 128]
  wf := gather_S50000x128_S1200000x1_S1200000x128_1_0_n_n_0_1_1128_wf
def scatter_S50000x128_S1200000x1_S1200000x128_1_0_0_1 : ScatterDims S50000x128 S1200000x1 S1200000x128 where
  updateWindowDims := [1]
  insertedWindowDims := [0]
  scatterDimsToOperandDims := [0]
  indexVectorDim := 1
  wf := scatter_S50000x128_S1200000x1_S1200000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S1200000x1_S1200000x16_1_0_n_n_0_1_116 : GatherDims S50000x16 S1200000x1 S1200000x16 where
  offsetDims := [1]
  collapsedSliceDims := [0]
  operandBatchingDims := []
  startIndicesBatchingDims := []
  startIndexMap := [0]
  indexVectorDim := 1
  sliceSizes := ![1, 16]
  wf := gather_S50000x16_S1200000x1_S1200000x16_1_0_n_n_0_1_116_wf
def scatter_S50000x16_S1200000x1_S1200000x16_1_0_0_1 : ScatterDims S50000x16 S1200000x1 S1200000x16 where
  updateWindowDims := [1]
  insertedWindowDims := [0]
  scatterDimsToOperandDims := [0]
  indexVectorDim := 1
  wf := scatter_S50000x16_S1200000x1_S1200000x16_1_0_0_1_wf

class Facts : Prop extends Facts₀ where

variable [Facts]
-- ==== Proof.KB.Body0.lean ====
/-
  Pallas call 0 of the program, at any float instance: what one grid point's body does to its three
  staging buffers. The body loads the two input blocks whole, forms one pure value of them and stores it over the
  whole output block; so after the body the output buffer holds that value of the two input blocks, and the
  input buffers hold their blocks as before. Stated at a PARAMETER `V`, the buffer contents when the call is entered.
  An input window's staging buffer holds its block at every point whether or not it was fetched there (a window whose
  block index does not move is fetched once).
-/
import proofs.«128511_j38740605010536_2_alg».proof.Proof.Gen.Kernel.Launch
import proofs.«128511_j38740605010536_2_alg».proof.Proof.Gen.Kernel.Skeleton
import proofs.«128511_j38740605010536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S2000x256 := Rect.unit (s := S2000x256) ![0, 0] S2000x256.size inb_S2000x256_S2000x256_0_0
abbrev r0_1 : Rect S256x128 := Rect.unit (s := S256x128) ![0, 0] S256x128.size inb_S256x128_S256x128_0_0
abbrev r0_2 : Rect S2000x128 := Rect.unit (s := S2000x128) ![0, 0] S2000x128.size inb_S2000x128_S2000x128_0_0

/-- The output buffer after the body, from the two input blocks: its one store, of the body's pure value. -/
def out0_2 (x0 : Vec F S2000x256 .f32) (x1 : Vec F S256x128 .f32) : Vec F S2000x128 .f32 :=
  View.canon [⟨r0_2, k0_pay1 (View.ld x0 r0_0) (View.ld x1 r0_1)⟩]

/-- The one store covers the output block. -/
theorem cover0_2 (p0 : Vec F S2000x128 .f32) (y : S2000x128.Idx) :
    ∃ pc ∈ ([⟨r0_2, p0⟩] : List (View.Piece (Elt F) S2000x128 .f32)), y ∈ pc.1.set :=
  View.cover_of_tiled [⟨r0_2, p0⟩] S2000x128.size (by rfl) y

set_option maxHeartbeats 1000000 in
/-- The body on whole staging memrefs, the inputs' at contents `x0`, `x1` and the output's at anything, runs to a
    state holding the inputs' as they were and the output's at `out0_2 x0 x1`. -/
theorem sound_kernel0 (c : Dev nD) (E : Set ℕ) (i : grid0.Coords) (arg1 : Memref sig .tc .vmem S2000x256 .f32) (harg1 : arg1.IsWhole)
    (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel_highest i arg1 harg1 arg2 harg2 arg3 harg3) K := by
  simp only [cc0__matmul_kernel_highest_eq_skeleton]; unfold cc0__matmul_kernel_highest_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the call on core `c`: the arrays as the call finds them; after the body at point `t` each
    input's buffer at its block and the output's at `out0_2` of the two input blocks; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Body1.lean ====
/-
  Pallas call 1 of the program, at any float instance: what one grid point's body does to its three
  staging buffers. The body loads the two input blocks whole, forms one pure value of them and stores it over the
  whole output block; so after the body the output buffer holds that value of the two input blocks, and the
  input buffers hold their blocks as before. Stated at a PARAMETER `V`, the buffer contents when the call is entered.
  An input window's staging buffer holds its block at every point whether or not it was fetched there (a window whose
  block index does not move is fetched once).
-/
import proofs.«128511_j38740605010536_2_alg».proof.Proof.Gen.Kernel.Launch
import proofs.«128511_j38740605010536_2_alg».proof.Proof.Gen.Kernel.Skeleton
import proofs.«128511_j38740605010536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S2000x128 := Rect.unit (s := S2000x128) ![0, 0] S2000x128.size inb_S2000x128_S2000x128_0_0

/-- The output buffer after the body, from the two input blocks: its one store, of the body's pure value. -/
def out1_2 (x0 : Vec F S2000x128 .f32) (x1 : Vec F S128x128 .f32) : Vec F S2000x128 .f32 :=
  View.canon [⟨r1_2, k1_pay1 (View.ld x0 r1_0) (View.ld x1 r1_1)⟩]

/-- The one store covers the output block. -/
theorem cover1_2 (p0 : Vec F S2000x128 .f32) (y : S2000x128.Idx) :
    ∃ pc ∈ ([⟨r1_2, p0⟩] : List (View.Piece (Elt F) S2000x128 .f32)), y ∈ pc.1.set :=
  View.cover_of_tiled [⟨r1_2, p0⟩] S2000x128.size (by rfl) y

set_option maxHeartbeats 1000000 in
/-- The body on whole staging memrefs, the inputs' at contents `x0`, `x1` and the output's at anything, runs to a
    state holding the inputs' as they were and the output's at `out1_2 x0 x1`. -/
theorem sound_kernel1 (c : Dev nD) (E : Set ℕ) (i : grid1.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel_highest i arg1 harg1 arg2 harg2 arg3 harg3) K := by
  simp only [cc1__matmul_kernel_highest_eq_skeleton]; unfold cc1__matmul_kernel_highest_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the call on core `c`: the arrays as the call finds them; after the body at point `t` each
    input's buffer at its block and the output's at `out1_2` of the two input blocks; full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Body2.lean ====
/-
  Pallas call 2 of the program, at any float instance: what one grid point's body does to its three
  staging buffers. The body loads the two input blocks whole, forms one pure value of them and stores it over the
  whole output block; so after the body the output buffer holds that value of the two input blocks, and the
  input buffers hold their blocks as before. Stated at a PARAMETER `V`, the buffer contents when the call is entered.
  An input window's staging buffer holds its block at every point whether or not it was fetched there (a window whose
  block index does not move is fetched once).
-/
import proofs.«128511_j38740605010536_2_alg».proof.Proof.Gen.Kernel.Launch
import proofs.«128511_j38740605010536_2_alg».proof.Proof.Gen.Kernel.Skeleton
import proofs.«128511_j38740605010536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second input's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S32x128x128 := Rect.unit (s := S32x128x128) ![0, 0, 0] S32x128x128.size inb_S32x128x128_S32x128x128_0_0_0
abbrev r2_1 : Rect S32x128x128 := Rect.unit (s := S32x128x128) ![0, 0, 0] S32x128x128.size inb_S32x128x128_S32x128x128_0_0_0
abbrev r2_2 : Rect S32x128 := Rect.unit (s := S32x128) ![0, 0] S32x128.size inb_S32x128_S32x128_0_0

/-- The output buffer after the body, from the two input blocks: its one store, of the body's pure value. -/
def out2_2 (x0 : Vec F S32x128x128 .f32) (x1 : Vec F S32x128x128 .f32) : Vec F S32x128 .f32 :=
  View.canon [⟨r2_2, k2_pay1 (View.ld x0 r2_0) (View.ld x1 r2_1)⟩]

/-- The one store covers the output block. -/
theorem cover2_2 (p0 : Vec F S32x128 .f32) (y : S32x128.Idx) :
    ∃ pc ∈ ([⟨r2_2, p0⟩] : List (View.Piece (Elt F) S32x128 .f32)), y ∈ pc.1.set :=
  View.cover_of_tiled [⟨r2_2, p0⟩] S32x128.size (by rfl) y

set_option maxHeartbeats 1000000 in
/-- The body on whole staging memrefs, the inputs' at contents `x0`, `x1` and the output's at anything, runs to a
    state holding the inputs' as they were and the output's at `out2_2 x0 x1`. -/
theorem sound_kernel2 (c : Dev nD) (E : Set ℕ) (i : grid2.Coords) (arg1 : Memref sig .tc .vmem S32x128x128 .f32) (harg1 : arg1.IsWhole)
    (arg2 : Memref sig .tc .vmem S32x128x128 .f32) (harg2 : arg2.IsWhole) (arg3 : Memref sig .tc .vmem S32x128 .f32) (harg3 : arg3.IsWhole)
    (x0 : Vec F S32x128x128 .f32) (x1 : Vec F S32x128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dot_kernel i arg1 harg1 arg2 harg2 arg3 harg3) K := by
  simp only [cc2__dot_kernel_eq_skeleton]; unfold cc2__dot_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the call on core `c`: the arrays as the call finds them; after the body at point `t` each
    input's buffer at its block and the output's at `out2_2` of the two input blocks; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Body3.lean ====
/-
  Pallas call 3 of the program, at any float instance: what one grid point's body does to its three
  staging buffers. The body loads the two input blocks whole, forms one pure value of them and stores it over the
  whole output block; so after the body the output buffer holds that value of the two input blocks, and the
  input buffers hold their blocks as before. Stated at a PARAMETER `V`, the buffer contents when the call is entered.
  An input window's staging buffer holds its block at every point whether or not it was fetched there (a window whose
  block index does not move is fetched once).
-/
import proofs.«128511_j38740605010536_2_alg».proof.Proof.Gen.Kernel.Launch
import proofs.«128511_j38740605010536_2_alg».proof.Proof.Gen.Kernel.Skeleton
import proofs.«128511_j38740605010536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second input's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_0 : Rect S5000x256 := Rect.unit (s := S5000x256) ![0, 0] S5000x256.size inb_S5000x256_S5000x256_0_0
abbrev r3_1 : Rect S256x128 := Rect.unit (s := S256x128) ![0, 0] S256x128.size inb_S256x128_S256x128_0_0
abbrev r3_2 : Rect S5000x128 := Rect.unit (s := S5000x128) ![0, 0] S5000x128.size inb_S5000x128_S5000x128_0_0

/-- The output buffer after the body, from the two input blocks: its one store, of the body's pure value. -/
def out3_2 (x0 : Vec F S5000x256 .f32) (x1 : Vec F S256x128 .f32) : Vec F S5000x128 .f32 :=
  View.canon [⟨r3_2, k3_pay1 (View.ld x0 r3_0) (View.ld x1 r3_1)⟩]

/-- The one store covers the output block. -/
theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

set_option maxHeartbeats 1000000 in
/-- The body on whole staging memrefs, the inputs' at contents `x0`, `x1` and the output's at anything, runs to a
    state holding the inputs' as they were and the output's at `out3_2 x0 x1`. -/
theorem sound_kernel3 (c : Dev nD) (E : Set ℕ) (i : grid3.Coords) (arg1 : Memref sig .tc .vmem S5000x256 .f32) (harg1 : arg1.IsWhole)
    (arg2 : Memref sig .tc .vmem S256x128 .f32) (harg2 : arg2.IsWhole) (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel_bf16 i arg1 harg1 arg2 harg2 arg3 harg3) K := by
  simp only [cc3__matmul_kernel_bf16_eq_skeleton]; unfold cc3__matmul_kernel_bf16_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the call on core `c`: the arrays as the call finds them; after the body at point `t` each
    input's buffer at its block and the output's at `out3_2` of the two input blocks; full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Body4.lean ====
/-
  Pallas call 4 of the program, at any float instance: what one grid point's body does to its three
  staging buffers. The body loads the two input blocks whole, forms one pure value of them and stores it over the
  whole output block; so after the body the output buffer holds that value of the two input blocks, and the
  input buffers hold their blocks as before. Stated at a PARAMETER `V`, the buffer contents when the call is entered.
  An input window's staging buffer holds its block at every point whether or not it was fetched there (a window whose
  block index does not move is fetched once).
-/
import proofs.«128511_j38740605010536_2_alg».proof.Proof.Gen.Kernel.Launch
import proofs.«128511_j38740605010536_2_alg».proof.Proof.Gen.Kernel.Skeleton
import proofs.«128511_j38740605010536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first input's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The second input's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev r4_0 : Rect S5000x128 := Rect.unit (s := S5000x128) ![0, 0] S5000x128.size inb_S5000x128_S5000x128_0_0
abbrev r4_1 : Rect S128x16 := Rect.unit (s := S128x16) ![0, 0] S128x16.size inb_S128x16_S128x16_0_0
abbrev r4_2 : Rect S5000x16 := Rect.unit (s := S5000x16) ![0, 0] S5000x16.size inb_S5000x16_S5000x16_0_0

/-- The output buffer after the body, from the two input blocks: its one store, of the body's pure value. -/
def out4_2 (x0 : Vec F S5000x128 .f32) (x1 : Vec F S128x16 .f32) : Vec F S5000x16 .f32 :=
  View.canon [⟨r4_2, k4_pay1 (View.ld x0 r4_0) (View.ld x1 r4_1)⟩]

/-- The one store covers the output block. -/
theorem cover4_2 (p0 : Vec F S5000x16 .f32) (y : S5000x16.Idx) :
    ∃ pc ∈ ([⟨r4_2, p0⟩] : List (View.Piece (Elt F) S5000x16 .f32)), y ∈ pc.1.set :=
  View.cover_of_tiled [⟨r4_2, p0⟩] S5000x16.size (by rfl) y

set_option maxHeartbeats 1000000 in
/-- The body on whole staging memrefs, the inputs' at contents `x0`, `x1` and the output's at anything, runs to a
    state holding the inputs' as they were and the output's at `out4_2 x0 x1`. -/
theorem sound_kernel4 (c : Dev nD) (E : Set ℕ) (i : grid4.Coords) (arg1 : Memref sig .tc .vmem S5000x128 .f32) (harg1 : arg1.IsWhole)
    (arg2 : Memref sig .tc .vmem S128x16 .f32) (harg2 : arg2.IsWhole) (arg3 : Memref sig .tc .vmem S5000x16 .f32) (harg3 : arg3.IsWhole)
    (x0 : Vec F S5000x128 .f32) (x1 : Vec F S128x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel_bf16 i arg1 harg1 arg2 harg2 arg3 harg3) K := by
  simp only [cc4__matmul_kernel_bf16_eq_skeleton]; unfold cc4__matmul_kernel_bf16_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the call on core `c`: the arrays as the call finds them; after the body at point `t` each
    input's buffer at its block and the output's at `out4_2` of the two input blocks; full shares, nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Run.lean ====
/-
  The whole program as a run of segments: stretches of host operations and the five pallas calls, in program order.
  The buffer contents at every segment boundary are a fold from the launch memory: a host stretch applies its
  operations; a pallas call leaves its output array at what its grid points' write-backs fold to and every other
  buffer as entered. The run theorem: every weakly fair execution terminates, nothing faulting, and every unscoped
  buffer ends at the last boundary's contents.
-/
import proofs.«128511_j38740605010536_2_alg».proof.Proof.KB.Body0
import proofs.«128511_j38740605010536_2_alg».proof.Proof.KB.Body1
import proofs.«128511_j38740605010536_2_alg».proof.Proof.KB.Body2
import proofs.«128511_j38740605010536_2_alg».proof.Proof.KB.Body3
import proofs.«128511_j38740605010536_2_alg».proof.Proof.KB.Body4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev X0 : Dev nD → Valuation τ sig (Elt F) := fun c b => (s₀ m ρ).mem ((c : Dev nD), b)
/-- After the host stretch `main_part0_ops0`. -/
abbrev X1 : Dev nD → Valuation τ sig (Elt F) := fun c => StableHlo.after main_part0_ops0 (X0 m ρ c)
/-- The contents pallas call 0 is entered from, read at the TensorCore's references. -/
abbrev V1 : (c : Dev nD) → (b : Ref sig .tc) → Buf (Elt F) ((c : Thread nD τ).loc b) := fun c b => X1 m ρ c b
/-- At pallas call 0's exit: its arrays at what the pipeline leaves, every other buffer as entered. -/
def X2 (c : Dev nD) : Valuation τ sig (Elt F) :=
  Pipeline.withArrays spec0 c (X1 m ρ c) fun w => (dat0 (V1 m ρ) c).arrAt w cfg0.N
theorem X2_arr (c : Dev nD) (w : Fin cfg0.W) :
    X2 m ρ c (Proc.devRef .tc (Pipeline.arrRef spec0 w)) = (dat0 (V1 m ρ) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m ρ c (Proc.devRef .tc b) = X1 m ρ c (Proc.devRef .tc b) := by
  unfold X2; exact Pipeline.withArrays_of_ne spec0 c _ _ b hb
abbrev V2 : (c : Dev nD) → (b : Ref sig .tc) → Buf (Elt F) ((c : Thread nD τ).loc b) := fun c b => X2 m ρ c b
theorem hF0 (c : Dev nD) (w : Fin cfg0.W) : (dat0 (V1 m ρ) c).arrAt w cfg0.N = V2 m ρ c (Pipeline.arrRef spec0 w) :=
  (X2_arr m ρ c w).symm
theorem hrest0 (c : Dev nD) : ∀ b, b ∉ Finset.univ.image (Pipeline.arrRef spec0) → V2 m ρ c b = V1 m ρ c b :=
  fun b hb => X2_of_ne m ρ c b fun w e => hb (Finset.mem_image.mpr ⟨w, Finset.mem_univ _, e⟩)
/-- After the host stretch `main_part0_ops1`. -/
abbrev X3 : Dev nD → Valuation τ sig (Elt F) := fun c => StableHlo.after main_part0_ops1 (X2 m ρ c)
/-- After the host stretch `main_part0_ops2`. -/
abbrev X4 : Dev nD → Valuation τ sig (Elt F) := fun c => StableHlo.after main_part0_ops2 (X3 m ρ c)
/-- The contents pallas call 1 is entered from, read at the TensorCore's references. -/
abbrev V4 : (c : Dev nD) → (b : Ref sig .tc) → Buf (Elt F) ((c : Thread nD τ).loc b) := fun c b => X4 m ρ c b
/-- At pallas call 1's exit: its arrays at what the pipeline leaves, every other buffer as entered. -/
def X5 (c : Dev nD) : Valuation τ sig (Elt F) :=
  Pipeline.withArrays spec1 c (X4 m ρ c) fun w => (dat1 (V4 m ρ) c).arrAt w cfg1.N
theorem X5_arr (c : Dev nD) (w : Fin cfg1.W) :
    X5 m ρ c (Proc.devRef .tc (Pipeline.arrRef spec1 w)) = (dat1 (V4 m ρ) c).arrAt w cfg1.N := by
  unfold X5; exact Pipeline.withArrays_arr spec1 launch1.win.arr_inj c _ _ w
theorem X5_of_ne (c : Dev nD) (b : Ref sig .tc) (hb : ∀ w, Pipeline.arrRef spec1 w ≠ b) :
    X5 m ρ c (Proc.devRef .tc b) = X4 m ρ c (Proc.devRef .tc b) := by
  unfold X5; exact Pipeline.withArrays_of_ne spec1 c _ _ b hb
abbrev V5 : (c : Dev nD) → (b : Ref sig .tc) → Buf (Elt F) ((c : Thread nD τ).loc b) := fun c b => X5 m ρ c b
theorem hF1 (c : Dev nD) (w : Fin cfg1.W) : (dat1 (V4 m ρ) c).arrAt w cfg1.N = V5 m ρ c (Pipeline.arrRef spec1 w) :=
  (X5_arr m ρ c w).symm
theorem hrest1 (c : Dev nD) : ∀ b, b ∉ Finset.univ.image (Pipeline.arrRef spec1) → V5 m ρ c b = V4 m ρ c b :=
  fun b hb => X5_of_ne m ρ c b fun w e => hb (Finset.mem_image.mpr ⟨w, Finset.mem_univ _, e⟩)
/-- After the host stretch `main_part1_ops0`. -/
abbrev X6 : Dev nD → Valuation τ sig (Elt F) := fun c => StableHlo.after main_part1_ops0 (X5 m ρ c)
/-- After the host stretch `main_part2_ops0`. -/
abbrev X7 : Dev nD → Valuation τ sig (Elt F) := fun c => StableHlo.after main_part2_ops0 (X6 m ρ c)
/-- After the host stretch `main_part2_ops1`. -/
abbrev X8 : Dev nD → Valuation τ sig (Elt F) := fun c => StableHlo.after main_part2_ops1 (X7 m ρ c)
/-- After the host stretch `main_part2_ops2`. -/
abbrev X9 : Dev nD → Valuation τ sig (Elt F) := fun c => StableHlo.after main_part2_ops2 (X8 m ρ c)
/-- After the host stretch `main_part2_ops3`. -/
abbrev X10 : Dev nD → Valuation τ sig (Elt F) := fun c => StableHlo.after main_part2_ops3 (X9 m ρ c)
/-- After the host stretch `main_part2_ops4`. -/
abbrev X11 : Dev nD → Valuation τ sig (Elt F) := fun c => StableHlo.after main_part2_ops4 (X10 m ρ c)
/-- The contents pallas call 2 is entered from, read at the TensorCore's references. -/
abbrev V11 : (c : Dev nD) → (b : Ref sig .tc) → Buf (Elt F) ((c : Thread nD τ).loc b) := fun c b => X11 m ρ c b
/-- At pallas call 2's exit: its arrays at what the pipeline leaves, every other buffer as entered. -/
def X12 (c : Dev nD) : Valuation τ sig (Elt F) :=
  Pipeline.withArrays spec2 c (X11 m ρ c) fun w => (dat2 (V11 m ρ) c).arrAt w cfg2.N
theorem X12_arr (c : Dev nD) (w : Fin cfg2.W) :
    X12 m ρ c (Proc.devRef .tc (Pipeline.arrRef spec2 w)) = (dat2 (V11 m ρ) c).arrAt w cfg2.N := by
  unfold X12; exact Pipeline.withArrays_arr spec2 launch2.win.arr_inj c _ _ w
theorem X12_of_ne (c : Dev nD) (b : Ref sig .tc) (hb : ∀ w, Pipeline.arrRef spec2 w ≠ b) :
    X12 m ρ c (Proc.devRef .tc b) = X11 m ρ c (Proc.devRef .tc b) := by
  unfold X12; exact Pipeline.withArrays_of_ne spec2 c _ _ b hb
abbrev V12 : (c : Dev nD) → (b : Ref sig .tc) → Buf (Elt F) ((c : Thread nD τ).loc b) := fun c b => X12 m ρ c b
theorem hF2 (c : Dev nD) (w : Fin cfg2.W) : (dat2 (V11 m ρ) c).arrAt w cfg2.N = V12 m ρ c (Pipeline.arrRef spec2 w) :=
  (X12_arr m ρ c w).symm
theorem hrest2 (c : Dev nD) : ∀ b, b ∉ Finset.univ.image (Pipeline.arrRef spec2) → V12 m ρ c b = V11 m ρ c b :=
  fun b hb => X12_of_ne m ρ c b fun w e => hb (Finset.mem_image.mpr ⟨w, Finset.mem_univ _, e⟩)
/-- After the host stretch `main_part2_ops5`. -/
abbrev X13 : Dev nD → Valuation τ sig (Elt F) := fun c => StableHlo.after main_part2_ops5 (X12 m ρ c)
/-- The contents pallas call 3 is entered from, read at the TensorCore's references. -/
abbrev V13 : (c : Dev nD) → (b : Ref sig .tc) → Buf (Elt F) ((c : Thread nD τ).loc b) := fun c b => X13 m ρ c b
/-- At pallas call 3's exit: its arrays at what the pipeline leaves, every other buffer as entered. -/
def X14 (c : Dev nD) : Valuation τ sig (Elt F) :=
  Pipeline.withArrays spec3 c (X13 m ρ c) fun w => (dat3 (V13 m ρ) c).arrAt w cfg3.N
theorem X14_arr (c : Dev nD) (w : Fin cfg3.W) :
    X14 m ρ c (Proc.devRef .tc (Pipeline.arrRef spec3 w)) = (dat3 (V13 m ρ) c).arrAt w cfg3.N := by
  unfold X14; exact Pipeline.withArrays_arr spec3 launch3.win.arr_inj c _ _ w
theorem X14_of_ne (c : Dev nD) (b : Ref sig .tc) (hb : ∀ w, Pipeline.arrRef spec3 w ≠ b) :
    X14 m ρ c (Proc.devRef .tc b) = X13 m ρ c (Proc.devRef .tc b) := by
  unfold X14; exact Pipeline.withArrays_of_ne spec3 c _ _ b hb
abbrev V14 : (c : Dev nD) → (b : Ref sig .tc) → Buf (Elt F) ((c : Thread nD τ).loc b) := fun c b => X14 m ρ c b
theorem hF3 (c : Dev nD) (w : Fin cfg3.W) : (dat3 (V13 m ρ) c).arrAt w cfg3.N = V14 m ρ c (Pipeline.arrRef spec3 w) :=
  (X14_arr m ρ c w).symm
theorem hrest3 (c : Dev nD) : ∀ b, b ∉ Finset.univ.image (Pipeline.arrRef spec3) → V14 m ρ c b = V13 m ρ c b :=
  fun b hb => X14_of_ne m ρ c b fun w e => hb (Finset.mem_image.mpr ⟨w, Finset.mem_univ _, e⟩)
/-- After the host stretch `main_part2_ops6`. -/
abbrev X15 : Dev nD → Valuation τ sig (Elt F) := fun c => StableHlo.after main_part2_ops6 (X14 m ρ c)
/-- After the host stretch `main_part3_ops0`. -/
abbrev X16 : Dev nD → Valuation τ sig (Elt F) := fun c => StableHlo.after main_part3_ops0 (X15 m ρ c)
/-- After the host stretch `main_part3_ops1`. -/
abbrev X17 : Dev nD → Valuation τ sig (Elt F) := fun c => StableHlo.after main_part3_ops1 (X16 m ρ c)
/-- The contents pallas call 4 is entered from, read at the TensorCore's references. -/
abbrev V17 : (c : Dev nD) → (b : Ref sig .tc) → Buf (Elt F) ((c : Thread nD τ).loc b) := fun c b => X17 m ρ c b
/-- At pallas call 4's exit: its arrays at what the pipeline leaves, every other buffer as entered. -/
def X18 (c : Dev nD) : Valuation τ sig (Elt F) :=
  Pipeline.withArrays spec4 c (X17 m ρ c) fun w => (dat4 (V17 m ρ) c).arrAt w cfg4.N
theorem X18_arr (c : Dev nD) (w : Fin cfg4.W) :
    X18 m ρ c (Proc.devRef .tc (Pipeline.arrRef spec4 w)) = (dat4 (V17 m ρ) c).arrAt w cfg4.N := by
  unfold X18; exact Pipeline.withArrays_arr spec4 launch4.win.arr_inj c _ _ w
theorem X18_of_ne (c : Dev nD) (b : Ref sig .tc) (hb : ∀ w, Pipeline.arrRef spec4 w ≠ b) :
    X18 m ρ c (Proc.devRef .tc b) = X17 m ρ c (Proc.devRef .tc b) := by
  unfold X18; exact Pipeline.withArrays_of_ne spec4 c _ _ b hb
abbrev V18 : (c : Dev nD) → (b : Ref sig .tc) → Buf (Elt F) ((c : Thread nD τ).loc b) := fun c b => X18 m ρ c b
theorem hF4 (c : Dev nD) (w : Fin cfg4.W) : (dat4 (V17 m ρ) c).arrAt w cfg4.N = V18 m ρ c (Pipeline.arrRef spec4 w) :=
  (X18_arr m ρ c w).symm
theorem hrest4 (c : Dev nD) : ∀ b, b ∉ Finset.univ.image (Pipeline.arrRef spec4) → V18 m ρ c b = V17 m ρ c b :=
  fun b hb => X18_of_ne m ρ c b fun w e => hb (Finset.mem_image.mpr ⟨w, Finset.mem_univ _, e⟩)
/-- After the host stretch `main_part3_ops2`. -/
abbrev X19 : Dev nD → Valuation τ sig (Elt F) := fun c => StableHlo.after main_part3_ops2 (X18 m ρ c)
/-- After the host stretch `main_part4_ops0`. -/
abbrev X20 : Dev nD → Valuation τ sig (Elt F) := fun c => StableHlo.after main_part4_ops0 (X19 m ρ c)
/-- After the host stretch `main_part4_ops1`. -/
abbrev X21 : Dev nD → Valuation τ sig (Elt F) := fun c => StableHlo.after main_part4_ops1 (X20 m ρ c)

/-! ## The proof data family and the thread state -/

/-- No pipeline has a prefetched table. -/
abbrev adm : (p : Fin 5) → (pcfgs (F := F) p).Adm := fun p => (cfgs p).toPCfg_adm
/-- Every pipeline's proof data, each at its call's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V11 m ρ) c
  | ⟨3, _⟩ => fun c => dat3 (V13 m ρ) c
  | ⟨4, _⟩ => fun c => dat4 (V17 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor
theorem main_part2_ops3_fresh : (main_part2_ops3 : List (HloOp τ sig (Elt F))).Forall fun op => op.fresh = ∅ := by
  simp only [List.Forall]; repeat' constructor
theorem main_part2_ops4_fresh : (main_part2_ops4 : List (HloOp τ sig (Elt F))).Forall fun op => op.fresh = ∅ := by
  simp only [List.Forall]; repeat' constructor
theorem main_part2_ops5_fresh : (main_part2_ops5 : List (HloOp τ sig (Elt F))).Forall fun op => op.fresh = ∅ := by
  simp only [List.Forall]; repeat' constructor
theorem main_part2_ops6_fresh : (main_part2_ops6 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part3_ops1_fresh : (main_part3_ops1 : List (HloOp τ sig (Elt F))).Forall fun op => op.fresh = ∅ := by
  simp only [List.Forall]; repeat' constructor
theorem main_part3_ops2_fresh : (main_part3_ops2 : List (HloOp τ sig (Elt F))).Forall fun op => op.fresh = ∅ := by
  simp only [List.Forall]; repeat' constructor
theorem main_part4_ops0_fresh : (main_part4_ops0 : List (HloOp τ sig (Elt F))).Forall fun op => op.fresh = ∅ := by
  simp only [List.Forall]; repeat' constructor
theorem main_part4_ops1_fresh : (main_part4_ops1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (X21 m ρ c) ∗ ∃ r, prngReg c r)

/-! ## The pallas calls as segments -/

set_option backward.isDefEq.respectTransparency.types false in
/-- Pallas call 0 over the thread state: entered from every unscoped buffer at `X1`, left at `X2`. Its arrays are
    split out of the unscoped buffers and put back at the exit contents; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (X1 m ρ c) ∗ R c)
  post c := iprop(StableHlo.held (c : Thread nD τ) (Pipeline.ucRefs τ sig) (X2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `X4`, left at `X5`. Its arrays are
    split out of the unscoped buffers and put back at the exit contents; nothing owed; no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (X4 m ρ c) ∗ R c)
  post c := iprop(StableHlo.held (c : Thread nD τ) (Pipeline.ucRefs τ sig) (X5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at `X11`, left at `X12`. Its arrays are
    split out of the unscoped buffers and put back at the exit contents; nothing owed; no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (X11 m ρ c) ∗ R c)
  post c := iprop(StableHlo.held (c : Thread nD τ) (Pipeline.ucRefs τ sig) (X12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 over the thread state: entered from every unscoped buffer at `X13`, left at `X14`. Its arrays are
    split out of the unscoped buffers and put back at the exit contents; nothing owed; no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V13 m ρ) c).loose
  hwaits := Pipeline.hwaits_of_owed_zero _ _ _ _ L lv 3 fun _ _ => rfl
  pre c := iprop(StableHlo.held (c : Thread nD τ) (Pipeline.ucRefs τ sig) (X13 m ρ c) ∗ R c)
  post c := iprop(StableHlo.held (c : Thread nD τ) (Pipeline.ucRefs τ sig) (X14 m ρ c) ∗ R c)
  X c := iprop(∃ r, prngReg c r)
  Y c := iprop(∃ r, prngReg c r)
  Z c := Pipeline.unscopedRest (Ix := Unit) (Name := ℕ) (U := UR sig nD τ) (Lvl := ℕ) spec3 c (V13 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V13 m ρ c) (V14 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 4 over the thread state: entered from every unscoped buffer at `X17`, left at `X18`. Its arrays are
    split out of the unscoped buffers and put back at the exit contents; nothing owed; no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V17 m ρ) c).loose
  hwaits := Pipeline.hwaits_of_owed_zero _ _ _ _ L lv 4 fun _ _ => rfl
  pre c := iprop(StableHlo.held (c : Thread nD τ) (Pipeline.ucRefs τ sig) (X17 m ρ c) ∗ R c)
  post c := iprop(StableHlo.held (c : Thread nD τ) (Pipeline.ucRefs τ sig) (X18 m ρ c) ∗ R c)
  X c := iprop(∃ r, prngReg c r)
  Y c := iprop(∃ r, prngReg c r)
  Z c := Pipeline.unscopedRest (Ix := Unit) (Name := ℕ) (U := UR sig nD τ) (Lvl := ℕ) spec4 c (V17 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V17 m ρ c) (V18 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg main_part0_ops0 main_part0_ops0_sub main_part0_ops0_fresh (X0 m ρ)),
    .region (reg0 m ρ),
    .host (hseg main_part0_ops1 main_part0_ops1_sub main_part0_ops1_fresh (X2 m ρ)),
    .host (hseg main_part0_ops2 main_part0_ops2_sub main_part0_ops2_fresh (X3 m ρ)),
    .region (reg1 m ρ),
    .host (hseg main_part1_ops0 main_part1_ops0_sub main_part1_ops0_fresh (X5 m ρ)),
    .host (hseg main_part2_ops0 main_part2_ops0_sub main_part2_ops0_fresh (X6 m ρ)),
    .host (hseg main_part2_ops1 main_part2_ops1_sub main_part2_ops1_fresh (X7 m ρ)),
    .host (hseg main_part2_ops2 main_part2_ops2_sub main_part2_ops2_fresh (X8 m ρ)),
    .host (hseg main_part2_ops3 main_part2_ops3_sub main_part2_ops3_fresh (X9 m ρ)),
    .host (hseg main_part2_ops4 main_part2_ops4_sub main_part2_ops4_fresh (X10 m ρ)),
    .region (reg2 m ρ),
    .host (hseg main_part2_ops5 main_part2_ops5_sub main_part2_ops5_fresh (X12 m ρ)),
    .region (reg3 m ρ),
    .host (hseg main_part2_ops6 main_part2_ops6_sub main_part2_ops6_fresh (X14 m ρ)),
    .host (hseg main_part3_ops0 main_part3_ops0_sub main_part3_ops0_fresh (X15 m ρ)),
    .host (hseg main_part3_ops1 main_part3_ops1_sub main_part3_ops1_fresh (X16 m ρ)),
    .region (reg4 m ρ),
    .host (hseg main_part3_ops2 main_part3_ops2_sub main_part3_ops2_fresh (X18 m ρ)),
    .host (hseg main_part4_ops0 main_part4_ops0_sub main_part4_ops0_fresh (X19 m ρ)),
    .host (hseg main_part4_ops1 main_part4_ops1_sub main_part4_ops1_fresh (X20 m ρ)) ]

/-- The program is the run of its segments. -/
theorem main_run (c : Dev nD) : main (F := F) c = Pipeline.Seg.run (segs m ρ) := (main_chain_windows c).trans (by chain_rfl)

set_option backward.isDefEq.respectTransparency.types false in
/-- THE RUN: from any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (X21 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (X0 m ρ c)
        from Pipeline.unscopedBufs_held c (X0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X21 m ρ c b)
    (hfin := fun c s' => by
      iintro ⟨⟨Hh, -⟩, HSI⟩
      unfold StableHlo.held
      imodintro
      iapply (pointsTo_read_all (Pipeline.ucRefs τ sig) (fun b => (((c : Thread nD τ)).1, b)) (X21 m ρ c) s')
      isplitl [Hh] <;> iassumption)
    (hQ := fun s h c => h c)

end Cert.Kernel.Hand

end
-- ==== Proof.KB.Args.lean ====
/-
  The argument arrays end as launched. No host operation writes a buffer whose index is below 12 (each writes one
  result buffer, of index at least 12 in its space), and a pallas call writes only its output window's array (of index
  at least 12 too): an input window's array is never written back, and a buffer that is none of the call's arrays is
  left as entered. So the fold of boundary contents, read at a buffer of index below 12, walks back to the launch memory.
-/
import proofs.«128511_j38740605010536_2_alg».proof.Proof.KB.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Host stretches: every operation writes one buffer of index at least 12 -/

/-- Every operation of the line writes exactly one buffer, whose index in its space is at least 12. -/
def WritesHigh (ops : List (HloOp τ sig (Elt F))) : Prop :=
  ops.Forall fun op => ∃ y : Ref sig .tc, op.writes = {Proc.devRef .tc y} ∧ 12 ≤ y.idx.val

/-- Such a line leaves every buffer of index below 12 as it found it: the buffer differs from each written one. -/
theorem after_keep (ops : List (HloOp τ sig (Elt F))) (h : WritesHigh ops) (b : Ref sig .tc) (hb : b.idx.val < 12)
    (V : Valuation τ sig (Elt F)) : StableHlo.after ops V (Proc.devRef .tc b) = V (Proc.devRef .tc b) :=
  StableHlo.after_of_forall_not_mem ops V fun op hop hmem => by
    obtain ⟨y, hy, hge⟩ := List.forall_iff_forall_mem.mp h op hop
    rw [hy, Finset.mem_singleton] at hmem
    have e : b = y := Proc.devRef_injective _ hmem
    subst e
    omega

theorem main_part0_ops0_wr : WritesHigh (main_part0_ops0 : List (HloOp τ sig (Elt F))) := by
  unfold WritesHigh; simp only [List.Forall]; repeat' apply And.intro
  all_goals exact ⟨_, rfl, by decide⟩
theorem main_part0_ops1_wr : WritesHigh (main_part0_ops1 : List (HloOp τ sig (Elt F))) := by
  unfold WritesHigh; simp only [List.Forall]; repeat' apply And.intro
  all_goals exact ⟨_, rfl, by decide⟩
theorem main_part0_ops2_wr : WritesHigh (main_part0_ops2 : List (HloOp τ sig (Elt F))) := by
  unfold WritesHigh; simp only [List.Forall]; repeat' apply And.intro
  all_goals exact ⟨_, rfl, by decide⟩
theorem main_part1_ops0_wr : WritesHigh (main_part1_ops0 : List (HloOp τ sig (Elt F))) := by
  unfold WritesHigh; simp only [List.Forall]; repeat' apply And.intro
  all_goals exact ⟨_, rfl, by decide⟩
theorem main_part2_ops0_wr : WritesHigh (main_part2_ops0 : List (HloOp τ sig (Elt F))) := by
  unfold WritesHigh; simp only [List.Forall]; repeat' apply And.intro
  all_goals exact ⟨_, rfl, by decide⟩
theorem main_part2_ops1_wr : WritesHigh (main_part2_ops1 : List (HloOp τ sig (Elt F))) := by
  unfold WritesHigh; simp only [List.Forall]; repeat' apply And.intro
  all_goals exact ⟨_, rfl, by decide⟩
theorem main_part2_ops2_wr : WritesHigh (main_part2_ops2 : List (HloOp τ sig (Elt F))) := by
  unfold WritesHigh; simp only [List.Forall]; repeat' apply And.intro
  all_goals exact ⟨_, rfl, by decide⟩
theorem main_part2_ops3_wr : WritesHigh (main_part2_ops3 : List (HloOp τ sig (Elt F))) := by
  unfold WritesHigh; simp only [List.Forall]; repeat' apply And.intro
  all_goals exact ⟨_, rfl, by decide⟩
theorem main_part2_ops4_wr : WritesHigh (main_part2_ops4 : List (HloOp τ sig (Elt F))) := by
  unfold WritesHigh; simp only [List.Forall]; repeat' apply And.intro
  all_goals exact ⟨_, rfl, by decide⟩
theorem main_part2_ops5_wr : WritesHigh (main_part2_ops5 : List (HloOp τ sig (Elt F))) := by
  unfold WritesHigh; simp only [List.Forall]; repeat' apply And.intro
  all_goals exact ⟨_, rfl, by decide⟩
theorem main_part2_ops6_wr : WritesHigh (main_part2_ops6 : List (HloOp τ sig (Elt F))) := by
  unfold WritesHigh; simp only [List.Forall]; repeat' apply And.intro
  all_goals exact ⟨_, rfl, by decide⟩
theorem main_part3_ops0_wr : WritesHigh (main_part3_ops0 : List (HloOp τ sig (Elt F))) := by
  unfold WritesHigh; simp only [List.Forall]; repeat' apply And.intro
  all_goals exact ⟨_, rfl, by decide⟩
theorem main_part3_ops1_wr : WritesHigh (main_part3_ops1 : List (HloOp τ sig (Elt F))) := by
  unfold WritesHigh; simp only [List.Forall]; repeat' apply And.intro
  all_goals exact ⟨_, rfl, by decide⟩
theorem main_part3_ops2_wr : WritesHigh (main_part3_ops2 : List (HloOp τ sig (Elt F))) := by
  unfold WritesHigh; simp only [List.Forall]; repeat' apply And.intro
  all_goals exact ⟨_, rfl, by decide⟩
theorem main_part4_ops0_wr : WritesHigh (main_part4_ops0 : List (HloOp τ sig (Elt F))) := by
  unfold WritesHigh; simp only [List.Forall]; repeat' apply And.intro
  all_goals exact ⟨_, rfl, by decide⟩
theorem main_part4_ops1_wr : WritesHigh (main_part4_ops1 : List (HloOp τ sig (Elt F))) := by
  unfold WritesHigh; simp only [List.Forall]; repeat' apply And.intro
  all_goals exact ⟨_, rfl, by decide⟩

variable (m : (ℓ : Loc nD τ sig) → Buf (Elt F) ℓ) (ρ : Dev nD → PrngReg)

/-! ## Pallas calls: a buffer of index below 12 is an input window's array or none of the call's arrays -/

/-- Pallas call 0 leaves every buffer of index below 12 as entered: its output array has index at least 12, an input
    window's array is never written back, and any other buffer is none of the call's arrays. -/
theorem X2_keep (c : Dev nD) (b : Ref sig .tc) (hb : b.idx.val < 12) :
    X2 m ρ c (Proc.devRef .tc b) = X1 m ρ c (Proc.devRef .tc b) := by
  by_cases h0 : Pipeline.arrRef spec0 0 = b
  · subst h0
    exact (X2_arr m ρ c 0).trans (((dat0 (V1 m ρ) c).arrAt_in 0 rfl _).trans (A_eq0 (V1 m ρ) c 0))
  by_cases h1 : Pipeline.arrRef spec0 1 = b
  · subst h1
    exact (X2_arr m ρ c 1).trans (((dat0 (V1 m ρ) c).arrAt_in 1 rfl _).trans (A_eq0 (V1 m ρ) c 1))
  refine X2_of_ne m ρ c b fun w e => ?_
  subst e
  revert w; decide

/-- Pallas call 1 leaves every buffer of index below 12 as entered: its output array has index at least 12, an input
    window's array is never written back, and any other buffer is none of the call's arrays. -/
theorem X5_keep (c : Dev nD) (b : Ref sig .tc) (hb : b.idx.val < 12) :
    X5 m ρ c (Proc.devRef .tc b) = X4 m ρ c (Proc.devRef .tc b) := by
  by_cases h0 : Pipeline.arrRef spec1 0 = b
  · subst h0
    exact (X5_arr m ρ c 0).trans (((dat1 (V4 m ρ) c).arrAt_in 0 rfl _).trans (A_eq1 (V4 m ρ) c 0))
  by_cases h1 : Pipeline.arrRef spec1 1 = b
  · subst h1
    exact (X5_arr m ρ c 1).trans (((dat1 (V4 m ρ) c).arrAt_in 1 rfl _).trans (A_eq1 (V4 m ρ) c 1))
  refine X5_of_ne m ρ c b fun w e => ?_
  subst e
  revert w; decide

/-- Pallas call 2 leaves every buffer of index below 12 as entered: its output array has index at least 12, an input
    window's array is never written back, and any other buffer is none of the call's arrays. -/
theorem X12_keep (c : Dev nD) (b : Ref sig .tc) (hb : b.idx.val < 12) :
    X12 m ρ c (Proc.devRef .tc b) = X11 m ρ c (Proc.devRef .tc b) := by
  by_cases h0 : Pipeline.arrRef spec2 0 = b
  · subst h0
    exact (X12_arr m ρ c 0).trans (((dat2 (V11 m ρ) c).arrAt_in 0 rfl _).trans (A_eq2 (V11 m ρ) c 0))
  by_cases h1 : Pipeline.arrRef spec2 1 = b
  · subst h1
    exact (X12_arr m ρ c 1).trans (((dat2 (V11 m ρ) c).arrAt_in 1 rfl _).trans (A_eq2 (V11 m ρ) c 1))
  refine X12_of_ne m ρ c b fun w e => ?_
  subst e
  revert w; decide

/-- Pallas call 3 leaves every buffer of index below 12 as entered: its output array has index at least 12, an input
    window's array is never written back, and any other buffer is none of the call's arrays. -/
theorem X14_keep (c : Dev nD) (b : Ref sig .tc) (hb : b.idx.val < 12) :
    X14 m ρ c (Proc.devRef .tc b) = X13 m ρ c (Proc.devRef .tc b) := by
  by_cases h0 : Pipeline.arrRef spec3 0 = b
  · subst h0
    exact (X14_arr m ρ c 0).trans (((dat3 (V13 m ρ) c).arrAt_in 0 rfl _).trans (A_eq3 (V13 m ρ) c 0))
  by_cases h1 : Pipeline.arrRef spec3 1 = b
  · subst h1
    exact (X14_arr m ρ c 1).trans (((dat3 (V13 m ρ) c).arrAt_in 1 rfl _).trans (A_eq3 (V13 m ρ) c 1))
  refine X14_of_ne m ρ c b fun w e => ?_
  subst e
  revert w; decide

/-- Pallas call 4 leaves every buffer of index below 12 as entered: its output array has index at least 12, an input
    window's array is never written back, and any other buffer is none of the call's arrays. -/
theorem X18_keep (c : Dev nD) (b : Ref sig .tc) (hb : b.idx.val < 12) :
    X18 m ρ c (Proc.devRef .tc b) = X17 m ρ c (Proc.devRef .tc b) := by
  by_cases h0 : Pipeline.arrRef spec4 0 = b
  · subst h0
    exact (X18_arr m ρ c 0).trans (((dat4 (V17 m ρ) c).arrAt_in 0 rfl _).trans (A_eq4 (V17 m ρ) c 0))
  by_cases h1 : Pipeline.arrRef spec4 1 = b
  · subst h1
    exact (X18_arr m ρ c 1).trans (((dat4 (V17 m ρ) c).arrAt_in 1 rfl _).trans (A_eq4 (V17 m ρ) c 1))
  refine X18_of_ne m ρ c b fun w e => ?_
  subst e
  revert w; decide

/-! ## The walk back -/

/-- Every buffer of index below 12 ends at its launch contents. -/
theorem X21_keep (c : Dev nD) (b : Ref sig .tc) (hb : b.idx.val < 12) :
    X21 m ρ c (Proc.devRef .tc b) = m ((c : Thread nD τ).loc b) :=
  calc X21 m ρ c (Proc.devRef .tc b)
    _ = X20 m ρ c (Proc.devRef .tc b) := after_keep main_part4_ops1 main_part4_ops1_wr b hb _
    _ = X19 m ρ c (Proc.devRef .tc b) := after_keep main_part4_ops0 main_part4_ops0_wr b hb _
    _ = X18 m ρ c (Proc.devRef .tc b) := after_keep main_part3_ops2 main_part3_ops2_wr b hb _
    _ = X17 m ρ c (Proc.devRef .tc b) := X18_keep m ρ c b hb
    _ = X16 m ρ c (Proc.devRef .tc b) := after_keep main_part3_ops1 main_part3_ops1_wr b hb _
    _ = X15 m ρ c (Proc.devRef .tc b) := after_keep main_part3_ops0 main_part3_ops0_wr b hb _
    _ = X14 m ρ c (Proc.devRef .tc b) := after_keep main_part2_ops6 main_part2_ops6_wr b hb _
    _ = X13 m ρ c (Proc.devRef .tc b) := X14_keep m ρ c b hb
    _ = X12 m ρ c (Proc.devRef .tc b) := after_keep main_part2_ops5 main_part2_ops5_wr b hb _
    _ = X11 m ρ c (Proc.devRef .tc b) := X12_keep m ρ c b hb
    _ = X10 m ρ c (Proc.devRef .tc b) := after_keep main_part2_ops4 main_part2_ops4_wr b hb _
    _ = X9 m ρ c (Proc.devRef .tc b) := after_keep main_part2_ops3 main_part2_ops3_wr b hb _
    _ = X8 m ρ c (Proc.devRef .tc b) := after_keep main_part2_ops2 main_part2_ops2_wr b hb _
    _ = X7 m ρ c (Proc.devRef .tc b) := after_keep main_part2_ops1 main_part2_ops1_wr b hb _
    _ = X6 m ρ c (Proc.devRef .tc b) := after_keep main_part2_ops0 main_part2_ops0_wr b hb _
    _ = X5 m ρ c (Proc.devRef .tc b) := after_keep main_part1_ops0 main_part1_ops0_wr b hb _
    _ = X4 m ρ c (Proc.devRef .tc b) := X5_keep m ρ c b hb
    _ = X3 m ρ c (Proc.devRef .tc b) := after_keep main_part0_ops2 main_part0_ops2_wr b hb _
    _ = X2 m ρ c (Proc.devRef .tc b) := after_keep main_part0_ops1 main_part0_ops1_wr b hb _
    _ = X1 m ρ c (Proc.devRef .tc b) := X2_keep m ρ c b hb
    _ = X0 m ρ c (Proc.devRef .tc b) := after_keep main_part0_ops0 main_part0_ops0_wr b hb _
    _ = m ((c : Thread nD τ).loc b) := rfl

/-! ## Each argument array -/

theorem X21_main_arg0 (c : Dev nD) : X21 m ρ c (Proc.devRef .tc main_arg0) = m ((c : Thread nD τ).loc main_arg0) :=
  X21_keep m ρ c main_arg0 (by decide)
theorem X21_main_arg1 (c : Dev nD) : X21 m ρ c (Proc.devRef .tc main_arg1) = m ((c : Thread nD τ).loc main_arg1) :=
  X21_keep m ρ c main_arg1 (by decide)
theorem X21_main_arg2 (c : Dev nD) : X21 m ρ c (Proc.devRef .tc main_arg2) = m ((c : Thread nD τ).loc main_arg2) :=
  X21_keep m ρ c main_arg2 (by decide)
theorem X21_main_arg3 (c : Dev nD) : X21 m ρ c (Proc.devRef .tc main_arg3) = m ((c : Thread nD τ).loc main_arg3) :=
  X21_keep m ρ c main_arg3 (by decide)
theorem X21_main_arg4 (c : Dev nD) : X21 m ρ c (Proc.devRef .tc main_arg4) = m ((c : Thread nD τ).loc main_arg4) :=
  X21_keep m ρ c main_arg4 (by decide)
theorem X21_main_arg5 (c : Dev nD) : X21 m ρ c (Proc.devRef .tc main_arg5) = m ((c : Thread nD τ).loc main_arg5) :=
  X21_keep m ρ c main_arg5 (by decide)
theorem X21_main_arg6 (c : Dev nD) : X21 m ρ c (Proc.devRef .tc main_arg6) = m ((c : Thread nD τ).loc main_arg6) :=
  X21_keep m ρ c main_arg6 (by decide)
theorem X21_main_arg7 (c : Dev nD) : X21 m ρ c (Proc.devRef .tc main_arg7) = m ((c : Thread nD τ).loc main_arg7) :=
  X21_keep m ρ c main_arg7 (by decide)
theorem X21_main_arg8 (c : Dev nD) : X21 m ρ c (Proc.devRef .tc main_arg8) = m ((c : Thread nD τ).loc main_arg8) :=
  X21_keep m ρ c main_arg8 (by decide)
theorem X21_main_arg9 (c : Dev nD) : X21 m ρ c (Proc.devRef .tc main_arg9) = m ((c : Thread nD τ).loc main_arg9) :=
  X21_keep m ρ c main_arg9 (by decide)
theorem X21_main_arg10 (c : Dev nD) : X21 m ρ c (Proc.devRef .tc main_arg10) = m ((c : Thread nD τ).loc main_arg10) :=
  X21_keep m ρ c main_arg10 (by decide)
theorem X21_main_arg11 (c : Dev nD) : X21 m ρ c (Proc.devRef .tc main_arg11) = m ((c : Thread nD τ).loc main_arg11) :=
  X21_keep m ρ c main_arg11 (by decide)

end Cert.Kernel.Hand

end
-- ==== Proof.KB.Frame.lean ====
/-
  The frame: every weakly fair execution of the program terminates, nothing faulting, and every final state has the
  twelve argument arrays as launched. The run theorem leaves every unscoped buffer at the last boundary's contents;
  an argument array is an unscoped buffer, and the last boundary's contents at it are the launch memory's.
  The value-ready variant also names the three result buffers, each at the last boundary's contents.
-/
import proofs.«128511_j38740605010536_2_alg».proof.Proof.KB.Args

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- THE FRAME: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (Q := fun r => ∀ c : Dev nD, ∀ b ∈ Pipeline.ucRefs τ sig, r.2.mem (((c : Thread nD τ)).1, b) = X21 m ρ c b) (fun r h c =>
    ⟨(h c _ (mem_uc main_arg0 (by decide))).trans (X21_main_arg0 m ρ c),
     (h c _ (mem_uc main_arg1 (by decide))).trans (X21_main_arg1 m ρ c),
     (h c _ (mem_uc main_arg2 (by decide))).trans (X21_main_arg2 m ρ c),
     (h c _ (mem_uc main_arg3 (by decide))).trans (X21_main_arg3 m ρ c),
     (h c _ (mem_uc main_arg4 (by decide))).trans (X21_main_arg4 m ρ c),
     (h c _ (mem_uc main_arg5 (by decide))).trans (X21_main_arg5 m ρ c),
     (h c _ (mem_uc main_arg6 (by decide))).trans (X21_main_arg6 m ρ c),
     (h c _ (mem_uc main_arg7 (by decide))).trans (X21_main_arg7 m ρ c),
     (h c _ (mem_uc main_arg8 (by decide))).trans (X21_main_arg8 m ρ c),
     (h c _ (mem_uc main_arg9 (by decide))).trans (X21_main_arg9 m ρ c),
     (h c _ (mem_uc main_arg10 (by decide))).trans (X21_main_arg10 m ρ c),
     (h c _ (mem_uc main_arg11 (by decide))).trans (X21_main_arg11 m ρ c)⟩) (run_all m ρ)

/-- The run, value-ready: the three result buffers end at the last boundary's contents, and the argument arrays unchanged. -/
theorem run_vals_raw : θ_run defs (onTc (τ := τ) (main (F := F))) ⟨m, fun _ => 0, ρ⟩ (fun r => ∀ c : Dev nD,
      r.2.mem ((c.tc : Thread nD τ).loc main_v229) = X21 m ρ c (Proc.devRef .tc main_v229)
      ∧ r.2.mem ((c.tc : Thread nD τ).loc main_v93) = X21 m ρ c (Proc.devRef .tc main_v93)
      ∧ r.2.mem ((c.tc : Thread nD τ).loc main_v228) = X21 m ρ c (Proc.devRef .tc main_v228)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (Q := fun r => ∀ c : Dev nD, ∀ b ∈ Pipeline.ucRefs τ sig, r.2.mem (((c : Thread nD τ)).1, b) = X21 m ρ c b) (fun r h c =>
    ⟨h c _ (mem_uc main_v229 (by decide)), h c _ (mem_uc main_v93 (by decide)), h c _ (mem_uc main_v228 (by decide)),
     (h c _ (mem_uc main_arg0 (by decide))).trans (X21_main_arg0 m ρ c),
     (h c _ (mem_uc main_arg1 (by decide))).trans (X21_main_arg1 m ρ c),
     (h c _ (mem_uc main_arg2 (by decide))).trans (X21_main_arg2 m ρ c),
     (h c _ (mem_uc main_arg3 (by decide))).trans (X21_main_arg3 m ρ c),
     (h c _ (mem_uc main_arg4 (by decide))).trans (X21_main_arg4 m ρ c),
     (h c _ (mem_uc main_arg5 (by decide))).trans (X21_main_arg5 m ρ c),
     (h c _ (mem_uc main_arg6 (by decide))).trans (X21_main_arg6 m ρ c),
     (h c _ (mem_uc main_arg7 (by decide))).trans (X21_main_arg7 m ρ c),
     (h c _ (mem_uc main_arg8 (by decide))).trans (X21_main_arg8 m ρ c),
     (h c _ (mem_uc main_arg9 (by decide))).trans (X21_main_arg9 m ρ c),
     (h c _ (mem_uc main_arg10 (by decide))).trans (X21_main_arg10 m ρ c),
     (h c _ (mem_uc main_arg11 (by decide))).trans (X21_main_arg11 m ρ c)⟩) (run_all m ρ)

end Cert.Kernel.Hand

end
-- ==== Proof.KI.Body0.lean ====
/-
  Pallas call 0 of the program, at any float instance: what one grid point's body does to its three
  staging buffers. The body loads the two input blocks whole, forms one pure value of them and stores it over the
  whole output block; so after the body the output buffer holds that value of the two input blocks, and the
  input buffers hold their blocks as before. Stated at a PARAMETER `V`, the buffer contents when the call is entered.
  An input window's staging buffer holds its block at every point whether or not it was fetched there (a window whose
  block index does not move is fetched once).
-/
import proofs.«128511_j38740605010536_2_alg».proof.Proof.Gen.KernelIdeal.Launch
import proofs.«128511_j38740605010536_2_alg».proof.Proof.Gen.KernelIdeal.Skeleton
import proofs.«128511_j38740605010536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S2000x256 := Rect.unit (s := S2000x256) ![0, 0] S2000x256.size inb_S2000x256_S2000x256_0_0
abbrev r0_1 : Rect S256x128 := Rect.unit (s := S256x128) ![0, 0] S256x128.size inb_S256x128_S256x128_0_0
abbrev r0_2 : Rect S2000x128 := Rect.unit (s := S2000x128) ![0, 0] S2000x128.size inb_S2000x128_S2000x128_0_0

/-- The output buffer after the body, from the two input blocks: its one store, of the body's pure value. -/
def out0_2 (x0 : Vec F S2000x256 .f32) (x1 : Vec F S256x128 .f32) : Vec F S2000x128 .f32 :=
  View.canon [⟨r0_2, k0_pay1 (View.ld x0 r0_0) (View.ld x1 r0_1)⟩]

/-- The one store covers the output block. -/
theorem cover0_2 (p0 : Vec F S2000x128 .f32) (y : S2000x128.Idx) :
    ∃ pc ∈ ([⟨r0_2, p0⟩] : List (View.Piece (Elt F) S2000x128 .f32)), y ∈ pc.1.set :=
  View.cover_of_tiled [⟨r0_2, p0⟩] S2000x128.size (by rfl) y

set_option maxHeartbeats 1000000 in
/-- The body on whole staging memrefs, the inputs' at contents `x0`, `x1` and the output's at anything, runs to a
    state holding the inputs' as they were and the output's at `out0_2 x0 x1`. -/
theorem sound_kernel0 (c : Dev nD) (E : Set ℕ) (i : grid0.Coords) (arg1 : Memref sig .tc .vmem S2000x256 .f32) (harg1 : arg1.IsWhole)
    (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel_highest i arg1 harg1 arg2 harg2 arg3 harg3) K := by
  simp only [cc0__matmul_kernel_highest_eq_skeleton]; unfold cc0__matmul_kernel_highest_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the call on core `c`: the arrays as the call finds them; after the body at point `t` each
    input's buffer at its block and the output's at `out0_2` of the two input blocks; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Pallas call 1 of the program, at any float instance: what one grid point's body does to its three
  staging buffers. The body loads the two input blocks whole, forms one pure value of them and stores it over the
  whole output block; so after the body the output buffer holds that value of the two input blocks, and the
  input buffers hold their blocks as before. Stated at a PARAMETER `V`, the buffer contents when the call is entered.
  An input window's staging buffer holds its block at every point whether or not it was fetched there (a window whose
  block index does not move is fetched once).
-/
import proofs.«128511_j38740605010536_2_alg».proof.Proof.Gen.KernelIdeal.Launch
import proofs.«128511_j38740605010536_2_alg».proof.Proof.Gen.KernelIdeal.Skeleton
import proofs.«128511_j38740605010536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S2000x128 := Rect.unit (s := S2000x128) ![0, 0] S2000x128.size inb_S2000x128_S2000x128_0_0

/-- The output buffer after the body, from the two input blocks: its one store, of the body's pure value. -/
def out1_2 (x0 : Vec F S2000x128 .f32) (x1 : Vec F S128x128 .f32) : Vec F S2000x128 .f32 :=
  View.canon [⟨r1_2, k1_pay1 (View.ld x0 r1_0) (View.ld x1 r1_1)⟩]

/-- The one store covers the output block. -/
theorem cover1_2 (p0 : Vec F S2000x128 .f32) (y : S2000x128.Idx) :
    ∃ pc ∈ ([⟨r1_2, p0⟩] : List (View.Piece (Elt F) S2000x128 .f32)), y ∈ pc.1.set :=
  View.cover_of_tiled [⟨r1_2, p0⟩] S2000x128.size (by rfl) y

set_option maxHeartbeats 1000000 in
/-- The body on whole staging memrefs, the inputs' at contents `x0`, `x1` and the output's at anything, runs to a
    state holding the inputs' as they were and the output's at `out1_2 x0 x1`. -/
theorem sound_kernel1 (c : Dev nD) (E : Set ℕ) (i : grid1.Coords) (arg1 : Memref sig .tc .vmem S2000x128 .f32) (harg1 : arg1.IsWhole)
    (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel_highest i arg1 harg1 arg2 harg2 arg3 harg3) K := by
  simp only [cc1__matmul_kernel_highest_eq_skeleton]; unfold cc1__matmul_kernel_highest_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the call on core `c`: the arrays as the call finds them; after the body at point `t` each
    input's buffer at its block and the output's at `out1_2` of the two input blocks; full shares, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Pallas call 2 of the program, at any float instance: what one grid point's body does to its three
  staging buffers. The body loads the two input blocks whole, forms one pure value of them and stores it over the
  whole output block; so after the body the output buffer holds that value of the two input blocks, and the
  input buffers hold their blocks as before. Stated at a PARAMETER `V`, the buffer contents when the call is entered.
  An input window's staging buffer holds its block at every point whether or not it was fetched there (a window whose
  block index does not move is fetched once).
-/
import proofs.«128511_j38740605010536_2_alg».proof.Proof.Gen.KernelIdeal.Launch
import proofs.«128511_j38740605010536_2_alg».proof.Proof.Gen.KernelIdeal.Skeleton
import proofs.«128511_j38740605010536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second input's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_0 : Rect S32x128x128 := Rect.unit (s := S32x128x128) ![0, 0, 0] S32x128x128.size inb_S32x128x128_S32x128x128_0_0_0
abbrev r2_1 : Rect S32x128x128 := Rect.unit (s := S32x128x128) ![0, 0, 0] S32x128x128.size inb_S32x128x128_S32x128x128_0_0_0
abbrev r2_2 : Rect S32x128 := Rect.unit (s := S32x128) ![0, 0] S32x128.size inb_S32x128_S32x128_0_0

/-- The output buffer after the body, from the two input blocks: its one store, of the body's pure value. -/
def out2_2 (x0 : Vec F S32x128x128 .f32) (x1 : Vec F S32x128x128 .f32) : Vec F S32x128 .f32 :=
  View.canon [⟨r2_2, k2_pay1 (View.ld x0 r2_0) (View.ld x1 r2_1)⟩]

/-- The one store covers the output block. -/
theorem cover2_2 (p0 : Vec F S32x128 .f32) (y : S32x128.Idx) :
    ∃ pc ∈ ([⟨r2_2, p0⟩] : List (View.Piece (Elt F) S32x128 .f32)), y ∈ pc.1.set :=
  View.cover_of_tiled [⟨r2_2, p0⟩] S32x128.size (by rfl) y

set_option maxHeartbeats 1000000 in
/-- The body on whole staging memrefs, the inputs' at contents `x0`, `x1` and the output's at anything, runs to a
    state holding the inputs' as they were and the output's at `out2_2 x0 x1`. -/
theorem sound_kernel2 (c : Dev nD) (E : Set ℕ) (i : grid2.Coords) (arg1 : Memref sig .tc .vmem S32x128x128 .f32) (harg1 : arg1.IsWhole)
    (arg2 : Memref sig .tc .vmem S32x128x128 .f32) (harg2 : arg2.IsWhole) (arg3 : Memref sig .tc .vmem S32x128 .f32) (harg3 : arg3.IsWhole)
    (x0 : Vec F S32x128x128 .f32) (x1 : Vec F S32x128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__dot_kernel i arg1 harg1 arg2 harg2 arg3 harg3) K := by
  simp only [cc2__dot_kernel_eq_skeleton]; unfold cc2__dot_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the call on core `c`: the arrays as the call finds them; after the body at point `t` each
    input's buffer at its block and the output's at `out2_2` of the two input blocks; full shares, nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
/-
  Pallas call 3 of the program, at any float instance: what one grid point's body does to its three
  staging buffers. The body loads the two input blocks whole, forms one pure value of them and stores it over the
  whole output block; so after the body the output buffer holds that value of the two input blocks, and the
  input buffers hold their blocks as before. Stated at a PARAMETER `V`, the buffer contents when the call is entered.
  An input window's staging buffer holds its block at every point whether or not it was fetched there (a window whose
  block index does not move is fetched once).
-/
import proofs.«128511_j38740605010536_2_alg».proof.Proof.Gen.KernelIdeal.Launch
import proofs.«128511_j38740605010536_2_alg».proof.Proof.Gen.KernelIdeal.Skeleton
import proofs.«128511_j38740605010536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second input's staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev r3_0 : Rect S5000x256 := Rect.unit (s := S5000x256) ![0, 0] S5000x256.size inb_S5000x256_S5000x256_0_0
abbrev r3_1 : Rect S256x128 := Rect.unit (s := S256x128) ![0, 0] S256x128.size inb_S256x128_S256x128_0_0
abbrev r3_2 : Rect S5000x128 := Rect.unit (s := S5000x128) ![0, 0] S5000x128.size inb_S5000x128_S5000x128_0_0

/-- The output buffer after the body, from the two input blocks: its one store, of the body's pure value. -/
def out3_2 (x0 : Vec F S5000x256 .f32) (x1 : Vec F S256x128 .f32) : Vec F S5000x128 .f32 :=
  View.canon [⟨r3_2, k3_pay1 (View.ld x0 r3_0) (View.ld x1 r3_1)⟩]

/-- The one store covers the output block. -/
theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

set_option maxHeartbeats 1000000 in
/-- The body on whole staging memrefs, the inputs' at contents `x0`, `x1` and the output's at anything, runs to a
    state holding the inputs' as they were and the output's at `out3_2 x0 x1`. -/
theorem sound_kernel3 (c : Dev nD) (E : Set ℕ) (i : grid3.Coords) (arg1 : Memref sig .tc .vmem S5000x256 .f32) (harg1 : arg1.IsWhole)
    (arg2 : Memref sig .tc .vmem S256x128 .f32) (harg2 : arg2.IsWhole) (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel_bf16 i arg1 harg1 arg2 harg2 arg3 harg3) K := by
  simp only [cc3__matmul_kernel_bf16_eq_skeleton]; unfold cc3__matmul_kernel_bf16_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of the call on core `c`: the arrays as the call finds them; after the body at point `t` each
    input's buffer at its block and the output's at `out3_2` of the two input blocks; full shares, nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
/-
  Pallas call 4 of the program, at any float instance: what one grid point's body does to its three
  staging buffers. The body loads the two input blocks whole, forms one pure value of them and stores it over the
  whole output block; so after the body the output buffer holds that value of the two input blocks, and the
  input buffers hold their blocks as before. Stated at a PARAMETER `V`, the buffer contents when the call is entered.
  An input window's staging buffer holds its block at every point whether or not it was fetched there (a window whose
  block index does not move is fetched once).
-/
import proofs.«128511_j38740605010536_2_alg».proof.Proof.Gen.KernelIdeal.Launch
import proofs.«128511_j38740605010536_2_alg».proof.Proof.Gen.KernelIdeal.Skeleton
import proofs.«128511_j38740605010536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first input's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The second input's staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev r4_0 : Rect S5000x128 := Rect.unit (s := S5000x128) ![0, 0] S5000x128.size inb_S5000x128_S5000x128_0_0
abbrev r4_1 : Rect S128x16 := Rect.unit (s := S128x16) ![0, 0] S128x16.size inb_S128x16_S128x16_0_0
abbrev r4_2 : Rect S5000x16 := Rect.unit (s := S5000x16) ![0, 0] S5000x16.size inb_S5000x16_S5000x16_0_0

/-- The output buffer after the body, from the two input blocks: its one store, of the body's pure value. -/
def out4_2 (x0 : Vec F S5000x128 .f32) (x1 : Vec F S128x16 .f32) : Vec F S5000x16 .f32 :=
  View.canon [⟨r4_2, k4_pay1 (View.ld x0 r4_0) (View.ld x1 r4_1)⟩]

/-- The one store covers the output block. -/
theorem cover4_2 (p0 : Vec F S5000x16 .f32) (y : S5000x16.Idx) :
    ∃ pc ∈ ([⟨r4_2, p0⟩] : List (View.Piece (Elt F) S5000x16 .f32)), y ∈ pc.1.set :=
  View.cover_of_tiled [⟨r4_2, p0⟩] S5000x16.size (by rfl) y

set_option maxHeartbeats 1000000 in
/-- The body on whole staging memrefs, the inputs' at contents `x0`, `x1` and the output's at anything, runs to a
    state holding the inputs' as they were and the output's at `out4_2 x0 x1`. -/
theorem sound_kernel4 (c : Dev nD) (E : Set ℕ) (i : grid4.Coords) (arg1 : Memref sig .tc .vmem S5000x128 .f32) (harg1 : arg1.IsWhole)
    (arg2 : Memref sig .tc .vmem S128x16 .f32) (harg2 : arg2.IsWhole) (arg3 : Memref sig .tc .vmem S5000x16 .f32) (harg3 : arg3.IsWhole)
    (x0 : Vec F S5000x128 .f32) (x1 : Vec F S128x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel_bf16 i arg1 harg1 arg2 harg2 arg3 harg3) K := by
  simp only [cc4__matmul_kernel_bf16_eq_skeleton]; unfold cc4__matmul_kernel_bf16_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the call on core `c`: the arrays as the call finds them; after the body at point `t` each
    input's buffer at its block and the output's at `out4_2` of the two input blocks; full shares, nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The whole program as a run of segments: stretches of host operations and the five pallas calls, in program order.
  The buffer contents at every segment boundary are a fold from the launch memory: a host stretch applies its
  operations; a pallas call leaves its output array at what its grid points' write-backs fold to and every other
  buffer as entered. The run theorem: every weakly fair execution terminates, nothing faulting, and every unscoped
  buffer ends at the last boundary's contents.
-/
import proofs.«128511_j38740605010536_2_alg».proof.Proof.KI.Body0
import proofs.«128511_j38740605010536_2_alg».proof.Proof.KI.Body1
import proofs.«128511_j38740605010536_2_alg».proof.Proof.KI.Body2
import proofs.«128511_j38740605010536_2_alg».proof.Proof.KI.Body3
import proofs.«128511_j38740605010536_2_alg».proof.Proof.KI.Body4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev X0 : Dev nD → Valuation τ sig (Elt F) := fun c b => (s₀ m ρ).mem ((c : Dev nD), b)
/-- After the host stretch `main_part0_ops0`. -/
abbrev X1 : Dev nD → Valuation τ sig (Elt F) := fun c => StableHlo.after main_part0_ops0 (X0 m ρ c)
/-- The contents pallas call 0 is entered from, read at the TensorCore's references. -/
abbrev V1 : (c : Dev nD) → (b : Ref sig .tc) → Buf (Elt F) ((c : Thread nD τ).loc b) := fun c b => X1 m ρ c b
/-- At pallas call 0's exit: its arrays at what the pipeline leaves, every other buffer as entered. -/
def X2 (c : Dev nD) : Valuation τ sig (Elt F) :=
  Pipeline.withArrays spec0 c (X1 m ρ c) fun w => (dat0 (V1 m ρ) c).arrAt w cfg0.N
theorem X2_arr (c : Dev nD) (w : Fin cfg0.W) :
    X2 m ρ c (Proc.devRef .tc (Pipeline.arrRef spec0 w)) = (dat0 (V1 m ρ) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m ρ c (Proc.devRef .tc b) = X1 m ρ c (Proc.devRef .tc b) := by
  unfold X2; exact Pipeline.withArrays_of_ne spec0 c _ _ b hb
abbrev V2 : (c : Dev nD) → (b : Ref sig .tc) → Buf (Elt F) ((c : Thread nD τ).loc b) := fun c b => X2 m ρ c b
theorem hF0 (c : Dev nD) (w : Fin cfg0.W) : (dat0 (V1 m ρ) c).arrAt w cfg0.N = V2 m ρ c (Pipeline.arrRef spec0 w) :=
  (X2_arr m ρ c w).symm
theorem hrest0 (c : Dev nD) : ∀ b, b ∉ Finset.univ.image (Pipeline.arrRef spec0) → V2 m ρ c b = V1 m ρ c b :=
  fun b hb => X2_of_ne m ρ c b fun w e => hb (Finset.mem_image.mpr ⟨w, Finset.mem_univ _, e⟩)
/-- After the host stretch `main_part0_ops1`. -/
abbrev X3 : Dev nD → Valuation τ sig (Elt F) := fun c => StableHlo.after main_part0_ops1 (X2 m ρ c)
/-- After the host stretch `main_part0_ops2`. -/
abbrev X4 : Dev nD → Valuation τ sig (Elt F) := fun c => StableHlo.after main_part0_ops2 (X3 m ρ c)
/-- The contents pallas call 1 is entered from, read at the TensorCore's references. -/
abbrev V4 : (c : Dev nD) → (b : Ref sig .tc) → Buf (Elt F) ((c : Thread nD τ).loc b) := fun c b => X4 m ρ c b
/-- At pallas call 1's exit: its arrays at what the pipeline leaves, every other buffer as entered. -/
def X5 (c : Dev nD) : Valuation τ sig (Elt F) :=
  Pipeline.withArrays spec1 c (X4 m ρ c) fun w => (dat1 (V4 m ρ) c).arrAt w cfg1.N
theorem X5_arr (c : Dev nD) (w : Fin cfg1.W) :
    X5 m ρ c (Proc.devRef .tc (Pipeline.arrRef spec1 w)) = (dat1 (V4 m ρ) c).arrAt w cfg1.N := by
  unfold X5; exact Pipeline.withArrays_arr spec1 launch1.win.arr_inj c _ _ w
theorem X5_of_ne (c : Dev nD) (b : Ref sig .tc) (hb : ∀ w, Pipeline.arrRef spec1 w ≠ b) :
    X5 m ρ c (Proc.devRef .tc b) = X4 m ρ c (Proc.devRef .tc b) := by
  unfold X5; exact Pipeline.withArrays_of_ne spec1 c _ _ b hb
abbrev V5 : (c : Dev nD) → (b : Ref sig .tc) → Buf (Elt F) ((c : Thread nD τ).loc b) := fun c b => X5 m ρ c b
theorem hF1 (c : Dev nD) (w : Fin cfg1.W) : (dat1 (V4 m ρ) c).arrAt w cfg1.N = V5 m ρ c (Pipeline.arrRef spec1 w) :=
  (X5_arr m ρ c w).symm
theorem hrest1 (c : Dev nD) : ∀ b, b ∉ Finset.univ.image (Pipeline.arrRef spec1) → V5 m ρ c b = V4 m ρ c b :=
  fun b hb => X5_of_ne m ρ c b fun w e => hb (Finset.mem_image.mpr ⟨w, Finset.mem_univ _, e⟩)
/-- After the host stretch `main_part1_ops0`. -/
abbrev X6 : Dev nD → Valuation τ sig (Elt F) := fun c => StableHlo.after main_part1_ops0 (X5 m ρ c)
/-- After the host stretch `main_part2_ops0`. -/
abbrev X7 : Dev nD → Valuation τ sig (Elt F) := fun c => StableHlo.after main_part2_ops0 (X6 m ρ c)
/-- After the host stretch `main_part2_ops1`. -/
abbrev X8 : Dev nD → Valuation τ sig (Elt F) := fun c => StableHlo.after main_part2_ops1 (X7 m ρ c)
/-- After the host stretch `main_part2_ops2`. -/
abbrev X9 : Dev nD → Valuation τ sig (Elt F) := fun c => StableHlo.after main_part2_ops2 (X8 m ρ c)
/-- After the host stretch `main_part2_ops3`. -/
abbrev X10 : Dev nD → Valuation τ sig (Elt F) := fun c => StableHlo.after main_part2_ops3 (X9 m ρ c)
/-- After the host stretch `main_part2_ops4`. -/
abbrev X11 : Dev nD → Valuation τ sig (Elt F) := fun c => StableHlo.after main_part2_ops4 (X10 m ρ c)
/-- The contents pallas call 2 is entered from, read at the TensorCore's references. -/
abbrev V11 : (c : Dev nD) → (b : Ref sig .tc) → Buf (Elt F) ((c : Thread nD τ).loc b) := fun c b => X11 m ρ c b
/-- At pallas call 2's exit: its arrays at what the pipeline leaves, every other buffer as entered. -/
def X12 (c : Dev nD) : Valuation τ sig (Elt F) :=
  Pipeline.withArrays spec2 c (X11 m ρ c) fun w => (dat2 (V11 m ρ) c).arrAt w cfg2.N
theorem X12_arr (c : Dev nD) (w : Fin cfg2.W) :
    X12 m ρ c (Proc.devRef .tc (Pipeline.arrRef spec2 w)) = (dat2 (V11 m ρ) c).arrAt w cfg2.N := by
  unfold X12; exact Pipeline.withArrays_arr spec2 launch2.win.arr_inj c _ _ w
theorem X12_of_ne (c : Dev nD) (b : Ref sig .tc) (hb : ∀ w, Pipeline.arrRef spec2 w ≠ b) :
    X12 m ρ c (Proc.devRef .tc b) = X11 m ρ c (Proc.devRef .tc b) := by
  unfold X12; exact Pipeline.withArrays_of_ne spec2 c _ _ b hb
abbrev V12 : (c : Dev nD) → (b : Ref sig .tc) → Buf (Elt F) ((c : Thread nD τ).loc b) := fun c b => X12 m ρ c b
theorem hF2 (c : Dev nD) (w : Fin cfg2.W) : (dat2 (V11 m ρ) c).arrAt w cfg2.N = V12 m ρ c (Pipeline.arrRef spec2 w) :=
  (X12_arr m ρ c w).symm
theorem hrest2 (c : Dev nD) : ∀ b, b ∉ Finset.univ.image (Pipeline.arrRef spec2) → V12 m ρ c b = V11 m ρ c b :=
  fun b hb => X12_of_ne m ρ c b fun w e => hb (Finset.mem_image.mpr ⟨w, Finset.mem_univ _, e⟩)
/-- After the host stretch `main_part2_ops5`. -/
abbrev X13 : Dev nD → Valuation τ sig (Elt F) := fun c => StableHlo.after main_part2_ops5 (X12 m ρ c)
/-- The contents pallas call 3 is entered from, read at the TensorCore's references. -/
abbrev V13 : (c : Dev nD) → (b : Ref sig .tc) → Buf (Elt F) ((c : Thread nD τ).loc b) := fun c b => X13 m ρ c b
/-- At pallas call 3's exit: its arrays at what the pipeline leaves, every other buffer as entered. -/
def X14 (c : Dev nD) : Valuation τ sig (Elt F) :=
  Pipeline.withArrays spec3 c (X13 m ρ c) fun w => (dat3 (V13 m ρ) c).arrAt w cfg3.N
theorem X14_arr (c : Dev nD) (w : Fin cfg3.W) :
    X14 m ρ c (Proc.devRef .tc (Pipeline.arrRef spec3 w)) = (dat3 (V13 m ρ) c).arrAt w cfg3.N := by
  unfold X14; exact Pipeline.withArrays_arr spec3 launch3.win.arr_inj c _ _ w
theorem X14_of_ne (c : Dev nD) (b : Ref sig .tc) (hb : ∀ w, Pipeline.arrRef spec3 w ≠ b) :
    X14 m ρ c (Proc.devRef .tc b) = X13 m ρ c (Proc.devRef .tc b) := by
  unfold X14; exact Pipeline.withArrays_of_ne spec3 c _ _ b hb
abbrev V14 : (c : Dev nD) → (b : Ref sig .tc) → Buf (Elt F) ((c : Thread nD τ).loc b) := fun c b => X14 m ρ c b
theorem hF3 (c : Dev nD) (w : Fin cfg3.W) : (dat3 (V13 m ρ) c).arrAt w cfg3.N = V14 m ρ c (Pipeline.arrRef spec3 w) :=
  (X14_arr m ρ c w).symm
theorem hrest3 (c : Dev nD) : ∀ b, b ∉ Finset.univ.image (Pipeline.arrRef spec3) → V14 m ρ c b = V13 m ρ c b :=
  fun b hb => X14_of_ne m ρ c b fun w e => hb (Finset.mem_image.mpr ⟨w, Finset.mem_univ _, e⟩)
/-- After the host stretch `main_part2_ops6`. -/
abbrev X15 : Dev nD → Valuation τ sig (Elt F) := fun c => StableHlo.after main_part2_ops6 (X14 m ρ c)
/-- After the host stretch `main_part3_ops0`. -/
abbrev X16 : Dev nD → Valuation τ sig (Elt F) := fun c => StableHlo.after main_part3_ops0 (X15 m ρ c)
/-- After the host stretch `main_part3_ops1`. -/
abbrev X17 : Dev nD → Valuation τ sig (Elt F) := fun c => StableHlo.after main_part3_ops1 (X16 m ρ c)
/-- The contents pallas call 4 is entered from, read at the TensorCore's references. -/
abbrev V17 : (c : Dev nD) → (b : Ref sig .tc) → Buf (Elt F) ((c : Thread nD τ).loc b) := fun c b => X17 m ρ c b
/-- At pallas call 4's exit: its arrays at what the pipeline leaves, every other buffer as entered. -/
def X18 (c : Dev nD) : Valuation τ sig (Elt F) :=
  Pipeline.withArrays spec4 c (X17 m ρ c) fun w => (dat4 (V17 m ρ) c).arrAt w cfg4.N
theorem X18_arr (c : Dev nD) (w : Fin cfg4.W) :
    X18 m ρ c (Proc.devRef .tc (Pipeline.arrRef spec4 w)) = (dat4 (V17 m ρ) c).arrAt w cfg4.N := by
  unfold X18; exact Pipeline.withArrays_arr spec4 launch4.win.arr_inj c _ _ w
theorem X18_of_ne (c : Dev nD) (b : Ref sig .tc) (hb : ∀ w, Pipeline.arrRef spec4 w ≠ b) :
    X18 m ρ c (Proc.devRef .tc b) = X17 m ρ c (Proc.devRef .tc b) := by
  unfold X18; exact Pipeline.withArrays_of_ne spec4 c _ _ b hb
abbrev V18 : (c : Dev nD) → (b : Ref sig .tc) → Buf (Elt F) ((c : Thread nD τ).loc b) := fun c b => X18 m ρ c b
theorem hF4 (c : Dev nD) (w : Fin cfg4.W) : (dat4 (V17 m ρ) c).arrAt w cfg4.N = V18 m ρ c (Pipeline.arrRef spec4 w) :=
  (X18_arr m ρ c w).symm
theorem hrest4 (c : Dev nD) : ∀ b, b ∉ Finset.univ.image (Pipeline.arrRef spec4) → V18 m ρ c b = V17 m ρ c b :=
  fun b hb => X18_of_ne m ρ c b fun w e => hb (Finset.mem_image.mpr ⟨w, Finset.mem_univ _, e⟩)
/-- After the host stretch `main_part3_ops2`. -/
abbrev X19 : Dev nD → Valuation τ sig (Elt F) := fun c => StableHlo.after main_part3_ops2 (X18 m ρ c)
/-- After the host stretch `main_part4_ops0`. -/
abbrev X20 : Dev nD → Valuation τ sig (Elt F) := fun c => StableHlo.after main_part4_ops0 (X19 m ρ c)
/-- After the host stretch `main_part4_ops1`. -/
abbrev X21 : Dev nD → Valuation τ sig (Elt F) := fun c => StableHlo.after main_part4_ops1 (X20 m ρ c)

/-! ## The proof data family and the thread state -/

/-- No pipeline has a prefetched table. -/
abbrev adm : (p : Fin 5) → (pcfgs (F := F) p).Adm := fun p => (cfgs p).toPCfg_adm
/-- Every pipeline's proof data, each at its call's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V11 m ρ) c
  | ⟨3, _⟩ => fun c => dat3 (V13 m ρ) c
  | ⟨4, _⟩ => fun c => dat4 (V17 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part2_ops1_fresh : (main_part2_ops1 : List (HloOp τ sig (Elt F))).Forall fun op => op.fresh = ∅ := by
  simp only [List.Forall]; repeat' constructor
theorem main_part2_ops2_fresh : (main_part2_ops2 : List (HloOp τ sig (Elt F))).Forall fun op => op.fresh = ∅ := by
  simp only [List.Forall]; repeat' constructor
theorem main_part2_ops3_fresh : (main_part2_ops3 : List (HloOp τ sig (Elt F))).Forall fun op => op.fresh = ∅ := by
  simp only [List.Forall]; repeat' constructor
theorem main_part2_ops4_fresh : (main_part2_ops4 : List (HloOp τ sig (Elt F))).Forall fun op => op.fresh = ∅ := by
  simp only [List.Forall]; repeat' constructor
theorem main_part2_ops5_fresh : (main_part2_ops5 : List (HloOp τ sig (Elt F))).Forall fun op => op.fresh = ∅ := by
  simp only [List.Forall]; repeat' constructor
theorem main_part2_ops6_fresh : (main_part2_ops6 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part3_ops1_fresh : (main_part3_ops1 : List (HloOp τ sig (Elt F))).Forall fun op => op.fresh = ∅ := by
  simp only [List.Forall]; repeat' constructor
theorem main_part3_ops2_fresh : (main_part3_ops2 : List (HloOp τ sig (Elt F))).Forall fun op => op.fresh = ∅ := by
  simp only [List.Forall]; repeat' constructor
theorem main_part4_ops0_fresh : (main_part4_ops0 : List (HloOp τ sig (Elt F))).Forall fun op => op.fresh = ∅ := by
  simp only [List.Forall]; repeat' constructor
theorem main_part4_ops1_fresh : (main_part4_ops1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (X21 m ρ c) ∗ ∃ r, prngReg c r)

/-! ## The pallas calls as segments -/

set_option backward.isDefEq.respectTransparency.types false in
/-- Pallas call 0 over the thread state: entered from every unscoped buffer at `X1`, left at `X2`. Its arrays are
    split out of the unscoped buffers and put back at the exit contents; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (X1 m ρ c) ∗ R c)
  post c := iprop(StableHlo.held (c : Thread nD τ) (Pipeline.ucRefs τ sig) (X2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at `X4`, left at `X5`. Its arrays are
    split out of the unscoped buffers and put back at the exit contents; nothing owed; no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (X4 m ρ c) ∗ R c)
  post c := iprop(StableHlo.held (c : Thread nD τ) (Pipeline.ucRefs τ sig) (X5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 2 over the thread state: entered from every unscoped buffer at `X11`, left at `X12`. Its arrays are
    split out of the unscoped buffers and put back at the exit contents; nothing owed; no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (X11 m ρ c) ∗ R c)
  post c := iprop(StableHlo.held (c : Thread nD τ) (Pipeline.ucRefs τ sig) (X12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 over the thread state: entered from every unscoped buffer at `X13`, left at `X14`. Its arrays are
    split out of the unscoped buffers and put back at the exit contents; nothing owed; no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V13 m ρ) c).loose
  hwaits := Pipeline.hwaits_of_owed_zero _ _ _ _ L lv 3 fun _ _ => rfl
  pre c := iprop(StableHlo.held (c : Thread nD τ) (Pipeline.ucRefs τ sig) (X13 m ρ c) ∗ R c)
  post c := iprop(StableHlo.held (c : Thread nD τ) (Pipeline.ucRefs τ sig) (X14 m ρ c) ∗ R c)
  X c := iprop(∃ r, prngReg c r)
  Y c := iprop(∃ r, prngReg c r)
  Z c := Pipeline.unscopedRest (Ix := Unit) (Name := ℕ) (U := UR sig nD τ) (Lvl := ℕ) spec3 c (V13 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V13 m ρ c) (V14 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 4 over the thread state: entered from every unscoped buffer at `X17`, left at `X18`. Its arrays are
    split out of the unscoped buffers and put back at the exit contents; nothing owed; no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V17 m ρ) c).loose
  hwaits := Pipeline.hwaits_of_owed_zero _ _ _ _ L lv 4 fun _ _ => rfl
  pre c := iprop(StableHlo.held (c : Thread nD τ) (Pipeline.ucRefs τ sig) (X17 m ρ c) ∗ R c)
  post c := iprop(StableHlo.held (c : Thread nD τ) (Pipeline.ucRefs τ sig) (X18 m ρ c) ∗ R c)
  X c := iprop(∃ r, prngReg c r)
  Y c := iprop(∃ r, prngReg c r)
  Z c := Pipeline.unscopedRest (Ix := Unit) (Name := ℕ) (U := UR sig nD τ) (Lvl := ℕ) spec4 c (V17 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V17 m ρ c) (V18 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg main_part0_ops0 main_part0_ops0_sub main_part0_ops0_fresh (X0 m ρ)),
    .region (reg0 m ρ),
    .host (hseg main_part0_ops1 main_part0_ops1_sub main_part0_ops1_fresh (X2 m ρ)),
    .host (hseg main_part0_ops2 main_part0_ops2_sub main_part0_ops2_fresh (X3 m ρ)),
    .region (reg1 m ρ),
    .host (hseg main_part1_ops0 main_part1_ops0_sub main_part1_ops0_fresh (X5 m ρ)),
    .host (hseg main_part2_ops0 main_part2_ops0_sub main_part2_ops0_fresh (X6 m ρ)),
    .host (hseg main_part2_ops1 main_part2_ops1_sub main_part2_ops1_fresh (X7 m ρ)),
    .host (hseg main_part2_ops2 main_part2_ops2_sub main_part2_ops2_fresh (X8 m ρ)),
    .host (hseg main_part2_ops3 main_part2_ops3_sub main_part2_ops3_fresh (X9 m ρ)),
    .host (hseg main_part2_ops4 main_part2_ops4_sub main_part2_ops4_fresh (X10 m ρ)),
    .region (reg2 m ρ),
    .host (hseg main_part2_ops5 main_part2_ops5_sub main_part2_ops5_fresh (X12 m ρ)),
    .region (reg3 m ρ),
    .host (hseg main_part2_ops6 main_part2_ops6_sub main_part2_ops6_fresh (X14 m ρ)),
    .host (hseg main_part3_ops0 main_part3_ops0_sub main_part3_ops0_fresh (X15 m ρ)),
    .host (hseg main_part3_ops1 main_part3_ops1_sub main_part3_ops1_fresh (X16 m ρ)),
    .region (reg4 m ρ),
    .host (hseg main_part3_ops2 main_part3_ops2_sub main_part3_ops2_fresh (X18 m ρ)),
    .host (hseg main_part4_ops0 main_part4_ops0_sub main_part4_ops0_fresh (X19 m ρ)),
    .host (hseg main_part4_ops1 main_part4_ops1_sub main_part4_ops1_fresh (X20 m ρ)) ]

/-- The program is the run of its segments. -/
theorem main_run (c : Dev nD) : main (F := F) c = Pipeline.Seg.run (segs m ρ) := (main_chain_windows c).trans (by chain_rfl)

set_option backward.isDefEq.respectTransparency.types false in
/-- THE RUN: from any memory with zero counters every weakly fair execution of the program terminates, nothing
    faulting, and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (X21 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (X0 m ρ c)
        from Pipeline.unscopedBufs_held c (X0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X21 m ρ c b)
    (hfin := fun c s' => by
      iintro ⟨⟨Hh, -⟩, HSI⟩
      unfold StableHlo.held
      imodintro
      iapply (pointsTo_read_all (Pipeline.ucRefs τ sig) (fun b => (((c : Thread nD τ)).1, b)) (X21 m ρ c) s')
      isplitl [Hh] <;> iassumption)
    (hQ := fun s h c => h c)

end Cert.KernelIdeal.Hand

end
-- ==== Proof.KI.Args.lean ====
/-
  The argument arrays end as launched. No host operation writes a buffer whose index is below 12 (each writes one
  result buffer, of index at least 12 in its space), and a pallas call writes only its output window's array (of index
  at least 12 too): an input window's array is never written back, and a buffer that is none of the call's arrays is
  left as entered. So the fold of boundary contents, read at a buffer of index below 12, walks back to the launch memory.
-/
import proofs.«128511_j38740605010536_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Host stretches: every operation writes one buffer of index at least 12 -/

/-- Every operation of the line writes exactly one buffer, whose index in its space is at least 12. -/
def WritesHigh (ops : List (HloOp τ sig (Elt F))) : Prop :=
  ops.Forall fun op => ∃ y : Ref sig .tc, op.writes = {Proc.devRef .tc y} ∧ 12 ≤ y.idx.val

/-- Such a line leaves every buffer of index below 12 as it found it: the buffer differs from each written one. -/
theorem after_keep (ops : List (HloOp τ sig (Elt F))) (h : WritesHigh ops) (b : Ref sig .tc) (hb : b.idx.val < 12)
    (V : Valuation τ sig (Elt F)) : StableHlo.after ops V (Proc.devRef .tc b) = V (Proc.devRef .tc b) :=
  StableHlo.after_of_forall_not_mem ops V fun op hop hmem => by
    obtain ⟨y, hy, hge⟩ := List.forall_iff_forall_mem.mp h op hop
    rw [hy, Finset.mem_singleton] at hmem
    have e : b = y := Proc.devRef_injective _ hmem
    subst e
    omega

theorem main_part0_ops0_wr : WritesHigh (main_part0_ops0 : List (HloOp τ sig (Elt F))) := by
  unfold WritesHigh; simp only [List.Forall]; repeat' apply And.intro
  all_goals exact ⟨_, rfl, by decide⟩
theorem main_part0_ops1_wr : WritesHigh (main_part0_ops1 : List (HloOp τ sig (Elt F))) := by
  unfold WritesHigh; simp only [List.Forall]; repeat' apply And.intro
  all_goals exact ⟨_, rfl, by decide⟩
theorem main_part0_ops2_wr : WritesHigh (main_part0_ops2 : List (HloOp τ sig (Elt F))) := by
  unfold WritesHigh; simp only [List.Forall]; repeat' apply And.intro
  all_goals exact ⟨_, rfl, by decide⟩
theorem main_part1_ops0_wr : WritesHigh (main_part1_ops0 : List (HloOp τ sig (Elt F))) := by
  unfold WritesHigh; simp only [List.Forall]; repeat' apply And.intro
  all_goals exact ⟨_, rfl, by decide⟩
theorem main_part2_ops0_wr : WritesHigh (main_part2_ops0 : List (HloOp τ sig (Elt F))) := by
  unfold WritesHigh; simp only [List.Forall]; repeat' apply And.intro
  all_goals exact ⟨_, rfl, by decide⟩
theorem main_part2_ops1_wr : WritesHigh (main_part2_ops1 : List (HloOp τ sig (Elt F))) := by
  unfold WritesHigh; simp only [List.Forall]; repeat' apply And.intro
  all_goals exact ⟨_, rfl, by decide⟩
theorem main_part2_ops2_wr : WritesHigh (main_part2_ops2 : List (HloOp τ sig (Elt F))) := by
  unfold WritesHigh; simp only [List.Forall]; repeat' apply And.intro
  all_goals exact ⟨_, rfl, by decide⟩
theorem main_part2_ops3_wr : WritesHigh (main_part2_ops3 : List (HloOp τ sig (Elt F))) := by
  unfold WritesHigh; simp only [List.Forall]; repeat' apply And.intro
  all_goals exact ⟨_, rfl, by decide⟩
theorem main_part2_ops4_wr : WritesHigh (main_part2_ops4 : List (HloOp τ sig (Elt F))) := by
  unfold WritesHigh; simp only [List.Forall]; repeat' apply And.intro
  all_goals exact ⟨_, rfl, by decide⟩
theorem main_part2_ops5_wr : WritesHigh (main_part2_ops5 : List (HloOp τ sig (Elt F))) := by
  unfold WritesHigh; simp only [List.Forall]; repeat' apply And.intro
  all_goals exact ⟨_, rfl, by decide⟩
theorem main_part2_ops6_wr : WritesHigh (main_part2_ops6 : List (HloOp τ sig (Elt F))) := by
  unfold WritesHigh; simp only [List.Forall]; repeat' apply And.intro
  all_goals exact ⟨_, rfl, by decide⟩
theorem main_part3_ops0_wr : WritesHigh (main_part3_ops0 : List (HloOp τ sig (Elt F))) := by
  unfold WritesHigh; simp only [List.Forall]; repeat' apply And.intro
  all_goals exact ⟨_, rfl, by decide⟩
theorem main_part3_ops1_wr : WritesHigh (main_part3_ops1 : List (HloOp τ sig (Elt F))) := by
  unfold WritesHigh; simp only [List.Forall]; repeat' apply And.intro
  all_goals exact ⟨_, rfl, by decide⟩
theorem main_part3_ops2_wr : WritesHigh (main_part3_ops2 : List (HloOp τ sig (Elt F))) := by
  unfold WritesHigh; simp only [List.Forall]; repeat' apply And.intro
  all_goals exact ⟨_, rfl, by decide⟩
theorem main_part4_ops0_wr : WritesHigh (main_part4_ops0 : List (HloOp τ sig (Elt F))) := by
  unfold WritesHigh; simp only [List.Forall]; repeat' apply And.intro
  all_goals exact ⟨_, rfl, by decide⟩
theorem main_part4_ops1_wr : WritesHigh (main_part4_ops1 : List (HloOp τ sig (Elt F))) := by
  unfold WritesHigh; simp only [List.Forall]; repeat' apply And.intro
  all_goals exact ⟨_, rfl, by decide⟩

variable (m : (ℓ : Loc nD τ sig) → Buf (Elt F) ℓ) (ρ : Dev nD → PrngReg)

/-! ## Pallas calls: a buffer of index below 12 is an input window's array or none of the call's arrays -/

/-- Pallas call 0 leaves every buffer of index below 12 as entered: its output array has index at least 12, an input
    window's array is never written back, and any other buffer is none of the call's arrays. -/
theorem X2_keep (c : Dev nD) (b : Ref sig .tc) (hb : b.idx.val < 12) :
    X2 m ρ c (Proc.devRef .tc b) = X1 m ρ c (Proc.devRef .tc b) := by
  by_cases h0 : Pipeline.arrRef spec0 0 = b
  · subst h0
    exact (X2_arr m ρ c 0).trans (((dat0 (V1 m ρ) c).arrAt_in 0 rfl _).trans (A_eq0 (V1 m ρ) c 0))
  by_cases h1 : Pipeline.arrRef spec0 1 = b
  · subst h1
    exact (X2_arr m ρ c 1).trans (((dat0 (V1 m ρ) c).arrAt_in 1 rfl _).trans (A_eq0 (V1 m ρ) c 1))
  refine X2_of_ne m ρ c b fun w e => ?_
  subst e
  revert w; decide

/-- Pallas call 1 leaves every buffer of index below 12 as entered: its output array has index at least 12, an input
    window's array is never written back, and any other buffer is none of the call's arrays. -/
theorem X5_keep (c : Dev nD) (b : Ref sig .tc) (hb : b.idx.val < 12) :
    X5 m ρ c (Proc.devRef .tc b) = X4 m ρ c (Proc.devRef .tc b) := by
  by_cases h0 : Pipeline.arrRef spec1 0 = b
  · subst h0
    exact (X5_arr m ρ c 0).trans (((dat1 (V4 m ρ) c).arrAt_in 0 rfl _).trans (A_eq1 (V4 m ρ) c 0))
  by_cases h1 : Pipeline.arrRef spec1 1 = b
  · subst h1
    exact (X5_arr m ρ c 1).trans (((dat1 (V4 m ρ) c).arrAt_in 1 rfl _).trans (A_eq1 (V4 m ρ) c 1))
  refine X5_of_ne m ρ c b fun w e => ?_
  subst e
  revert w; decide

/-- Pallas call 2 leaves every buffer of index below 12 as entered: its output array has index at least 12, an input
    window's array is never written back, and any other buffer is none of the call's arrays. -/
theorem X12_keep (c : Dev nD) (b : Ref sig .tc) (hb : b.idx.val < 12) :
    X12 m ρ c (Proc.devRef .tc b) = X11 m ρ c (Proc.devRef .tc b) := by
  by_cases h0 : Pipeline.arrRef spec2 0 = b
  · subst h0
    exact (X12_arr m ρ c 0).trans (((dat2 (V11 m ρ) c).arrAt_in 0 rfl _).trans (A_eq2 (V11 m ρ) c 0))
  by_cases h1 : Pipeline.arrRef spec2 1 = b
  · subst h1
    exact (X12_arr m ρ c 1).trans (((dat2 (V11 m ρ) c).arrAt_in 1 rfl _).trans (A_eq2 (V11 m ρ) c 1))
  refine X12_of_ne m ρ c b fun w e => ?_
  subst e
  revert w; decide

/-- Pallas call 3 leaves every buffer of index below 12 as entered: its output array has index at least 12, an input
    window's array is never written back, and any other buffer is none of the call's arrays. -/
theorem X14_keep (c : Dev nD) (b : Ref sig .tc) (hb : b.idx.val < 12) :
    X14 m ρ c (Proc.devRef .tc b) = X13 m ρ c (Proc.devRef .tc b) := by
  by_cases h0 : Pipeline.arrRef spec3 0 = b
  · subst h0
    exact (X14_arr m ρ c 0).trans (((dat3 (V13 m ρ) c).arrAt_in 0 rfl _).trans (A_eq3 (V13 m ρ) c 0))
  by_cases h1 : Pipeline.arrRef spec3 1 = b
  · subst h1
    exact (X14_arr m ρ c 1).trans (((dat3 (V13 m ρ) c).arrAt_in 1 rfl _).trans (A_eq3 (V13 m ρ) c 1))
  refine X14_of_ne m ρ c b fun w e => ?_
  subst e
  revert w; decide

/-- Pallas call 4 leaves every buffer of index below 12 as entered: its output array has index at least 12, an input
    window's array is never written back, and any other buffer is none of the call's arrays. -/
theorem X18_keep (c : Dev nD) (b : Ref sig .tc) (hb : b.idx.val < 12) :
    X18 m ρ c (Proc.devRef .tc b) = X17 m ρ c (Proc.devRef .tc b) := by
  by_cases h0 : Pipeline.arrRef spec4 0 = b
  · subst h0
    exact (X18_arr m ρ c 0).trans (((dat4 (V17 m ρ) c).arrAt_in 0 rfl _).trans (A_eq4 (V17 m ρ) c 0))
  by_cases h1 : Pipeline.arrRef spec4 1 = b
  · subst h1
    exact (X18_arr m ρ c 1).trans (((dat4 (V17 m ρ) c).arrAt_in 1 rfl _).trans (A_eq4 (V17 m ρ) c 1))
  refine X18_of_ne m ρ c b fun w e => ?_
  subst e
  revert w; decide

/-! ## The walk back -/

/-- Every buffer of index below 12 ends at its launch contents. -/
theorem X21_keep (c : Dev nD) (b : Ref sig .tc) (hb : b.idx.val < 12) :
    X21 m ρ c (Proc.devRef .tc b) = m ((c : Thread nD τ).loc b) :=
  calc X21 m ρ c (Proc.devRef .tc b)
    _ = X20 m ρ c (Proc.devRef .tc b) := after_keep main_part4_ops1 main_part4_ops1_wr b hb _
    _ = X19 m ρ c (Proc.devRef .tc b) := after_keep main_part4_ops0 main_part4_ops0_wr b hb _
    _ = X18 m ρ c (Proc.devRef .tc b) := after_keep main_part3_ops2 main_part3_ops2_wr b hb _
    _ = X17 m ρ c (Proc.devRef .tc b) := X18_keep m ρ c b hb
    _ = X16 m ρ c (Proc.devRef .tc b) := after_keep main_part3_ops1 main_part3_ops1_wr b hb _
    _ = X15 m ρ c (Proc.devRef .tc b) := after_keep main_part3_ops0 main_part3_ops0_wr b hb _
    _ = X14 m ρ c (Proc.devRef .tc b) := after_keep main_part2_ops6 main_part2_ops6_wr b hb _
    _ = X13 m ρ c (Proc.devRef .tc b) := X14_keep m ρ c b hb
    _ = X12 m ρ c (Proc.devRef .tc b) := after_keep main_part2_ops5 main_part2_ops5_wr b hb _
    _ = X11 m ρ c (Proc.devRef .tc b) := X12_keep m ρ c b hb
    _ = X10 m ρ c (Proc.devRef .tc b) := after_keep main_part2_ops4 main_part2_ops4_wr b hb _
    _ = X9 m ρ c (Proc.devRef .tc b) := after_keep main_part2_ops3 main_part2_ops3_wr b hb _
    _ = X8 m ρ c (Proc.devRef .tc b) := after_keep main_part2_ops2 main_part2_ops2_wr b hb _
    _ = X7 m ρ c (Proc.devRef .tc b) := after_keep main_part2_ops1 main_part2_ops1_wr b hb _
    _ = X6 m ρ c (Proc.devRef .tc b) := after_keep main_part2_ops0 main_part2_ops0_wr b hb _
    _ = X5 m ρ c (Proc.devRef .tc b) := after_keep main_part1_ops0 main_part1_ops0_wr b hb _
    _ = X4 m ρ c (Proc.devRef .tc b) := X5_keep m ρ c b hb
    _ = X3 m ρ c (Proc.devRef .tc b) := after_keep main_part0_ops2 main_part0_ops2_wr b hb _
    _ = X2 m ρ c (Proc.devRef .tc b) := after_keep main_part0_ops1 main_part0_ops1_wr b hb _
    _ = X1 m ρ c (Proc.devRef .tc b) := X2_keep m ρ c b hb
    _ = X0 m ρ c (Proc.devRef .tc b) := after_keep main_part0_ops0 main_part0_ops0_wr b hb _
    _ = m ((c : Thread nD τ).loc b) := rfl

/-! ## Each argument array -/

theorem X21_main_arg0 (c : Dev nD) : X21 m ρ c (Proc.devRef .tc main_arg0) = m ((c : Thread nD τ).loc main_arg0) :=
  X21_keep m ρ c main_arg0 (by decide)
theorem X21_main_arg1 (c : Dev nD) : X21 m ρ c (Proc.devRef .tc main_arg1) = m ((c : Thread nD τ).loc main_arg1) :=
  X21_keep m ρ c main_arg1 (by decide)
theorem X21_main_arg2 (c : Dev nD) : X21 m ρ c (Proc.devRef .tc main_arg2) = m ((c : Thread nD τ).loc main_arg2) :=
  X21_keep m ρ c main_arg2 (by decide)
theorem X21_main_arg3 (c : Dev nD) : X21 m ρ c (Proc.devRef .tc main_arg3) = m ((c : Thread nD τ).loc main_arg3) :=
  X21_keep m ρ c main_arg3 (by decide)
theorem X21_main_arg4 (c : Dev nD) : X21 m ρ c (Proc.devRef .tc main_arg4) = m ((c : Thread nD τ).loc main_arg4) :=
  X21_keep m ρ c main_arg4 (by decide)
theorem X21_main_arg5 (c : Dev nD) : X21 m ρ c (Proc.devRef .tc main_arg5) = m ((c : Thread nD τ).loc main_arg5) :=
  X21_keep m ρ c main_arg5 (by decide)
theorem X21_main_arg6 (c : Dev nD) : X21 m ρ c (Proc.devRef .tc main_arg6) = m ((c : Thread nD τ).loc main_arg6) :=
  X21_keep m ρ c main_arg6 (by decide)
theorem X21_main_arg7 (c : Dev nD) : X21 m ρ c (Proc.devRef .tc main_arg7) = m ((c : Thread nD τ).loc main_arg7) :=
  X21_keep m ρ c main_arg7 (by decide)
theorem X21_main_arg8 (c : Dev nD) : X21 m ρ c (Proc.devRef .tc main_arg8) = m ((c : Thread nD τ).loc main_arg8) :=
  X21_keep m ρ c main_arg8 (by decide)
theorem X21_main_arg9 (c : Dev nD) : X21 m ρ c (Proc.devRef .tc main_arg9) = m ((c : Thread nD τ).loc main_arg9) :=
  X21_keep m ρ c main_arg9 (by decide)
theorem X21_main_arg10 (c : Dev nD) : X21 m ρ c (Proc.devRef .tc main_arg10) = m ((c : Thread nD τ).loc main_arg10) :=
  X21_keep m ρ c main_arg10 (by decide)
theorem X21_main_arg11 (c : Dev nD) : X21 m ρ c (Proc.devRef .tc main_arg11) = m ((c : Thread nD τ).loc main_arg11) :=
  X21_keep m ρ c main_arg11 (by decide)

end Cert.KernelIdeal.Hand

end
-- ==== Proof.KI.Frame.lean ====
/-
  The frame: every weakly fair execution of the program terminates, nothing faulting, and every final state has the
  twelve argument arrays as launched. The run theorem leaves every unscoped buffer at the last boundary's contents;
  an argument array is an unscoped buffer, and the last boundary's contents at it are the launch memory's.
  The value-ready variant also names the three result buffers, each at the last boundary's contents.
-/
import proofs.«128511_j38740605010536_2_alg».proof.Proof.KI.Args

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- THE FRAME: the program runs, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (Q := fun r => ∀ c : Dev nD, ∀ b ∈ Pipeline.ucRefs τ sig, r.2.mem (((c : Thread nD τ)).1, b) = X21 m ρ c b) (fun r h c =>
    ⟨(h c _ (mem_uc main_arg0 (by decide))).trans (X21_main_arg0 m ρ c),
     (h c _ (mem_uc main_arg1 (by decide))).trans (X21_main_arg1 m ρ c),
     (h c _ (mem_uc main_arg2 (by decide))).trans (X21_main_arg2 m ρ c),
     (h c _ (mem_uc main_arg3 (by decide))).trans (X21_main_arg3 m ρ c),
     (h c _ (mem_uc main_arg4 (by decide))).trans (X21_main_arg4 m ρ c),
     (h c _ (mem_uc main_arg5 (by decide))).trans (X21_main_arg5 m ρ c),
     (h c _ (mem_uc main_arg6 (by decide))).trans (X21_main_arg6 m ρ c),
     (h c _ (mem_uc main_arg7 (by decide))).trans (X21_main_arg7 m ρ c),
     (h c _ (mem_uc main_arg8 (by decide))).trans (X21_main_arg8 m ρ c),
     (h c _ (mem_uc main_arg9 (by decide))).trans (X21_main_arg9 m ρ c),
     (h c _ (mem_uc main_arg10 (by decide))).trans (X21_main_arg10 m ρ c),
     (h c _ (mem_uc main_arg11 (by decide))).trans (X21_main_arg11 m ρ c)⟩) (run_all m ρ)

/-- The run, value-ready: the three result buffers end at the last boundary's contents, and the argument arrays unchanged. -/
theorem run_vals_raw : θ_run defs (onTc (τ := τ) (main (F := F))) ⟨m, fun _ => 0, ρ⟩ (fun r => ∀ c : Dev nD,
      r.2.mem ((c.tc : Thread nD τ).loc main_v229) = X21 m ρ c (Proc.devRef .tc main_v229)
      ∧ r.2.mem ((c.tc : Thread nD τ).loc main_v93) = X21 m ρ c (Proc.devRef .tc main_v93)
      ∧ r.2.mem ((c.tc : Thread nD τ).loc main_v228) = X21 m ρ c (Proc.devRef .tc main_v228)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (Q := fun r => ∀ c : Dev nD, ∀ b ∈ Pipeline.ucRefs τ sig, r.2.mem (((c : Thread nD τ)).1, b) = X21 m ρ c b) (fun r h c =>
    ⟨h c _ (mem_uc main_v229 (by decide)), h c _ (mem_uc main_v93 (by decide)), h c _ (mem_uc main_v228 (by decide)),
     (h c _ (mem_uc main_arg0 (by decide))).trans (X21_main_arg0 m ρ c),
     (h c _ (mem_uc main_arg1 (by decide))).trans (X21_main_arg1 m ρ c),
     (h c _ (mem_uc main_arg2 (by decide))).trans (X21_main_arg2 m ρ c),
     (h c _ (mem_uc main_arg3 (by decide))).trans (X21_main_arg3 m ρ c),
     (h c _ (mem_uc main_arg4 (by decide))).trans (X21_main_arg4 m ρ c),
     (h c _ (mem_uc main_arg5 (by decide))).trans (X21_main_arg5 m ρ c),
     (h c _ (mem_uc main_arg6 (by decide))).trans (X21_main_arg6 m ρ c),
     (h c _ (mem_uc main_arg7 (by decide))).trans (X21_main_arg7 m ρ c),
     (h c _ (mem_uc main_arg8 (by decide))).trans (X21_main_arg8 m ρ c),
     (h c _ (mem_uc main_arg9 (by decide))).trans (X21_main_arg9 m ρ c),
     (h c _ (mem_uc main_arg10 (by decide))).trans (X21_main_arg10 m ρ c),
     (h c _ (mem_uc main_arg11 (by decide))).trans (X21_main_arg11 m ρ c)⟩) (run_all m ρ)

end Cert.KernelIdeal.Hand

end
-- ==== Proof.Frames.lean ====
/-
  The two frame claims: the kernel program at the bit-level floats and the same program at the ideal floats each run
  (every weakly fair execution terminates, nothing faulting) and leave their argument arrays as launched. Each is the
  frame theorem proved generically in the float instance, read at its instance.
-/
import proofs.«128511_j38740605010536_2_alg».proof.Defs
import proofs.«128511_j38740605010536_2_alg».proof.Proof.Gen.Kernel
import proofs.«128511_j38740605010536_2_alg».proof.Proof.Gen.KernelIdeal
import proofs.«128511_j38740605010536_2_alg».proof.Proof.Gen.Pre_finite_inputs
import proofs.«128511_j38740605010536_2_alg».proof.Proof.KB.Frame
import proofs.«128511_j38740605010536_2_alg».proof.Proof.KI.Frame

noncomputable section

namespace Cert.Proof.Frames

open Idealize.ShloMosaic Idealize.SL.Sem

/-- The kernel program at the bit-level floats runs and leaves its arguments unchanged. -/
theorem frame_p : Cert.frame_Kernel (hKernel := Cert.Kernel.Gen.facts) (hPre_finite_inputs := Cert.Pre_finite_inputs.Gen.facts) :=
  fun m ρ _ => Cert.Kernel.Hand.frame (F := Bits) m ρ

/-- The kernel program at the ideal floats runs and leaves its arguments unchanged. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

end Cert.Proof.Frames

end
-- ==== Proof.RefValsDefs.lean ====
/-
  The reference program's run, cut into windows. @main is a straight line of 325 host operations, each writing one
  buffer that no other operation writes. The line is cut into 21 consecutive windows `w0 … w20`. Before window `k` the
  invariant `Stk a0 … a11 V` says of the device's buffer contents `V`: the twelve argument buffers hold `a0 … a11`,
  and every buffer written before the window that an operation of this or a later window still reads (or that @main
  returns) holds its stage function `val_<buffer>` of the arguments. `St0` speaks of the arguments only; the last one
  speaks of the arguments and the three results.
-/
import proofs.«128511_j38740605010536_2_alg».proof.Proof.RefReadP
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- What holds of the buffers' contents before operation 0: the arguments are the launch's, and each value computed so far
    that a later operation reads is its stage function of the arguments. -/
def St0 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11

/-- What holds of the buffers' contents before operation 18: the arguments are the launch's, and each value computed so far
    that a later operation reads is its stage function of the arguments. -/
def St1 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v1) = val_main_v1 (F := F) a3
  ∧ V (Proc.devRef .tc main_v13) = val_main_v13 (F := F) a3
  ∧ V (Proc.devRef .tc main_v11) = val_main_v11 (F := F) a3
  ∧ V (Proc.devRef .tc main_v4) = val_main_v4 (F := F)
  ∧ V (Proc.devRef .tc main_v3) = val_main_v3 (F := F) a3
  ∧ V (Proc.devRef .tc main_v5) = val_main_v5 (F := F) a0 a4

/-- What holds of the buffers' contents before operation 36: the arguments are the launch's, and each value computed so far
    that a later operation reads is its stage function of the arguments. -/
def St2 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v1) = val_main_v1 (F := F) a3
  ∧ V (Proc.devRef .tc main_v5) = val_main_v5 (F := F) a0 a4
  ∧ V (Proc.devRef .tc main_v28) = val_main_v28 (F := F) a3
  ∧ V (Proc.devRef .tc main_v3) = val_main_v3 (F := F) a3
  ∧ V (Proc.devRef .tc main_v11) = val_main_v11 (F := F) a3
  ∧ V (Proc.devRef .tc main_v4) = val_main_v4 (F := F)

/-- What holds of the buffers' contents before operation 56: the arguments are the launch's, and each value computed so far
    that a later operation reads is its stage function of the arguments. -/
def St3 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v45) = val_main_v45 (F := F) a0 a3 a4
  ∧ V (Proc.devRef .tc main_v3) = val_main_v3 (F := F) a3
  ∧ V (Proc.devRef .tc main_v4) = val_main_v4 (F := F)
  ∧ V (Proc.devRef .tc main_v1) = val_main_v1 (F := F) a3

/-- What holds of the buffers' contents before operation 74: the arguments are the launch's, and each value computed so far
    that a later operation reads is its stage function of the arguments. -/
def St4 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v1) = val_main_v1 (F := F) a3
  ∧ V (Proc.devRef .tc main_v58) = val_main_v58 (F := F) a3
  ∧ V (Proc.devRef .tc main_v56) = val_main_v56 (F := F) a3
  ∧ V (Proc.devRef .tc main_v4) = val_main_v4 (F := F)
  ∧ V (Proc.devRef .tc main_v3) = val_main_v3 (F := F) a3
  ∧ V (Proc.devRef .tc main_v50) = val_main_v50 (F := F) a0 a3 a4 a5 a6

/-- What holds of the buffers' contents before operation 92: the arguments are the launch's, and each value computed so far
    that a later operation reads is its stage function of the arguments. -/
def St5 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v1) = val_main_v1 (F := F) a3
  ∧ V (Proc.devRef .tc main_v50) = val_main_v50 (F := F) a0 a3 a4 a5 a6
  ∧ V (Proc.devRef .tc main_v73) = val_main_v73 (F := F) a3
  ∧ V (Proc.devRef .tc main_v3) = val_main_v3 (F := F) a3
  ∧ V (Proc.devRef .tc main_v56) = val_main_v56 (F := F) a3
  ∧ V (Proc.devRef .tc main_v4) = val_main_v4 (F := F)

/-- What holds of the buffers' contents before operation 112: the arguments are the launch's, and each value computed so far
    that a later operation reads is its stage function of the arguments. -/
def St6 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v90) = val_main_v90 (F := F) a0 a3 a4 a5 a6
  ∧ V (Proc.devRef .tc main_v1) = val_main_v1 (F := F) a3
  ∧ V (Proc.devRef .tc main_v3) = val_main_v3 (F := F) a3
  ∧ V (Proc.devRef .tc main_v4) = val_main_v4 (F := F)

/-- What holds of the buffers' contents before operation 138: the arguments are the launch's, and each value computed so far
    that a later operation reads is its stage function of the arguments. -/
def St7 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v112) = val_main_v112 (F := F) a0 a1 a3 a4 a5 a6 a7
  ∧ V (Proc.devRef .tc main_v93) = val_main_v93 (F := F) a0 a3 a4 a5 a6 a7
  ∧ V (Proc.devRef .tc main_v1) = val_main_v1 (F := F) a3
  ∧ V (Proc.devRef .tc main_v3) = val_main_v3 (F := F) a3
  ∧ V (Proc.devRef .tc main_v4) = val_main_v4 (F := F)

/-- What holds of the buffers' contents before operation 157: the arguments are the launch's, and each value computed so far
    that a later operation reads is its stage function of the arguments. -/
def St8 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v126) = val_main_v126 (F := F) a2
  ∧ V (Proc.devRef .tc main_v93) = val_main_v93 (F := F) a0 a3 a4 a5 a6 a7
  ∧ V (Proc.devRef .tc main_v119) = val_main_v119 (F := F) a0 a1 a3 a4 a5 a6 a7
  ∧ V (Proc.devRef .tc main_v1) = val_main_v1 (F := F) a3
  ∧ V (Proc.devRef .tc main_v3) = val_main_v3 (F := F) a3
  ∧ V (Proc.devRef .tc main_v4) = val_main_v4 (F := F)

/-- What holds of the buffers' contents before operation 181: the arguments are the launch's, and each value computed so far
    that a later operation reads is its stage function of the arguments. -/
def St9 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v119) = val_main_v119 (F := F) a0 a1 a3 a4 a5 a6 a7
  ∧ V (Proc.devRef .tc main_v145) = val_main_v145 (F := F) a0 a2 a3 a4 a5 a6 a7
  ∧ V (Proc.devRef .tc main_v1) = val_main_v1 (F := F) a3
  ∧ V (Proc.devRef .tc main_v3) = val_main_v3 (F := F) a3
  ∧ V (Proc.devRef .tc main_v4) = val_main_v4 (F := F)
  ∧ V (Proc.devRef .tc main_v93) = val_main_v93 (F := F) a0 a3 a4 a5 a6 a7

/-- What holds of the buffers' contents before operation 182: the arguments are the launch's, and each value computed so far
    that a later operation reads is its stage function of the arguments. -/
def St10 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v146) = val_main_v146 (F := F) a0 a1 a2 a3 a4 a5 a6 a7
  ∧ V (Proc.devRef .tc main_v1) = val_main_v1 (F := F) a3
  ∧ V (Proc.devRef .tc main_v3) = val_main_v3 (F := F) a3
  ∧ V (Proc.devRef .tc main_v4) = val_main_v4 (F := F)
  ∧ V (Proc.devRef .tc main_v93) = val_main_v93 (F := F) a0 a3 a4 a5 a6 a7

/-- What holds of the buffers' contents before operation 183: the arguments are the launch's, and each value computed so far
    that a later operation reads is its stage function of the arguments. -/
def St11 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v146) = val_main_v146 (F := F) a0 a1 a2 a3 a4 a5 a6 a7
  ∧ V (Proc.devRef .tc main_v147) = val_main_v147 (F := F) a1 a2
  ∧ V (Proc.devRef .tc main_v1) = val_main_v1 (F := F) a3
  ∧ V (Proc.devRef .tc main_v3) = val_main_v3 (F := F) a3
  ∧ V (Proc.devRef .tc main_v4) = val_main_v4 (F := F)
  ∧ V (Proc.devRef .tc main_v93) = val_main_v93 (F := F) a0 a3 a4 a5 a6 a7

/-- What holds of the buffers' contents before operation 191: the arguments are the launch's, and each value computed so far
    that a later operation reads is its stage function of the arguments. -/
def St12 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v1) = val_main_v1 (F := F) a3
  ∧ V (Proc.devRef .tc main_v152) = val_main_v152 (F := F) a1 a2
  ∧ V (Proc.devRef .tc main_v154) = val_main_v154 (F := F) a1 a2
  ∧ V (Proc.devRef .tc main_v147) = val_main_v147 (F := F) a1 a2
  ∧ V (Proc.devRef .tc main_v3) = val_main_v3 (F := F) a3
  ∧ V (Proc.devRef .tc main_v4) = val_main_v4 (F := F)
  ∧ V (Proc.devRef .tc main_v150) = val_main_v150 (F := F) a0 a1 a2 a3 a4 a5 a6 a7
  ∧ V (Proc.devRef .tc main_v93) = val_main_v93 (F := F) a0 a3 a4 a5 a6 a7

/-- What holds of the buffers' contents before operation 192: the arguments are the launch's, and each value computed so far
    that a later operation reads is its stage function of the arguments. -/
def St13 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v147) = val_main_v147 (F := F) a1 a2
  ∧ V (Proc.devRef .tc main_v3) = val_main_v3 (F := F) a3
  ∧ V (Proc.devRef .tc main_v4) = val_main_v4 (F := F)
  ∧ V (Proc.devRef .tc main_v150) = val_main_v150 (F := F) a0 a1 a2 a3 a4 a5 a6 a7
  ∧ V (Proc.devRef .tc main_v155) = val_main_v155 (F := F) a1 a2 a3
  ∧ V (Proc.devRef .tc main_v93) = val_main_v93 (F := F) a0 a3 a4 a5 a6 a7

/-- What holds of the buffers' contents before operation 196: the arguments are the launch's, and each value computed so far
    that a later operation reads is its stage function of the arguments. -/
def St14 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v3) = val_main_v3 (F := F) a3
  ∧ V (Proc.devRef .tc main_v157) = val_main_v157 (F := F) a1 a2
  ∧ V (Proc.devRef .tc main_v159) = val_main_v159 (F := F) a1 a2
  ∧ V (Proc.devRef .tc main_v4) = val_main_v4 (F := F)
  ∧ V (Proc.devRef .tc main_v150) = val_main_v150 (F := F) a0 a1 a2 a3 a4 a5 a6 a7
  ∧ V (Proc.devRef .tc main_v155) = val_main_v155 (F := F) a1 a2 a3
  ∧ V (Proc.devRef .tc main_v93) = val_main_v93 (F := F) a0 a3 a4 a5 a6 a7

/-- What holds of the buffers' contents before operation 197: the arguments are the launch's, and each value computed so far
    that a later operation reads is its stage function of the arguments. -/
def St15 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v4) = val_main_v4 (F := F)
  ∧ V (Proc.devRef .tc main_v150) = val_main_v150 (F := F) a0 a1 a2 a3 a4 a5 a6 a7
  ∧ V (Proc.devRef .tc main_v160) = val_main_v160 (F := F) a1 a2 a3
  ∧ V (Proc.devRef .tc main_v155) = val_main_v155 (F := F) a1 a2 a3
  ∧ V (Proc.devRef .tc main_v93) = val_main_v93 (F := F) a0 a3 a4 a5 a6 a7

/-- What holds of the buffers' contents before operation 198: the arguments are the launch's, and each value computed so far
    that a later operation reads is its stage function of the arguments. -/
def St16 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v160) = val_main_v160 (F := F) a1 a2 a3
  ∧ V (Proc.devRef .tc main_v161) = val_main_v161 (F := F) a0 a1 a2 a3 a4 a5 a6 a7
  ∧ V (Proc.devRef .tc main_v155) = val_main_v155 (F := F) a1 a2 a3
  ∧ V (Proc.devRef .tc main_v150) = val_main_v150 (F := F) a0 a1 a2 a3 a4 a5 a6 a7
  ∧ V (Proc.devRef .tc main_v93) = val_main_v93 (F := F) a0 a3 a4 a5 a6 a7

/-- What holds of the buffers' contents before operation 227: the arguments are the launch's, and each value computed so far
    that a later operation reads is its stage function of the arguments. -/
def St17 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v184) = val_main_v184 (F := F) a0 a1 a2 a3 a4 a5 a6 a7
  ∧ V (Proc.devRef .tc main_v155) = val_main_v155 (F := F) a1 a2 a3
  ∧ V (Proc.devRef .tc main_v162) = val_main_v162 (F := F) a0 a8
  ∧ V (Proc.devRef .tc main_v160) = val_main_v160 (F := F) a1 a2 a3
  ∧ V (Proc.devRef .tc main_v168) = val_main_v168 (F := F) a0 a1 a2 a3 a4 a5 a6 a7
  ∧ V (Proc.devRef .tc main_v161) = val_main_v161 (F := F) a0 a1 a2 a3 a4 a5 a6 a7
  ∧ V (Proc.devRef .tc main_v150) = val_main_v150 (F := F) a0 a1 a2 a3 a4 a5 a6 a7
  ∧ V (Proc.devRef .tc main_v93) = val_main_v93 (F := F) a0 a3 a4 a5 a6 a7

/-- What holds of the buffers' contents before operation 248: the arguments are the launch's, and each value computed so far
    that a later operation reads is its stage function of the arguments. -/
def St18 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v202) = val_main_v202 (F := F) a0 a1 a2 a3 a4 a5 a6 a7 a8
  ∧ V (Proc.devRef .tc main_v160) = val_main_v160 (F := F) a1 a2 a3
  ∧ V (Proc.devRef .tc main_v161) = val_main_v161 (F := F) a0 a1 a2 a3 a4 a5 a6 a7
  ∧ V (Proc.devRef .tc main_v155) = val_main_v155 (F := F) a1 a2 a3
  ∧ V (Proc.devRef .tc main_v150) = val_main_v150 (F := F) a0 a1 a2 a3 a4 a5 a6 a7
  ∧ V (Proc.devRef .tc main_v93) = val_main_v93 (F := F) a0 a3 a4 a5 a6 a7

/-- What holds of the buffers' contents before operation 273: the arguments are the launch's, and each value computed so far
    that a later operation reads is its stage function of the arguments. -/
def St19 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v160) = val_main_v160 (F := F) a1 a2 a3
  ∧ V (Proc.devRef .tc main_v213) = val_main_v213 (F := F) a0 a1 a2 a3 a4 a5 a6 a7
  ∧ V (Proc.devRef .tc main_v221) = val_main_v221 (F := F) a0 a1 a2 a3 a4 a5 a6 a7
  ∧ V (Proc.devRef .tc main_v155) = val_main_v155 (F := F) a1 a2 a3
  ∧ V (Proc.devRef .tc main_v207) = val_main_v207 (F := F) a0 a1 a2 a3 a4 a5 a6 a7 a8 a9 a10
  ∧ V (Proc.devRef .tc main_v150) = val_main_v150 (F := F) a0 a1 a2 a3 a4 a5 a6 a7
  ∧ V (Proc.devRef .tc main_v93) = val_main_v93 (F := F) a0 a3 a4 a5 a6 a7

/-- What holds of the buffers' contents before operation 299: the arguments are the launch's, and each value computed so far
    that a later operation reads is its stage function of the arguments. -/
def St20 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v213) = val_main_v213 (F := F) a0 a1 a2 a3 a4 a5 a6 a7
  ∧ V (Proc.devRef .tc main_v207) = val_main_v207 (F := F) a0 a1 a2 a3 a4 a5 a6 a7 a8 a9 a10
  ∧ V (Proc.devRef .tc main_v242) = val_main_v242 (F := F) a0 a1 a2 a3 a4 a5 a6 a7 a8 a9 a10
  ∧ V (Proc.devRef .tc main_v150) = val_main_v150 (F := F) a0 a1 a2 a3 a4 a5 a6 a7
  ∧ V (Proc.devRef .tc main_v93) = val_main_v93 (F := F) a0 a3 a4 a5 a6 a7

/-- What holds of the buffers' contents before operation 325: the arguments are the launch's, and each value computed so far
    that a later operation reads is its stage function of the arguments. -/
def St21 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v253) = val_main_v253 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- Operations 0 to 17 of @main. -/
abbrev w0 : List (HloOp τ sig (Elt F)) :=
  [ unary main_arg3 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg3 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    binary main_arg0 main_arg4 main_v5 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S800000x1 ![0] bcast_S800000_S800000x1_0 : (⟨S800000, .i32⟩ : BufTy).Contents (Elt F) → (⟨S800000x1, .i32⟩ : BufTy).Contents (Elt F)),
    ternary main_v6 main_v7 main_v4 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)) ]

/-- Operations 18 to 35 of @main. -/
abbrev w1 : List (HloOp τ sig (Elt F)) :=
  [ nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v4 main_v19 (mulf : (⟨S800000, .f32⟩ : BufTy).Contents (Elt F) → (⟨S800000, .f32⟩ : BufTy).Contents (Elt F) → (⟨S800000, .f32⟩ : BufTy).Contents (Elt F)),
    nullary main_c_3 (constantI S_ 32 0#32),
    unary main_c_3 main_v20 (broadcastInDim S800000 ![] bcast_S_S800000 : (⟨S_, .i32⟩ : BufTy).Contents (Elt F) → (⟨S800000, .i32⟩ : BufTy).Contents (Elt F)),
    binary main_v3 main_v20 main_v21 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v22 (broadcastInDim S800000 ![] bcast_S_S800000 : (⟨S_, .i32⟩ : BufTy).Contents (Elt F) → (⟨S800000, .i32⟩ : BufTy).Contents (Elt F)),
    binary main_v3 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_v3 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v11 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v19 main_v26 main_v27 (mulf : (⟨S800000, .f32⟩ : BufTy).Contents (Elt F) → (⟨S800000, .f32⟩ : BufTy).Contents (Elt F) → (⟨S800000, .f32⟩ : BufTy).Contents (Elt F)),
    unary main_v27 main_v28 (broadcastInDim S800000x1 ![0] bcast_S800000_S800000x1_0 : (⟨S800000, .f32⟩ : BufTy).Contents (Elt F) → (⟨S800000x1, .f32⟩ : BufTy).Contents (Elt F)) ]

/-- Operations 36 to 55 of @main. -/
abbrev w2 : List (HloOp τ sig (Elt F)) :=
  [ nullary main_c_5 (constantI S_ 32 0#32),
    unary main_c_5 main_v29 (broadcastInDim S800000 ![] bcast_S_S800000 : (⟨S_, .i32⟩ : BufTy).Contents (Elt F) → (⟨S800000, .i32⟩ : BufTy).Contents (Elt F)),
    binary main_v1 main_v29 main_v30 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v31 (broadcastInDim S800000 ![] bcast_S_S800000 : (⟨S_, .i32⟩ : BufTy).Contents (Elt F) → (⟨S800000, .i32⟩ : BufTy).Contents (Elt F)),
    binary main_v1 main_v31 main_v32 (addi : (⟨S800000, .i32⟩ : BufTy).Contents (Elt F) → (⟨S800000, .i32⟩ : BufTy).Contents (Elt F) → (⟨S800000, .i32⟩ : BufTy).Contents (Elt F)),
    ternary main_v30 main_v32 main_v1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v33 main_v34 (broadcastInDim S800000x1 ![0] bcast_S800000_S800000x1_0 : (⟨S800000, .i32⟩ : BufTy).Contents (Elt F) → (⟨S800000x1, .i32⟩ : BufTy).Contents (Elt F)),
    binary main_v5 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v28 main_v36 (broadcastInDim S800000x128 ![0, 1] bcast_S800000x1_S800000x128_0_1 : (⟨S800000x1, .f32⟩ : BufTy).Contents (Elt F) → (⟨S800000x128, .f32⟩ : BufTy).Contents (Elt F)),
    binary main_v35 main_v36 main_v37 (mulf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v38 (broadcastInDim S50000x128 ![] bcast_S_S50000x128 : (⟨S_, .f32⟩ : BufTy).Contents (Elt F) → (⟨S50000x128, .f32⟩ : BufTy).Contents (Elt F)),
    unary main_v3 main_v39 (broadcastInDim S800000x1 ![0] bcast_S800000_S800000x1_0 : (⟨S800000, .i32⟩ : BufTy).Contents (Elt F) → (⟨S800000x1, .i32⟩ : BufTy).Contents (Elt F)),
    ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v11 main_v11 main_v41 (mulf : (⟨S50000, .f32⟩ : BufTy).Contents (Elt F) → (⟨S50000, .f32⟩ : BufTy).Contents (Elt F) → (⟨S50000, .f32⟩ : BufTy).Contents (Elt F)),
    unary main_v41 main_v42 (broadcastInDim S50000x1 ![0] bcast_S50000_S50000x1_0 : (⟨S50000, .f32⟩ : BufTy).Contents (Elt F) → (⟨S50000x1, .f32⟩ : BufTy).Contents (Elt F)),
    unary main_v42 main_v43 (broadcastInDim S50000x128 ![0, 1] bcast_S50000x1_S50000x128_0_1 : (⟨S50000x1, .f32⟩ : BufTy).Contents (Elt F) → (⟨S50000x128, .f32⟩ : BufTy).Contents (Elt F)),
    binary main_v5 main_v43 main_v44 (mulf : (⟨S50000x128, .f32⟩ : BufTy).Contents (Elt F) → (⟨S50000x128, .f32⟩ : BufTy).Contents (Elt F) → (⟨S50000x128, .f32⟩ : BufTy).Contents (Elt F)),
    binary main_v40 main_v44 main_v45 (addf : (⟨S50000x128, .f32⟩ : BufTy).Contents (Elt F) → (⟨S50000x128, .f32⟩ : BufTy).Contents (Elt F) → (⟨S50000x128, .f32⟩ : BufTy).Contents (Elt F)) ]

/-- Operations 56 to 73 of @main. -/
abbrev w3 : List (HloOp τ sig (Elt F)) :=
  [ unary main_arg5 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v48) (TRef.of (T := ⟨S50000x128, .f32⟩) main_call0_v0) (TRef.of (T := ⟨S50000x128, .f32⟩) main_v49) maximumf,
    binary main_v49 main_arg6 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_8 (constant S_ .f32 0x00000000#32),
    unary main_cst_8 main_v51 (broadcastInDim S50000 ![] bcast_S_S50000 : (⟨S_, .f32⟩ : BufTy).Contents (Elt F) → (⟨S50000, .f32⟩ : BufTy).Contents (Elt F)),
    unary main_v3 main_v52 (broadcastInDim S800000x1 ![0] bcast_S800000_S800000x1_0 : (⟨S800000, .i32⟩ : BufTy).Contents (Elt F) → (⟨S800000x1, .i32⟩ : BufTy).Contents (Elt F)),
    ternary main_v51 main_v52 main_v4 main_v53 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v54 (broadcastInDim S50000 ![] bcast_S_S50000 : (⟨S_, .f32⟩ : BufTy).Contents (Elt F) → (⟨S50000, .f32⟩ : BufTy).Contents (Elt F)),
    binary main_v53 main_v54 main_v55 (addf : (⟨S50000, .f32⟩ : BufTy).Contents (Elt F) → (⟨S50000, .f32⟩ : BufTy).Contents (Elt F) → (⟨S50000, .f32⟩ : BufTy).Contents (Elt F)),
    unary main_v55 main_v56 (Host.rsqrt : (⟨S50000, .f32⟩ : BufTy).Contents (Elt F) → (⟨S50000, .f32⟩ : BufTy).Contents (Elt F)),
    nullary main_c_10 (constantI S_ 32 0#32),
    unary main_c_10 main_v57 (broadcastInDim S800000 ![] bcast_S_S800000 : (⟨S_, .i32⟩ : BufTy).Contents (Elt F) → (⟨S800000, .i32⟩ : BufTy).Contents (Elt F)),
    binary main_v1 main_v57 main_v58 (cmpi .slt : (⟨S800000, .i32⟩ : BufTy).Contents (Elt F) → (⟨S800000, .i32⟩ : BufTy).Contents (Elt F) → (⟨S800000, .i1⟩ : BufTy).Contents (Elt F)) ]

/-- Operations 74 to 91 of @main. -/
abbrev w4 : List (HloOp τ sig (Elt F)) :=
  [ nullary main_c_11 (constantI S_ 32 50000#32),
    unary main_c_11 main_v59 (broadcastInDim S800000 ![] bcast_S_S800000 : (⟨S_, .i32⟩ : BufTy).Contents (Elt F) → (⟨S800000, .i32⟩ : BufTy).Contents (Elt F)),
    binary main_v1 main_v59 main_v60 (addi : (⟨S800000, .i32⟩ : BufTy).Contents (Elt F) → (⟨S800000, .i32⟩ : BufTy).Contents (Elt F) → (⟨S800000, .i32⟩ : BufTy).Contents (Elt F)),
    ternary main_v58 main_v60 main_v1 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v61 main_v62 (broadcastInDim S800000x1 ![0] bcast_S800000_S800000x1_0 : (⟨S800000, .i32⟩ : BufTy).Contents (Elt F) → (⟨S800000x1, .i32⟩ : BufTy).Contents (Elt F)),
    binary main_v56 main_v62 main_v63 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v63 main_v4 main_v64 (mulf : (⟨S800000, .f32⟩ : BufTy).Contents (Elt F) → (⟨S800000, .f32⟩ : BufTy).Contents (Elt F) → (⟨S800000, .f32⟩ : BufTy).Contents (Elt F)),
    nullary main_c_12 (constantI S_ 32 0#32),
    unary main_c_12 main_v65 (broadcastInDim S800000 ![] bcast_S_S800000 : (⟨S_, .i32⟩ : BufTy).Contents (Elt F) → (⟨S800000, .i32⟩ : BufTy).Contents (Elt F)),
    binary main_v3 main_v65 main_v66 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v67 (broadcastInDim S800000 ![] bcast_S_S800000 : (⟨S_, .i32⟩ : BufTy).Contents (Elt F) → (⟨S800000, .i32⟩ : BufTy).Contents (Elt F)),
    binary main_v3 main_v67 main_v68 (addi : (⟨S800000, .i32⟩ : BufTy).Contents (Elt F) → (⟨S800000, .i32⟩ : BufTy).Contents (Elt F) → (⟨S800000, .i32⟩ : BufTy).Contents (Elt F)),
    ternary main_v66 main_v68 main_v3 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v69 main_v70 (broadcastInDim S800000x1 ![0] bcast_S800000_S800000x1_0 : (⟨S800000, .i32⟩ : BufTy).Contents (Elt F) → (⟨S800000x1, .i32⟩ : BufTy).Contents (Elt F)),
    binary main_v56 main_v70 main_v71 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v64 main_v71 main_v72 (mulf : (⟨S800000, .f32⟩ : BufTy).Contents (Elt F) → (⟨S800000, .f32⟩ : BufTy).Contents (Elt F) → (⟨S800000, .f32⟩ : BufTy).Contents (Elt F)),
    unary main_v72 main_v73 (broadcastInDim S800000x1 ![0] bcast_S800000_S800000x1_0 : (⟨S800000, .f32⟩ : BufTy).Contents (Elt F) → (⟨S800000x1, .f32⟩ : BufTy).Contents (Elt F)) ]

/-- Operations 92 to 111 of @main. -/
abbrev w5 : List (HloOp τ sig (Elt F)) :=
  [ nullary main_c_14 (constantI S_ 32 0#32),
    unary main_c_14 main_v74 (broadcastInDim S800000 ![] bcast_S_S800000 : (⟨S_, .i32⟩ : BufTy).Contents (Elt F) → (⟨S800000, .i32⟩ : BufTy).Contents (Elt F)),
    binary main_v1 main_v74 main_v75 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v76 (broadcastInDim S800000 ![] bcast_S_S800000 : (⟨S_, .i32⟩ : BufTy).Contents (Elt F) → (⟨S800000, .i32⟩ : BufTy).Contents (Elt F)),
    binary main_v1 main_v76 main_v77 (addi : (⟨S800000, .i32⟩ : BufTy).Contents (Elt F) → (⟨S800000, .i32⟩ : BufTy).Contents (Elt F) → (⟨S800000, .i32⟩ : BufTy).Contents (Elt F)),
    ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v78 main_v79 (broadcastInDim S800000x1 ![0] bcast_S800000_S800000x1_0 : (⟨S800000, .i32⟩ : BufTy).Contents (Elt F) → (⟨S800000x1, .i32⟩ : BufTy).Contents (Elt F)),
    binary main_v50 main_v79 main_v80 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v73 main_v81 (broadcastInDim S800000x128 ![0, 1] bcast_S800000x1_S800000x128_0_1 : (⟨S800000x1, .f32⟩ : BufTy).Contents (Elt F) → (⟨S800000x128, .f32⟩ : BufTy).Contents (Elt F)),
    binary main_v80 main_v81 main_v82 (mulf : (⟨S800000x128, .f32⟩ : BufTy).Contents (Elt F) → (⟨S800000x128, .f32⟩ : BufTy).Contents (Elt F) → (⟨S800000x128, .f32⟩ : BufTy).Contents (Elt F)),
    nullary main_cst_16 (constant S_ .f32 0x00000000#32),
    unary main_cst_16 main_v83 (broadcastInDim S50000x128 ![] bcast_S_S50000x128 : (⟨S_, .f32⟩ : BufTy).Contents (Elt F) → (⟨S50000x128, .f32⟩ : BufTy).Contents (Elt F)),
    unary main_v3 main_v84 (broadcastInDim S800000x1 ![0] bcast_S800000_S800000x1_0 : (⟨S800000, .i32⟩ : BufTy).Contents (Elt F) → (⟨S800000x1, .i32⟩ : BufTy).Contents (Elt F)),
    ternary main_v83 main_v84 main_v82 main_v85 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v56 main_v56 main_v86 (mulf : (⟨S50000, .f32⟩ : BufTy).Contents (Elt F) → (⟨S50000, .f32⟩ : BufTy).Contents (Elt F) → (⟨S50000, .f32⟩ : BufTy).Contents (Elt F)),
    unary main_v86 main_v87 (broadcastInDim S50000x1 ![0] bcast_S50000_S50000x1_0 : (⟨S50000, .f32⟩ : BufTy).Contents (Elt F) → (⟨S50000x1, .f32⟩ : BufTy).Contents (Elt F)),
    unary main_v87 main_v88 (broadcastInDim S50000x128 ![0, 1] bcast_S50000x1_S50000x128_0_1 : (⟨S50000x1, .f32⟩ : BufTy).Contents (Elt F) → (⟨S50000x128, .f32⟩ : BufTy).Contents (Elt F)),
    binary main_v50 main_v88 main_v89 (mulf : (⟨S50000x128, .f32⟩ : BufTy).Contents (Elt F) → (⟨S50000x128, .f32⟩ : BufTy).Contents (Elt F) → (⟨S50000x128, .f32⟩ : BufTy).Contents (Elt F)),
    binary main_v85 main_v89 main_v90 (addf : (⟨S50000x128, .f32⟩ : BufTy).Contents (Elt F) → (⟨S50000x128, .f32⟩ : BufTy).Contents (Elt F) → (⟨S50000x128, .f32⟩ : BufTy).Contents (Elt F)) ]

/-- Operations 112 to 137 of @main. -/
abbrev w6 : List (HloOp τ sig (Elt F)) :=
  [ unary main_arg7 main_v91 (broadcastInDim S1x128 ![1] bcast_S128_S1x128_1 : (⟨S128, .f32⟩ : BufTy).Contents (Elt F) → (⟨S1x128, .f32⟩ : BufTy).Contents (Elt F)),
    unary main_v91 main_v92 (broadcastInDim S50000x128 ![0, 1] bcast_S1x128_S50000x128_0_1 : (⟨S1x128, .f32⟩ : BufTy).Contents (Elt F) → (⟨S50000x128, .f32⟩ : BufTy).Contents (Elt F)),
    binary main_v90 main_v92 main_v93 (addf : (⟨S50000x128, .f32⟩ : BufTy).Contents (Elt F) → (⟨S50000x128, .f32⟩ : BufTy).Contents (Elt F) → (⟨S50000x128, .f32⟩ : BufTy).Contents (Elt F)),
    unary main_arg1 main_v94 ((extractStridedSlice S1x100000 ![0, 0] · slices_S2x100000_S1x100000_0_0) : (⟨S2x100000, .i32⟩ : BufTy).Contents (Elt F) → (⟨S1x100000, .i32⟩ : BufTy).Contents (Elt F)),
    reshape main_v94 main_v95 rfl shapeCasts_S1x100000_S100000,
    nullary main_c_17 (constantI S_ 32 0#32),
    unary main_c_17 main_v96 (broadcastInDim S100000 ![] bcast_S_S100000 : (⟨S_, .i32⟩ : BufTy).Contents (Elt F) → (⟨S100000, .i32⟩ : BufTy).Contents (Elt F)),
    binary main_v95 main_v96 main_v97 (cmpi .slt : (⟨S100000, .i32⟩ : BufTy).Contents (Elt F) → (⟨S100000, .i32⟩ : BufTy).Contents (Elt F) → (⟨S100000, .i1⟩ : BufTy).Contents (Elt F)),
    nullary main_c_18 (constantI S_ 32 50000#32),
    unary main_c_18 main_v98 (broadcastInDim S100000 ![] bcast_S_S100000 : (⟨S_, .i32⟩ : BufTy).Contents (Elt F) → (⟨S100000, .i32⟩ : BufTy).Contents (Elt F)),
    binary main_v95 main_v98 main_v99 (addi : (⟨S100000, .i32⟩ : BufTy).Contents (Elt F) → (⟨S100000, .i32⟩ : BufTy).Contents (Elt F) → (⟨S100000, .i32⟩ : BufTy).Contents (Elt F)),
    ternary main_v97 main_v99 main_v95 main_v100 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v100 main_v101 (broadcastInDim S100000x1 ![0] bcast_S100000_S100000x1_0 : (⟨S100000, .i32⟩ : BufTy).Contents (Elt F) → (⟨S100000x1, .i32⟩ : BufTy).Contents (Elt F)),
    binary main_v93 main_v101 main_v102 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)),
    unary main_arg1 main_v103 ((extractStridedSlice S1x100000 ![1, 0] · slices_S2x100000_S1x100000_1_0) : (⟨S2x100000, .i32⟩ : BufTy).Contents (Elt F) → (⟨S1x100000, .i32⟩ : BufTy).Contents (Elt F)),
    reshape main_v103 main_v104 rfl shapeCasts_S1x100000_S100000,
    nullary main_c_19 (constantI S_ 32 0#32),
    unary main_c_19 main_v105 (broadcastInDim S100000 ![] bcast_S_S100000 : (⟨S_, .i32⟩ : BufTy).Contents (Elt F) → (⟨S100000, .i32⟩ : BufTy).Contents (Elt F)),
    binary main_v104 main_v105 main_v106 (cmpi .slt : (⟨S100000, .i32⟩ : BufTy).Contents (Elt F) → (⟨S100000, .i32⟩ : BufTy).Contents (Elt F) → (⟨S100000, .i1⟩ : BufTy).Contents (Elt F)),
    nullary main_c_20 (constantI S_ 32 50000#32),
    unary main_c_20 main_v107 (broadcastInDim S100000 ![] bcast_S_S100000 : (⟨S_, .i32⟩ : BufTy).Contents (Elt F) → (⟨S100000, .i32⟩ : BufTy).Contents (Elt F)),
    binary main_v104 main_v107 main_v108 (addi : (⟨S100000, .i32⟩ : BufTy).Contents (Elt F) → (⟨S100000, .i32⟩ : BufTy).Contents (Elt F) → (⟨S100000, .i32⟩ : BufTy).Contents (Elt F)),
    ternary main_v106 main_v108 main_v104 main_v109 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v109 main_v110 (broadcastInDim S100000x1 ![0] bcast_S100000_S100000x1_0 : (⟨S100000, .i32⟩ : BufTy).Contents (Elt F) → (⟨S100000x1, .i32⟩ : BufTy).Contents (Elt F)),
    binary main_v93 main_v110 main_v111 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)),
    binary main_v102 main_v111 main_v112 (mulf : (⟨S100000x128, .f32⟩ : BufTy).Contents (Elt F) → (⟨S100000x128, .f32⟩ : BufTy).Contents (Elt F) → (⟨S100000x128, .f32⟩ : BufTy).Contents (Elt F)) ]

/-- Operations 138 to 156 of @main. -/
abbrev w7 : List (HloOp τ sig (Elt F)) :=
  [ nullary main_cst_21 (constant S_ .f32 0x00000000#32),
    binary main_v112 main_cst_21 main_v113 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v113 main_v114 (Host.negf : (⟨S100000, .f32⟩ : BufTy).Contents (Elt F) → (⟨S100000, .f32⟩ : BufTy).Contents (Elt F)),
    unary main_v114 main_v115 (Host.exp : (⟨S100000, .f32⟩ : BufTy).Contents (Elt F) → (⟨S100000, .f32⟩ : BufTy).Contents (Elt F)),
    nullary main_cst_22 (constant S_ .f32 0x3F800000#32),
    unary main_cst_22 main_v116 (broadcastInDim S100000 ![] bcast_S_S100000 : (⟨S_, .f32⟩ : BufTy).Contents (Elt F) → (⟨S100000, .f32⟩ : BufTy).Contents (Elt F)),
    binary main_v116 main_v115 main_v117 (addf : (⟨S100000, .f32⟩ : BufTy).Contents (Elt F) → (⟨S100000, .f32⟩ : BufTy).Contents (Elt F) → (⟨S100000, .f32⟩ : BufTy).Contents (Elt F)),
    nullary main_cst_23 (constant S_ .f32 0x3F800000#32),
    unary main_cst_23 main_v118 (broadcastInDim S100000 ![] bcast_S_S100000 : (⟨S_, .f32⟩ : BufTy).Contents (Elt F) → (⟨S100000, .f32⟩ : BufTy).Contents (Elt F)),
    binary main_v118 main_v117 main_v119 (Host.divf : (⟨S100000, .f32⟩ : BufTy).Contents (Elt F) → (⟨S100000, .f32⟩ : BufTy).Contents (Elt F) → (⟨S100000, .f32⟩ : BufTy).Contents (Elt F)),
    unary main_arg2 main_v120 ((extractStridedSlice S1x100000 ![0, 0] · slices_S2x100000_S1x100000_0_0) : (⟨S2x100000, .i32⟩ : BufTy).Contents (Elt F) → (⟨S1x100000, .i32⟩ : BufTy).Contents (Elt F)),
    reshape main_v120 main_v121 rfl shapeCasts_S1x100000_S100000,
    nullary main_c_24 (constantI S_ 32 0#32),
    unary main_c_24 main_v122 (broadcastInDim S100000 ![] bcast_S_S100000 : (⟨S_, .i32⟩ : BufTy).Contents (Elt F) → (⟨S100000, .i32⟩ : BufTy).Contents (Elt F)),
    binary main_v121 main_v122 main_v123 (cmpi .slt : (⟨S100000, .i32⟩ : BufTy).Contents (Elt F) → (⟨S100000, .i32⟩ : BufTy).Contents (Elt F) → (⟨S100000, .i1⟩ : BufTy).Contents (Elt F)),
    nullary main_c_25 (constantI S_ 32 50000#32),
    unary main_c_25 main_v124 (broadcastInDim S100000 ![] bcast_S_S100000 : (⟨S_, .i32⟩ : BufTy).Contents (Elt F) → (⟨S100000, .i32⟩ : BufTy).Contents (Elt F)),
    binary main_v121 main_v124 main_v125 (addi : (⟨S100000, .i32⟩ : BufTy).Contents (Elt F) → (⟨S100000, .i32⟩ : BufTy).Contents (Elt F) → (⟨S100000, .i32⟩ : BufTy).Contents (Elt F)),
    ternary main_v123 main_v125 main_v121 main_v126 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ]

/-- Operations 157 to 180 of @main. -/
abbrev w8 : List (HloOp τ sig (Elt F)) :=
  [ unary main_v126 main_v127 (broadcastInDim S100000x1 ![0] bcast_S100000_S100000x1_0 : (⟨S100000, .i32⟩ : BufTy).Contents (Elt F) → (⟨S100000x1, .i32⟩ : BufTy).Contents (Elt F)),
    binary main_v93 main_v127 main_v128 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)),
    unary main_arg2 main_v129 ((extractStridedSlice S1x100000 ![1, 0] · slices_S2x100000_S1x100000_1_0) : (⟨S2x100000, .i32⟩ : BufTy).Contents (Elt F) → (⟨S1x100000, .i32⟩ : BufTy).Contents (Elt F)),
    reshape main_v129 main_v130 rfl shapeCasts_S1x100000_S100000,
    nullary main_c_26 (constantI S_ 32 0#32),
    unary main_c_26 main_v131 (broadcastInDim S100000 ![] bcast_S_S100000 : (⟨S_, .i32⟩ : BufTy).Contents (Elt F) → (⟨S100000, .i32⟩ : BufTy).Contents (Elt F)),
    binary main_v130 main_v131 main_v132 (cmpi .slt : (⟨S100000, .i32⟩ : BufTy).Contents (Elt F) → (⟨S100000, .i32⟩ : BufTy).Contents (Elt F) → (⟨S100000, .i1⟩ : BufTy).Contents (Elt F)),
    nullary main_c_27 (constantI S_ 32 50000#32),
    unary main_c_27 main_v133 (broadcastInDim S100000 ![] bcast_S_S100000 : (⟨S_, .i32⟩ : BufTy).Contents (Elt F) → (⟨S100000, .i32⟩ : BufTy).Contents (Elt F)),
    binary main_v130 main_v133 main_v134 (addi : (⟨S100000, .i32⟩ : BufTy).Contents (Elt F) → (⟨S100000, .i32⟩ : BufTy).Contents (Elt F) → (⟨S100000, .i32⟩ : BufTy).Contents (Elt F)),
    ternary main_v132 main_v134 main_v130 main_v135 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v135 main_v136 (broadcastInDim S100000x1 ![0] bcast_S100000_S100000x1_0 : (⟨S100000, .i32⟩ : BufTy).Contents (Elt F) → (⟨S100000x1, .i32⟩ : BufTy).Contents (Elt F)),
    binary main_v93 main_v136 main_v137 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)),
    binary main_v128 main_v137 main_v138 (mulf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x00000000#32),
    binary main_v138 main_cst_28 main_v139 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v139 main_v140 (Host.negf : (⟨S100000, .f32⟩ : BufTy).Contents (Elt F) → (⟨S100000, .f32⟩ : BufTy).Contents (Elt F)),
    unary main_v140 main_v141 (Host.exp : (⟨S100000, .f32⟩ : BufTy).Contents (Elt F) → (⟨S100000, .f32⟩ : BufTy).Contents (Elt F)),
    nullary main_cst_29 (constant S_ .f32 0x3F800000#32),
    unary main_cst_29 main_v142 (broadcastInDim S100000 ![] bcast_S_S100000 : (⟨S_, .f32⟩ : BufTy).Contents (Elt F) → (⟨S100000, .f32⟩ : BufTy).Contents (Elt F)),
    binary main_v142 main_v141 main_v143 (addf : (⟨S100000, .f32⟩ : BufTy).Contents (Elt F) → (⟨S100000, .f32⟩ : BufTy).Contents (Elt F) → (⟨S100000, .f32⟩ : BufTy).Contents (Elt F)),
    nullary main_cst_30 (constant S_ .f32 0x3F800000#32),
    unary main_cst_30 main_v144 (broadcastInDim S100000 ![] bcast_S_S100000 : (⟨S_, .f32⟩ : BufTy).Contents (Elt F) → (⟨S100000, .f32⟩ : BufTy).Contents (Elt F)),
    binary main_v144 main_v143 main_v145 (Host.divf : (⟨S100000, .f32⟩ : BufTy).Contents (Elt F) → (⟨S100000, .f32⟩ : BufTy).Contents (Elt F) → (⟨S100000, .f32⟩ : BufTy).Contents (Elt F)) ]

/-- Operations 181 to 181 of @main. -/
abbrev w9 : List (HloOp τ sig (Elt F)) :=
  [ binary main_v119 main_v145 main_v146 ((fun a b => concatenate S200000 0 [⟨S100000, a⟩, ⟨S100000, b⟩] concatenates_S100000_S100000_S200000_d0) : (⟨S100000, .f32⟩ : BufTy).Contents (Elt F) → (⟨S100000, .f32⟩ : BufTy).Contents (Elt F) → (⟨S200000, .f32⟩ : BufTy).Contents (Elt F)) ]

/-- Operations 182 to 182 of @main. -/
abbrev w10 : List (HloOp τ sig (Elt F)) :=
  [ binary main_arg1 main_arg2 main_v147 ((fun a b => concatenate S2x200000 1 [⟨S2x100000, a⟩, ⟨S2x100000, b⟩] concatenates_S2x100000_S2x100000_S2x200000_d1) : (⟨S2x100000, .i32⟩ : BufTy).Contents (Elt F) → (⟨S2x100000, .i32⟩ : BufTy).Contents (Elt F) → (⟨S2x200000, .i32⟩ : BufTy).Contents (Elt F)) ]

/-- Operations 183 to 190 of @main. -/
abbrev w11 : List (HloOp τ sig (Elt F)) :=
  [ nullary main_cst_31 (constant S_ .f32 0x3F000000#32),
    unary main_cst_31 main_v148 (broadcastInDim S200000 ![] bcast_S_S200000 : (⟨S_, .f32⟩ : BufTy).Contents (Elt F) → (⟨S200000, .f32⟩ : BufTy).Contents (Elt F)),
    binary main_v146 main_v148 main_v149 (cmpf .ogt : (⟨S200000, .f32⟩ : BufTy).Contents (Elt F) → (⟨S200000, .f32⟩ : BufTy).Contents (Elt F) → (⟨S200000, .i1⟩ : BufTy).Contents (Elt F)),
    unary main_v149 main_v150 (uitofp .f32 : (⟨S200000, .i1⟩ : BufTy).Contents (Elt F) → (⟨S200000, .f32⟩ : BufTy).Contents (Elt F)),
    unary main_v147 main_v151 ((extractStridedSlice S1x200000 ![0, 0] · slices_S2x200000_S1x200000_0_0) : (⟨S2x200000, .i32⟩ : BufTy).Contents (Elt F) → (⟨S1x200000, .i32⟩ : BufTy).Contents (Elt F)),
    reshape main_v151 main_v152 rfl shapeCasts_S1x200000_S200000,
    unary main_v147 main_v153 ((extractStridedSlice S1x200000 ![1, 0] · slices_S2x200000_S1x200000_1_0) : (⟨S2x200000, .i32⟩ : BufTy).Contents (Elt F) → (⟨S1x200000, .i32⟩ : BufTy).Contents (Elt F)),
    reshape main_v153 main_v154 rfl shapeCasts_S1x200000_S200000 ]

/-- Operations 191 to 191 of @main. -/
abbrev w12 : List (HloOp τ sig (Elt F)) :=
  [ nary ![main_v1, main_v152, main_v154] main_v155 (fun u => concatenate S1200000 0 [⟨S800000, u 0⟩, ⟨S200000, u 1⟩, ⟨S200000, u 2⟩] concatenates_S800000_S200000_S200000_S1200000_d0) ]

/-- Operations 192 to 195 of @main. -/
abbrev w13 : List (HloOp τ sig (Elt F)) :=
  [ unary main_v147 main_v156 ((extractStridedSlice S1x200000 ![1, 0] · slices_S2x200000_S1x200000_1_0) : (⟨S2x200000, .i32⟩ : BufTy).Contents (Elt F) → (⟨S1x200000, .i32⟩ : BufTy).Contents (Elt F)),
    reshape main_v156 main_v157 rfl shapeCasts_S1x200000_S200000,
    unary main_v147 main_v158 ((extractStridedSlice S1x200000 ![0, 0] · slices_S2x200000_S1x200000_0_0) : (⟨S2x200000, .i32⟩ : BufTy).Contents (Elt F) → (⟨S1x200000, .i32⟩ : BufTy).Contents (Elt F)),
    reshape main_v158 main_v159 rfl shapeCasts_S1x200000_S200000 ]

/-- Operations 196 to 196 of @main. -/
abbrev w14 : List (HloOp τ sig (Elt F)) :=
  [ nary ![main_v3, main_v157, main_v159] main_v160 (fun u => concatenate S1200000 0 [⟨S800000, u 0⟩, ⟨S200000, u 1⟩, ⟨S200000, u 2⟩] concatenates_S800000_S200000_S200000_S1200000_d0) ]

/-- Operations 197 to 197 of @main. -/
abbrev w15 : List (HloOp τ sig (Elt F)) :=
  [ nary ![main_v4, main_v150, main_v150] main_v161 (fun u => concatenate S1200000 0 [⟨S800000, u 0⟩, ⟨S200000, u 1⟩, ⟨S200000, u 2⟩] concatenates_S800000_S200000_S200000_S1200000_d0) ]

/-- Operations 198 to 226 of @main. -/
abbrev w16 : List (HloOp τ sig (Elt F)) :=
  [ binary main_arg0 main_arg8 main_v162 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_cst_32 (constant S_ .f32 0x00000000#32),
    unary main_cst_32 main_v163 (broadcastInDim S50000 ![] bcast_S_S50000 : (⟨S_, .f32⟩ : BufTy).Contents (Elt F) → (⟨S50000, .f32⟩ : BufTy).Contents (Elt F)),
    unary main_v160 main_v164 (broadcastInDim S1200000x1 ![0] bcast_S1200000_S1200000x1_0 : (⟨S1200000, .i32⟩ : BufTy).Contents (Elt F) → (⟨S1200000x1, .i32⟩ : BufTy).Contents (Elt F)),
    ternary main_v163 main_v164 main_v161 main_v165 ((fun x i u => Host.scatterAdd scatter_S50000_S1200000x1_S1200000_n_0_0_1 x i u) : (⟨S50000, .f32⟩ : BufTy).Contents (Elt F) → (⟨S1200000x1, .i32⟩ : BufTy).Contents (Elt F) → (⟨S1200000, .f32⟩ : BufTy).Contents (Elt F) → (⟨S50000, .f32⟩ : BufTy).Contents (Elt F)),
    nullary main_cst_33 (constant S_ .f32 0x3F800000#32),
    unary main_cst_33 main_v166 (broadcastInDim S50000 ![] bcast_S_S50000 : (⟨S_, .f32⟩ : BufTy).Contents (Elt F) → (⟨S50000, .f32⟩ : BufTy).Contents (Elt F)),
    binary main_v165 main_v166 main_v167 (addf : (⟨S50000, .f32⟩ : BufTy).Contents (Elt F) → (⟨S50000, .f32⟩ : BufTy).Contents (Elt F) → (⟨S50000, .f32⟩ : BufTy).Contents (Elt F)),
    unary main_v167 main_v168 (Host.rsqrt : (⟨S50000, .f32⟩ : BufTy).Contents (Elt F) → (⟨S50000, .f32⟩ : BufTy).Contents (Elt F)),
    nullary main_c_34 (constantI S_ 32 0#32),
    unary main_c_34 main_v169 (broadcastInDim S1200000 ![] bcast_S_S1200000 : (⟨S_, .i32⟩ : BufTy).Contents (Elt F) → (⟨S1200000, .i32⟩ : BufTy).Contents (Elt F)),
    binary main_v155 main_v169 main_v170 (cmpi .slt : (⟨S1200000, .i32⟩ : BufTy).Contents (Elt F) → (⟨S1200000, .i32⟩ : BufTy).Contents (Elt F) → (⟨S1200000, .i1⟩ : BufTy).Contents (Elt F)),
    nullary main_c_35 (constantI S_ 32 50000#32),
    unary main_c_35 main_v171 (broadcastInDim S1200000 ![] bcast_S_S1200000 : (⟨S_, .i32⟩ : BufTy).Contents (Elt F) → (⟨S1200000, .i32⟩ : BufTy).Contents (Elt F)),
    binary main_v155 main_v171 main_v172 (addi : (⟨S1200000, .i32⟩ : BufTy).Contents (Elt F) → (⟨S1200000, .i32⟩ : BufTy).Contents (Elt F) → (⟨S1200000, .i32⟩ : BufTy).Contents (Elt F)),
    ternary main_v170 main_v172 main_v155 main_v173 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v173 main_v174 (broadcastInDim S1200000x1 ![0] bcast_S1200000_S1200000x1_0 : (⟨S1200000, .i32⟩ : BufTy).Contents (Elt F) → (⟨S1200000x1, .i32⟩ : BufTy).Contents (Elt F)),
    binary main_v168 main_v174 main_v175 ((fun x i => Host.gather gather_S50000_S1200000x1_S1200000_n_0_n_n_0_1_1 x i) : (⟨S50000, .f32⟩ : BufTy).Contents (Elt F) → (⟨S1200000x1, .i32⟩ : BufTy).Contents (Elt F) → (⟨S1200000, .f32⟩ : BufTy).Contents (Elt F)),
    binary main_v175 main_v161 main_v176 (mulf : (⟨S1200000, .f32⟩ : BufTy).Contents (Elt F) → (⟨S1200000, .f32⟩ : BufTy).Contents (Elt F) → (⟨S1200000, .f32⟩ : BufTy).Contents (Elt F)),
    nullary main_c_36 (constantI S_ 32 0#32),
    unary main_c_36 main_v177 (broadcastInDim S1200000 ![] bcast_S_S1200000 : (⟨S_, .i32⟩ : BufTy).Contents (Elt F) → (⟨S1200000, .i32⟩ : BufTy).Contents (Elt F)),
    binary main_v160 main_v177 main_v178 (cmpi .slt : (⟨S1200000, .i32⟩ : BufTy).Contents (Elt F) → (⟨S1200000, .i32⟩ : BufTy).Contents (Elt F) → (⟨S1200000, .i1⟩ : BufTy).Contents (Elt F)),
    nullary main_c_37 (constantI S_ 32 50000#32),
    unary main_c_37 main_v179 (broadcastInDim S1200000 ![] bcast_S_S1200000 : (⟨S_, .i32⟩ : BufTy).Contents (Elt F) → (⟨S1200000, .i32⟩ : BufTy).Contents (Elt F)),
    binary main_v160 main_v179 main_v180 (addi : (⟨S1200000, .i32⟩ : BufTy).Contents (Elt F) → (⟨S1200000, .i32⟩ : BufTy).Contents (Elt F) → (⟨S1200000, .i32⟩ : BufTy).Contents (Elt F)),
    ternary main_v178 main_v180 main_v160 main_v181 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v181 main_v182 (broadcastInDim S1200000x1 ![0] bcast_S1200000_S1200000x1_0 : (⟨S1200000, .i32⟩ : BufTy).Contents (Elt F) → (⟨S1200000x1, .i32⟩ : BufTy).Contents (Elt F)),
    binary main_v168 main_v182 main_v183 ((fun x i => Host.gather gather_S50000_S1200000x1_S1200000_n_0_n_n_0_1_1 x i) : (⟨S50000, .f32⟩ : BufTy).Contents (Elt F) → (⟨S1200000x1, .i32⟩ : BufTy).Contents (Elt F) → (⟨S1200000, .f32⟩ : BufTy).Contents (Elt F)),
    binary main_v176 main_v183 main_v184 (mulf : (⟨S1200000, .f32⟩ : BufTy).Contents (Elt F) → (⟨S1200000, .f32⟩ : BufTy).Contents (Elt F) → (⟨S1200000, .f32⟩ : BufTy).Contents (Elt F)) ]

/-- Operations 227 to 247 of @main. -/
abbrev w17 : List (HloOp τ sig (Elt F)) :=
  [ unary main_v184 main_v185 (broadcastInDim S1200000x1 ![0] bcast_S1200000_S1200000x1_0 : (⟨S1200000, .f32⟩ : BufTy).Contents (Elt F) → (⟨S1200000x1, .f32⟩ : BufTy).Contents (Elt F)),
    nullary main_c_38 (constantI S_ 32 0#32),
    unary main_c_38 main_v186 (broadcastInDim S1200000 ![] bcast_S_S1200000 : (⟨S_, .i32⟩ : BufTy).Contents (Elt F) → (⟨S1200000, .i32⟩ : BufTy).Contents (Elt F)),
    binary main_v155 main_v186 main_v187 (cmpi .slt : (⟨S1200000, .i32⟩ : BufTy).Contents (Elt F) → (⟨S1200000, .i32⟩ : BufTy).Contents (Elt F) → (⟨S1200000, .i1⟩ : BufTy).Contents (Elt F)),
    nullary main_c_39 (constantI S_ 32 50000#32),
    unary main_c_39 main_v188 (broadcastInDim S1200000 ![] bcast_S_S1200000 : (⟨S_, .i32⟩ : BufTy).Contents (Elt F) → (⟨S1200000, .i32⟩ : BufTy).Contents (Elt F)),
    binary main_v155 main_v188 main_v189 (addi : (⟨S1200000, .i32⟩ : BufTy).Contents (Elt F) → (⟨S1200000, .i32⟩ : BufTy).Contents (Elt F) → (⟨S1200000, .i32⟩ : BufTy).Contents (Elt F)),
    ternary main_v187 main_v189 main_v155 main_v190 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v190 main_v191 (broadcastInDim S1200000x1 ![0] bcast_S1200000_S1200000x1_0 : (⟨S1200000, .i32⟩ : BufTy).Contents (Elt F) → (⟨S1200000x1, .i32⟩ : BufTy).Contents (Elt F)),
    binary main_v162 main_v191 main_v192 ((fun x i => Host.gather gather_S50000x128_S1200000x1_S1200000x128_1_0_n_n_0_1_1128 x i) : (⟨S50000x128, .f32⟩ : BufTy).Contents (Elt F) → (⟨S1200000x1, .i32⟩ : BufTy).Contents (Elt F) → (⟨S1200000x128, .f32⟩ : BufTy).Contents (Elt F)),
    unary main_v185 main_v193 (broadcastInDim S1200000x128 ![0, 1] bcast_S1200000x1_S1200000x128_0_1 : (⟨S1200000x1, .f32⟩ : BufTy).Contents (Elt F) → (⟨S1200000x128, .f32⟩ : BufTy).Contents (Elt F)),
    binary main_v192 main_v193 main_v194 (mulf : (⟨S1200000x128, .f32⟩ : BufTy).Contents (Elt F) → (⟨S1200000x128, .f32⟩ : BufTy).Contents (Elt F) → (⟨S1200000x128, .f32⟩ : BufTy).Contents (Elt F)),
    nullary main_cst_40 (constant S_ .f32 0x00000000#32),
    unary main_cst_40 main_v195 (broadcastInDim S50000x128 ![] bcast_S_S50000x128 : (⟨S_, .f32⟩ : BufTy).Contents (Elt F) → (⟨S50000x128, .f32⟩ : BufTy).Contents (Elt F)),
    unary main_v160 main_v196 (broadcastInDim S1200000x1 ![0] bcast_S1200000_S1200000x1_0 : (⟨S1200000, .i32⟩ : BufTy).Contents (Elt F) → (⟨S1200000x1, .i32⟩ : BufTy).Contents (Elt F)),
    ternary main_v195 main_v196 main_v194 main_v197 ((fun x i u => Host.scatterAdd scatter_S50000x128_S1200000x1_S1200000x128_1_0_0_1 x i u) : (⟨S50000x128, .f32⟩ : BufTy).Contents (Elt F) → (⟨S1200000x1, .i32⟩ : BufTy).Contents (Elt F) → (⟨S1200000x128, .f32⟩ : BufTy).Contents (Elt F) → (⟨S50000x128, .f32⟩ : BufTy).Contents (Elt F)),
    binary main_v168 main_v168 main_v198 (mulf : (⟨S50000, .f32⟩ : BufTy).Contents (Elt F) → (⟨S50000, .f32⟩ : BufTy).Contents (Elt F) → (⟨S50000, .f32⟩ : BufTy).Contents (Elt F)),
    unary main_v198 main_v199 (broadcastInDim S50000x1 ![0] bcast_S50000_S50000x1_0 : (⟨S50000, .f32⟩ : BufTy).Contents (Elt F) → (⟨S50000x1, .f32⟩ : BufTy).Contents (Elt F)),
    unary main_v199 main_v200 (broadcastInDim S50000x128 ![0, 1] bcast_S50000x1_S50000x128_0_1 : (⟨S50000x1, .f32⟩ : BufTy).Contents (Elt F) → (⟨S50000x128, .f32⟩ : BufTy).Contents (Elt F)),
    binary main_v162 main_v200 main_v201 (mulf : (⟨S50000x128, .f32⟩ : BufTy).Contents (Elt F) → (⟨S50000x128, .f32⟩ : BufTy).Contents (Elt F) → (⟨S50000x128, .f32⟩ : BufTy).Contents (Elt F)),
    binary main_v197 main_v201 main_v202 (addf : (⟨S50000x128, .f32⟩ : BufTy).Contents (Elt F) → (⟨S50000x128, .f32⟩ : BufTy).Contents (Elt F) → (⟨S50000x128, .f32⟩ : BufTy).Contents (Elt F)) ]

/-- Operations 248 to 272 of @main. -/
abbrev w18 : List (HloOp τ sig (Elt F)) :=
  [ unary main_arg9 main_v203 (broadcastInDim S1x128 ![1] bcast_S128_S1x128_1 : (⟨S128, .f32⟩ : BufTy).Contents (Elt F) → (⟨S1x128, .f32⟩ : BufTy).Contents (Elt F)),
    unary main_v203 main_v204 (broadcastInDim S50000x128 ![0, 1] bcast_S1x128_S50000x128_0_1 : (⟨S1x128, .f32⟩ : BufTy).Contents (Elt F) → (⟨S50000x128, .f32⟩ : BufTy).Contents (Elt F)),
    binary main_v202 main_v204 main_v205 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v205) (TRef.of (T := ⟨S50000x128, .f32⟩) main_call1_v0) (TRef.of (T := ⟨S50000x128, .f32⟩) main_v206) maximumf,
    binary main_v206 main_arg10 main_v207 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    nullary main_cst_41 (constant S_ .f32 0x00000000#32),
    unary main_cst_41 main_v208 (broadcastInDim S50000 ![] bcast_S_S50000 : (⟨S_, .f32⟩ : BufTy).Contents (Elt F) → (⟨S50000, .f32⟩ : BufTy).Contents (Elt F)),
    unary main_v160 main_v209 (broadcastInDim S1200000x1 ![0] bcast_S1200000_S1200000x1_0 : (⟨S1200000, .i32⟩ : BufTy).Contents (Elt F) → (⟨S1200000x1, .i32⟩ : BufTy).Contents (Elt F)),
    ternary main_v208 main_v209 main_v161 main_v210 ((fun x i u => Host.scatterAdd scatter_S50000_S1200000x1_S1200000_n_0_0_1 x i u) : (⟨S50000, .f32⟩ : BufTy).Contents (Elt F) → (⟨S1200000x1, .i32⟩ : BufTy).Contents (Elt F) → (⟨S1200000, .f32⟩ : BufTy).Contents (Elt F) → (⟨S50000, .f32⟩ : BufTy).Contents (Elt F)),
    nullary main_cst_42 (constant S_ .f32 0x3F800000#32),
    unary main_cst_42 main_v211 (broadcastInDim S50000 ![] bcast_S_S50000 : (⟨S_, .f32⟩ : BufTy).Contents (Elt F) → (⟨S50000, .f32⟩ : BufTy).Contents (Elt F)),
    binary main_v210 main_v211 main_v212 (addf : (⟨S50000, .f32⟩ : BufTy).Contents (Elt F) → (⟨S50000, .f32⟩ : BufTy).Contents (Elt F) → (⟨S50000, .f32⟩ : BufTy).Contents (Elt F)),
    unary main_v212 main_v213 (Host.rsqrt : (⟨S50000, .f32⟩ : BufTy).Contents (Elt F) → (⟨S50000, .f32⟩ : BufTy).Contents (Elt F)),
    nullary main_c_43 (constantI S_ 32 0#32),
    unary main_c_43 main_v214 (broadcastInDim S1200000 ![] bcast_S_S1200000 : (⟨S_, .i32⟩ : BufTy).Contents (Elt F) → (⟨S1200000, .i32⟩ : BufTy).Contents (Elt F)),
    binary main_v155 main_v214 main_v215 (cmpi .slt : (⟨S1200000, .i32⟩ : BufTy).Contents (Elt F) → (⟨S1200000, .i32⟩ : BufTy).Contents (Elt F) → (⟨S1200000, .i1⟩ : BufTy).Contents (Elt F)),
    nullary main_c_44 (constantI S_ 32 50000#32),
    unary main_c_44 main_v216 (broadcastInDim S1200000 ![] bcast_S_S1200000 : (⟨S_, .i32⟩ : BufTy).Contents (Elt F) → (⟨S1200000, .i32⟩ : BufTy).Contents (Elt F)),
    binary main_v155 main_v216 main_v217 (addi : (⟨S1200000, .i32⟩ : BufTy).Contents (Elt F) → (⟨S1200000, .i32⟩ : BufTy).Contents (Elt F) → (⟨S1200000, .i32⟩ : BufTy).Contents (Elt F)),
    ternary main_v215 main_v217 main_v155 main_v218 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v218 main_v219 (broadcastInDim S1200000x1 ![0] bcast_S1200000_S1200000x1_0 : (⟨S1200000, .i32⟩ : BufTy).Contents (Elt F) → (⟨S1200000x1, .i32⟩ : BufTy).Contents (Elt F)),
    binary main_v213 main_v219 main_v220 ((fun x i => Host.gather gather_S50000_S1200000x1_S1200000_n_0_n_n_0_1_1 x i) : (⟨S50000, .f32⟩ : BufTy).Contents (Elt F) → (⟨S1200000x1, .i32⟩ : BufTy).Contents (Elt F) → (⟨S1200000, .f32⟩ : BufTy).Contents (Elt F)),
    binary main_v220 main_v161 main_v221 (mulf : (⟨S1200000, .f32⟩ : BufTy).Contents (Elt F) → (⟨S1200000, .f32⟩ : BufTy).Contents (Elt F) → (⟨S1200000, .f32⟩ : BufTy).Contents (Elt F)) ]

/-- Operations 273 to 298 of @main. -/
abbrev w19 : List (HloOp τ sig (Elt F)) :=
  [ nullary main_c_45 (constantI S_ 32 0#32),
    unary main_c_45 main_v222 (broadcastInDim S1200000 ![] bcast_S_S1200000 : (⟨S_, .i32⟩ : BufTy).Contents (Elt F) → (⟨S1200000, .i32⟩ : BufTy).Contents (Elt F)),
    binary main_v160 main_v222 main_v223 (cmpi .slt : (⟨S1200000, .i32⟩ : BufTy).Contents (Elt F) → (⟨S1200000, .i32⟩ : BufTy).Contents (Elt F) → (⟨S1200000, .i1⟩ : BufTy).Contents (Elt F)),
    nullary main_c_46 (constantI S_ 32 50000#32),
    unary main_c_46 main_v224 (broadcastInDim S1200000 ![] bcast_S_S1200000 : (⟨S_, .i32⟩ : BufTy).Contents (Elt F) → (⟨S1200000, .i32⟩ : BufTy).Contents (Elt F)),
    binary main_v160 main_v224 main_v225 (addi : (⟨S1200000, .i32⟩ : BufTy).Contents (Elt F) → (⟨S1200000, .i32⟩ : BufTy).Contents (Elt F) → (⟨S1200000, .i32⟩ : BufTy).Contents (Elt F)),
    ternary main_v223 main_v225 main_v160 main_v226 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v226 main_v227 (broadcastInDim S1200000x1 ![0] bcast_S1200000_S1200000x1_0 : (⟨S1200000, .i32⟩ : BufTy).Contents (Elt F) → (⟨S1200000x1, .i32⟩ : BufTy).Contents (Elt F)),
    binary main_v213 main_v227 main_v228 ((fun x i => Host.gather gather_S50000_S1200000x1_S1200000_n_0_n_n_0_1_1 x i) : (⟨S50000, .f32⟩ : BufTy).Contents (Elt F) → (⟨S1200000x1, .i32⟩ : BufTy).Contents (Elt F) → (⟨S1200000, .f32⟩ : BufTy).Contents (Elt F)),
    binary main_v221 main_v228 main_v229 (mulf : (⟨S1200000, .f32⟩ : BufTy).Contents (Elt F) → (⟨S1200000, .f32⟩ : BufTy).Contents (Elt F) → (⟨S1200000, .f32⟩ : BufTy).Contents (Elt F)),
    unary main_v229 main_v230 (broadcastInDim S1200000x1 ![0] bcast_S1200000_S1200000x1_0 : (⟨S1200000, .f32⟩ : BufTy).Contents (Elt F) → (⟨S1200000x1, .f32⟩ : BufTy).Contents (Elt F)),
    nullary main_c_47 (constantI S_ 32 0#32),
    unary main_c_47 main_v231 (broadcastInDim S1200000 ![] bcast_S_S1200000 : (⟨S_, .i32⟩ : BufTy).Contents (Elt F) → (⟨S1200000, .i32⟩ : BufTy).Contents (Elt F)),
    binary main_v155 main_v231 main_v232 (cmpi .slt : (⟨S1200000, .i32⟩ : BufTy).Contents (Elt F) → (⟨S1200000, .i32⟩ : BufTy).Contents (Elt F) → (⟨S1200000, .i1⟩ : BufTy).Contents (Elt F)),
    nullary main_c_48 (constantI S_ 32 50000#32),
    unary main_c_48 main_v233 (broadcastInDim S1200000 ![] bcast_S_S1200000 : (⟨S_, .i32⟩ : BufTy).Contents (Elt F) → (⟨S1200000, .i32⟩ : BufTy).Contents (Elt F)),
    binary main_v155 main_v233 main_v234 (addi : (⟨S1200000, .i32⟩ : BufTy).Contents (Elt F) → (⟨S1200000, .i32⟩ : BufTy).Contents (Elt F) → (⟨S1200000, .i32⟩ : BufTy).Contents (Elt F)),
    ternary main_v232 main_v234 main_v155 main_v235 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v235 main_v236 (broadcastInDim S1200000x1 ![0] bcast_S1200000_S1200000x1_0 : (⟨S1200000, .i32⟩ : BufTy).Contents (Elt F) → (⟨S1200000x1, .i32⟩ : BufTy).Contents (Elt F)),
    binary main_v207 main_v236 main_v237 ((fun x i => Host.gather gather_S50000x16_S1200000x1_S1200000x16_1_0_n_n_0_1_116 x i) : (⟨S50000x16, .f32⟩ : BufTy).Contents (Elt F) → (⟨S1200000x1, .i32⟩ : BufTy).Contents (Elt F) → (⟨S1200000x16, .f32⟩ : BufTy).Contents (Elt F)),
    unary main_v230 main_v238 (broadcastInDim S1200000x16 ![0, 1] bcast_S1200000x1_S1200000x16_0_1 : (⟨S1200000x1, .f32⟩ : BufTy).Contents (Elt F) → (⟨S1200000x16, .f32⟩ : BufTy).Contents (Elt F)),
    binary main_v237 main_v238 main_v239 (mulf : (⟨S1200000x16, .f32⟩ : BufTy).Contents (Elt F) → (⟨S1200000x16, .f32⟩ : BufTy).Contents (Elt F) → (⟨S1200000x16, .f32⟩ : BufTy).Contents (Elt F)),
    nullary main_cst_49 (constant S_ .f32 0x00000000#32),
    unary main_cst_49 main_v240 (broadcastInDim S50000x16 ![] bcast_S_S50000x16 : (⟨S_, .f32⟩ : BufTy).Contents (Elt F) → (⟨S50000x16, .f32⟩ : BufTy).Contents (Elt F)),
    unary main_v160 main_v241 (broadcastInDim S1200000x1 ![0] bcast_S1200000_S1200000x1_0 : (⟨S1200000, .i32⟩ : BufTy).Contents (Elt F) → (⟨S1200000x1, .i32⟩ : BufTy).Contents (Elt F)),
    ternary main_v240 main_v241 main_v239 main_v242 ((fun x i u => Host.scatterAdd scatter_S50000x16_S1200000x1_S1200000x16_1_0_0_1 x i u) : (⟨S50000x16, .f32⟩ : BufTy).Contents (Elt F) → (⟨S1200000x1, .i32⟩ : BufTy).Contents (Elt F) → (⟨S1200000x16, .f32⟩ : BufTy).Contents (Elt F) → (⟨S50000x16, .f32⟩ : BufTy).Contents (Elt F)) ]

/-- Operations 299 to 324 of @main. -/
abbrev w20 : List (HloOp τ sig (Elt F)) :=
  [ binary main_v213 main_v213 main_v243 (mulf : (⟨S50000, .f32⟩ : BufTy).Contents (Elt F) → (⟨S50000, .f32⟩ : BufTy).Contents (Elt F) → (⟨S50000, .f32⟩ : BufTy).Contents (Elt F)),
    unary main_v243 main_v244 (broadcastInDim S50000x1 ![0] bcast_S50000_S50000x1_0 : (⟨S50000, .f32⟩ : BufTy).Contents (Elt F) → (⟨S50000x1, .f32⟩ : BufTy).Contents (Elt F)),
    unary main_v244 main_v245 (broadcastInDim S50000x16 ![0, 1] bcast_S50000x1_S50000x16_0_1 : (⟨S50000x1, .f32⟩ : BufTy).Contents (Elt F) → (⟨S50000x16, .f32⟩ : BufTy).Contents (Elt F)),
    binary main_v207 main_v245 main_v246 (mulf : (⟨S50000x16, .f32⟩ : BufTy).Contents (Elt F) → (⟨S50000x16, .f32⟩ : BufTy).Contents (Elt F) → (⟨S50000x16, .f32⟩ : BufTy).Contents (Elt F)),
    binary main_v242 main_v246 main_v247 (addf : (⟨S50000x16, .f32⟩ : BufTy).Contents (Elt F) → (⟨S50000x16, .f32⟩ : BufTy).Contents (Elt F) → (⟨S50000x16, .f32⟩ : BufTy).Contents (Elt F)),
    unary main_arg11 main_v248 (broadcastInDim S1x16 ![1] bcast_S16_S1x16_1 : (⟨S16, .f32⟩ : BufTy).Contents (Elt F) → (⟨S1x16, .f32⟩ : BufTy).Contents (Elt F)),
    unary main_v248 main_v249 (broadcastInDim S50000x16 ![0, 1] bcast_S1x16_S50000x16_0_1 : (⟨S1x16, .f32⟩ : BufTy).Contents (Elt F) → (⟨S50000x16, .f32⟩ : BufTy).Contents (Elt F)),
    binary main_v247 main_v249 main_v250 (addf : (⟨S50000x16, .f32⟩ : BufTy).Contents (Elt F) → (⟨S50000x16, .f32⟩ : BufTy).Contents (Elt F) → (⟨S50000x16, .f32⟩ : BufTy).Contents (Elt F)),
    nullary main_cst_50 (constant S_ .f32 0x00000000#32),
    binary main_v150 main_cst_50 main_v251 ((fun x v => Host.reduceAdd x v reducesTo_S200000_S_d0 h_S_) : (⟨S200000, .f32⟩ : BufTy).Contents (Elt F) → (⟨S_, .f32⟩ : BufTy).Contents (Elt F) → (⟨S_, .f32⟩ : BufTy).Contents (Elt F)),
    unary main_v251 main_v252 (fptosi 32 : (⟨S_, .f32⟩ : BufTy).Contents (Elt F) → (⟨S_, .i32⟩ : BufTy).Contents (Elt F)),
    TRef.nullary (TRef.of (T := ⟨S_, .f32⟩) main_call2_cst) (constant S_ .f32 0xFF800000#32),
    TRef.binary (TRef.of (T := ⟨S50000x16, .f32⟩) main_v250) (TRef.of (T := ⟨S_, .f32⟩) main_call2_cst) (TRef.of (T := ⟨S50000, .f32⟩) main_call2_v0) (fun x v => Host.reduce FloatOps.maximumf x v reducesTo_S50000x16_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x16, .f32⟩) main_call2_v4) (broadcastInDim S50000x16 ![0, 1] bcast_S50000x1_S50000x16_0_1),
    TRef.binary (TRef.of (T := ⟨S50000x16, .f32⟩) main_v250) (TRef.of (T := ⟨S50000x16, .f32⟩) main_call2_v4) (TRef.of (T := ⟨S50000x16, .f32⟩) main_call2_v5) subf,
    TRef.unary (TRef.of (T := ⟨S50000x16, .f32⟩) main_call2_v5) (TRef.of (T := ⟨S50000x16, .f32⟩) main_call2_v6) Host.exp,
    TRef.nullary (TRef.of (T := ⟨S_, .f32⟩) main_call2_cst_1) (constant S_ .f32 0x00000000#32),
    TRef.binary (TRef.of (T := ⟨S50000x16, .f32⟩) main_call2_v6) (TRef.of (T := ⟨S_, .f32⟩) main_call2_cst_1) (TRef.of (T := ⟨S50000, .f32⟩) main_call2_v7) (fun x v => Host.reduceAdd x v reducesTo_S50000x16_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x16, .f32⟩) main_call2_v10) (broadcastInDim S50000x16 ![0, 1] bcast_S50000x1_S50000x16_0_1),
    TRef.binary (TRef.of (T := ⟨S50000x16, .f32⟩) main_call2_v5) (TRef.of (T := ⟨S50000x16, .f32⟩) main_call2_v10) (TRef.of (T := ⟨S50000x16, .f32⟩) main_v253) subf ]

end Cert.ReferenceIdeal.RefValue

end
-- ==== Proof.RefVals1.lean ====
/-
  The invariant of the reference's run is carried through windows 0 to 6 (operations 0 to 137: the first encoder layer, the second, and the first decoder's gathers).
  Each step is the same computation: the fold of the window's operations at a buffer it writes is that operation's
  function of the contents of the buffers it reads; those are, by the invariant or by the same computation inside the
  window, stage functions of the arguments; and a stage function is by definition the operation's function of the
  stage functions of its operands. A buffer the window does not write keeps its contents.
-/
import proofs.«128511_j38740605010536_2_alg».proof.Proof.RefValsDefs

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 8192 in
set_option maxHeartbeats 4000000 in
/-- Operations 0 to 17 carry the invariant on: each value they compute that is read later is its stage function. -/
theorem step0 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St0 a0 a1 a2 a3 a4 a5 a6 a7 a8 a9 a10 a11 V) : St1 a0 a1 a2 a3 a4 a5 a6 a7 a8 a9 a10 a11 (after (w0 (F := F)) V) := by
  obtain ⟨hA0, hA1, hA2, hA3, hA4, hA5, hA6, hA7, hA8, hA9, hA10, hA11⟩ := h
  refine ⟨?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11]
    try simp only [TRef.ofBuf, TRef.toBuf, cast_cast, cast_eq]
    rfl
  · after_results_simp
    try simp only [hA0, hA1, hA2, hA3, hA4, hA5, hA6, hA7, hA8, hA9, hA10, hA11]
    try simp only [TRef.ofBuf, TRef.toBuf, cast_cast, cast_eq]
    rfl
  · after_results_simp
    try simp only [hA0, hA1, hA2, hA3, hA4, hA5, hA6, hA7, hA8, hA9, hA10, hA11]
    try simp only [TRef.ofBuf, TRef.toBuf, cast_cast, cast_eq]
    rfl
  · after_results_simp
    try simp only [hA0, hA1, hA2, hA3, hA4, hA5, hA6, hA7, hA8, hA9, hA10, hA11]
    try simp only [TRef.ofBuf, TRef.toBuf, cast_cast, cast_eq]
    rfl
  · after_results_simp
    try simp only [hA0, hA1, hA2, hA3, hA4, hA5, hA6, hA7, hA8, hA9, hA10, hA11]
    try simp only [TRef.ofBuf, TRef.toBuf, cast_cast, cast_eq]
    rfl
  · after_results_simp
    try simp only [hA0, hA1, hA2, hA3, hA4, hA5, hA6, hA7, hA8, hA9, hA10, hA11]
    try simp only [TRef.ofBuf, TRef.toBuf, cast_cast, cast_eq]
    rfl

set_option maxRecDepth 8192 in
set_option maxHeartbeats 4000000 in
/-- Operations 18 to 35 carry the invariant on: each value they compute that is read later is its stage function. -/
theorem step1 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St1 a0 a1 a2 a3 a4 a5 a6 a7 a8 a9 a10 a11 V) : St2 a0 a1 a2 a3 a4 a5 a6 a7 a8 a9 a10 a11 (after (w1 (F := F)) V) := by
  obtain ⟨hA0, hA1, hA2, hA3, hA4, hA5, hA6, hA7, hA8, hA9, hA10, hA11, h_main_v1, h_main_v13, h_main_v11, h_main_v4, h_main_v3, h_main_v5⟩ := h
  refine ⟨?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v1
  · after_results_simp; exact h_main_v5
  · after_results_simp
    try simp only [hA0, hA1, hA2, hA3, hA4, hA5, hA6, hA7, hA8, hA9, hA10, hA11, h_main_v1, h_main_v13, h_main_v11, h_main_v4, h_main_v3, h_main_v5]
    try simp only [TRef.ofBuf, TRef.toBuf, cast_cast, cast_eq]
    rfl
  · after_results_simp; exact h_main_v3
  · after_results_simp; exact h_main_v11
  · after_results_simp; exact h_main_v4

set_option maxRecDepth 8192 in
set_option maxHeartbeats 4000000 in
/-- Operations 36 to 55 carry the invariant on: each value they compute that is read later is its stage function. -/
theorem step2 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St2 a0 a1 a2 a3 a4 a5 a6 a7 a8 a9 a10 a11 V) : St3 a0 a1 a2 a3 a4 a5 a6 a7 a8 a9 a10 a11 (after (w2 (F := F)) V) := by
  obtain ⟨hA0, hA1, hA2, hA3, hA4, hA5, hA6, hA7, hA8, hA9, hA10, hA11, h_main_v1, h_main_v5, h_main_v28, h_main_v3, h_main_v11, h_main_v4⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_v1, h_main_v5, h_main_v28, h_main_v3, h_main_v11, h_main_v4]
    try simp only [TRef.ofBuf, TRef.toBuf, cast_cast, cast_eq]
    rfl
  · after_results_simp; exact h_main_v3
  · after_results_simp; exact h_main_v4
  · after_results_simp; exact h_main_v1

set_option maxRecDepth 8192 in
set_option maxHeartbeats 4000000 in
/-- Operations 56 to 73 carry the invariant on: each value they compute that is read later is its stage function. -/
theorem step3 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St3 a0 a1 a2 a3 a4 a5 a6 a7 a8 a9 a10 a11 V) : St4 a0 a1 a2 a3 a4 a5 a6 a7 a8 a9 a10 a11 (after (w3 (F := F)) V) := by
  obtain ⟨hA0, hA1, hA2, hA3, hA4, hA5, hA6, hA7, hA8, hA9, hA10, hA11, h_main_v45, h_main_v3, h_main_v4, h_main_v1⟩ := h
  refine ⟨?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v1
  · after_results_simp
    try simp only [hA0, hA1, hA2, hA3, hA4, hA5, hA6, hA7, hA8, hA9, hA10, hA11, h_main_v45, h_main_v3, h_main_v4, h_main_v1]
    try simp only [TRef.ofBuf, TRef.toBuf, cast_cast, cast_eq]
    rfl
  · after_results_simp
    try simp only [hA0, hA1, hA2, hA3, hA4, hA5, hA6, hA7, hA8, hA9, hA10, hA11, h_main_v45, h_main_v3, h_main_v4, h_main_v1]
    try simp only [TRef.ofBuf, TRef.toBuf, cast_cast, cast_eq]
    rfl
  · after_results_simp; exact h_main_v4
  · after_results_simp; exact h_main_v3
  · after_results_simp
    try simp only [hA0, hA1, hA2, hA3, hA4, hA5, hA6, hA7, hA8, hA9, hA10, hA11, h_main_v45, h_main_v3, h_main_v4, h_main_v1]
    try simp only [TRef.ofBuf, TRef.toBuf, cast_cast, cast_eq]
    rfl

set_option maxRecDepth 8192 in
set_option maxHeartbeats 4000000 in
/-- Operations 74 to 91 carry the invariant on: each value they compute that is read later is its stage function. -/
theorem step4 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St4 a0 a1 a2 a3 a4 a5 a6 a7 a8 a9 a10 a11 V) : St5 a0 a1 a2 a3 a4 a5 a6 a7 a8 a9 a10 a11 (after (w4 (F := F)) V) := by
  obtain ⟨hA0, hA1, hA2, hA3, hA4, hA5, hA6, hA7, hA8, hA9, hA10, hA11, h_main_v1, h_main_v58, h_main_v56, h_main_v4, h_main_v3, h_main_v50⟩ := h
  refine ⟨?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v1
  · after_results_simp; exact h_main_v50
  · after_results_simp
    try simp only [hA0, hA1, hA2, hA3, hA4, hA5, hA6, hA7, hA8, hA9, hA10, hA11, h_main_v1, h_main_v58, h_main_v56, h_main_v4, h_main_v3, h_main_v50]
    try simp only [TRef.ofBuf, TRef.toBuf, cast_cast, cast_eq]
    rfl
  · after_results_simp; exact h_main_v3
  · after_results_simp; exact h_main_v56
  · after_results_simp; exact h_main_v4

set_option maxRecDepth 8192 in
set_option maxHeartbeats 4000000 in
/-- Operations 92 to 111 carry the invariant on: each value they compute that is read later is its stage function. -/
theorem step5 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St5 a0 a1 a2 a3 a4 a5 a6 a7 a8 a9 a10 a11 V) : St6 a0 a1 a2 a3 a4 a5 a6 a7 a8 a9 a10 a11 (after (w5 (F := F)) V) := by
  obtain ⟨hA0, hA1, hA2, hA3, hA4, hA5, hA6, hA7, hA8, hA9, hA10, hA11, h_main_v1, h_main_v50, h_main_v73, h_main_v3, h_main_v56, h_main_v4⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_v1, h_main_v50, h_main_v73, h_main_v3, h_main_v56, h_main_v4]
    try simp only [TRef.ofBuf, TRef.toBuf, cast_cast, cast_eq]
    rfl
  · after_results_simp; exact h_main_v1
  · after_results_simp; exact h_main_v3
  · after_results_simp; exact h_main_v4

set_option maxRecDepth 8192 in
set_option maxHeartbeats 4000000 in
/-- Operations 112 to 137 carry the invariant on: each value they compute that is read later is its stage function. -/
theorem step6 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St6 a0 a1 a2 a3 a4 a5 a6 a7 a8 a9 a10 a11 V) : St7 a0 a1 a2 a3 a4 a5 a6 a7 a8 a9 a10 a11 (after (w6 (F := F)) V) := by
  obtain ⟨hA0, hA1, hA2, hA3, hA4, hA5, hA6, hA7, hA8, hA9, hA10, hA11, h_main_v90, h_main_v1, h_main_v3, h_main_v4⟩ := h
  refine ⟨?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_v90, h_main_v1, h_main_v3, h_main_v4]
    try simp only [TRef.ofBuf, TRef.toBuf, cast_cast, cast_eq]
    rfl
  · after_results_simp
    try simp only [hA0, hA1, hA2, hA3, hA4, hA5, hA6, hA7, hA8, hA9, hA10, hA11, h_main_v90, h_main_v1, h_main_v3, h_main_v4]
    try simp only [TRef.ofBuf, TRef.toBuf, cast_cast, cast_eq]
    rfl
  · after_results_simp; exact h_main_v1
  · after_results_simp; exact h_main_v3
  · after_results_simp; exact h_main_v4

end Cert.ReferenceIdeal.RefValue

end
-- ==== Proof.RefVals2.lean ====
/-
  The invariant of the reference's run is carried through windows 7 to 16 (operations 138 to 226: the edge decoder, the mask, the joined edge lists and the start of the second branch). A concatenation stands alone in its window: its operands are read straight from the invariant.
  Each step is the same computation: the fold of the window's operations at a buffer it writes is that operation's
  function of the contents of the buffers it reads; those are, by the invariant or by the same computation inside the
  window, stage functions of the arguments; and a stage function is by definition the operation's function of the
  stage functions of its operands. A buffer the window does not write keeps its contents.
-/
import proofs.«128511_j38740605010536_2_alg».proof.Proof.RefValsDefs

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 8192 in
set_option maxHeartbeats 4000000 in
/-- Operations 138 to 156 carry the invariant on: each value they compute that is read later is its stage function. -/
theorem step7 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St7 a0 a1 a2 a3 a4 a5 a6 a7 a8 a9 a10 a11 V) : St8 a0 a1 a2 a3 a4 a5 a6 a7 a8 a9 a10 a11 (after (w7 (F := F)) V) := by
  obtain ⟨hA0, hA1, hA2, hA3, hA4, hA5, hA6, hA7, hA8, hA9, hA10, hA11, h_main_v112, h_main_v93, h_main_v1, h_main_v3, h_main_v4⟩ := h
  refine ⟨?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_v112, h_main_v93, h_main_v1, h_main_v3, h_main_v4]
    try simp only [TRef.ofBuf, TRef.toBuf, cast_cast, cast_eq]
    rfl
  · after_results_simp; exact h_main_v93
  · after_results_simp
    try simp only [hA0, hA1, hA2, hA3, hA4, hA5, hA6, hA7, hA8, hA9, hA10, hA11, h_main_v112, h_main_v93, h_main_v1, h_main_v3, h_main_v4]
    try simp only [TRef.ofBuf, TRef.toBuf, cast_cast, cast_eq]
    rfl
  · after_results_simp; exact h_main_v1
  · after_results_simp; exact h_main_v3
  · after_results_simp; exact h_main_v4

set_option maxRecDepth 8192 in
set_option maxHeartbeats 4000000 in
/-- Operations 157 to 180 carry the invariant on: each value they compute that is read later is its stage function. -/
theorem step8 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St8 a0 a1 a2 a3 a4 a5 a6 a7 a8 a9 a10 a11 V) : St9 a0 a1 a2 a3 a4 a5 a6 a7 a8 a9 a10 a11 (after (w8 (F := F)) V) := by
  obtain ⟨hA0, hA1, hA2, hA3, hA4, hA5, hA6, hA7, hA8, hA9, hA10, hA11, h_main_v126, h_main_v93, h_main_v119, h_main_v1, h_main_v3, h_main_v4⟩ := h
  refine ⟨?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v119
  · after_results_simp
    try simp only [hA0, hA1, hA2, hA3, hA4, hA5, hA6, hA7, hA8, hA9, hA10, hA11, h_main_v126, h_main_v93, h_main_v119, h_main_v1, h_main_v3, h_main_v4]
    try simp only [TRef.ofBuf, TRef.toBuf, cast_cast, cast_eq]
    rfl
  · after_results_simp; exact h_main_v1
  · after_results_simp; exact h_main_v3
  · after_results_simp; exact h_main_v4
  · after_results_simp; exact h_main_v93

set_option maxRecDepth 8192 in
set_option maxHeartbeats 4000000 in
/-- Operations 181 to 181 carry the invariant on: each value they compute that is read later is its stage function. -/
theorem step9 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St9 a0 a1 a2 a3 a4 a5 a6 a7 a8 a9 a10 a11 V) : St10 a0 a1 a2 a3 a4 a5 a6 a7 a8 a9 a10 a11 (after (w9 (F := F)) V) := by
  obtain ⟨hA0, hA1, hA2, hA3, hA4, hA5, hA6, hA7, hA8, hA9, hA10, hA11, h_main_v119, h_main_v145, h_main_v1, h_main_v3, h_main_v4, h_main_v93⟩ := h
  refine ⟨?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · simp only [after_cons, after_nil]
    rw [binary_result]
    rw [h_main_v119, h_main_v145]
    rfl
  · after_results_simp; exact h_main_v1
  · after_results_simp; exact h_main_v3
  · after_results_simp; exact h_main_v4
  · after_results_simp; exact h_main_v93

set_option maxRecDepth 8192 in
set_option maxHeartbeats 4000000 in
/-- Operations 182 to 182 carry the invariant on: each value they compute that is read later is its stage function. -/
theorem step10 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St10 a0 a1 a2 a3 a4 a5 a6 a7 a8 a9 a10 a11 V) : St11 a0 a1 a2 a3 a4 a5 a6 a7 a8 a9 a10 a11 (after (w10 (F := F)) V) := by
  obtain ⟨hA0, hA1, hA2, hA3, hA4, hA5, hA6, hA7, hA8, hA9, hA10, hA11, h_main_v146, h_main_v1, h_main_v3, h_main_v4, h_main_v93⟩ := h
  refine ⟨?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v146
  · simp only [after_cons, after_nil]
    rw [binary_result]
    rw [hA1, hA2]
    rfl
  · after_results_simp; exact h_main_v1
  · after_results_simp; exact h_main_v3
  · after_results_simp; exact h_main_v4
  · after_results_simp; exact h_main_v93

set_option maxRecDepth 8192 in
set_option maxHeartbeats 4000000 in
/-- Operations 183 to 190 carry the invariant on: each value they compute that is read later is its stage function. -/
theorem step11 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St11 a0 a1 a2 a3 a4 a5 a6 a7 a8 a9 a10 a11 V) : St12 a0 a1 a2 a3 a4 a5 a6 a7 a8 a9 a10 a11 (after (w11 (F := F)) V) := by
  obtain ⟨hA0, hA1, hA2, hA3, hA4, hA5, hA6, hA7, hA8, hA9, hA10, hA11, h_main_v146, h_main_v147, h_main_v1, h_main_v3, h_main_v4, h_main_v93⟩ := h
  refine ⟨?_, ?_, ?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v1
  · after_results_simp
    try simp only [hA0, hA1, hA2, hA3, hA4, hA5, hA6, hA7, hA8, hA9, hA10, hA11, h_main_v146, h_main_v147, h_main_v1, h_main_v3, h_main_v4, h_main_v93]
    try simp only [TRef.ofBuf, TRef.toBuf, cast_cast, cast_eq]
    rfl
  · after_results_simp
    try simp only [hA0, hA1, hA2, hA3, hA4, hA5, hA6, hA7, hA8, hA9, hA10, hA11, h_main_v146, h_main_v147, h_main_v1, h_main_v3, h_main_v4, h_main_v93]
    try simp only [TRef.ofBuf, TRef.toBuf, cast_cast, cast_eq]
    rfl
  · after_results_simp; exact h_main_v147
  · after_results_simp; exact h_main_v3
  · after_results_simp; exact h_main_v4
  · after_results_simp
    try simp only [hA0, hA1, hA2, hA3, hA4, hA5, hA6, hA7, hA8, hA9, hA10, hA11, h_main_v146, h_main_v147, h_main_v1, h_main_v3, h_main_v4, h_main_v93]
    try simp only [TRef.ofBuf, TRef.toBuf, cast_cast, cast_eq]
    rfl
  · after_results_simp; exact h_main_v93

set_option maxRecDepth 8192 in
set_option maxHeartbeats 4000000 in
/-- Operations 191 to 191 carry the invariant on: each value they compute that is read later is its stage function. -/
theorem step12 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St12 a0 a1 a2 a3 a4 a5 a6 a7 a8 a9 a10 a11 V) : St13 a0 a1 a2 a3 a4 a5 a6 a7 a8 a9 a10 a11 (after (w12 (F := F)) V) := by
  obtain ⟨hA0, hA1, hA2, hA3, hA4, hA5, hA6, hA7, hA8, hA9, hA10, hA11, h_main_v1, h_main_v152, h_main_v154, h_main_v147, h_main_v3, h_main_v4, h_main_v150, h_main_v93⟩ := h
  refine ⟨?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v147
  · after_results_simp; exact h_main_v3
  · after_results_simp; exact h_main_v4
  · after_results_simp; exact h_main_v150
  · simp only [after_cons, after_nil]
    rw [nary_result]
    show concatenate S1200000 0 [⟨S800000, V (Proc.devRef .tc main_v1)⟩, ⟨S200000, V (Proc.devRef .tc main_v152)⟩, ⟨S200000, V (Proc.devRef .tc main_v154)⟩] concatenates_S800000_S200000_S200000_S1200000_d0 = _
    rw [h_main_v1, h_main_v152, h_main_v154]
    rfl
  · after_results_simp; exact h_main_v93

set_option maxRecDepth 8192 in
set_option maxHeartbeats 4000000 in
/-- Operations 192 to 195 carry the invariant on: each value they compute that is read later is its stage function. -/
theorem step13 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St13 a0 a1 a2 a3 a4 a5 a6 a7 a8 a9 a10 a11 V) : St14 a0 a1 a2 a3 a4 a5 a6 a7 a8 a9 a10 a11 (after (w13 (F := F)) V) := by
  obtain ⟨hA0, hA1, hA2, hA3, hA4, hA5, hA6, hA7, hA8, hA9, hA10, hA11, h_main_v147, h_main_v3, h_main_v4, h_main_v150, h_main_v155, h_main_v93⟩ := h
  refine ⟨?_, ?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v3
  · after_results_simp
    try simp only [hA0, hA1, hA2, hA3, hA4, hA5, hA6, hA7, hA8, hA9, hA10, hA11, h_main_v147, h_main_v3, h_main_v4, h_main_v150, h_main_v155, h_main_v93]
    try simp only [TRef.ofBuf, TRef.toBuf, cast_cast, cast_eq]
    rfl
  · after_results_simp
    try simp only [hA0, hA1, hA2, hA3, hA4, hA5, hA6, hA7, hA8, hA9, hA10, hA11, h_main_v147, h_main_v3, h_main_v4, h_main_v150, h_main_v155, h_main_v93]
    try simp only [TRef.ofBuf, TRef.toBuf, cast_cast, cast_eq]
    rfl
  · after_results_simp; exact h_main_v4
  · after_results_simp; exact h_main_v150
  · after_results_simp; exact h_main_v155
  · after_results_simp; exact h_main_v93

set_option maxRecDepth 8192 in
set_option maxHeartbeats 4000000 in
/-- Operations 196 to 196 carry the invariant on: each value they compute that is read later is its stage function. -/
theorem step14 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St14 a0 a1 a2 a3 a4 a5 a6 a7 a8 a9 a10 a11 V) : St15 a0 a1 a2 a3 a4 a5 a6 a7 a8 a9 a10 a11 (after (w14 (F := F)) V) := by
  obtain ⟨hA0, hA1, hA2, hA3, hA4, hA5, hA6, hA7, hA8, hA9, hA10, hA11, h_main_v3, h_main_v157, h_main_v159, h_main_v4, h_main_v150, h_main_v155, h_main_v93⟩ := h
  refine ⟨?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v4
  · after_results_simp; exact h_main_v150
  · simp only [after_cons, after_nil]
    rw [nary_result]
    show concatenate S1200000 0 [⟨S800000, V (Proc.devRef .tc main_v3)⟩, ⟨S200000, V (Proc.devRef .tc main_v157)⟩, ⟨S200000, V (Proc.devRef .tc main_v159)⟩] concatenates_S800000_S200000_S200000_S1200000_d0 = _
    rw [h_main_v3, h_main_v157, h_main_v159]
    rfl
  · after_results_simp; exact h_main_v155
  · after_results_simp; exact h_main_v93

set_option maxRecDepth 8192 in
set_option maxHeartbeats 4000000 in
/-- Operations 197 to 197 carry the invariant on: each value they compute that is read later is its stage function. -/
theorem step15 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St15 a0 a1 a2 a3 a4 a5 a6 a7 a8 a9 a10 a11 V) : St16 a0 a1 a2 a3 a4 a5 a6 a7 a8 a9 a10 a11 (after (w15 (F := F)) V) := by
  obtain ⟨hA0, hA1, hA2, hA3, hA4, hA5, hA6, hA7, hA8, hA9, hA10, hA11, h_main_v4, h_main_v150, h_main_v160, h_main_v155, h_main_v93⟩ := h
  refine ⟨?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v160
  · simp only [after_cons, after_nil]
    rw [nary_result]
    show concatenate S1200000 0 [⟨S800000, V (Proc.devRef .tc main_v4)⟩, ⟨S200000, V (Proc.devRef .tc main_v150)⟩, ⟨S200000, V (Proc.devRef .tc main_v150)⟩] concatenates_S800000_S200000_S200000_S1200000_d0 = _
    rw [h_main_v4, h_main_v150]
    rfl
  · after_results_simp; exact h_main_v155
  · after_results_simp; exact h_main_v150
  · after_results_simp; exact h_main_v93

set_option maxRecDepth 8192 in
set_option maxHeartbeats 4000000 in
/-- Operations 198 to 226 carry the invariant on: each value they compute that is read later is its stage function. -/
theorem step16 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St16 a0 a1 a2 a3 a4 a5 a6 a7 a8 a9 a10 a11 V) : St17 a0 a1 a2 a3 a4 a5 a6 a7 a8 a9 a10 a11 (after (w16 (F := F)) V) := by
  obtain ⟨hA0, hA1, hA2, hA3, hA4, hA5, hA6, hA7, hA8, hA9, hA10, hA11, h_main_v160, h_main_v161, h_main_v155, h_main_v150, h_main_v93⟩ := h
  refine ⟨?_, ?_, ?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_v160, h_main_v161, h_main_v155, h_main_v150, h_main_v93]
    try simp only [TRef.ofBuf, TRef.toBuf, cast_cast, cast_eq]
    rfl
  · after_results_simp; exact h_main_v155
  · after_results_simp
    try simp only [hA0, hA1, hA2, hA3, hA4, hA5, hA6, hA7, hA8, hA9, hA10, hA11, h_main_v160, h_main_v161, h_main_v155, h_main_v150, h_main_v93]
    try simp only [TRef.ofBuf, TRef.toBuf, cast_cast, cast_eq]
    rfl
  · after_results_simp; exact h_main_v160
  · after_results_simp
    try simp only [hA0, hA1, hA2, hA3, hA4, hA5, hA6, hA7, hA8, hA9, hA10, hA11, h_main_v160, h_main_v161, h_main_v155, h_main_v150, h_main_v93]
    try simp only [TRef.ofBuf, TRef.toBuf, cast_cast, cast_eq]
    rfl
  · after_results_simp; exact h_main_v161
  · after_results_simp; exact h_main_v150
  · after_results_simp; exact h_main_v93

end Cert.ReferenceIdeal.RefValue

end
-- ==== Proof.RefVals3.lean ====
/-
  The invariant of the reference's run is carried through windows 17 to 19 (operations 227 to 298: the second branch's first layer and most of its second).
  Each step is the same computation: the fold of the window's operations at a buffer it writes is that operation's
  function of the contents of the buffers it reads; those are, by the invariant or by the same computation inside the
  window, stage functions of the arguments; and a stage function is by definition the operation's function of the
  stage functions of its operands. A buffer the window does not write keeps its contents.
-/
import proofs.«128511_j38740605010536_2_alg».proof.Proof.RefValsDefs

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 8192 in
set_option maxHeartbeats 4000000 in
/-- Operations 227 to 247 carry the invariant on: each value they compute that is read later is its stage function. -/
theorem step17 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St17 a0 a1 a2 a3 a4 a5 a6 a7 a8 a9 a10 a11 V) : St18 a0 a1 a2 a3 a4 a5 a6 a7 a8 a9 a10 a11 (after (w17 (F := F)) V) := by
  obtain ⟨hA0, hA1, hA2, hA3, hA4, hA5, hA6, hA7, hA8, hA9, hA10, hA11, h_main_v184, h_main_v155, h_main_v162, h_main_v160, h_main_v168, h_main_v161, h_main_v150, h_main_v93⟩ := h
  refine ⟨?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_v184, h_main_v155, h_main_v162, h_main_v160, h_main_v168, h_main_v161, h_main_v150, h_main_v93]
    try simp only [TRef.ofBuf, TRef.toBuf, cast_cast, cast_eq]
    rfl
  · after_results_simp; exact h_main_v160
  · after_results_simp; exact h_main_v161
  · after_results_simp; exact h_main_v155
  · after_results_simp; exact h_main_v150
  · after_results_simp; exact h_main_v93

set_option maxRecDepth 8192 in
set_option maxHeartbeats 4000000 in
/-- Operations 248 to 272 carry the invariant on: each value they compute that is read later is its stage function. -/
theorem step18 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St18 a0 a1 a2 a3 a4 a5 a6 a7 a8 a9 a10 a11 V) : St19 a0 a1 a2 a3 a4 a5 a6 a7 a8 a9 a10 a11 (after (w18 (F := F)) V) := by
  obtain ⟨hA0, hA1, hA2, hA3, hA4, hA5, hA6, hA7, hA8, hA9, hA10, hA11, h_main_v202, h_main_v160, h_main_v161, h_main_v155, h_main_v150, h_main_v93⟩ := h
  refine ⟨?_, ?_, ?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v160
  · after_results_simp
    try simp only [hA0, hA1, hA2, hA3, hA4, hA5, hA6, hA7, hA8, hA9, hA10, hA11, h_main_v202, h_main_v160, h_main_v161, h_main_v155, h_main_v150, h_main_v93]
    try simp only [TRef.ofBuf, TRef.toBuf, cast_cast, cast_eq]
    rfl
  · after_results_simp
    try simp only [hA0, hA1, hA2, hA3, hA4, hA5, hA6, hA7, hA8, hA9, hA10, hA11, h_main_v202, h_main_v160, h_main_v161, h_main_v155, h_main_v150, h_main_v93]
    try simp only [TRef.ofBuf, TRef.toBuf, cast_cast, cast_eq]
    rfl
  · after_results_simp; exact h_main_v155
  · after_results_simp
    try simp only [hA0, hA1, hA2, hA3, hA4, hA5, hA6, hA7, hA8, hA9, hA10, hA11, h_main_v202, h_main_v160, h_main_v161, h_main_v155, h_main_v150, h_main_v93]
    try simp only [TRef.ofBuf, TRef.toBuf, cast_cast, cast_eq]
    rfl
  · after_results_simp; exact h_main_v150
  · after_results_simp; exact h_main_v93

set_option maxRecDepth 8192 in
set_option maxHeartbeats 4000000 in
/-- Operations 273 to 298 carry the invariant on: each value they compute that is read later is its stage function. -/
theorem step19 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St19 a0 a1 a2 a3 a4 a5 a6 a7 a8 a9 a10 a11 V) : St20 a0 a1 a2 a3 a4 a5 a6 a7 a8 a9 a10 a11 (after (w19 (F := F)) V) := by
  obtain ⟨hA0, hA1, hA2, hA3, hA4, hA5, hA6, hA7, hA8, hA9, hA10, hA11, h_main_v160, h_main_v213, h_main_v221, h_main_v155, h_main_v207, h_main_v150, h_main_v93⟩ := h
  refine ⟨?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v213
  · after_results_simp; exact h_main_v207
  · after_results_simp
    try simp only [hA0, hA1, hA2, hA3, hA4, hA5, hA6, hA7, hA8, hA9, hA10, hA11, h_main_v160, h_main_v213, h_main_v221, h_main_v155, h_main_v207, h_main_v150, h_main_v93]
    try simp only [TRef.ofBuf, TRef.toBuf, cast_cast, cast_eq]
    rfl
  · after_results_simp; exact h_main_v150
  · after_results_simp; exact h_main_v93

end Cert.ReferenceIdeal.RefValue

end
-- ==== Proof.RefVals4.lean ====
/-
  The invariant of the reference's run is carried through the last window (operations 299 to 324: the end of the second
  branch's second layer, the count of accepted edges, and log_softmax). The window is cut again, the operations of
  log_softmax one at a time, with an invariant between each two; the window's step is the steps of its parts composed,
  because folding a concatenation of operations is folding its parts in turn.
-/
import proofs.«128511_j38740605010536_2_alg».proof.Proof.RefValsDefs

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- Folding a concatenation of operations is folding its parts in turn. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons]; exact ih _

/-- What holds of the buffers' contents before operation 307: the arguments are the launch's, and each value computed so far
    that a later operation reads is its stage function of the arguments. -/
def St20_1 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v150) = val_main_v150 (F := F) a0 a1 a2 a3 a4 a5 a6 a7
  ∧ V (Proc.devRef .tc main_v250) = val_main_v250 (F := F) a0 a1 a2 a3 a4 a5 a6 a7 a8 a9 a10 a11
  ∧ V (Proc.devRef .tc main_v93) = val_main_v93 (F := F) a0 a3 a4 a5 a6 a7

/-- What holds of the buffers' contents before operation 310: the arguments are the launch's, and each value computed so far
    that a later operation reads is its stage function of the arguments. -/
def St20_2 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v250) = val_main_v250 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 311: the arguments are the launch's, and each value computed so far
    that a later operation reads is its stage function of the arguments. -/
def St20_3 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v250) = val_main_v250 (F := F) a0 a1 a2 a3 a4 a5 a6 a7 a8 a9 a10 a11
  ∧ V (Proc.devRef .tc main_call2_cst) = val_main_call2_cst (F := F)
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 312: the arguments are the launch's, and each value computed so far
    that a later operation reads is its stage function of the arguments. -/
def St20_4 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_v0) = val_main_call2_v0 (F := F) a0 a1 a2 a3 a4 a5 a6 a7 a8 a9 a10 a11
  ∧ V (Proc.devRef .tc main_v250) = val_main_v250 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 313: the arguments are the launch's, and each value computed so far
    that a later operation reads is its stage function of the arguments. -/
def St20_5 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_cst_0) = val_main_call2_cst_0 (F := F)
  ∧ V (Proc.devRef .tc main_call2_v0) = val_main_call2_v0 (F := F) a0 a1 a2 a3 a4 a5 a6 a7 a8 a9 a10 a11
  ∧ V (Proc.devRef .tc main_v250) = val_main_v250 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 314: the arguments are the launch's, and each value computed so far
    that a later operation reads is its stage function of the arguments. -/
def St20_6 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_v1) = val_main_call2_v1 (F := F)
  ∧ V (Proc.devRef .tc main_call2_v0) = val_main_call2_v0 (F := F) a0 a1 a2 a3 a4 a5 a6 a7 a8 a9 a10 a11
  ∧ V (Proc.devRef .tc main_v250) = val_main_v250 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 315: the arguments are the launch's, and each value computed so far
    that a later operation reads is its stage function of the arguments. -/
def St20_7 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_v2) = val_main_call2_v2 (F := F) a0 a1 a2 a3 a4 a5 a6 a7 a8 a9 a10 a11
  ∧ V (Proc.devRef .tc main_v250) = val_main_v250 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 316: the arguments are the launch's, and each value computed so far
    that a later operation reads is its stage function of the arguments. -/
def St20_8 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_v3) = val_main_call2_v3 (F := F) a0 a1 a2 a3 a4 a5 a6 a7 a8 a9 a10 a11
  ∧ V (Proc.devRef .tc main_v250) = val_main_v250 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 317: the arguments are the launch's, and each value computed so far
    that a later operation reads is its stage function of the arguments. -/
def St20_9 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_v250) = val_main_v250 (F := F) a0 a1 a2 a3 a4 a5 a6 a7 a8 a9 a10 a11
  ∧ V (Proc.devRef .tc main_call2_v4) = val_main_call2_v4 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 318: the arguments are the launch's, and each value computed so far
    that a later operation reads is its stage function of the arguments. -/
def St20_10 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_v5) = val_main_call2_v5 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 319: the arguments are the launch's, and each value computed so far
    that a later operation reads is its stage function of the arguments. -/
def St20_11 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_v6) = val_main_call2_v6 (F := F) a0 a1 a2 a3 a4 a5 a6 a7 a8 a9 a10 a11
  ∧ V (Proc.devRef .tc main_call2_v5) = val_main_call2_v5 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 320: the arguments are the launch's, and each value computed so far
    that a later operation reads is its stage function of the arguments. -/
def St20_12 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_v6) = val_main_call2_v6 (F := F) a0 a1 a2 a3 a4 a5 a6 a7 a8 a9 a10 a11
  ∧ V (Proc.devRef .tc main_call2_cst_1) = val_main_call2_cst_1 (F := F)
  ∧ V (Proc.devRef .tc main_call2_v5) = val_main_call2_v5 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 321: the arguments are the launch's, and each value computed so far
    that a later operation reads is its stage function of the arguments. -/
def St20_13 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_v7) = val_main_call2_v7 (F := F) a0 a1 a2 a3 a4 a5 a6 a7 a8 a9 a10 a11
  ∧ V (Proc.devRef .tc main_call2_v5) = val_main_call2_v5 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 322: the arguments are the launch's, and each value computed so far
    that a later operation reads is its stage function of the arguments. -/
def St20_14 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_v8) = val_main_call2_v8 (F := F) a0 a1 a2 a3 a4 a5 a6 a7 a8 a9 a10 a11
  ∧ V (Proc.devRef .tc main_call2_v5) = val_main_call2_v5 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 323: the arguments are the launch's, and each value computed so far
    that a later operation reads is its stage function of the arguments. -/
def St20_15 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_v9) = val_main_call2_v9 (F := F) a0 a1 a2 a3 a4 a5 a6 a7 a8 a9 a10 a11
  ∧ V (Proc.devRef .tc main_call2_v5) = val_main_call2_v5 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- What holds of the buffers' contents before operation 324: the arguments are the launch's, and each value computed so far
    that a later operation reads is its stage function of the arguments. -/
def St20_16 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_arg4) = a4
  ∧ V (Proc.devRef .tc main_arg5) = a5
  ∧ V (Proc.devRef .tc main_arg6) = a6
  ∧ V (Proc.devRef .tc main_arg7) = a7
  ∧ V (Proc.devRef .tc main_arg8) = a8
  ∧ V (Proc.devRef .tc main_arg9) = a9
  ∧ V (Proc.devRef .tc main_arg10) = a10
  ∧ V (Proc.devRef .tc main_arg11) = a11
  ∧ V (Proc.devRef .tc main_call2_v5) = val_main_call2_v5 (F := F) a0 a1 a2 a3 a4 a5 a6 a7 a8 a9 a10 a11
  ∧ V (Proc.devRef .tc main_call2_v10) = val_main_call2_v10 (F := F) a0 a1 a2 a3 a4 a5 a6 a7 a8 a9 a10 a11
  ∧ V (Proc.devRef .tc main_v93) = val_main_v93 (F := F) a0 a3 a4 a5 a6 a7
  ∧ V (Proc.devRef .tc main_v252) = val_main_v252 (F := F) a0 a1 a2 a3 a4 a5 a6 a7

/-- Operations 299 to 306 of @main. -/
abbrev w20_0 : List (HloOp τ sig (Elt F)) :=
  [ binary main_v213 main_v213 main_v243 (mulf : (⟨S50000, .f32⟩ : BufTy).Contents (Elt F) → (⟨S50000, .f32⟩ : BufTy).Contents (Elt F) → (⟨S50000, .f32⟩ : BufTy).Contents (Elt F)),
    unary main_v243 main_v244 (broadcastInDim S50000x1 ![0] bcast_S50000_S50000x1_0 : (⟨S50000, .f32⟩ : BufTy).Contents (Elt F) → (⟨S50000x1, .f32⟩ : BufTy).Contents (Elt F)),
    unary main_v244 main_v245 (broadcastInDim S50000x16 ![0, 1] bcast_S50000x1_S50000x16_0_1 : (⟨S50000x1, .f32⟩ : BufTy).Contents (Elt F) → (⟨S50000x16, .f32⟩ : BufTy).Contents (Elt F)),
    binary main_v207 main_v245 main_v246 (mulf : (⟨S50000x16, .f32⟩ : BufTy).Contents (Elt F) → (⟨S50000x16, .f32⟩ : BufTy).Contents (Elt F) → (⟨S50000x16, .f32⟩ : BufTy).Contents (Elt F)),
    binary main_v242 main_v246 main_v247 (addf : (⟨S50000x16, .f32⟩ : BufTy).Contents (Elt F) → (⟨S50000x16, .f32⟩ : BufTy).Contents (Elt F) → (⟨S50000x16, .f32⟩ : BufTy).Contents (Elt F)),
    unary main_arg11 main_v248 (broadcastInDim S1x16 ![1] bcast_S16_S1x16_1 : (⟨S16, .f32⟩ : BufTy).Contents (Elt F) → (⟨S1x16, .f32⟩ : BufTy).Contents (Elt F)),
    unary main_v248 main_v249 (broadcastInDim S50000x16 ![0, 1] bcast_S1x16_S50000x16_0_1 : (⟨S1x16, .f32⟩ : BufTy).Contents (Elt F) → (⟨S50000x16, .f32⟩ : BufTy).Contents (Elt F)),
    binary main_v247 main_v249 main_v250 (addf : (⟨S50000x16, .f32⟩ : BufTy).Contents (Elt F) → (⟨S50000x16, .f32⟩ : BufTy).Contents (Elt F) → (⟨S50000x16, .f32⟩ : BufTy).Contents (Elt F)) ]

set_option maxRecDepth 8192 in
set_option maxHeartbeats 4000000 in
/-- Operations 299 to 306 carry the invariant on: each value they compute that is read later is its stage function. -/
theorem step20_0 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20 a0 a1 a2 a3 a4 a5 a6 a7 a8 a9 a10 a11 V) : St20_1 a0 a1 a2 a3 a4 a5 a6 a7 a8 a9 a10 a11 (after (w20_0 (F := F)) V) := by
  obtain ⟨hA0, hA1, hA2, hA3, hA4, hA5, hA6, hA7, hA8, hA9, hA10, hA11, h_main_v213, h_main_v207, h_main_v242, h_main_v150, h_main_v93⟩ := h
  refine ⟨?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v150
  · after_results_simp
    try simp only [hA0, hA1, hA2, hA3, hA4, hA5, hA6, hA7, hA8, hA9, hA10, hA11, h_main_v213, h_main_v207, h_main_v242, h_main_v150, h_main_v93]
    try simp only [TRef.ofBuf, TRef.toBuf, cast_cast, cast_eq]
    rfl
  · after_results_simp; exact h_main_v93

/-- Operations 307 to 309 of @main. -/
abbrev w20_1 : List (HloOp τ sig (Elt F)) :=
  [ nullary main_cst_50 (constant S_ .f32 0x00000000#32),
    binary main_v150 main_cst_50 main_v251 ((fun x v => Host.reduceAdd x v reducesTo_S200000_S_d0 h_S_) : (⟨S200000, .f32⟩ : BufTy).Contents (Elt F) → (⟨S_, .f32⟩ : BufTy).Contents (Elt F) → (⟨S_, .f32⟩ : BufTy).Contents (Elt F)),
    unary main_v251 main_v252 (fptosi 32 : (⟨S_, .f32⟩ : BufTy).Contents (Elt F) → (⟨S_, .i32⟩ : BufTy).Contents (Elt F)) ]

set_option maxRecDepth 8192 in
set_option maxHeartbeats 4000000 in
/-- Operations 307 to 309 carry the invariant on: each value they compute that is read later is its stage function. -/
theorem step20_1 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_1 a0 a1 a2 a3 a4 a5 a6 a7 a8 a9 a10 a11 V) : St20_2 a0 a1 a2 a3 a4 a5 a6 a7 a8 a9 a10 a11 (after (w20_1 (F := F)) V) := by
  obtain ⟨hA0, hA1, hA2, hA3, hA4, hA5, hA6, hA7, hA8, hA9, hA10, hA11, h_main_v150, h_main_v250, h_main_v93⟩ := h
  refine ⟨?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v250
  · after_results_simp; exact h_main_v93
  · after_results_simp
    try simp only [hA0, hA1, hA2, hA3, hA4, hA5, hA6, hA7, hA8, hA9, hA10, hA11, h_main_v150, h_main_v250, h_main_v93]
    try simp only [TRef.ofBuf, TRef.toBuf, cast_cast, cast_eq]
    rfl

/-- Operations 310 to 310 of @main. -/
abbrev w20_2 : List (HloOp τ sig (Elt F)) :=
  [ TRef.nullary (TRef.of (T := ⟨S_, .f32⟩) main_call2_cst) (constant S_ .f32 0xFF800000#32) ]

set_option maxRecDepth 8192 in
set_option maxHeartbeats 4000000 in
/-- Operations 310 to 310 carry the invariant on: each value they compute that is read later is its stage function. -/
theorem step20_2 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_2 a0 a1 a2 a3 a4 a5 a6 a7 a8 a9 a10 a11 V) : St20_3 a0 a1 a2 a3 a4 a5 a6 a7 a8 a9 a10 a11 (after (w20_2 (F := F)) V) := by
  obtain ⟨hA0, hA1, hA2, hA3, hA4, hA5, hA6, hA7, hA8, hA9, hA10, hA11, h_main_v250, h_main_v93, h_main_v252⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v250
  · after_results_simp
    try simp only [hA0, hA1, hA2, hA3, hA4, hA5, hA6, hA7, hA8, hA9, hA10, hA11, h_main_v250, h_main_v93, h_main_v252]
    try simp only [TRef.ofBuf, TRef.toBuf, cast_cast, cast_eq]
    rfl
  · after_results_simp; exact h_main_v93
  · after_results_simp; exact h_main_v252

/-- Operations 311 to 311 of @main. -/
abbrev w20_3 : List (HloOp τ sig (Elt F)) :=
  [ TRef.binary (TRef.of (T := ⟨S50000x16, .f32⟩) main_v250) (TRef.of (T := ⟨S_, .f32⟩) main_call2_cst) (TRef.of (T := ⟨S50000, .f32⟩) main_call2_v0) (fun x v => Host.reduce FloatOps.maximumf x v reducesTo_S50000x16_S50000_d1 h_S_) ]

set_option maxRecDepth 8192 in
set_option maxHeartbeats 4000000 in
/-- Operations 311 to 311 carry the invariant on: each value they compute that is read later is its stage function. -/
theorem step20_3 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_3 a0 a1 a2 a3 a4 a5 a6 a7 a8 a9 a10 a11 V) : St20_4 a0 a1 a2 a3 a4 a5 a6 a7 a8 a9 a10 a11 (after (w20_3 (F := F)) V) := by
  obtain ⟨hA0, hA1, hA2, hA3, hA4, hA5, hA6, hA7, hA8, hA9, hA10, hA11, h_main_v250, h_main_call2_cst, h_main_v93, h_main_v252⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_v250, h_main_call2_cst, h_main_v93, h_main_v252]
    try simp only [TRef.ofBuf, TRef.toBuf, cast_cast, cast_eq]
    rfl
  · after_results_simp; exact h_main_v250
  · after_results_simp; exact h_main_v93
  · after_results_simp; exact h_main_v252

/-- Operations 312 to 312 of @main. -/
abbrev w20_4 : List (HloOp τ sig (Elt F)) :=
  [ TRef.nullary (TRef.of (T := ⟨S_, .f32⟩) main_call2_cst_0) (constant S_ .f32 0xFF800000#32) ]

set_option maxRecDepth 8192 in
set_option maxHeartbeats 4000000 in
/-- Operations 312 to 312 carry the invariant on: each value they compute that is read later is its stage function. -/
theorem step20_4 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_4 a0 a1 a2 a3 a4 a5 a6 a7 a8 a9 a10 a11 V) : St20_5 a0 a1 a2 a3 a4 a5 a6 a7 a8 a9 a10 a11 (after (w20_4 (F := F)) V) := by
  obtain ⟨hA0, hA1, hA2, hA3, hA4, hA5, hA6, hA7, hA8, hA9, hA10, hA11, h_main_call2_v0, h_main_v250, h_main_v93, h_main_v252⟩ := h
  refine ⟨?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_call2_v0, h_main_v250, h_main_v93, h_main_v252]
    try simp only [TRef.ofBuf, TRef.toBuf, cast_cast, cast_eq]
    rfl
  · after_results_simp; exact h_main_call2_v0
  · after_results_simp; exact h_main_v250
  · after_results_simp; exact h_main_v93
  · after_results_simp; exact h_main_v252

/-- Operations 313 to 313 of @main. -/
abbrev w20_5 : List (HloOp τ sig (Elt F)) :=
  [ TRef.unary (TRef.of (T := ⟨S_, .f32⟩) main_call2_cst_0) (TRef.of (T := ⟨S50000, .f32⟩) main_call2_v1) (broadcastInDim S50000 ![] bcast_S_S50000) ]

set_option maxRecDepth 8192 in
set_option maxHeartbeats 4000000 in
/-- Operations 313 to 313 carry the invariant on: each value they compute that is read later is its stage function. -/
theorem step20_5 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_5 a0 a1 a2 a3 a4 a5 a6 a7 a8 a9 a10 a11 V) : St20_6 a0 a1 a2 a3 a4 a5 a6 a7 a8 a9 a10 a11 (after (w20_5 (F := F)) V) := by
  obtain ⟨hA0, hA1, hA2, hA3, hA4, hA5, hA6, hA7, hA8, hA9, hA10, hA11, h_main_call2_cst_0, h_main_call2_v0, h_main_v250, h_main_v93, h_main_v252⟩ := h
  refine ⟨?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_call2_cst_0, h_main_call2_v0, h_main_v250, h_main_v93, h_main_v252]
    try simp only [TRef.ofBuf, TRef.toBuf, cast_cast, cast_eq]
    rfl
  · after_results_simp; exact h_main_call2_v0
  · after_results_simp; exact h_main_v250
  · after_results_simp; exact h_main_v93
  · after_results_simp; exact h_main_v252

/-- Operations 314 to 314 of @main. -/
abbrev w20_6 : List (HloOp τ sig (Elt F)) :=
  [ TRef.binary (TRef.of (T := ⟨S50000, .f32⟩) main_call2_v1) (TRef.of (T := ⟨S50000, .f32⟩) main_call2_v0) (TRef.of (T := ⟨S50000, .f32⟩) main_call2_v2) maximumf ]

set_option maxRecDepth 8192 in
set_option maxHeartbeats 4000000 in
/-- Operations 314 to 314 carry the invariant on: each value they compute that is read later is its stage function. -/
theorem step20_6 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_6 a0 a1 a2 a3 a4 a5 a6 a7 a8 a9 a10 a11 V) : St20_7 a0 a1 a2 a3 a4 a5 a6 a7 a8 a9 a10 a11 (after (w20_6 (F := F)) V) := by
  obtain ⟨hA0, hA1, hA2, hA3, hA4, hA5, hA6, hA7, hA8, hA9, hA10, hA11, h_main_call2_v1, h_main_call2_v0, h_main_v250, h_main_v93, h_main_v252⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [TRef.ofBuf, TRef.toBuf, cast_cast, cast_eq]
    try simp only [hA0, hA1, hA2, hA3, hA4, hA5, hA6, hA7, hA8, hA9, hA10, hA11, h_main_call2_v1, h_main_call2_v0, h_main_v250, h_main_v93, h_main_v252]
    rfl
  · after_results_simp; exact h_main_v250
  · after_results_simp; exact h_main_v93
  · after_results_simp; exact h_main_v252

/-- Operations 315 to 315 of @main. -/
abbrev w20_7 : List (HloOp τ sig (Elt F)) :=
  [ TRef.unary (TRef.of (T := ⟨S50000, .f32⟩) main_call2_v2) (TRef.of (T := ⟨S50000x1, .f32⟩) main_call2_v3) (broadcastInDim S50000x1 ![0] bcast_S50000_S50000x1_0) ]

set_option maxRecDepth 8192 in
set_option maxHeartbeats 4000000 in
/-- Operations 315 to 315 carry the invariant on: each value they compute that is read later is its stage function. -/
theorem step20_7 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_7 a0 a1 a2 a3 a4 a5 a6 a7 a8 a9 a10 a11 V) : St20_8 a0 a1 a2 a3 a4 a5 a6 a7 a8 a9 a10 a11 (after (w20_7 (F := F)) V) := by
  obtain ⟨hA0, hA1, hA2, hA3, hA4, hA5, hA6, hA7, hA8, hA9, hA10, hA11, h_main_call2_v2, h_main_v250, h_main_v93, h_main_v252⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_call2_v2, h_main_v250, h_main_v93, h_main_v252]
    try simp only [TRef.ofBuf, TRef.toBuf, cast_cast, cast_eq]
    rfl
  · after_results_simp; exact h_main_v250
  · after_results_simp; exact h_main_v93
  · after_results_simp; exact h_main_v252

/-- Operations 316 to 316 of @main. -/
abbrev w20_8 : List (HloOp τ sig (Elt F)) :=
  [ TRef.unary (TRef.of (T := ⟨S50000x1, .f32⟩) main_call2_v3) (TRef.of (T := ⟨S50000x16, .f32⟩) main_call2_v4) (broadcastInDim S50000x16 ![0, 1] bcast_S50000x1_S50000x16_0_1) ]

set_option maxRecDepth 8192 in
set_option maxHeartbeats 4000000 in
/-- Operations 316 to 316 carry the invariant on: each value they compute that is read later is its stage function. -/
theorem step20_8 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_8 a0 a1 a2 a3 a4 a5 a6 a7 a8 a9 a10 a11 V) : St20_9 a0 a1 a2 a3 a4 a5 a6 a7 a8 a9 a10 a11 (after (w20_8 (F := F)) V) := by
  obtain ⟨hA0, hA1, hA2, hA3, hA4, hA5, hA6, hA7, hA8, hA9, hA10, hA11, h_main_call2_v3, h_main_v250, h_main_v93, h_main_v252⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_v250
  · after_results_simp
    try simp only [hA0, hA1, hA2, hA3, hA4, hA5, hA6, hA7, hA8, hA9, hA10, hA11, h_main_call2_v3, h_main_v250, h_main_v93, h_main_v252]
    try simp only [TRef.ofBuf, TRef.toBuf, cast_cast, cast_eq]
    rfl
  · after_results_simp; exact h_main_v93
  · after_results_simp; exact h_main_v252

/-- Operations 317 to 317 of @main. -/
abbrev w20_9 : List (HloOp τ sig (Elt F)) :=
  [ TRef.binary (TRef.of (T := ⟨S50000x16, .f32⟩) main_v250) (TRef.of (T := ⟨S50000x16, .f32⟩) main_call2_v4) (TRef.of (T := ⟨S50000x16, .f32⟩) main_call2_v5) subf ]

set_option maxRecDepth 8192 in
set_option maxHeartbeats 4000000 in
/-- Operations 317 to 317 carry the invariant on: each value they compute that is read later is its stage function. -/
theorem step20_9 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_9 a0 a1 a2 a3 a4 a5 a6 a7 a8 a9 a10 a11 V) : St20_10 a0 a1 a2 a3 a4 a5 a6 a7 a8 a9 a10 a11 (after (w20_9 (F := F)) V) := by
  obtain ⟨hA0, hA1, hA2, hA3, hA4, hA5, hA6, hA7, hA8, hA9, hA10, hA11, h_main_v250, h_main_call2_v4, h_main_v93, h_main_v252⟩ := h
  refine ⟨?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_v250, h_main_call2_v4, h_main_v93, h_main_v252]
    try simp only [TRef.ofBuf, TRef.toBuf, cast_cast, cast_eq]
    rfl
  · after_results_simp; exact h_main_v93
  · after_results_simp; exact h_main_v252

/-- Operations 318 to 318 of @main. -/
abbrev w20_10 : List (HloOp τ sig (Elt F)) :=
  [ TRef.unary (TRef.of (T := ⟨S50000x16, .f32⟩) main_call2_v5) (TRef.of (T := ⟨S50000x16, .f32⟩) main_call2_v6) Host.exp ]

set_option maxRecDepth 8192 in
set_option maxHeartbeats 4000000 in
/-- Operations 318 to 318 carry the invariant on: each value they compute that is read later is its stage function. -/
theorem step20_10 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_10 a0 a1 a2 a3 a4 a5 a6 a7 a8 a9 a10 a11 V) : St20_11 a0 a1 a2 a3 a4 a5 a6 a7 a8 a9 a10 a11 (after (w20_10 (F := F)) V) := by
  obtain ⟨hA0, hA1, hA2, hA3, hA4, hA5, hA6, hA7, hA8, hA9, hA10, hA11, h_main_call2_v5, h_main_v93, h_main_v252⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_call2_v5, h_main_v93, h_main_v252]
    try simp only [TRef.ofBuf, TRef.toBuf, cast_cast, cast_eq]
    rfl
  · after_results_simp; exact h_main_call2_v5
  · after_results_simp; exact h_main_v93
  · after_results_simp; exact h_main_v252

/-- Operations 319 to 319 of @main. -/
abbrev w20_11 : List (HloOp τ sig (Elt F)) :=
  [ TRef.nullary (TRef.of (T := ⟨S_, .f32⟩) main_call2_cst_1) (constant S_ .f32 0x00000000#32) ]

set_option maxRecDepth 8192 in
set_option maxHeartbeats 4000000 in
/-- Operations 319 to 319 carry the invariant on: each value they compute that is read later is its stage function. -/
theorem step20_11 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_11 a0 a1 a2 a3 a4 a5 a6 a7 a8 a9 a10 a11 V) : St20_12 a0 a1 a2 a3 a4 a5 a6 a7 a8 a9 a10 a11 (after (w20_11 (F := F)) V) := by
  obtain ⟨hA0, hA1, hA2, hA3, hA4, hA5, hA6, hA7, hA8, hA9, hA10, hA11, h_main_call2_v6, h_main_call2_v5, h_main_v93, h_main_v252⟩ := h
  refine ⟨?_, ?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_call2_v6
  · after_results_simp
    try simp only [hA0, hA1, hA2, hA3, hA4, hA5, hA6, hA7, hA8, hA9, hA10, hA11, h_main_call2_v6, h_main_call2_v5, h_main_v93, h_main_v252]
    try simp only [TRef.ofBuf, TRef.toBuf, cast_cast, cast_eq]
    rfl
  · after_results_simp; exact h_main_call2_v5
  · after_results_simp; exact h_main_v93
  · after_results_simp; exact h_main_v252

/-- Operations 320 to 320 of @main. -/
abbrev w20_12 : List (HloOp τ sig (Elt F)) :=
  [ TRef.binary (TRef.of (T := ⟨S50000x16, .f32⟩) main_call2_v6) (TRef.of (T := ⟨S_, .f32⟩) main_call2_cst_1) (TRef.of (T := ⟨S50000, .f32⟩) main_call2_v7) (fun x v => Host.reduceAdd x v reducesTo_S50000x16_S50000_d1 h_S_) ]

set_option maxRecDepth 8192 in
set_option maxHeartbeats 4000000 in
/-- Operations 320 to 320 carry the invariant on: each value they compute that is read later is its stage function. -/
theorem step20_12 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_12 a0 a1 a2 a3 a4 a5 a6 a7 a8 a9 a10 a11 V) : St20_13 a0 a1 a2 a3 a4 a5 a6 a7 a8 a9 a10 a11 (after (w20_12 (F := F)) V) := by
  obtain ⟨hA0, hA1, hA2, hA3, hA4, hA5, hA6, hA7, hA8, hA9, hA10, hA11, h_main_call2_v6, h_main_call2_cst_1, h_main_call2_v5, h_main_v93, h_main_v252⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_call2_v6, h_main_call2_cst_1, h_main_call2_v5, h_main_v93, h_main_v252]
    try simp only [TRef.ofBuf, TRef.toBuf, cast_cast, cast_eq]
    rfl
  · after_results_simp; exact h_main_call2_v5
  · after_results_simp; exact h_main_v93
  · after_results_simp; exact h_main_v252

/-- Operations 321 to 321 of @main. -/
abbrev w20_13 : List (HloOp τ sig (Elt F)) :=
  [ TRef.unary (TRef.of (T := ⟨S50000, .f32⟩) main_call2_v7) (TRef.of (T := ⟨S50000x1, .f32⟩) main_call2_v8) (broadcastInDim S50000x1 ![0] bcast_S50000_S50000x1_0) ]

set_option maxRecDepth 8192 in
set_option maxHeartbeats 4000000 in
/-- Operations 321 to 321 carry the invariant on: each value they compute that is read later is its stage function. -/
theorem step20_13 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_13 a0 a1 a2 a3 a4 a5 a6 a7 a8 a9 a10 a11 V) : St20_14 a0 a1 a2 a3 a4 a5 a6 a7 a8 a9 a10 a11 (after (w20_13 (F := F)) V) := by
  obtain ⟨hA0, hA1, hA2, hA3, hA4, hA5, hA6, hA7, hA8, hA9, hA10, hA11, h_main_call2_v7, h_main_call2_v5, h_main_v93, h_main_v252⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_call2_v7, h_main_call2_v5, h_main_v93, h_main_v252]
    try simp only [TRef.ofBuf, TRef.toBuf, cast_cast, cast_eq]
    rfl
  · after_results_simp; exact h_main_call2_v5
  · after_results_simp; exact h_main_v93
  · after_results_simp; exact h_main_v252

/-- Operations 322 to 322 of @main. -/
abbrev w20_14 : List (HloOp τ sig (Elt F)) :=
  [ TRef.unary (TRef.of (T := ⟨S50000x1, .f32⟩) main_call2_v8) (TRef.of (T := ⟨S50000x1, .f32⟩) main_call2_v9) Host.log ]

set_option maxRecDepth 8192 in
set_option maxHeartbeats 4000000 in
/-- Operations 322 to 322 carry the invariant on: each value they compute that is read later is its stage function. -/
theorem step20_14 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_14 a0 a1 a2 a3 a4 a5 a6 a7 a8 a9 a10 a11 V) : St20_15 a0 a1 a2 a3 a4 a5 a6 a7 a8 a9 a10 a11 (after (w20_14 (F := F)) V) := by
  obtain ⟨hA0, hA1, hA2, hA3, hA4, hA5, hA6, hA7, hA8, hA9, hA10, hA11, h_main_call2_v8, h_main_call2_v5, h_main_v93, h_main_v252⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_call2_v8, h_main_call2_v5, h_main_v93, h_main_v252]
    try simp only [TRef.ofBuf, TRef.toBuf, cast_cast, cast_eq]
    rfl
  · after_results_simp; exact h_main_call2_v5
  · after_results_simp; exact h_main_v93
  · after_results_simp; exact h_main_v252

/-- Operations 323 to 323 of @main. -/
abbrev w20_15 : List (HloOp τ sig (Elt F)) :=
  [ TRef.unary (TRef.of (T := ⟨S50000x1, .f32⟩) main_call2_v9) (TRef.of (T := ⟨S50000x16, .f32⟩) main_call2_v10) (broadcastInDim S50000x16 ![0, 1] bcast_S50000x1_S50000x16_0_1) ]

set_option maxRecDepth 8192 in
set_option maxHeartbeats 4000000 in
/-- Operations 323 to 323 carry the invariant on: each value they compute that is read later is its stage function. -/
theorem step20_15 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_15 a0 a1 a2 a3 a4 a5 a6 a7 a8 a9 a10 a11 V) : St20_16 a0 a1 a2 a3 a4 a5 a6 a7 a8 a9 a10 a11 (after (w20_15 (F := F)) V) := by
  obtain ⟨hA0, hA1, hA2, hA3, hA4, hA5, hA6, hA7, hA8, hA9, hA10, hA11, h_main_call2_v9, h_main_call2_v5, h_main_v93, h_main_v252⟩ := h
  refine ⟨?_, ?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp; exact h_main_call2_v5
  · after_results_simp
    try simp only [hA0, hA1, hA2, hA3, hA4, hA5, hA6, hA7, hA8, hA9, hA10, hA11, h_main_call2_v9, h_main_call2_v5, h_main_v93, h_main_v252]
    try simp only [TRef.ofBuf, TRef.toBuf, cast_cast, cast_eq]
    rfl
  · after_results_simp; exact h_main_v93
  · after_results_simp; exact h_main_v252

/-- Operations 324 to 324 of @main. -/
abbrev w20_16 : List (HloOp τ sig (Elt F)) :=
  [ TRef.binary (TRef.of (T := ⟨S50000x16, .f32⟩) main_call2_v5) (TRef.of (T := ⟨S50000x16, .f32⟩) main_call2_v10) (TRef.of (T := ⟨S50000x16, .f32⟩) main_v253) subf ]

set_option maxRecDepth 8192 in
set_option maxHeartbeats 4000000 in
/-- Operations 324 to 324 carry the invariant on: each value they compute that is read later is its stage function. -/
theorem step20_16 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20_16 a0 a1 a2 a3 a4 a5 a6 a7 a8 a9 a10 a11 V) : St21 a0 a1 a2 a3 a4 a5 a6 a7 a8 a9 a10 a11 (after (w20_16 (F := F)) V) := by
  obtain ⟨hA0, hA1, hA2, hA3, hA4, hA5, hA6, hA7, hA8, hA9, hA10, hA11, h_main_call2_v5, h_main_call2_v10, h_main_v93, h_main_v252⟩ := h
  refine ⟨?_, ?_, ?_, ?_, ?_, ?_, ?_, ?_, ?_, ?_, ?_, ?_, ?_, ?_, ?_⟩
  · after_results_simp; exact hA0
  · after_results_simp; exact hA1
  · after_results_simp; exact hA2
  · after_results_simp; exact hA3
  · after_results_simp; exact hA4
  · after_results_simp; exact hA5
  · after_results_simp; exact hA6
  · after_results_simp; exact hA7
  · after_results_simp; exact hA8
  · after_results_simp; exact hA9
  · after_results_simp; exact hA10
  · after_results_simp; exact hA11
  · after_results_simp
    try simp only [hA0, hA1, hA2, hA3, hA4, hA5, hA6, hA7, hA8, hA9, hA10, hA11, h_main_call2_v5, h_main_call2_v10, h_main_v93, h_main_v252]
    try simp only [TRef.ofBuf, TRef.toBuf, cast_cast, cast_eq]
    rfl
  · after_results_simp; exact h_main_v93
  · after_results_simp; exact h_main_v252

set_option maxRecDepth 8192 in
/-- The last window is its parts one after the other. -/
theorem w20_eq : (w20 (F := F)) = w20_0 ++ (w20_1 ++ (w20_2 ++ (w20_3 ++ (w20_4 ++ (w20_5 ++ (w20_6 ++ (w20_7 ++ (w20_8 ++ (w20_9 ++ (w20_10 ++ (w20_11 ++ (w20_12 ++ (w20_13 ++ (w20_14 ++ (w20_15 ++ (w20_16)))))))))))))))) := rfl

/-- Operations 299 to 324 carry the invariant on: at the end the three results are their stage functions. -/
theorem step20 (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St20 a0 a1 a2 a3 a4 a5 a6 a7 a8 a9 a10 a11 V) : St21 a0 a1 a2 a3 a4 a5 a6 a7 a8 a9 a10 a11 (after (w20 (F := F)) V) := by
  rw [w20_eq]
  simp only [after_append']
  exact step20_16 a0 a1 a2 a3 a4 a5 a6 a7 a8 a9 a10 a11 _ (step20_15 a0 a1 a2 a3 a4 a5 a6 a7 a8 a9 a10 a11 _ (step20_14 a0 a1 a2 a3 a4 a5 a6 a7 a8 a9 a10 a11 _ (step20_13 a0 a1 a2 a3 a4 a5 a6 a7 a8 a9 a10 a11 _ (step20_12 a0 a1 a2 a3 a4 a5 a6 a7 a8 a9 a10 a11 _ (step20_11 a0 a1 a2 a3 a4 a5 a6 a7 a8 a9 a10 a11 _ (step20_10 a0 a1 a2 a3 a4 a5 a6 a7 a8 a9 a10 a11 _ (step20_9 a0 a1 a2 a3 a4 a5 a6 a7 a8 a9 a10 a11 _ (step20_8 a0 a1 a2 a3 a4 a5 a6 a7 a8 a9 a10 a11 _ (step20_7 a0 a1 a2 a3 a4 a5 a6 a7 a8 a9 a10 a11 _ (step20_6 a0 a1 a2 a3 a4 a5 a6 a7 a8 a9 a10 a11 _ (step20_5 a0 a1 a2 a3 a4 a5 a6 a7 a8 a9 a10 a11 _ (step20_4 a0 a1 a2 a3 a4 a5 a6 a7 a8 a9 a10 a11 _ (step20_3 a0 a1 a2 a3 a4 a5 a6 a7 a8 a9 a10 a11 _ (step20_2 a0 a1 a2 a3 a4 a5 a6 a7 a8 a9 a10 a11 _ (step20_1 a0 a1 a2 a3 a4 a5 a6 a7 a8 a9 a10 a11 _ (step20_0 a0 a1 a2 a3 a4 a5 a6 a7 a8 a9 a10 a11 _ (h)))))))))))))))))

end Cert.ReferenceIdeal.RefValue

end
-- ==== Proof.RefVals.lean ====
/-
  The reference program's run read at its results. Every weakly fair execution of the reference's @main terminates
  and leaves each buffer at the fold of the 325 operations' results over the launch contents. The operations are the
  windows one after the other, so the fold is the windows' folds composed; the invariant holds of the launch contents
  (with `a0 … a11` the arguments' launch contents) and each window carries it on; at the end it says that the three
  results hold their stage functions of the arguments and that the arguments are unchanged. The frame of the reference
  is that run with the results dropped.
-/
import proofs.«128511_j38740605010536_2_alg».proof.Defs
import proofs.«128511_j38740605010536_2_alg».proof.Proof.Gen.ReferenceIdeal
import proofs.«128511_j38740605010536_2_alg».proof.Proof.Gen.Pre_finite_inputs
import proofs.«128511_j38740605010536_2_alg».proof.Proof.RefRunP
import proofs.«128511_j38740605010536_2_alg».proof.Proof.RefVals1
import proofs.«128511_j38740605010536_2_alg».proof.Proof.RefVals2
import proofs.«128511_j38740605010536_2_alg».proof.Proof.RefVals3
import proofs.«128511_j38740605010536_2_alg».proof.Proof.RefVals4

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 8192 in
set_option maxHeartbeats 20000000 in
/-- @main's operations are the windows one after the other. -/
theorem ops_eq : (ValueP.ops (F := F)) = w0 ++ (w1 ++ (w2 ++ (w3 ++ (w4 ++ (w5 ++ (w6 ++ (w7 ++ (w8 ++ (w9 ++ (w10 ++ (w11 ++ (w12 ++ (w13 ++ (w14 ++ (w15 ++ (w16 ++ (w17 ++ (w18 ++ (w19 ++ (w20)))))))))))))))))))) := rfl

/-- The invariant carried through all of @main: from contents whose arguments are `a0 … a11`, the fold of the
    325 operations leaves the arguments as they were and the three results at their stage functions. -/
theorem after_ops (a0 : (⟨S50000x256, .f32⟩ : BufTy).Contents (Elt F)) (a1 : (⟨S2x100000, .i32⟩ : BufTy).Contents (Elt F)) (a2 : (⟨S2x100000, .i32⟩ : BufTy).Contents (Elt F)) (a3 : (⟨S2x800000, .i32⟩ : BufTy).Contents (Elt F)) (a4 : (⟨S256x128, .f32⟩ : BufTy).Contents (Elt F)) (a5 : (⟨S128, .f32⟩ : BufTy).Contents (Elt F)) (a6 : (⟨S128x128, .f32⟩ : BufTy).Contents (Elt F)) (a7 : (⟨S128, .f32⟩ : BufTy).Contents (Elt F)) (a8 : (⟨S256x128, .f32⟩ : BufTy).Contents (Elt F)) (a9 : (⟨S128, .f32⟩ : BufTy).Contents (Elt F)) (a10 : (⟨S128x16, .f32⟩ : BufTy).Contents (Elt F)) (a11 : (⟨S16, .f32⟩ : BufTy).Contents (Elt F)) (V : Valuation τ sig (Elt F))
    (h : St0 a0 a1 a2 a3 a4 a5 a6 a7 a8 a9 a10 a11 V) : St21 a0 a1 a2 a3 a4 a5 a6 a7 a8 a9 a10 a11 (after (ValueP.ops (F := F)) V) := by
  rw [ops_eq]
  simp only [after_append']
  exact step20 a0 a1 a2 a3 a4 a5 a6 a7 a8 a9 a10 a11 _ (step19 a0 a1 a2 a3 a4 a5 a6 a7 a8 a9 a10 a11 _ (step18 a0 a1 a2 a3 a4 a5 a6 a7 a8 a9 a10 a11 _ (step17 a0 a1 a2 a3 a4 a5 a6 a7 a8 a9 a10 a11 _ (step16 a0 a1 a2 a3 a4 a5 a6 a7 a8 a9 a10 a11 _ (step15 a0 a1 a2 a3 a4 a5 a6 a7 a8 a9 a10 a11 _ (step14 a0 a1 a2 a3 a4 a5 a6 a7 a8 a9 a10 a11 _ (step13 a0 a1 a2 a3 a4 a5 a6 a7 a8 a9 a10 a11 _ (step12 a0 a1 a2 a3 a4 a5 a6 a7 a8 a9 a10 a11 _ (step11 a0 a1 a2 a3 a4 a5 a6 a7 a8 a9 a10 a11 _ (step10 a0 a1 a2 a3 a4 a5 a6 a7 a8 a9 a10 a11 _ (step9 a0 a1 a2 a3 a4 a5 a6 a7 a8 a9 a10 a11 _ (step8 a0 a1 a2 a3 a4 a5 a6 a7 a8 a9 a10 a11 _ (step7 a0 a1 a2 a3 a4 a5 a6 a7 a8 a9 a10 a11 _ (step6 a0 a1 a2 a3 a4 a5 a6 a7 a8 a9 a10 a11 _ (step5 a0 a1 a2 a3 a4 a5 a6 a7 a8 a9 a10 a11 _ (step4 a0 a1 a2 a3 a4 a5 a6 a7 a8 a9 a10 a11 _ (step3 a0 a1 a2 a3 a4 a5 a6 a7 a8 a9 a10 a11 _ (step2 a0 a1 a2 a3 a4 a5 a6 a7 a8 a9 a10 a11 _ (step1 a0 a1 a2 a3 a4 a5 a6 a7 a8 a9 a10 a11 _ (step0 a0 a1 a2 a3 a4 a5 a6 a7 a8 a9 a10 a11 _ (h)))))))))))))))))))))

/-- The fold of @main's operations over any contents, read at the results and the arguments. -/
theorem fold_vals (V : Valuation τ sig (Elt F)) :
    St21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (after (ValueP.ops (F := F)) V) :=
  after_ops _ _ _ _ _ _ _ _ _ _ _ _ V ⟨rfl, rfl, rfl, rfl, rfl, rfl, rfl, rfl, rfl, rfl, rfl, rfl⟩

/-- On every device, for any float values, from any memory with zero counters: every weakly fair execution of the
    reference's @main terminates with its three results at their stage functions of the arguments' launch contents,
    the arguments unchanged. -/
theorem run_vals_F (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v253) = val_main_v253 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v93) = val_main_v93 (F := F) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v252) = val_main_v252 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
      obtain ⟨h0, h1, h2, h3, h4, h5, h6, h7, h8, h9, h10, h11, hv253, hv93, hv252⟩ := fold_vals (F := F) (launchContents m c)
      exact ⟨(h c main_v253).trans hv253, (h c main_v93).trans hv93, (h c main_v252).trans hv252,
        (h c main_arg0).trans h0, (h c main_arg1).trans h1, (h c main_arg2).trans h2, (h c main_arg3).trans h3,
        (h c main_arg4).trans h4, (h c main_arg5).trans h5, (h c main_arg6).trans h6, (h c main_arg7).trans h7,
        (h c main_arg8).trans h8, (h c main_arg9).trans h9, (h c main_arg10).trans h10, (h c main_arg11).trans h11⟩)
    (ValueP.run_raw (F := F) m ρ)

/-- The run of the reference at the extended reals. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v253) = val_main_v253 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v93) = val_main_v93 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v252) = val_main_v252 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  run_vals_F (F := Ideal) m ρ

end Cert.ReferenceIdeal.RefValue

namespace Cert.Proof.RefClaims

open Idealize.ShloMosaic Idealize.ShloMosaic.TcCoe Idealize.SL.Sem

/-- The reference runs to the end, nothing faulting, its arguments unchanged: its run with the results dropped. -/
theorem frame_ri [hPre : Cert.Pre_finite_inputs.Facts] : Cert.frame_ReferenceIdeal (hReferenceIdeal := Cert.ReferenceIdeal.Gen.facts) := fun m ρ _ =>
  (θ_run Cert.ReferenceIdeal.defs _ _).mono (fun _ h c => (h c).2.2.2) (Cert.ReferenceIdeal.RefValue.run_vals m ρ)

end Cert.Proof.RefClaims

end
-- ==== Proof.KI.Keep.lean ====
/-
  Kept values. Buffers are numbered in program order: every host stretch writes buffers whose indices are all at least
  the index of the first buffer it writes, and a pallas call writes only its output window's array, whose index is
  above those of its input windows' arrays. So a buffer whose index is below the lowest index a segment writes is left
  by that segment as it found it (a host operation writes a different buffer; an input window's array is never written
  back; any other buffer is none of the call's arrays). Chaining the segments: an argument array holds its launch
  contents at every boundary, and a value holds, at every later boundary, what it held at the boundary after the
  segment that wrote it.
-/
import proofs.«128511_j38740605010536_2_alg».proof.Proof.KI.Args

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Host stretches: the lowest index written -/

/-- Every operation of the line writes exactly one buffer, whose index in its space is at least `n`. -/
def WritesGe (n : ℕ) (ops : List (HloOp τ sig (Elt F))) : Prop :=
  ops.Forall fun op => ∃ y : Ref sig .tc, op.writes = {Proc.devRef .tc y} ∧ n ≤ y.idx.val

/-- Such a line leaves every buffer of index below `n` as it found it: the buffer differs from each written one. -/
theorem after_keep_lt (ops : List (HloOp τ sig (Elt F))) (n : ℕ) (h : WritesGe n ops) (b : Ref sig .tc) (hb : b.idx.val < n)
    (V : Valuation τ sig (Elt F)) : StableHlo.after ops V (Proc.devRef .tc b) = V (Proc.devRef .tc b) :=
  StableHlo.after_of_forall_not_mem ops V fun op hop hmem => by
    obtain ⟨y, hy, hge⟩ := List.forall_iff_forall_mem.mp h op hop
    rw [hy, Finset.mem_singleton] at hmem
    have e : b = y := Proc.devRef_injective _ hmem
    subst e
    omega

theorem main_part0_ops0_ge : WritesGe 12 (main_part0_ops0 : List (HloOp τ sig (Elt F))) := by
  unfold WritesGe; simp only [List.Forall]; repeat' apply And.intro
  all_goals exact ⟨_, rfl, by decide⟩
theorem main_part0_ops1_ge : WritesGe 19 (main_part0_ops1 : List (HloOp τ sig (Elt F))) := by
  unfold WritesGe; simp only [List.Forall]; repeat' apply And.intro
  all_goals exact ⟨_, rfl, by decide⟩
theorem main_part0_ops2_ge : WritesGe 71 (main_part0_ops2 : List (HloOp τ sig (Elt F))) := by
  unfold WritesGe; simp only [List.Forall]; repeat' apply And.intro
  all_goals exact ⟨_, rfl, by decide⟩
theorem main_part1_ops0_ge : WritesGe 75 (main_part1_ops0 : List (HloOp τ sig (Elt F))) := by
  unfold WritesGe; simp only [List.Forall]; repeat' apply And.intro
  all_goals exact ⟨_, rfl, by decide⟩
theorem main_part2_ops0_ge : WritesGe 134 (main_part2_ops0 : List (HloOp τ sig (Elt F))) := by
  unfold WritesGe; simp only [List.Forall]; repeat' apply And.intro
  all_goals exact ⟨_, rfl, by decide⟩
theorem main_part2_ops1_ge : WritesGe 151 (main_part2_ops1 : List (HloOp τ sig (Elt F))) := by
  unfold WritesGe; simp only [List.Forall]; repeat' apply And.intro
  all_goals exact ⟨_, rfl, by decide⟩
theorem main_part2_ops2_ge : WritesGe 153 (main_part2_ops2 : List (HloOp τ sig (Elt F))) := by
  unfold WritesGe; simp only [List.Forall]; repeat' apply And.intro
  all_goals exact ⟨_, rfl, by decide⟩
theorem main_part2_ops3_ge : WritesGe 154 (main_part2_ops3 : List (HloOp τ sig (Elt F))) := by
  unfold WritesGe; simp only [List.Forall]; repeat' apply And.intro
  all_goals exact ⟨_, rfl, by decide⟩
theorem main_part2_ops4_ge : WritesGe 156 (main_part2_ops4 : List (HloOp τ sig (Elt F))) := by
  unfold WritesGe; simp only [List.Forall]; repeat' apply And.intro
  all_goals exact ⟨_, rfl, by decide⟩
theorem main_part2_ops5_ge : WritesGe 159 (main_part2_ops5 : List (HloOp τ sig (Elt F))) := by
  unfold WritesGe; simp only [List.Forall]; repeat' apply And.intro
  all_goals exact ⟨_, rfl, by decide⟩
theorem main_part2_ops6_ge : WritesGe 177 (main_part2_ops6 : List (HloOp τ sig (Elt F))) := by
  unfold WritesGe; simp only [List.Forall]; repeat' apply And.intro
  all_goals exact ⟨_, rfl, by decide⟩
theorem main_part3_ops0_ge : WritesGe 196 (main_part3_ops0 : List (HloOp τ sig (Elt F))) := by
  unfold WritesGe; simp only [List.Forall]; repeat' apply And.intro
  all_goals exact ⟨_, rfl, by decide⟩
theorem main_part3_ops1_ge : WritesGe 231 (main_part3_ops1 : List (HloOp τ sig (Elt F))) := by
  unfold WritesGe; simp only [List.Forall]; repeat' apply And.intro
  all_goals exact ⟨_, rfl, by decide⟩
theorem main_part3_ops2_ge : WritesGe 235 (main_part3_ops2 : List (HloOp τ sig (Elt F))) := by
  unfold WritesGe; simp only [List.Forall]; repeat' apply And.intro
  all_goals exact ⟨_, rfl, by decide⟩
theorem main_part4_ops0_ge : WritesGe 258 (main_part4_ops0 : List (HloOp τ sig (Elt F))) := by
  unfold WritesGe; simp only [List.Forall]; repeat' apply And.intro
  all_goals exact ⟨_, rfl, by decide⟩
theorem main_part4_ops1_ge : WritesGe 292 (main_part4_ops1 : List (HloOp τ sig (Elt F))) := by
  unfold WritesGe; simp only [List.Forall]; repeat' apply And.intro
  all_goals exact ⟨_, rfl, by decide⟩

variable (m : (ℓ : Loc nD τ sig) → Buf (Elt F) ℓ) (ρ : Dev nD → PrngReg)

/-! ## One segment: a buffer of index below the lowest index the segment writes is left as found -/

/-- The host stretch `main_part0_ops0` writes indices from 12 on. -/
theorem X1_step (c : Dev nD) (b : Ref sig .tc) (hb : b.idx.val < 12) :
    X1 m ρ c (Proc.devRef .tc b) = X0 m ρ c (Proc.devRef .tc b) :=
  after_keep_lt main_part0_ops0 12 main_part0_ops0_ge b hb _
/-- Pallas call 0 writes only its output array, of index 18: an input window's array is never written back, and a
    buffer that is none of the call's arrays is left as entered. -/
theorem X2_step (c : Dev nD) (b : Ref sig .tc) (hb : b.idx.val < 18) :
    X2 m ρ c (Proc.devRef .tc b) = X1 m ρ c (Proc.devRef .tc b) := by
  by_cases h0 : Pipeline.arrRef spec0 0 = b
  · subst h0
    exact (X2_arr m ρ c 0).trans (((dat0 (V1 m ρ) c).arrAt_in 0 rfl _).trans (A_eq0 (V1 m ρ) c 0))
  by_cases h1 : Pipeline.arrRef spec0 1 = b
  · subst h1
    exact (X2_arr m ρ c 1).trans (((dat0 (V1 m ρ) c).arrAt_in 1 rfl _).trans (A_eq0 (V1 m ρ) c 1))
  refine X2_of_ne m ρ c b fun w e => ?_
  subst e
  revert w; decide
/-- The host stretch `main_part0_ops1` writes indices from 19 on. -/
theorem X3_step (c : Dev nD) (b : Ref sig .tc) (hb : b.idx.val < 19) :
    X3 m ρ c (Proc.devRef .tc b) = X2 m ρ c (Proc.devRef .tc b) :=
  after_keep_lt main_part0_ops1 19 main_part0_ops1_ge b hb _
/-- The host stretch `main_part0_ops2` writes indices from 71 on. -/
theorem X4_step (c : Dev nD) (b : Ref sig .tc) (hb : b.idx.val < 71) :
    X4 m ρ c (Proc.devRef .tc b) = X3 m ρ c (Proc.devRef .tc b) :=
  after_keep_lt main_part0_ops2 71 main_part0_ops2_ge b hb _
/-- Pallas call 1 writes only its output array, of index 74: an input window's array is never written back, and a
    buffer that is none of the call's arrays is left as entered. -/
theorem X5_step (c : Dev nD) (b : Ref sig .tc) (hb : b.idx.val < 74) :
    X5 m ρ c (Proc.devRef .tc b) = X4 m ρ c (Proc.devRef .tc b) := by
  by_cases h0 : Pipeline.arrRef spec1 0 = b
  · subst h0
    exact (X5_arr m ρ c 0).trans (((dat1 (V4 m ρ) c).arrAt_in 0 rfl _).trans (A_eq1 (V4 m ρ) c 0))
  by_cases h1 : Pipeline.arrRef spec1 1 = b
  · subst h1
    exact (X5_arr m ρ c 1).trans (((dat1 (V4 m ρ) c).arrAt_in 1 rfl _).trans (A_eq1 (V4 m ρ) c 1))
  refine X5_of_ne m ρ c b fun w e => ?_
  subst e
  revert w; decide
/-- The host stretch `main_part1_ops0` writes indices from 75 on. -/
theorem X6_step (c : Dev nD) (b : Ref sig .tc) (hb : b.idx.val < 75) :
    X6 m ρ c (Proc.devRef .tc b) = X5 m ρ c (Proc.devRef .tc b) :=
  after_keep_lt main_part1_ops0 75 main_part1_ops0_ge b hb _
/-- The host stretch `main_part2_ops0` writes indices from 134 on. -/
theorem X7_step (c : Dev nD) (b : Ref sig .tc) (hb : b.idx.val < 134) :
    X7 m ρ c (Proc.devRef .tc b) = X6 m ρ c (Proc.devRef .tc b) :=
  after_keep_lt main_part2_ops0 134 main_part2_ops0_ge b hb _
/-- The host stretch `main_part2_ops1` writes indices from 151 on. -/
theorem X8_step (c : Dev nD) (b : Ref sig .tc) (hb : b.idx.val < 151) :
    X8 m ρ c (Proc.devRef .tc b) = X7 m ρ c (Proc.devRef .tc b) :=
  after_keep_lt main_part2_ops1 151 main_part2_ops1_ge b hb _
/-- The host stretch `main_part2_ops2` writes indices from 153 on. -/
theorem X9_step (c : Dev nD) (b : Ref sig .tc) (hb : b.idx.val < 153) :
    X9 m ρ c (Proc.devRef .tc b) = X8 m ρ c (Proc.devRef .tc b) :=
  after_keep_lt main_part2_ops2 153 main_part2_ops2_ge b hb _
/-- The host stretch `main_part2_ops3` writes indices from 154 on. -/
theorem X10_step (c : Dev nD) (b : Ref sig .tc) (hb : b.idx.val < 154) :
    X10 m ρ c (Proc.devRef .tc b) = X9 m ρ c (Proc.devRef .tc b) :=
  after_keep_lt main_part2_ops3 154 main_part2_ops3_ge b hb _
/-- The host stretch `main_part2_ops4` writes indices from 156 on. -/
theorem X11_step (c : Dev nD) (b : Ref sig .tc) (hb : b.idx.val < 156) :
    X11 m ρ c (Proc.devRef .tc b) = X10 m ρ c (Proc.devRef .tc b) :=
  after_keep_lt main_part2_ops4 156 main_part2_ops4_ge b hb _
/-- Pallas call 2 writes only its output array, of index 158: an input window's array is never written back, and a
    buffer that is none of the call's arrays is left as entered. -/
theorem X12_step (c : Dev nD) (b : Ref sig .tc) (hb : b.idx.val < 158) :
    X12 m ρ c (Proc.devRef .tc b) = X11 m ρ c (Proc.devRef .tc b) := by
  by_cases h0 : Pipeline.arrRef spec2 0 = b
  · subst h0
    exact (X12_arr m ρ c 0).trans (((dat2 (V11 m ρ) c).arrAt_in 0 rfl _).trans (A_eq2 (V11 m ρ) c 0))
  by_cases h1 : Pipeline.arrRef spec2 1 = b
  · subst h1
    exact (X12_arr m ρ c 1).trans (((dat2 (V11 m ρ) c).arrAt_in 1 rfl _).trans (A_eq2 (V11 m ρ) c 1))
  refine X12_of_ne m ρ c b fun w e => ?_
  subst e
  revert w; decide
/-- The host stretch `main_part2_ops5` writes indices from 159 on. -/
theorem X13_step (c : Dev nD) (b : Ref sig .tc) (hb : b.idx.val < 159) :
    X13 m ρ c (Proc.devRef .tc b) = X12 m ρ c (Proc.devRef .tc b) :=
  after_keep_lt main_part2_ops5 159 main_part2_ops5_ge b hb _
/-- Pallas call 3 writes only its output array, of index 176: an input window's array is never written back, and a
    buffer that is none of the call's arrays is left as entered. -/
theorem X14_step (c : Dev nD) (b : Ref sig .tc) (hb : b.idx.val < 176) :
    X14 m ρ c (Proc.devRef .tc b) = X13 m ρ c (Proc.devRef .tc b) := by
  by_cases h0 : Pipeline.arrRef spec3 0 = b
  · subst h0
    exact (X14_arr m ρ c 0).trans (((dat3 (V13 m ρ) c).arrAt_in 0 rfl _).trans (A_eq3 (V13 m ρ) c 0))
  by_cases h1 : Pipeline.arrRef spec3 1 = b
  · subst h1
    exact (X14_arr m ρ c 1).trans (((dat3 (V13 m ρ) c).arrAt_in 1 rfl _).trans (A_eq3 (V13 m ρ) c 1))
  refine X14_of_ne m ρ c b fun w e => ?_
  subst e
  revert w; decide
/-- The host stretch `main_part2_ops6` writes indices from 177 on. -/
theorem X15_step (c : Dev nD) (b : Ref sig .tc) (hb : b.idx.val < 177) :
    X15 m ρ c (Proc.devRef .tc b) = X14 m ρ c (Proc.devRef .tc b) :=
  after_keep_lt main_part2_ops6 177 main_part2_ops6_ge b hb _
/-- The host stretch `main_part3_ops0` writes indices from 196 on. -/
theorem X16_step (c : Dev nD) (b : Ref sig .tc) (hb : b.idx.val < 196) :
    X16 m ρ c (Proc.devRef .tc b) = X15 m ρ c (Proc.devRef .tc b) :=
  after_keep_lt main_part3_ops0 196 main_part3_ops0_ge b hb _
/-- The host stretch `main_part3_ops1` writes indices from 231 on. -/
theorem X17_step (c : Dev nD) (b : Ref sig .tc) (hb : b.idx.val < 231) :
    X17 m ρ c (Proc.devRef .tc b) = X16 m ρ c (Proc.devRef .tc b) :=
  after_keep_lt main_part3_ops1 231 main_part3_ops1_ge b hb _
/-- Pallas call 4 writes only its output array, of index 234: an input window's array is never written back, and a
    buffer that is none of the call's arrays is left as entered. -/
theorem X18_step (c : Dev nD) (b : Ref sig .tc) (hb : b.idx.val < 234) :
    X18 m ρ c (Proc.devRef .tc b) = X17 m ρ c (Proc.devRef .tc b) := by
  by_cases h0 : Pipeline.arrRef spec4 0 = b
  · subst h0
    exact (X18_arr m ρ c 0).trans (((dat4 (V17 m ρ) c).arrAt_in 0 rfl _).trans (A_eq4 (V17 m ρ) c 0))
  by_cases h1 : Pipeline.arrRef spec4 1 = b
  · subst h1
    exact (X18_arr m ρ c 1).trans (((dat4 (V17 m ρ) c).arrAt_in 1 rfl _).trans (A_eq4 (V17 m ρ) c 1))
  refine X18_of_ne m ρ c b fun w e => ?_
  subst e
  revert w; decide
/-- The host stretch `main_part3_ops2` writes indices from 235 on. -/
theorem X19_step (c : Dev nD) (b : Ref sig .tc) (hb : b.idx.val < 235) :
    X19 m ρ c (Proc.devRef .tc b) = X18 m ρ c (Proc.devRef .tc b) :=
  after_keep_lt main_part3_ops2 235 main_part3_ops2_ge b hb _
/-- The host stretch `main_part4_ops0` writes indices from 258 on. -/
theorem X20_step (c : Dev nD) (b : Ref sig .tc) (hb : b.idx.val < 258) :
    X20 m ρ c (Proc.devRef .tc b) = X19 m ρ c (Proc.devRef .tc b) :=
  after_keep_lt main_part4_ops0 258 main_part4_ops0_ge b hb _
/-- The host stretch `main_part4_ops1` writes indices from 292 on. -/
theorem X21_step (c : Dev nD) (b : Ref sig .tc) (hb : b.idx.val < 292) :
    X21 m ρ c (Proc.devRef .tc b) = X20 m ρ c (Proc.devRef .tc b) :=
  after_keep_lt main_part4_ops1 292 main_part4_ops1_ge b hb _

/-! ## The argument arrays at every boundary -/

theorem X0_arg (c : Dev nD) (b : Ref sig .tc) (hb : b.idx.val < 12) :
    X0 m ρ c (Proc.devRef .tc b) = m ((c : Thread nD τ).loc b) := rfl
theorem X1_arg (c : Dev nD) (b : Ref sig .tc) (hb : b.idx.val < 12) :
    X1 m ρ c (Proc.devRef .tc b) = m ((c : Thread nD τ).loc b) :=
  (X1_step m ρ c b (by omega)).trans (X0_arg m ρ c b hb)
theorem X2_arg (c : Dev nD) (b : Ref sig .tc) (hb : b.idx.val < 12) :
    X2 m ρ c (Proc.devRef .tc b) = m ((c : Thread nD τ).loc b) :=
  (X2_step m ρ c b (by omega)).trans (X1_arg m ρ c b hb)
theorem X3_arg (c : Dev nD) (b : Ref sig .tc) (hb : b.idx.val < 12) :
    X3 m ρ c (Proc.devRef .tc b) = m ((c : Thread nD τ).loc b) :=
  (X3_step m ρ c b (by omega)).trans (X2_arg m ρ c b hb)
theorem X4_arg (c : Dev nD) (b : Ref sig .tc) (hb : b.idx.val < 12) :
    X4 m ρ c (Proc.devRef .tc b) = m ((c : Thread nD τ).loc b) :=
  (X4_step m ρ c b (by omega)).trans (X3_arg m ρ c b hb)
theorem X5_arg (c : Dev nD) (b : Ref sig .tc) (hb : b.idx.val < 12) :
    X5 m ρ c (Proc.devRef .tc b) = m ((c : Thread nD τ).loc b) :=
  (X5_step m ρ c b (by omega)).trans (X4_arg m ρ c b hb)
theorem X6_arg (c : Dev nD) (b : Ref sig .tc) (hb : b.idx.val < 12) :
    X6 m ρ c (Proc.devRef .tc b) = m ((c : Thread nD τ).loc b) :=
  (X6_step m ρ c b (by omega)).trans (X5_arg m ρ c b hb)
theorem X7_arg (c : Dev nD) (b : Ref sig .tc) (hb : b.idx.val < 12) :
    X7 m ρ c (Proc.devRef .tc b) = m ((c : Thread nD τ).loc b) :=
  (X7_step m ρ c b (by omega)).trans (X6_arg m ρ c b hb)
theorem X8_arg (c : Dev nD) (b : Ref sig .tc) (hb : b.idx.val < 12) :
    X8 m ρ c (Proc.devRef .tc b) = m ((c : Thread nD τ).loc b) :=
  (X8_step m ρ c b (by omega)).trans (X7_arg m ρ c b hb)
theorem X9_arg (c : Dev nD) (b : Ref sig .tc) (hb : b.idx.val < 12) :
    X9 m ρ c (Proc.devRef .tc b) = m ((c : Thread nD τ).loc b) :=
  (X9_step m ρ c b (by omega)).trans (X8_arg m ρ c b hb)
theorem X10_arg (c : Dev nD) (b : Ref sig .tc) (hb : b.idx.val < 12) :
    X10 m ρ c (Proc.devRef .tc b) = m ((c : Thread nD τ).loc b) :=
  (X10_step m ρ c b (by omega)).trans (X9_arg m ρ c b hb)
theorem X11_arg (c : Dev nD) (b : Ref sig .tc) (hb : b.idx.val < 12) :
    X11 m ρ c (Proc.devRef .tc b) = m ((c : Thread nD τ).loc b) :=
  (X11_step m ρ c b (by omega)).trans (X10_arg m ρ c b hb)
theorem X12_arg (c : Dev nD) (b : Ref sig .tc) (hb : b.idx.val < 12) :
    X12 m ρ c (Proc.devRef .tc b) = m ((c : Thread nD τ).loc b) :=
  (X12_step m ρ c b (by omega)).trans (X11_arg m ρ c b hb)
theorem X13_arg (c : Dev nD) (b : Ref sig .tc) (hb : b.idx.val < 12) :
    X13 m ρ c (Proc.devRef .tc b) = m ((c : Thread nD τ).loc b) :=
  (X13_step m ρ c b (by omega)).trans (X12_arg m ρ c b hb)
theorem X14_arg (c : Dev nD) (b : Ref sig .tc) (hb : b.idx.val < 12) :
    X14 m ρ c (Proc.devRef .tc b) = m ((c : Thread nD τ).loc b) :=
  (X14_step m ρ c b (by omega)).trans (X13_arg m ρ c b hb)
theorem X15_arg (c : Dev nD) (b : Ref sig .tc) (hb : b.idx.val < 12) :
    X15 m ρ c (Proc.devRef .tc b) = m ((c : Thread nD τ).loc b) :=
  (X15_step m ρ c b (by omega)).trans (X14_arg m ρ c b hb)
theorem X16_arg (c : Dev nD) (b : Ref sig .tc) (hb : b.idx.val < 12) :
    X16 m ρ c (Proc.devRef .tc b) = m ((c : Thread nD τ).loc b) :=
  (X16_step m ρ c b (by omega)).trans (X15_arg m ρ c b hb)
theorem X17_arg (c : Dev nD) (b : Ref sig .tc) (hb : b.idx.val < 12) :
    X17 m ρ c (Proc.devRef .tc b) = m ((c : Thread nD τ).loc b) :=
  (X17_step m ρ c b (by omega)).trans (X16_arg m ρ c b hb)
theorem X18_arg (c : Dev nD) (b : Ref sig .tc) (hb : b.idx.val < 12) :
    X18 m ρ c (Proc.devRef .tc b) = m ((c : Thread nD τ).loc b) :=
  (X18_step m ρ c b (by omega)).trans (X17_arg m ρ c b hb)
theorem X19_arg (c : Dev nD) (b : Ref sig .tc) (hb : b.idx.val < 12) :
    X19 m ρ c (Proc.devRef .tc b) = m ((c : Thread nD τ).loc b) :=
  (X19_step m ρ c b (by omega)).trans (X18_arg m ρ c b hb)
theorem X20_arg (c : Dev nD) (b : Ref sig .tc) (hb : b.idx.val < 12) :
    X20 m ρ c (Proc.devRef .tc b) = m ((c : Thread nD τ).loc b) :=
  (X20_step m ρ c b (by omega)).trans (X19_arg m ρ c b hb)
theorem X21_arg (c : Dev nD) (b : Ref sig .tc) (hb : b.idx.val < 12) :
    X21 m ρ c (Proc.devRef .tc b) = m ((c : Thread nD τ).loc b) :=
  (X21_step m ρ c b (by omega)).trans (X20_arg m ρ c b hb)

/-! ## Values that live across segments that do not write them -/

theorem keep_5_2_v1 (c : Dev nD) :
    X5 m ρ c (Proc.devRef .tc main_v1) = X2 m ρ c (Proc.devRef .tc main_v1) :=
  ((X5_step m ρ c main_v1 (by decide)).trans ((X4_step m ρ c main_v1 (by decide)).trans (X3_step m ρ c main_v1 (by decide))))
theorem keep_5_2_v3 (c : Dev nD) :
    X5 m ρ c (Proc.devRef .tc main_v3) = X2 m ρ c (Proc.devRef .tc main_v3) :=
  ((X5_step m ρ c main_v3 (by decide)).trans ((X4_step m ρ c main_v3 (by decide)).trans (X3_step m ρ c main_v3 (by decide))))
theorem keep_5_2_v4 (c : Dev nD) :
    X5 m ρ c (Proc.devRef .tc main_v4) = X2 m ρ c (Proc.devRef .tc main_v4) :=
  ((X5_step m ρ c main_v4 (by decide)).trans ((X4_step m ρ c main_v4 (by decide)).trans (X3_step m ρ c main_v4 (by decide))))
theorem keep_12_5_v1 (c : Dev nD) :
    X12 m ρ c (Proc.devRef .tc main_v1) = X5 m ρ c (Proc.devRef .tc main_v1) :=
  ((X12_step m ρ c main_v1 (by decide)).trans ((X11_step m ρ c main_v1 (by decide)).trans ((X10_step m ρ c main_v1 (by decide)).trans ((X9_step m ρ c main_v1 (by decide)).trans ((X8_step m ρ c main_v1 (by decide)).trans ((X7_step m ρ c main_v1 (by decide)).trans (X6_step m ρ c main_v1 (by decide))))))))
theorem keep_12_5_v3 (c : Dev nD) :
    X12 m ρ c (Proc.devRef .tc main_v3) = X5 m ρ c (Proc.devRef .tc main_v3) :=
  ((X12_step m ρ c main_v3 (by decide)).trans ((X11_step m ρ c main_v3 (by decide)).trans ((X10_step m ρ c main_v3 (by decide)).trans ((X9_step m ρ c main_v3 (by decide)).trans ((X8_step m ρ c main_v3 (by decide)).trans ((X7_step m ρ c main_v3 (by decide)).trans (X6_step m ρ c main_v3 (by decide))))))))
theorem keep_12_5_v4 (c : Dev nD) :
    X12 m ρ c (Proc.devRef .tc main_v4) = X5 m ρ c (Proc.devRef .tc main_v4) :=
  ((X12_step m ρ c main_v4 (by decide)).trans ((X11_step m ρ c main_v4 (by decide)).trans ((X10_step m ρ c main_v4 (by decide)).trans ((X9_step m ρ c main_v4 (by decide)).trans ((X8_step m ρ c main_v4 (by decide)).trans ((X7_step m ρ c main_v4 (by decide)).trans (X6_step m ρ c main_v4 (by decide))))))))
theorem keep_12_6_v93 (c : Dev nD) :
    X12 m ρ c (Proc.devRef .tc main_v93) = X6 m ρ c (Proc.devRef .tc main_v93) :=
  ((X12_step m ρ c main_v93 (by decide)).trans ((X11_step m ρ c main_v93 (by decide)).trans ((X10_step m ρ c main_v93 (by decide)).trans ((X9_step m ρ c main_v93 (by decide)).trans ((X8_step m ρ c main_v93 (by decide)).trans (X7_step m ρ c main_v93 (by decide)))))))
theorem keep_12_6_v94 (c : Dev nD) :
    X12 m ρ c (Proc.devRef .tc main_v94) = X6 m ρ c (Proc.devRef .tc main_v94) :=
  ((X12_step m ρ c main_v94 (by decide)).trans ((X11_step m ρ c main_v94 (by decide)).trans ((X10_step m ρ c main_v94 (by decide)).trans ((X9_step m ρ c main_v94 (by decide)).trans ((X8_step m ρ c main_v94 (by decide)).trans (X7_step m ρ c main_v94 (by decide)))))))
theorem keep_21_6_v93 (c : Dev nD) :
    X21 m ρ c (Proc.devRef .tc main_v93) = X6 m ρ c (Proc.devRef .tc main_v93) :=
  ((X21_step m ρ c main_v93 (by decide)).trans ((X20_step m ρ c main_v93 (by decide)).trans ((X19_step m ρ c main_v93 (by decide)).trans ((X18_step m ρ c main_v93 (by decide)).trans ((X17_step m ρ c main_v93 (by decide)).trans ((X16_step m ρ c main_v93 (by decide)).trans ((X15_step m ρ c main_v93 (by decide)).trans ((X14_step m ρ c main_v93 (by decide)).trans ((X13_step m ρ c main_v93 (by decide)).trans ((X12_step m ρ c main_v93 (by decide)).trans ((X11_step m ρ c main_v93 (by decide)).trans ((X10_step m ρ c main_v93 (by decide)).trans ((X9_step m ρ c main_v93 (by decide)).trans ((X8_step m ρ c main_v93 (by decide)).trans (X7_step m ρ c main_v93 (by decide))))))))))))))))
theorem keep_14_13_v122 (c : Dev nD) :
    X14 m ρ c (Proc.devRef .tc main_v122) = X13 m ρ c (Proc.devRef .tc main_v122) :=
  (X14_step m ρ c main_v122 (by decide))
theorem keep_14_13_v127 (c : Dev nD) :
    X14 m ρ c (Proc.devRef .tc main_v127) = X13 m ρ c (Proc.devRef .tc main_v127) :=
  (X14_step m ρ c main_v127 (by decide))
theorem keep_14_13_v132 (c : Dev nD) :
    X14 m ρ c (Proc.devRef .tc main_v132) = X13 m ρ c (Proc.devRef .tc main_v132) :=
  (X14_step m ρ c main_v132 (by decide))
theorem keep_14_13_v133 (c : Dev nD) :
    X14 m ρ c (Proc.devRef .tc main_v133) = X13 m ρ c (Proc.devRef .tc main_v133) :=
  (X14_step m ρ c main_v133 (by decide))
theorem keep_18_13_v122 (c : Dev nD) :
    X18 m ρ c (Proc.devRef .tc main_v122) = X13 m ρ c (Proc.devRef .tc main_v122) :=
  ((X18_step m ρ c main_v122 (by decide)).trans ((X17_step m ρ c main_v122 (by decide)).trans ((X16_step m ρ c main_v122 (by decide)).trans ((X15_step m ρ c main_v122 (by decide)).trans (X14_step m ρ c main_v122 (by decide))))))
theorem keep_18_13_v127 (c : Dev nD) :
    X18 m ρ c (Proc.devRef .tc main_v127) = X13 m ρ c (Proc.devRef .tc main_v127) :=
  ((X18_step m ρ c main_v127 (by decide)).trans ((X17_step m ρ c main_v127 (by decide)).trans ((X16_step m ρ c main_v127 (by decide)).trans ((X15_step m ρ c main_v127 (by decide)).trans (X14_step m ρ c main_v127 (by decide))))))
theorem keep_18_13_v132 (c : Dev nD) :
    X18 m ρ c (Proc.devRef .tc main_v132) = X13 m ρ c (Proc.devRef .tc main_v132) :=
  ((X18_step m ρ c main_v132 (by decide)).trans ((X17_step m ρ c main_v132 (by decide)).trans ((X16_step m ρ c main_v132 (by decide)).trans ((X15_step m ρ c main_v132 (by decide)).trans (X14_step m ρ c main_v132 (by decide))))))
theorem keep_18_13_v133 (c : Dev nD) :
    X18 m ρ c (Proc.devRef .tc main_v133) = X13 m ρ c (Proc.devRef .tc main_v133) :=
  ((X18_step m ρ c main_v133 (by decide)).trans ((X17_step m ρ c main_v133 (by decide)).trans ((X16_step m ρ c main_v133 (by decide)).trans ((X15_step m ρ c main_v133 (by decide)).trans (X14_step m ρ c main_v133 (by decide))))))

end Cert.KernelIdeal.Hand

end
-- ==== Proof.KI.Final0.lean ====
/-
  Pallas call 0 of the program at the extended reals: the output array after every grid point's write-back is the
  matrix product of the two whole input arrays. Each grid point multiplies one block of rows of the left array by the
  whole right array; a row block of a product is the product of the row block, so each written block is the same block
  of the whole product, and the blocks tile the rows.
-/
import proofs.«128511_j38740605010536_2_alg».proof.Proof.KI.Body0
import proofs.«128511_j38740605010536_2_alg».proof.ReferenceIdeal
import proofs.«128511_j38740605010536_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The two products at an index -/

theorem kd0_l0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem kd0_l1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem kd0_r0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem kd0_r1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

theorem rd0_l0 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl
theorem rd0_l1 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem rd0_r0 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem rd0_r1 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-- The body's product at an index: row `p` of the left block against column `q` of the right array. -/
theorem pay0_apply (x0 : Vec Ideal S2000x256 .f32) (x1 : Vec Ideal S256x128 .f32) (p : Fin 2000) (q : Fin 128) :
    k0_pay1 (F := Ideal) x0 x1 (ix2 p q) = ∑ k : Fin 256, x0 (ix2 p k) * x1 (ix2 k q) := by
  unfold k0_pay1
  refine (Ideal.matmul_constant_zero_apply _ _ _ _ _).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k :=
    funext fun a => Fin.ext (by
      match a with
      | ⟨0, _⟩ => exact kd0_l0 _ _
      | ⟨1, _⟩ => exact (kd0_l1 _ _).trans hk)
  have er : dot_S2000x256_S256x128_S2000x128_1_0_0_1_n_n.rhsIdx (ix2 p q) ((contrEquiv1 dot_S2000x256_S256x128_S2000x128_1_0_0_1_n_n 256 rfl rfl).symm k) = ix2 k q :=
    funext fun a => Fin.ext (by
      match a with
      | ⟨0, _⟩ => exact (kd0_r0 _ _).trans hk
      | ⟨1, _⟩ => exact kd0_r1 _ _)
  rw [el, er]

/-- The whole arrays' product, as the host's `dot_general` of the reference program. -/
abbrev G0 (A : Vec Ideal S50000x256 .f32) (B : Vec Ideal S256x128 .f32) : Vec Ideal S50000x128 .f32 :=
  Host.dotGeneral (F := Ideal) (φ₁ := .f32) (φ₂ := .f32) Cert.ReferenceIdeal.dot_S50000x256_S256x128_S50000x128_1_0_0_1_n_n none A B

/-- The whole arrays' product at an index. -/
theorem G0_apply (A : Vec Ideal S50000x256 .f32) (B : Vec Ideal S256x128 .f32) (r : Fin 50000) (q : Fin 128) :
    G0 A B (ix2 r q) = ∑ k : Fin 256, A (ix2 r k) * B (ix2 k q) := by
  unfold G0
  simp only [Host.dotGeneral]
  refine (Ideal.dotGeneral_apply (φ₁ := .f32) (φ₂ := .f32) _ _ _ _ _ _).trans ?_
  rw [← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 r q) ((contrEquiv1 Cert.ReferenceIdeal.dot_S50000x256_S256x128_S50000x128_1_0_0_1_n_n 256 rfl rfl).symm k) = ix2 r k :=
    funext fun a => Fin.ext (by
      match a with
      | ⟨0, _⟩ => exact rd0_l0 _ _
      | ⟨1, _⟩ => exact (rd0_l1 _ _).trans hk)
  have er : Cert.ReferenceIdeal.dot_S50000x256_S256x128_S50000x128_1_0_0_1_n_n.rhsIdx (ix2 r q) ((contrEquiv1 Cert.ReferenceIdeal.dot_S50000x256_S256x128_S50000x128_1_0_0_1_n_n 256 rfl rfl).symm k) = ix2 k q :=
    funext fun a => Fin.ext (by
      match a with
      | ⟨0, _⟩ => exact (rd0_r0 _ _).trans hk
      | ⟨1, _⟩ => exact rd0_r1 _ _)
  rw [el, er]

/-! ## From the blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The block indices over the grid: at point `t` the left input and the output are at row block `t`, the right input
    is whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left input's block at point `t` is rows `2000 t … 2000 t + 1999` of the left array. -/
theorem iblk0_0_apply (c : Dev nD) (t : Fin cfg0.N) (p : Fin 2000) (k : Fin 256) (r : Fin 50000) (hr : r.val = t.val * 2000 + p.val) :
    (iblk0 V c 0 t : Vec Ideal S2000x256 .f32) (ix2 p k) = (V c main_arg0 : Vec Ideal S50000x256 .f32) (ix2 r k) := by
  obtain ⟨e0, e1, -⟩ := idx_facts0 t
  unfold iblk0
  rw [View.read_apply]
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The right input's block at every point is the right array. -/
theorem iblk0_1_apply (c : Dev nD) (t : Fin cfg0.N) (k : Fin 256) (q : Fin 128) :
    (iblk0 V c 1 t : Vec Ideal S256x128 .f32) (ix2 k q) = (V c main_arg4 : Vec Ideal S256x128 .f32) (ix2 k q) := by
  obtain ⟨-, -, e0, e1, -⟩ := idx_facts0 t
  unfold iblk0
  rw [View.read_apply]
  show V c main_arg4 (((cfg0.win 1).blk t).view.emb (ix2 k q)) = V c main_arg4 (ix2 k q)
  refine congrArg (V c main_arg4) (funext fun a => Fin.ext ?_)
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- What point `t` writes back is block `t` of the whole arrays' product. -/
theorem flushed0_eq (c : Dev nD) (t : Fin cfg0.N) :
    (dat0 (F := Ideal) V c).flushed 2 t = ((cfg0.win 2).blk t).view.read (Elt Ideal) (G0 (V c main_arg0) (V c main_arg4)) := by
  show (cfg0.win 2).cut (grid0.coords t) ((dat0 V c).after 2 t) = _
  rw [after0_2]
  unfold out0_2
  rw [View.canon_unit_zero hz0]
  simp only [View.ld_unit_zero (S := S2000x256) hz0, View.ld_unit_zero (S := S256x128) hz0]
  obtain ⟨-, -, -, -, e0, e1⟩ := idx_facts0 t
  have ht : t.val < 25 := t.isLt
  funext j
  obtain ⟨p, q, rfl⟩ : ∃ (p : Fin 2000) (q : Fin 128), j = ix2 p q := ⟨j 0, j 1, eq_ix2 j⟩
  have hp : p.val < 2000 := p.isLt
  let r : Fin 50000 := ⟨t.val * 2000 + p.val, by omega⟩
  have he : ((cfg0.win 2).blk t).view.emb (ix2 p q) = (ix2 r q : S50000x128.Idx) := by
    funext a; apply Fin.ext
    match a with
    | ⟨0, _⟩ => show win0_2.index t (0 : Fin 2) * 2000 + 1 * p.val = t.val * 2000 + p.val; rw [e0]; omega
    | ⟨1, _⟩ => show win0_2.index t (1 : Fin 2) * 128 + 1 * q.val = q.val; rw [e1]; omega
  show k0_pay1 (F := Ideal) (iblk0 V c 0 t) (iblk0 V c 1 t) (ix2 p q) = G0 (V c main_arg0) (V c main_arg4) (((cfg0.win 2).blk t).view.emb (ix2 p q))
  refine (pay0_apply (iblk0 V c 0 t) (iblk0 V c 1 t) p q).trans ?_
  refine Eq.trans ?_ (congrArg (G0 (V c main_arg0) (V c main_arg4)) he).symm
  refine Eq.trans ?_ (G0_apply (V c main_arg0) (V c main_arg4) r q).symm
  refine Finset.sum_congr rfl fun k _ => ?_
  exact congrArg₂ (· * ·) (iblk0_0_apply V c t p k r rfl) (iblk0_1_apply V c t k q)

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v5).slice (win0_2.rect t)).set ↔ _
  rw [View.set_slice_whole, Rect.mem_set_unit]
  exact Iff.rfl

/-- The row blocks tile the output array: row `r` is in the block of point `r / 2000`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 2000, by show _ < 25; omega⟩
  obtain ⟨-, -, -, -, e0, e1⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e0]; show (i 0).val / 2000 * 2000 ≤ (i 0).val ∧ (i 0).val < (i 0).val / 2000 * 2000 + 2000; omega
  | ⟨1, _⟩ => show win0_2.index t (1 : Fin 2) * 128 ≤ (i 1).val ∧ (i 1).val < win0_2.index t (1 : Fin 2) * 128 + 128; rw [e1]; omega

/-- The output array after the call is the product of the two whole input arrays, as the reference's `dot_general`. -/
theorem final0 (c : Dev nD) :
    (dat0 (F := Ideal) V c).arrAt 2 cfg0.N
      = Host.dotGeneral (F := Ideal) (φ₁ := .f32) (φ₂ := .f32) Cert.ReferenceIdeal.dot_S50000x256_S256x128_S50000x128_1_0_0_1_n_n none (V c main_arg0) (V c main_arg4) :=
  (dat0 (F := Ideal) V c).arrAt_eq_of_cover 2 (G0 (V c main_arg0) (V c main_arg4)) (fun t _ => flushed0_eq V c t) cover0

end Cert.KernelIdeal.HandV

end
-- ==== Proof.KI.Final1.lean ====
/-
  Pallas call 1 of the program at the extended reals: the output array after every grid point's write-back is the
  matrix product of the two whole input arrays. Each grid point multiplies one block of rows of the left array by the
  whole right array; a row block of a product is the product of the row block, so each written block is the same block
  of the whole product, and the blocks tile the rows.
-/
import proofs.«128511_j38740605010536_2_alg».proof.Proof.KI.Body1
import proofs.«128511_j38740605010536_2_alg».proof.ReferenceIdeal
import proofs.«128511_j38740605010536_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The two products at an index -/

theorem kd1_l0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem kd1_l1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem kd1_r0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem kd1_r1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem rd1_l0 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem rd1_l1 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rd1_r0 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rd1_r1 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The body's product at an index: row `p` of the left block against column `q` of the right array (the body's reshape of the left block to its own shape changes nothing). -/
theorem pay1_apply (x0 : Vec Ideal S2000x128 .f32) (x1 : Vec Ideal S128x128 .f32) (p : Fin 2000) (q : Fin 128) :
    k1_pay1 (F := Ideal) x0 x1 (ix2 p q) = ∑ k : Fin 128, x0 (ix2 p k) * x1 (ix2 k q) := by
  unfold k1_pay1
  refine (Ideal.matmul_constant_zero_apply _ _ _ _ _).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact kd1_l0 _ _
      | ⟨1, _⟩ => exact (kd1_l1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (kd1_r0 _ _).trans hk
      | ⟨1, _⟩ => exact kd1_r1 _ _)
  rw [el, er]
  exact congrArg (· * x1 (ix2 k q)) (congrFun (shapeCast_self x0 _) (ix2 p k))

/-- The whole arrays' product, as the host's `dot_general` of the reference program. -/
abbrev G1 (A : Vec Ideal S50000x128 .f32) (B : Vec Ideal S128x128 .f32) : Vec Ideal S50000x128 .f32 :=
  Host.dotGeneral (F := Ideal) (φ₁ := .f32) (φ₂ := .f32) Cert.ReferenceIdeal.dot_S50000x128_S128x128_S50000x128_1_0_0_1_n_n none A B

/-- The whole arrays' product at an index. -/
theorem G1_apply (A : Vec Ideal S50000x128 .f32) (B : Vec Ideal S128x128 .f32) (r : Fin 50000) (q : Fin 128) :
    G1 A B (ix2 r q) = ∑ k : Fin 128, A (ix2 r k) * B (ix2 k q) := by
  unfold G1
  simp only [Host.dotGeneral]
  refine (Ideal.dotGeneral_apply (φ₁ := .f32) (φ₂ := .f32) _ _ _ _ _ _).trans ?_
  rw [← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k :=
    funext fun a => Fin.ext (by
      match a with
      | ⟨0, _⟩ => exact rd1_l0 _ _
      | ⟨1, _⟩ => exact (rd1_l1 _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q :=
    funext fun a => Fin.ext (by
      match a with
      | ⟨0, _⟩ => exact (rd1_r0 _ _).trans hk
      | ⟨1, _⟩ => exact rd1_r1 _ _)
  rw [el, er]

/-! ## From the blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- The block indices over the grid: at point `t` the left input and the output are at row block `t`, the right input
    is whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left input's block at point `t` is rows `2000 t … 2000 t + 1999` of the left array. -/
theorem iblk1_0_apply (c : Dev nD) (t : Fin cfg1.N) (p : Fin 2000) (k : Fin 128) (r : Fin 50000) (hr : r.val = t.val * 2000 + p.val) :
    (iblk1 V c 0 t : Vec Ideal S2000x128 .f32) (ix2 p k) = (V c main_v49 : Vec Ideal S50000x128 .f32) (ix2 r k) := by
  obtain ⟨e0, e1, -⟩ := idx_facts1 t
  unfold iblk1
  rw [View.read_apply]
  show V c main_v49 (((cfg1.win 0).blk t).view.emb (ix2 p k)) = V c main_v49 (ix2 r k)
  refine congrArg (V c main_v49) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The right input's block at every point is the right array. -/
theorem iblk1_1_apply (c : Dev nD) (t : Fin cfg1.N) (k : Fin 128) (q : Fin 128) :
    (iblk1 V c 1 t : Vec Ideal S128x128 .f32) (ix2 k q) = (V c main_arg6 : Vec Ideal S128x128 .f32) (ix2 k q) := by
  obtain ⟨-, -, e0, e1, -⟩ := idx_facts1 t
  unfold iblk1
  rw [View.read_apply]
  show V c main_arg6 (((cfg1.win 1).blk t).view.emb (ix2 k q)) = V c main_arg6 (ix2 k q)
  refine congrArg (V c main_arg6) (funext fun a => Fin.ext ?_)
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- What point `t` writes back is block `t` of the whole arrays' product. -/
theorem flushed1_eq (c : Dev nD) (t : Fin cfg1.N) :
    (dat1 (F := Ideal) V c).flushed 2 t = ((cfg1.win 2).blk t).view.read (Elt Ideal) (G1 (V c main_v49) (V c main_arg6)) := by
  show (cfg1.win 2).cut (grid1.coords t) ((dat1 V c).after 2 t) = _
  rw [after1_2]
  unfold out1_2
  rw [View.canon_unit_zero hz1]
  simp only [View.ld_unit_zero (S := S2000x128) hz1, View.ld_unit_zero (S := S128x128) hz1]
  obtain ⟨-, -, -, -, e0, e1⟩ := idx_facts1 t
  have ht : t.val < 25 := t.isLt
  funext j
  obtain ⟨p, q, rfl⟩ : ∃ (p : Fin 2000) (q : Fin 128), j = ix2 p q := ⟨j 0, j 1, eq_ix2 j⟩
  have hp : p.val < 2000 := p.isLt
  let r : Fin 50000 := ⟨t.val * 2000 + p.val, by omega⟩
  have he : ((cfg1.win 2).blk t).view.emb (ix2 p q) = (ix2 r q : S50000x128.Idx) := by
    funext a; apply Fin.ext
    match a with
    | ⟨0, _⟩ => show win1_2.index t (0 : Fin 2) * 2000 + 1 * p.val = t.val * 2000 + p.val; rw [e0]; omega
    | ⟨1, _⟩ => show win1_2.index t (1 : Fin 2) * 128 + 1 * q.val = q.val; rw [e1]; omega
  show k1_pay1 (F := Ideal) (iblk1 V c 0 t) (iblk1 V c 1 t) (ix2 p q) = G1 (V c main_v49) (V c main_arg6) (((cfg1.win 2).blk t).view.emb (ix2 p q))
  refine (pay1_apply (iblk1 V c 0 t) (iblk1 V c 1 t) p q).trans ?_
  refine Eq.trans ?_ (congrArg (G1 (V c main_v49) (V c main_arg6)) he).symm
  refine Eq.trans ?_ (G1_apply (V c main_v49) (V c main_arg6) r q).symm
  refine Finset.sum_congr rfl fun k _ => ?_
  exact congrArg₂ (· * ·) (iblk1_0_apply V c t p k r rfl) (iblk1_1_apply V c t k q)

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v50).slice (win1_2.rect t)).set ↔ _
  rw [View.set_slice_whole, Rect.mem_set_unit]
  exact Iff.rfl

/-- The row blocks tile the output array: row `r` is in the block of point `r / 2000`. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 2000, by show _ < 25; omega⟩
  obtain ⟨-, -, -, -, e0, e1⟩ := idx_facts1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; rw [e0]; show (i 0).val / 2000 * 2000 ≤ (i 0).val ∧ (i 0).val < (i 0).val / 2000 * 2000 + 2000; omega
  | ⟨1, _⟩ => show win1_2.index t (1 : Fin 2) * 128 ≤ (i 1).val ∧ (i 1).val < win1_2.index t (1 : Fin 2) * 128 + 128; rw [e1]; omega

/-- The output array after the call is the product of the two whole input arrays, as the reference's `dot_general`. -/
theorem final1 (c : Dev nD) :
    (dat1 (F := Ideal) V c).arrAt 2 cfg1.N
      = Host.dotGeneral (F := Ideal) (φ₁ := .f32) (φ₂ := .f32) Cert.ReferenceIdeal.dot_S50000x128_S128x128_S50000x128_1_0_0_1_n_n none (V c main_v49) (V c main_arg6) :=
  (dat1 (F := Ideal) V c).arrAt_eq_of_cover 2 (G1 (V c main_v49) (V c main_arg6)) (fun t _ => flushed1_eq V c t) cover1

end Cert.KernelIdeal.HandV

end
-- ==== Proof.KI.ValsA.lean ====
/-
  The kernel program's first GCN layer and the embedding z, read back from the run's boundary contents as the
  reference's own stage functions of the arguments. The host operations of the two programs are the same up to the
  first pallas call, whose output array is the reference's matrix product of the same two arrays; from there the
  aggregation, the bias and the rectifier are again the same operations, and so on through the second matrix product
  to z. Each lemma reads one value at one boundary: the operations of the stretch are applied to the values at the
  stretch's entry, which earlier lemmas give.
-/
import proofs.«128511_j38740605010536_2_alg».proof.Proof.KI.Run
import proofs.«128511_j38740605010536_2_alg».proof.Proof.KI.Final0
import proofs.«128511_j38740605010536_2_alg».proof.Proof.KI.Final1
import proofs.«128511_j38740605010536_2_alg».proof.Proof.RefReadP
import Idealize.ShloMosaic.Lib.StableHlo.Run

set_option maxRecDepth 16384
set_option pp.maxSteps 3000
set_option pp.deepTerms false
set_option pp.proofs false

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Up to the first pallas call -/

theorem x1_v1 (c : Dev nD) : X1 m ρ c (Proc.devRef .tc main_v1) = Cert.ReferenceIdeal.ReadP.val_main_v1 (F := Ideal) (m ((c : Thread nD τ).loc main_arg3)) := by
  show StableHlo.after main_part0_ops0 (X0 m ρ c) (Proc.devRef .tc main_v1) = _
  after_results_simp
  rfl
theorem x1_v3 (c : Dev nD) : X1 m ρ c (Proc.devRef .tc main_v3) = Cert.ReferenceIdeal.ReadP.val_main_v3 (F := Ideal) (m ((c : Thread nD τ).loc main_arg3)) := by
  show StableHlo.after main_part0_ops0 (X0 m ρ c) (Proc.devRef .tc main_v3) = _
  after_results_simp
  rfl
theorem x1_v4 (c : Dev nD) : X1 m ρ c (Proc.devRef .tc main_v4) = Cert.ReferenceIdeal.ReadP.val_main_v4 (F := Ideal) := by
  show StableHlo.after main_part0_ops0 (X0 m ρ c) (Proc.devRef .tc main_v4) = _
  after_results_simp
  rfl
theorem x1_arg0 (c : Dev nD) : X1 m ρ c (Proc.devRef .tc main_arg0) = (m ((c : Thread nD τ).loc main_arg0)) := by
  show StableHlo.after main_part0_ops0 (X0 m ρ c) (Proc.devRef .tc main_arg0) = _
  after_results_simp
theorem x1_arg4 (c : Dev nD) : X1 m ρ c (Proc.devRef .tc main_arg4) = (m ((c : Thread nD τ).loc main_arg4)) := by
  show StableHlo.after main_part0_ops0 (X0 m ρ c) (Proc.devRef .tc main_arg4) = _
  after_results_simp

theorem x2_v1 (c : Dev nD) : X2 m ρ c (Proc.devRef .tc main_v1) = Cert.ReferenceIdeal.ReadP.val_main_v1 (F := Ideal) (m ((c : Thread nD τ).loc main_arg3)) :=
  (X2_of_ne m ρ c main_v1 (by decide)).trans (x1_v1 m ρ c)
theorem x2_v3 (c : Dev nD) : X2 m ρ c (Proc.devRef .tc main_v3) = Cert.ReferenceIdeal.ReadP.val_main_v3 (F := Ideal) (m ((c : Thread nD τ).loc main_arg3)) :=
  (X2_of_ne m ρ c main_v3 (by decide)).trans (x1_v3 m ρ c)
theorem x2_v4 (c : Dev nD) : X2 m ρ c (Proc.devRef .tc main_v4) = Cert.ReferenceIdeal.ReadP.val_main_v4 (F := Ideal) :=
  (X2_of_ne m ρ c main_v4 (by decide)).trans (x1_v4 m ρ c)

/-- The first pallas call's output array is the reference's product x · W1. -/
theorem x2_v5 (c : Dev nD) : X2 m ρ c (Proc.devRef .tc main_v5) = Cert.ReferenceIdeal.ReadP.val_main_v5 (F := Ideal) (m ((c : Thread nD τ).loc main_arg0)) (m ((c : Thread nD τ).loc main_arg4)) := by
  refine (X2_arr m ρ c 2).trans ((final0 (V1 m ρ) c).trans ?_)
  show Host.dotGeneral (F := Ideal) (φ₁ := .f32) (φ₂ := .f32) _ none (X1 m ρ c (Proc.devRef .tc main_arg0)) (X1 m ρ c (Proc.devRef .tc main_arg4)) = _
  rw [x1_arg0, x1_arg4]
  rfl

/-! ## The first layer's aggregation, bias and rectifier -/

theorem x3_v48 (c : Dev nD) (ha5 : X2 m ρ c (Proc.devRef .tc main_arg5) = (m ((c : Thread nD τ).loc main_arg5))) :
    X3 m ρ c (Proc.devRef .tc main_v48) = Cert.ReferenceIdeal.ReadP.val_main_v48 (F := Ideal) (m ((c : Thread nD τ).loc main_arg0)) (m ((c : Thread nD τ).loc main_arg3)) (m ((c : Thread nD τ).loc main_arg4)) (m ((c : Thread nD τ).loc main_arg5)) := by
  show StableHlo.after main_part0_ops1 (X2 m ρ c) (Proc.devRef .tc main_v48) = _
  after_results_simp
  rw [x2_v1, x2_v3, x2_v4, x2_v5, ha5]
  simp only [Cert.ReferenceIdeal.ReadP.val_main_cst_0, Cert.ReferenceIdeal.ReadP.val_main_v6, Cert.ReferenceIdeal.ReadP.val_main_v7, Cert.ReferenceIdeal.ReadP.val_main_v8, Cert.ReferenceIdeal.ReadP.val_main_cst_1, Cert.ReferenceIdeal.ReadP.val_main_v9, Cert.ReferenceIdeal.ReadP.val_main_v10, Cert.ReferenceIdeal.ReadP.val_main_v11, Cert.ReferenceIdeal.ReadP.val_main_c, Cert.ReferenceIdeal.ReadP.val_main_v12, Cert.ReferenceIdeal.ReadP.val_main_v13, Cert.ReferenceIdeal.ReadP.val_main_c_2, Cert.ReferenceIdeal.ReadP.val_main_v14, Cert.ReferenceIdeal.ReadP.val_main_v15, Cert.ReferenceIdeal.ReadP.val_main_v16, Cert.ReferenceIdeal.ReadP.val_main_v17, Cert.ReferenceIdeal.ReadP.val_main_v18, Cert.ReferenceIdeal.ReadP.val_main_v19, Cert.ReferenceIdeal.ReadP.val_main_c_3, Cert.ReferenceIdeal.ReadP.val_main_v20, Cert.ReferenceIdeal.ReadP.val_main_v21, Cert.ReferenceIdeal.ReadP.val_main_c_4, Cert.ReferenceIdeal.ReadP.val_main_v22, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_c_5, Cert.ReferenceIdeal.ReadP.val_main_v29, Cert.ReferenceIdeal.ReadP.val_main_v30, Cert.ReferenceIdeal.ReadP.val_main_c_6, Cert.ReferenceIdeal.ReadP.val_main_v31, Cert.ReferenceIdeal.ReadP.val_main_v32, Cert.ReferenceIdeal.ReadP.val_main_v33, Cert.ReferenceIdeal.ReadP.val_main_v34, Cert.ReferenceIdeal.ReadP.val_main_v35, Cert.ReferenceIdeal.ReadP.val_main_v36, Cert.ReferenceIdeal.ReadP.val_main_v37, Cert.ReferenceIdeal.ReadP.val_main_cst_7, Cert.ReferenceIdeal.ReadP.val_main_v38, Cert.ReferenceIdeal.ReadP.val_main_v39, Cert.ReferenceIdeal.ReadP.val_main_v40, Cert.ReferenceIdeal.ReadP.val_main_v41, Cert.ReferenceIdeal.ReadP.val_main_v42, Cert.ReferenceIdeal.ReadP.val_main_v43, Cert.ReferenceIdeal.ReadP.val_main_v44, Cert.ReferenceIdeal.ReadP.val_main_v45, Cert.ReferenceIdeal.ReadP.val_main_v46, Cert.ReferenceIdeal.ReadP.val_main_v47, Cert.ReferenceIdeal.ReadP.val_main_v48]
  rfl

theorem relu0 (c : Dev nD) : X4 m ρ c (Proc.devRef .tc main_v49) = (maximumf (F := Ideal) (φ := .f32) (X3 m ρ c (Proc.devRef .tc main_v48) : (⟨S50000x128, .f32⟩ : BufTy).Contents (Elt Ideal)) (broadcastInDim S50000x128 ![] bcast_S_S50000x128 (constant (F := Ideal) S_ .f32 0x00000000#32)) : (⟨S50000x128, .f32⟩ : BufTy).Contents (Elt Ideal)) := by
  show StableHlo.after main_part0_ops2 (X3 m ρ c) (Proc.devRef .tc main_v49) = _
  generalize X3 m ρ c = W
  after_results_simp
  simp only [TRef.ofBuf, TRef.toBuf, cast_cast, cast_eq]

theorem x4_v49 (c : Dev nD) (ha5 : X2 m ρ c (Proc.devRef .tc main_arg5) = (m ((c : Thread nD τ).loc main_arg5))) :
    X4 m ρ c (Proc.devRef .tc main_v49) = Cert.ReferenceIdeal.ReadP.val_main_v49 (F := Ideal) (m ((c : Thread nD τ).loc main_arg0)) (m ((c : Thread nD τ).loc main_arg3)) (m ((c : Thread nD τ).loc main_arg4)) (m ((c : Thread nD τ).loc main_arg5)) := by
  rw [relu0, x3_v48 m ρ c ha5]
  rfl

/-- The second pallas call's output array is the reference's product h · W2. -/
theorem x5_v50 (c : Dev nD) (ha5 : X2 m ρ c (Proc.devRef .tc main_arg5) = (m ((c : Thread nD τ).loc main_arg5))) (ha6 : X4 m ρ c (Proc.devRef .tc main_arg6) = (m ((c : Thread nD τ).loc main_arg6))) :
    X5 m ρ c (Proc.devRef .tc main_v50) = Cert.ReferenceIdeal.ReadP.val_main_v50 (F := Ideal) (m ((c : Thread nD τ).loc main_arg0)) (m ((c : Thread nD τ).loc main_arg3)) (m ((c : Thread nD τ).loc main_arg4)) (m ((c : Thread nD τ).loc main_arg5)) (m ((c : Thread nD τ).loc main_arg6)) := by
  refine (X5_arr m ρ c 2).trans ((final1 (V4 m ρ) c).trans ?_)
  show Host.dotGeneral (F := Ideal) (φ₁ := .f32) (φ₂ := .f32) _ none (X4 m ρ c (Proc.devRef .tc main_v49)) (X4 m ρ c (Proc.devRef .tc main_arg6)) = _
  rw [x4_v49 m ρ c ha5, ha6]
  rfl

/-! ## The second layer: z -/

theorem x6_v93 (c : Dev nD)
    (h1 : X5 m ρ c (Proc.devRef .tc main_v1) = Cert.ReferenceIdeal.ReadP.val_main_v1 (F := Ideal) (m ((c : Thread nD τ).loc main_arg3)))
    (h3 : X5 m ρ c (Proc.devRef .tc main_v3) = Cert.ReferenceIdeal.ReadP.val_main_v3 (F := Ideal) (m ((c : Thread nD τ).loc main_arg3)))
    (h4 : X5 m ρ c (Proc.devRef .tc main_v4) = Cert.ReferenceIdeal.ReadP.val_main_v4 (F := Ideal))
    (h50 : X5 m ρ c (Proc.devRef .tc main_v50) = Cert.ReferenceIdeal.ReadP.val_main_v50 (F := Ideal) (m ((c : Thread nD τ).loc main_arg0)) (m ((c : Thread nD τ).loc main_arg3)) (m ((c : Thread nD τ).loc main_arg4)) (m ((c : Thread nD τ).loc main_arg5)) (m ((c : Thread nD τ).loc main_arg6)))
    (ha7 : X5 m ρ c (Proc.devRef .tc main_arg7) = (m ((c : Thread nD τ).loc main_arg7))) :
    X6 m ρ c (Proc.devRef .tc main_v93) = Cert.ReferenceIdeal.ReadP.val_main_v93 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after main_part1_ops0 (X5 m ρ c) (Proc.devRef .tc main_v93) = _
  after_results_simp
  rw [h1, h3, h4, h50, ha7]
  simp only [Cert.ReferenceIdeal.ReadP.val_main_cst_8, Cert.ReferenceIdeal.ReadP.val_main_v51, Cert.ReferenceIdeal.ReadP.val_main_v52, Cert.ReferenceIdeal.ReadP.val_main_v53, Cert.ReferenceIdeal.ReadP.val_main_cst_9, Cert.ReferenceIdeal.ReadP.val_main_v54, Cert.ReferenceIdeal.ReadP.val_main_v55, Cert.ReferenceIdeal.ReadP.val_main_v56, Cert.ReferenceIdeal.ReadP.val_main_c_10, Cert.ReferenceIdeal.ReadP.val_main_v57, Cert.ReferenceIdeal.ReadP.val_main_v58, Cert.ReferenceIdeal.ReadP.val_main_c_11, Cert.ReferenceIdeal.ReadP.val_main_v59, Cert.ReferenceIdeal.ReadP.val_main_v60, Cert.ReferenceIdeal.ReadP.val_main_v61, Cert.ReferenceIdeal.ReadP.val_main_v62, Cert.ReferenceIdeal.ReadP.val_main_v63, Cert.ReferenceIdeal.ReadP.val_main_v64, Cert.ReferenceIdeal.ReadP.val_main_c_12, Cert.ReferenceIdeal.ReadP.val_main_v65, Cert.ReferenceIdeal.ReadP.val_main_v66, Cert.ReferenceIdeal.ReadP.val_main_c_13, Cert.ReferenceIdeal.ReadP.val_main_v67, Cert.ReferenceIdeal.ReadP.val_main_v68, Cert.ReferenceIdeal.ReadP.val_main_v69, Cert.ReferenceIdeal.ReadP.val_main_v70, Cert.ReferenceIdeal.ReadP.val_main_v71, Cert.ReferenceIdeal.ReadP.val_main_v72, Cert.ReferenceIdeal.ReadP.val_main_v73, Cert.ReferenceIdeal.ReadP.val_main_c_14, Cert.ReferenceIdeal.ReadP.val_main_v74, Cert.ReferenceIdeal.ReadP.val_main_v75, Cert.ReferenceIdeal.ReadP.val_main_c_15, Cert.ReferenceIdeal.ReadP.val_main_v76, Cert.ReferenceIdeal.ReadP.val_main_v77, Cert.ReferenceIdeal.ReadP.val_main_v78, Cert.ReferenceIdeal.ReadP.val_main_v79, Cert.ReferenceIdeal.ReadP.val_main_v80, Cert.ReferenceIdeal.ReadP.val_main_v81, Cert.ReferenceIdeal.ReadP.val_main_v82, Cert.ReferenceIdeal.ReadP.val_main_cst_16, Cert.ReferenceIdeal.ReadP.val_main_v83, Cert.ReferenceIdeal.ReadP.val_main_v84, Cert.ReferenceIdeal.ReadP.val_main_v85, Cert.ReferenceIdeal.ReadP.val_main_v86, Cert.ReferenceIdeal.ReadP.val_main_v87, Cert.ReferenceIdeal.ReadP.val_main_v88, Cert.ReferenceIdeal.ReadP.val_main_v89, Cert.ReferenceIdeal.ReadP.val_main_v90, Cert.ReferenceIdeal.ReadP.val_main_v91, Cert.ReferenceIdeal.ReadP.val_main_v92, Cert.ReferenceIdeal.ReadP.val_main_v93]
  rfl

end Cert.KernelIdeal.HandV

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.KI.Final2.lean ====
/-
  The value of the edge-dot call as a function of whole arrays, at the ideal values. The call walks 49 grid points;
  at point t it stages rows 32·t … 32·t + 31 of each of the two [1568,128,128] operands, multiplies the two blocks
  entry by entry, sums each row over its last axis, and writes the [32,128] result back over rows 32·t … 32·t + 31 of
  the [1568,128] output. Three facts give the array after the last write-back: (1) at the extended reals the body's
  value at entry (p, q) of its block is ∑ h, x0[p,q,h] · x1[p,q,h] — the casts to the same shape are the identity and
  the reduction over one axis is the finite sum over that axis; (2) every window's block index at point t is (t, 0, …),
  so an element of a block sits in its array at the block's row plus 32·t, and what point t writes back is therefore
  block t of ONE function of the two operand arrays, `edgeDot`; (3) row g of the output lies in the block of point
  g / 32, so the blocks cover the output and the array ends as `edgeDot` of the operands everywhere.
-/
import proofs.«128511_j38740605010536_2_alg».proof.Proof.KI.Body2
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

/-- The lane sum at an output entry: the sum over the last axis. -/
theorem lane_sum (src : FVec Ideal S32x128x128 .f32) (hred : S32x128x128.Reduces [2] S32x128) (hφ : FKind.Formats .f32)
    (hacc : (0x00000000#32 : BitVec 32) = FKind.add.neutral .f32 hφ) (p : Fin 32) (q : Fin 128) :
    multiReduction .add [2] S32x128 src 0x00000000#32 hred hφ hacc (ix2 p q) = ∑ h : Fin 128, src (ix3 p q h) := by
  refine (Ideal.multiReduction_add_single src 0x00000000#32 hred hφ hacc (ix2 p q)).trans ?_
  refine Finset.sum_congr rfl fun h _ => congrArg src ?_
  funext a
  match a with
  | ⟨0, _⟩ => rfl
  | ⟨1, _⟩ => rfl
  | ⟨2, _⟩ => rfl

/-- The body's value at entry (p, q) of the block: the sum over the last axis of the products of the two loaded blocks. -/
theorem pay2_apply (x0 x1 : Vec Ideal S32x128x128 .f32) (p : Fin 32) (q : Fin 128) :
    k2_pay1 (F := Ideal) x0 x1 (ix2 p q) = ∑ h : Fin 128, x0 (ix3 p q h) * x1 (ix3 p q h) := by
  unfold k2_pay1
  refine (lane_sum _ _ _ _ p q).trans ?_
  refine Finset.sum_congr rfl fun h _ => ?_
  rw [mulf_apply, shapeCast_self, shapeCast_self]

/-- The same at any index of the block, named by its two coordinates. -/
theorem pay2_at (x0 x1 : Vec Ideal S32x128x128 .f32) (j : S32x128.Idx) :
    k2_pay1 (F := Ideal) x0 x1 j = ∑ h : Fin 128, x0 (ix3 (j 0 : Fin 32) (j 1 : Fin 128) h) * x1 (ix3 (j 0 : Fin 32) (j 1 : Fin 128) h) := by
  obtain ⟨p, q, rfl⟩ : ∃ (p : Fin 32) (q : Fin 128), j = ix2 p q := ⟨j 0, j 1, eq_ix2 j⟩
  exact pay2_apply x0 x1 p q

/-- The edge dot of two operand arrays: entry (g, l) is the sum over the feature axis of the products a[g,l,h] · b[g,l,h]. -/
def edgeDot (a b : S1568x128x128.Idx → EReal) : S1568x128.Idx → EReal := fun i =>
  ∑ h : Fin 128, a (ix3 (i 0) (i 1) h) * b (ix3 (i 0) (i 1) h)

theorem edgeDot_apply (a b : S1568x128x128.Idx → EReal) (i : S1568x128.Idx) :
    edgeDot a b i = ∑ h : Fin 128, a (ix3 (i 0) (i 1) h) * b (ix3 (i 0) (i 1) h) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The three index maps, decided over the 49 grid points: each window's block index is the grid point on the
    leading axis and zero on the others. -/
theorem idx_facts2 : ∀ t : Fin cfg2.N, win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = t.val ∧ win2_2.index t (1 : Fin 2) = 0 :=
  (by decide +kernel : ∀ t : Fin grid2.N, _)

/-- Where an element of the first operand's block at point `t` sits in the operand: row group 32·t + its own. -/
theorem emb2_0 (t : Fin cfg2.N) (y : S32x128x128.Idx) (k : S1568x128x128.Idx)
    (h0 : (k 0).val = t.val * 32 + (y 0).val) (h1 : (k 1).val = (y 1).val) (h2 : (k 2).val = (y 2).val) :
    ((cfg2.win 0).blk t).view.emb y = k := by
  obtain ⟨e0, e1, e2, -⟩ := idx_facts2 t
  funext a; apply Fin.ext
  match a with
  | ⟨0, _⟩ => show win2_0.index t (0 : Fin 3) * 32 + 1 * (y 0).val = (k 0).val; omega
  | ⟨1, _⟩ => show win2_0.index t (1 : Fin 3) * 128 + 1 * (y 1).val = (k 1).val; omega
  | ⟨2, _⟩ => show win2_0.index t (2 : Fin 3) * 128 + 1 * (y 2).val = (k 2).val; omega

/-- The same for the second operand. -/
theorem emb2_1 (t : Fin cfg2.N) (y : S32x128x128.Idx) (k : S1568x128x128.Idx)
    (h0 : (k 0).val = t.val * 32 + (y 0).val) (h1 : (k 1).val = (y 1).val) (h2 : (k 2).val = (y 2).val) :
    ((cfg2.win 1).blk t).view.emb y = k := by
  obtain ⟨-, -, -, e0, e1, e2, -⟩ := idx_facts2 t
  funext a; apply Fin.ext
  match a with
  | ⟨0, _⟩ => show win2_1.index t (0 : Fin 3) * 32 + 1 * (y 0).val = (k 0).val; omega
  | ⟨1, _⟩ => show win2_1.index t (1 : Fin 3) * 128 + 1 * (y 1).val = (k 1).val; omega
  | ⟨2, _⟩ => show win2_1.index t (2 : Fin 3) * 128 + 1 * (y 2).val = (k 2).val; omega

/-- Where an entry of the output's block at point `t` sits in the output array. -/
theorem emb2_2 (t : Fin cfg2.N) (j : S32x128.Idx) :
    ((((cfg2.win 2).blk t).view.emb j : S1568x128.Idx) 0).val = t.val * 32 + (j 0).val
    ∧ ((((cfg2.win 2).blk t).view.emb j : S1568x128.Idx) 1).val = (j 1).val := by
  obtain ⟨-, -, -, -, -, -, e0, e1⟩ := idx_facts2 t
  refine ⟨?_, ?_⟩
  · show win2_2.index t (0 : Fin 2) * 32 + 1 * (j 0).val = _; omega
  · show win2_2.index t (1 : Fin 2) * 128 + 1 * (j 1).val = _; omega

variable (V : (c : Dev nD) → (b : Ref sig .tc) → Buf (Elt Ideal) ((c : Thread nD τ).loc b))

/-- An element of the first operand's block at point `t` is the operand's element at row group 32·t + its own. -/
theorem iblk2_0_apply (c : Dev nD) (t : Fin cfg2.N) (y : S32x128x128.Idx) (k : S1568x128x128.Idx)
    (h0 : (k 0).val = t.val * 32 + (y 0).val) (h1 : (k 1).val = (y 1).val) (h2 : (k 2).val = (y 2).val) :
    iblk2 V c 0 t y = V c main_v115 k := by
  unfold iblk2
  rw [View.read_apply]
  exact congrArg (V c main_v115) (emb2_0 t y k h0 h1 h2)

/-- The same for the second operand. -/
theorem iblk2_1_apply (c : Dev nD) (t : Fin cfg2.N) (y : S32x128x128.Idx) (k : S1568x128x128.Idx)
    (h0 : (k 0).val = t.val * 32 + (y 0).val) (h1 : (k 1).val = (y 1).val) (h2 : (k 2).val = (y 2).val) :
    iblk2 V c 1 t y = V c main_v116 k := by
  unfold iblk2
  rw [View.read_apply]
  exact congrArg (V c main_v116) (emb2_1 t y k h0 h1 h2)

/-- What grid point `t` writes back is block `t` of the edge dot of the two operand arrays as the call finds them:
    the block's entry (r, l) is the lane sum of the products of the two input blocks' rows (r, l), and both input
    blocks and the output block sit at row group 32·t of their arrays. -/
theorem flushed2_eq (c : Dev nD) (t : Fin cfg2.N) :
    (dat2 (F := Ideal) V c).flushed 2 t
      = ((cfg2.win 2).blk t).view.read (Elt Ideal) (edgeDot (V c main_v115) (V c main_v116)) := by
  show (cfg2.win 2).cut (grid2.coords t) ((dat2 (F := Ideal) V c).after 2 t) = _
  rw [after2_2]
  unfold out2_2
  rw [View.canon_unit_zero hz2]
  simp only [View.ld_unit_zero (S := S32x128x128) hz3]
  funext j
  show k2_pay1 (F := Ideal) (iblk2 V c 0 t) (iblk2 V c 1 t) j
    = edgeDot (V c main_v115) (V c main_v116) (((cfg2.win 2).blk t).view.emb j)
  refine (pay2_at (iblk2 V c 0 t) (iblk2 V c 1 t) j).trans ?_
  rw [edgeDot_apply]
  obtain ⟨o0, o1⟩ := emb2_2 t j
  refine Finset.sum_congr rfl fun h _ => ?_
  exact congrArg₂ (fun x y : EReal => x * y)
    (iblk2_0_apply V c t (ix3 (j 0 : Fin 32) (j 1 : Fin 128) h)
      (ix3 ((((cfg2.win 2).blk t).view.emb j : S1568x128.Idx) 0) ((((cfg2.win 2).blk t).view.emb j : S1568x128.Idx) 1) h) o0 o1 rfl)
    (iblk2_1_apply V c t (ix3 (j 0 : Fin 32) (j 1 : Fin 128) h)
      (ix3 ((((cfg2.win 2).blk t).view.emb j : S1568x128.Idx) 0) ((((cfg2.win 2).blk t).view.emb j : S1568x128.Idx) 1) h) o0 o1 rfl)

/-- An index of the output array is in point `t`'s block iff each coordinate is in the block's range on its axis. -/
theorem mem_blk2 (t : Fin cfg2.N) (i : S1568x128.Idx) :
    i ∈ ((cfg2.win 2).blk t).view.set ↔ ∀ a : Fin 2, win2_2.index t a * S32x128.size a ≤ (i a).val ∧ (i a).val < win2_2.index t a * S32x128.size a + S32x128.size a := by
  show i ∈ ((View.whole main_v117).slice (win2_2.rect t)).set ↔ _
  rw [View.set_slice_whole, Rect.mem_set_unit]
  exact Iff.rfl

/-- Every entry of the output array is written back by some grid point: row group g by point g / 32. -/
theorem cover2 (i : S1568x128.Idx) :
    ∃ t : Fin cfg2.N, (cfg2.win 2).flush t = true ∧ i ∈ ((cfg2.win 2).blk t).view.set := by
  have hi0 : (i 0).val < 1568 := (i 0).isLt
  have hi1 : (i 1).val < 128 := (i 1).isLt
  have hN : cfg2.N = 49 := N_2
  refine ⟨⟨(i 0).val / 32, by rw [hN]; omega⟩, flush2_2 _, ?_⟩
  rw [mem_blk2]
  obtain ⟨-, -, -, -, -, -, e0, e1⟩ := idx_facts2 ⟨(i 0).val / 32, by rw [hN]; omega⟩
  intro a
  match a with
  | ⟨0, _⟩ =>
    show win2_2.index ⟨(i 0).val / 32, _⟩ (0 : Fin 2) * 32 ≤ (i 0).val ∧ (i 0).val < win2_2.index ⟨(i 0).val / 32, _⟩ (0 : Fin 2) * 32 + 32
    rw [e0]; show (i 0).val / 32 * 32 ≤ (i 0).val ∧ (i 0).val < (i 0).val / 32 * 32 + 32; omega
  | ⟨1, _⟩ =>
    show win2_2.index ⟨(i 0).val / 32, _⟩ (1 : Fin 2) * 128 ≤ (i 1).val ∧ (i 1).val < win2_2.index ⟨(i 0).val / 32, _⟩ (1 : Fin 2) * 128 + 128
    rw [e1]; omega

/-- The output array after all 49 write-backs: the edge dot of the two operand arrays as the call finds them. -/
theorem final2 (c : Dev nD) :
    (dat2 (F := Ideal) V c).arrAt 2 cfg2.N = edgeDot (V c main_v115) (V c main_v116) :=
  (dat2 (F := Ideal) V c).arrAt_eq_of_cover 2 (edgeDot (V c main_v115) (V c main_v116)) (fun t _ => flushed2_eq V c t) cover2

end Cert.KernelIdeal.HandV

end
-- ==== Proof.Bridge.MaskDefs.lean ====
/-
  The accepted-edge mask of the two programs as pure functions of the node embedding and the two candidate-edge
  index arrays, at the ideal values (a float an extended real, every operation exact).

  Both programs score a candidate edge (u, v) by the inner product of the two nodes' embedding rows and accept it
  on the sign of the score. The kernel program concatenates the two index arrays first, gathers the rows, pads the
  gathered rows to a whole number of [128, 128] tiles, takes the inner products tile by tile, cuts the padding off
  and compares the score with zero. The reference gathers and sums for each index array separately, passes each
  score through the logistic function 1 / (1 + exp (−d)), concatenates, and compares with one half.

  `maskK` and `maskR` spell the two computations operation by operation, in program order, with the same operand
  records and literal words as the printed programs; `edgeDot`, the closed form of the tile-wise inner product,
  stands in the place of the call that computes it.
-/
import proofs.«128511_j38740605010536_2_alg».proof.KernelIdeal
import proofs.«128511_j38740605010536_2_alg».proof.Proof.KI.Final2
import proofs.«128511_j38740605010536_2_alg».proof.ReferenceIdeal
import Idealize.ShloMosaic.PureOps.Ideal
import Idealize.ShloMosaic.Lib.ValueIdx

set_option maxRecDepth 16384

noncomputable section

namespace Cert.Bridge

open Idealize.ShloMosaic

section Kernel
open Cert.KernelIdeal Cert.KernelIdeal.Facts₀ Cert.KernelIdeal.Facts

variable [Cert.KernelIdeal.Facts]

/-- The kernel program's mask: from the concatenation of the two index arrays to the conversion of the comparison
    with zero, one line per operation, in program order. -/
def maskK (z : (⟨S50000x128, .f32⟩ : BufTy).Contents (Elt Ideal)) (arg1 arg2 : (⟨S2x100000, .i32⟩ : BufTy).Contents (Elt Ideal)) :
    (⟨S200000, .f32⟩ : BufTy).Contents (Elt Ideal) :=
  let v93 := z
  let v94 := ((fun a b => concatenate S2x200000 1 [⟨S2x100000, a⟩, ⟨S2x100000, b⟩] concatenates_S2x100000_S2x100000_S2x200000_d1) : (⟨S2x100000, .i32⟩ : BufTy).Contents (Elt Ideal) → (⟨S2x100000, .i32⟩ : BufTy).Contents (Elt Ideal) → (⟨S2x200000, .i32⟩ : BufTy).Contents (Elt Ideal)) arg1 arg2
  let v95 := ((extractStridedSlice S1x200000 ![0, 0] · slices_S2x200000_S1x200000_0_0) : (⟨S2x200000, .i32⟩ : BufTy).Contents (Elt Ideal) → (⟨S1x200000, .i32⟩ : BufTy).Contents (Elt Ideal)) v94
  let v96 := shapeCast S200000 v95 shapeCasts_S1x200000_S200000
  let c_17 := (constantI S_ 32 0#32)
  let v97 := (broadcastInDim S200000 ![] bcast_S_S200000 : (⟨S_, .i32⟩ : BufTy).Contents (Elt Ideal) → (⟨S200000, .i32⟩ : BufTy).Contents (Elt Ideal)) c_17
  let v98 := (cmpi .slt : (⟨S200000, .i32⟩ : BufTy).Contents (Elt Ideal) → (⟨S200000, .i32⟩ : BufTy).Contents (Elt Ideal) → (⟨S200000, .i1⟩ : BufTy).Contents (Elt Ideal)) v96 v97
  let c_18 := (constantI S_ 32 50000#32)
  let v99 := (broadcastInDim S200000 ![] bcast_S_S200000 : (⟨S_, .i32⟩ : BufTy).Contents (Elt Ideal) → (⟨S200000, .i32⟩ : BufTy).Contents (Elt Ideal)) c_18
  let v100 := (addi : (⟨S200000, .i32⟩ : BufTy).Contents (Elt Ideal) → (⟨S200000, .i32⟩ : BufTy).Contents (Elt Ideal) → (⟨S200000, .i32⟩ : BufTy).Contents (Elt Ideal)) v96 v99
  let v101 := (select : (⟨S200000, .i1⟩ : BufTy).Contents (Elt Ideal) → (⟨S200000, .i32⟩ : BufTy).Contents (Elt Ideal) → (⟨S200000, .i32⟩ : BufTy).Contents (Elt Ideal) → (⟨S200000, .i32⟩ : BufTy).Contents (Elt Ideal)) v98 v100 v96
  let v102 := (broadcastInDim S200000x1 ![0] bcast_S200000_S200000x1_0 : (⟨S200000, .i32⟩ : BufTy).Contents (Elt Ideal) → (⟨S200000x1, .i32⟩ : BufTy).Contents (Elt Ideal)) v101
  let v103 := ((fun x i => Host.gather gather_S50000x128_S200000x1_S200000x128_1_0_n_n_0_1_1128 x i) : (⟨S50000x128, .f32⟩ : BufTy).Contents (Elt Ideal) → (⟨S200000x1, .i32⟩ : BufTy).Contents (Elt Ideal) → (⟨S200000x128, .f32⟩ : BufTy).Contents (Elt Ideal)) v93 v102
  let v104 := ((extractStridedSlice S1x200000 ![1, 0] · slices_S2x200000_S1x200000_1_0) : (⟨S2x200000, .i32⟩ : BufTy).Contents (Elt Ideal) → (⟨S1x200000, .i32⟩ : BufTy).Contents (Elt Ideal)) v94
  let v105 := shapeCast S200000 v104 shapeCasts_S1x200000_S200000
  let c_19 := (constantI S_ 32 0#32)
  let v106 := (broadcastInDim S200000 ![] bcast_S_S200000 : (⟨S_, .i32⟩ : BufTy).Contents (Elt Ideal) → (⟨S200000, .i32⟩ : BufTy).Contents (Elt Ideal)) c_19
  let v107 := (cmpi .slt : (⟨S200000, .i32⟩ : BufTy).Contents (Elt Ideal) → (⟨S200000, .i32⟩ : BufTy).Contents (Elt Ideal) → (⟨S200000, .i1⟩ : BufTy).Contents (Elt Ideal)) v105 v106
  let c_20 := (constantI S_ 32 50000#32)
  let v108 := (broadcastInDim S200000 ![] bcast_S_S200000 : (⟨S_, .i32⟩ : BufTy).Contents (Elt Ideal) → (⟨S200000, .i32⟩ : BufTy).Contents (Elt Ideal)) c_20
  let v109 := (addi : (⟨S200000, .i32⟩ : BufTy).Contents (Elt Ideal) → (⟨S200000, .i32⟩ : BufTy).Contents (Elt Ideal) → (⟨S200000, .i32⟩ : BufTy).Contents (Elt Ideal)) v105 v108
  let v110 := (select : (⟨S200000, .i1⟩ : BufTy).Contents (Elt Ideal) → (⟨S200000, .i32⟩ : BufTy).Contents (Elt Ideal) → (⟨S200000, .i32⟩ : BufTy).Contents (Elt Ideal) → (⟨S200000, .i32⟩ : BufTy).Contents (Elt Ideal)) v107 v109 v105
  let v111 := (broadcastInDim S200000x1 ![0] bcast_S200000_S200000x1_0 : (⟨S200000, .i32⟩ : BufTy).Contents (Elt Ideal) → (⟨S200000x1, .i32⟩ : BufTy).Contents (Elt Ideal)) v110
  let v112 := ((fun x i => Host.gather gather_S50000x128_S200000x1_S200000x128_1_0_n_n_0_1_1128 x i) : (⟨S50000x128, .f32⟩ : BufTy).Contents (Elt Ideal) → (⟨S200000x1, .i32⟩ : BufTy).Contents (Elt Ideal) → (⟨S200000x128, .f32⟩ : BufTy).Contents (Elt Ideal)) v93 v111
  let c_21 := (constantI S_ 32 0#32)
  let call1_v0 := ((sitofp (F := Ideal) .f32) : (⟨S_, .i32⟩ : BufTy).Contents (Elt Ideal) → (⟨S_, .f32⟩ : BufTy).Contents (Elt Ideal)) c_21
  let v113 := ((fun x v => pad S200704x128 ![0, 0] ![704, 0] ![0, 0] x v pads_S200000x128_S200704x128_07040_000 h_S_) : (⟨S200000x128, .f32⟩ : BufTy).Contents (Elt Ideal) → (⟨S_, .f32⟩ : BufTy).Contents (Elt Ideal) → (⟨S200704x128, .f32⟩ : BufTy).Contents (Elt Ideal)) v103 call1_v0
  let c_22 := (constantI S_ 32 0#32)
  let call2_v0 := ((sitofp (F := Ideal) .f32) : (⟨S_, .i32⟩ : BufTy).Contents (Elt Ideal) → (⟨S_, .f32⟩ : BufTy).Contents (Elt Ideal)) c_22
  let v114 := ((fun x v => pad S200704x128 ![0, 0] ![704, 0] ![0, 0] x v pads_S200000x128_S200704x128_07040_000 h_S_) : (⟨S200000x128, .f32⟩ : BufTy).Contents (Elt Ideal) → (⟨S_, .f32⟩ : BufTy).Contents (Elt Ideal) → (⟨S200704x128, .f32⟩ : BufTy).Contents (Elt Ideal)) v112 call2_v0
  let v115 := shapeCast S1568x128x128 v113 shapeCasts_S200704x128_S1568x128x128
  let v116 := shapeCast S1568x128x128 v114 shapeCasts_S200704x128_S1568x128x128
  let v117 := Cert.KernelIdeal.HandV.edgeDot v115 v116
  let v118 := shapeCast S200704 v117 shapeCasts_S1568x128_S200704
  let v119 := ((extractStridedSlice S200000 ![0] · slices_S200704_S200000_0) : (⟨S200704, .f32⟩ : BufTy).Contents (Elt Ideal) → (⟨S200000, .f32⟩ : BufTy).Contents (Elt Ideal)) v118
  let cst_23 := (constant (F := Ideal) S_ .f32 0x00000000#32)
  let v120 := (broadcastInDim S200000 ![] bcast_S_S200000 : (⟨S_, .f32⟩ : BufTy).Contents (Elt Ideal) → (⟨S200000, .f32⟩ : BufTy).Contents (Elt Ideal)) cst_23
  let v121 := (cmpf (F := Ideal) (φ := .f32) .ogt : (⟨S200000, .f32⟩ : BufTy).Contents (Elt Ideal) → (⟨S200000, .f32⟩ : BufTy).Contents (Elt Ideal) → (⟨S200000, .i1⟩ : BufTy).Contents (Elt Ideal)) v119 v120
  let v122 := (uitofp (F := Ideal) .f32 : (⟨S200000, .i1⟩ : BufTy).Contents (Elt Ideal) → (⟨S200000, .f32⟩ : BufTy).Contents (Elt Ideal)) v121
  v122

end Kernel

section Reference
open Cert.ReferenceIdeal Cert.ReferenceIdeal.Facts₀ Cert.ReferenceIdeal.Facts
variable [Cert.ReferenceIdeal.Facts]

/-- The reference's mask: the two decoders (gather, product, sum, logistic) one after the other, the concatenation
    and the conversion of the comparison with one half, one line per operation, in program order. -/
def maskR (z : (⟨S50000x128, .f32⟩ : BufTy).Contents (Elt Ideal)) (arg1 arg2 : (⟨S2x100000, .i32⟩ : BufTy).Contents (Elt Ideal)) :
    (⟨S200000, .f32⟩ : BufTy).Contents (Elt Ideal) :=
  let v93 := z
  let v94 := ((extractStridedSlice S1x100000 ![0, 0] · slices_S2x100000_S1x100000_0_0) : (⟨S2x100000, .i32⟩ : BufTy).Contents (Elt Ideal) → (⟨S1x100000, .i32⟩ : BufTy).Contents (Elt Ideal)) arg1
  let v95 := shapeCast S100000 v94 shapeCasts_S1x100000_S100000
  let c_17 := (constantI S_ 32 0#32)
  let v96 := (broadcastInDim S100000 ![] bcast_S_S100000 : (⟨S_, .i32⟩ : BufTy).Contents (Elt Ideal) → (⟨S100000, .i32⟩ : BufTy).Contents (Elt Ideal)) c_17
  let v97 := (cmpi .slt : (⟨S100000, .i32⟩ : BufTy).Contents (Elt Ideal) → (⟨S100000, .i32⟩ : BufTy).Contents (Elt Ideal) → (⟨S100000, .i1⟩ : BufTy).Contents (Elt Ideal)) v95 v96
  let c_18 := (constantI S_ 32 50000#32)
  let v98 := (broadcastInDim S100000 ![] bcast_S_S100000 : (⟨S_, .i32⟩ : BufTy).Contents (Elt Ideal) → (⟨S100000, .i32⟩ : BufTy).Contents (Elt Ideal)) c_18
  let v99 := (addi : (⟨S100000, .i32⟩ : BufTy).Contents (Elt Ideal) → (⟨S100000, .i32⟩ : BufTy).Contents (Elt Ideal) → (⟨S100000, .i32⟩ : BufTy).Contents (Elt Ideal)) v95 v98
  let v100 := (select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) v97 v99 v95
  let v101 := (broadcastInDim S100000x1 ![0] bcast_S100000_S100000x1_0 : (⟨S100000, .i32⟩ : BufTy).Contents (Elt Ideal) → (⟨S100000x1, .i32⟩ : BufTy).Contents (Elt Ideal)) v100
  let v102 := ((fun x i => Host.gather gather_S50000x128_S100000x1_S100000x128_1_0_n_n_0_1_1128 x i) : (⟨S50000x128, .f32⟩ : BufTy).Contents (Elt Ideal) → (⟨S100000x1, .i32⟩ : BufTy).Contents (Elt Ideal) → (⟨S100000x128, .f32⟩ : BufTy).Contents (Elt Ideal)) v93 v101
  let v103 := ((extractStridedSlice S1x100000 ![1, 0] · slices_S2x100000_S1x100000_1_0) : (⟨S2x100000, .i32⟩ : BufTy).Contents (Elt Ideal) → (⟨S1x100000, .i32⟩ : BufTy).Contents (Elt Ideal)) arg1
  let v104 := shapeCast S100000 v103 shapeCasts_S1x100000_S100000
  let c_19 := (constantI S_ 32 0#32)
  let v105 := (broadcastInDim S100000 ![] bcast_S_S100000 : (⟨S_, .i32⟩ : BufTy).Contents (Elt Ideal) → (⟨S100000, .i32⟩ : BufTy).Contents (Elt Ideal)) c_19
  let v106 := (cmpi .slt : (⟨S100000, .i32⟩ : BufTy).Contents (Elt Ideal) → (⟨S100000, .i32⟩ : BufTy).Contents (Elt Ideal) → (⟨S100000, .i1⟩ : BufTy).Contents (Elt Ideal)) v104 v105
  let c_20 := (constantI S_ 32 50000#32)
  let v107 := (broadcastInDim S100000 ![] bcast_S_S100000 : (⟨S_, .i32⟩ : BufTy).Contents (Elt Ideal) → (⟨S100000, .i32⟩ : BufTy).Contents (Elt Ideal)) c_20
  let v108 := (addi : (⟨S100000, .i32⟩ : BufTy).Contents (Elt Ideal) → (⟨S100000, .i32⟩ : BufTy).Contents (Elt Ideal) → (⟨S100000, .i32⟩ : BufTy).Contents (Elt Ideal)) v104 v107
  let v109 := (select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) v106 v108 v104
  let v110 := (broadcastInDim S100000x1 ![0] bcast_S100000_S100000x1_0 : (⟨S100000, .i32⟩ : BufTy).Contents (Elt Ideal) → (⟨S100000x1, .i32⟩ : BufTy).Contents (Elt Ideal)) v109
  let v111 := ((fun x i => Host.gather gather_S50000x128_S100000x1_S100000x128_1_0_n_n_0_1_1128 x i) : (⟨S50000x128, .f32⟩ : BufTy).Contents (Elt Ideal) → (⟨S100000x1, .i32⟩ : BufTy).Contents (Elt Ideal) → (⟨S100000x128, .f32⟩ : BufTy).Contents (Elt Ideal)) v93 v110
  let v112 := (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) v102 v111
  let cst_21 := (constant (F := Ideal) S_ .f32 0x00000000#32)
  let v113 := ((fun x v => Host.reduceAdd (F := Ideal) (φ := .f32) x v reducesTo_S100000x128_S100000_d1 h_S_) : (⟨S100000x128, .f32⟩ : BufTy).Contents (Elt Ideal) → (⟨S_, .f32⟩ : BufTy).Contents (Elt Ideal) → (⟨S100000, .f32⟩ : BufTy).Contents (Elt Ideal)) v112 cst_21
  let v114 := (Host.negf (F := Ideal) (φ := .f32) : (⟨S100000, .f32⟩ : BufTy).Contents (Elt Ideal) → (⟨S100000, .f32⟩ : BufTy).Contents (Elt Ideal)) v113
  let v115 := (Host.exp (F := Ideal) (φ := .f32) : (⟨S100000, .f32⟩ : BufTy).Contents (Elt Ideal) → (⟨S100000, .f32⟩ : BufTy).Contents (Elt Ideal)) v114
  let cst_22 := (constant (F := Ideal) S_ .f32 0x3F800000#32)
  let v116 := (broadcastInDim S100000 ![] bcast_S_S100000 : (⟨S_, .f32⟩ : BufTy).Contents (Elt Ideal) → (⟨S100000, .f32⟩ : BufTy).Contents (Elt Ideal)) cst_22
  let v117 := (addf (F := Ideal) (φ := .f32) : (⟨S100000, .f32⟩ : BufTy).Contents (Elt Ideal) → (⟨S100000, .f32⟩ : BufTy).Contents (Elt Ideal) → (⟨S100000, .f32⟩ : BufTy).Contents (Elt Ideal)) v116 v115
  let cst_23 := (constant (F := Ideal) S_ .f32 0x3F800000#32)
  let v118 := (broadcastInDim S100000 ![] bcast_S_S100000 : (⟨S_, .f32⟩ : BufTy).Contents (Elt Ideal) → (⟨S100000, .f32⟩ : BufTy).Contents (Elt Ideal)) cst_23
  let v119 := (Host.divf (F := Ideal) (φ := .f32) : (⟨S100000, .f32⟩ : BufTy).Contents (Elt Ideal) → (⟨S100000, .f32⟩ : BufTy).Contents (Elt Ideal) → (⟨S100000, .f32⟩ : BufTy).Contents (Elt Ideal)) v118 v117
  let v120 := ((extractStridedSlice S1x100000 ![0, 0] · slices_S2x100000_S1x100000_0_0) : (⟨S2x100000, .i32⟩ : BufTy).Contents (Elt Ideal) → (⟨S1x100000, .i32⟩ : BufTy).Contents (Elt Ideal)) arg2
  let v121 := shapeCast S100000 v120 shapeCasts_S1x100000_S100000
  let c_24 := (constantI S_ 32 0#32)
  let v122 := (broadcastInDim S100000 ![] bcast_S_S100000 : (⟨S_, .i32⟩ : BufTy).Contents (Elt Ideal) → (⟨S100000, .i32⟩ : BufTy).Contents (Elt Ideal)) c_24
  let v123 := (cmpi .slt : (⟨S100000, .i32⟩ : BufTy).Contents (Elt Ideal) → (⟨S100000, .i32⟩ : BufTy).Contents (Elt Ideal) → (⟨S100000, .i1⟩ : BufTy).Contents (Elt Ideal)) v121 v122
  let c_25 := (constantI S_ 32 50000#32)
  let v124 := (broadcastInDim S100000 ![] bcast_S_S100000 : (⟨S_, .i32⟩ : BufTy).Contents (Elt Ideal) → (⟨S100000, .i32⟩ : BufTy).Contents (Elt Ideal)) c_25
  let v125 := (addi : (⟨S100000, .i32⟩ : BufTy).Contents (Elt Ideal) → (⟨S100000, .i32⟩ : BufTy).Contents (Elt Ideal) → (⟨S100000, .i32⟩ : BufTy).Contents (Elt Ideal)) v121 v124
  let v126 := (select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) v123 v125 v121
  let v127 := (broadcastInDim S100000x1 ![0] bcast_S100000_S100000x1_0 : (⟨S100000, .i32⟩ : BufTy).Contents (Elt Ideal) → (⟨S100000x1, .i32⟩ : BufTy).Contents (Elt Ideal)) v126
  let v128 := ((fun x i => Host.gather gather_S50000x128_S100000x1_S100000x128_1_0_n_n_0_1_1128 x i) : (⟨S50000x128, .f32⟩ : BufTy).Contents (Elt Ideal) → (⟨S100000x1, .i32⟩ : BufTy).Contents (Elt Ideal) → (⟨S100000x128, .f32⟩ : BufTy).Contents (Elt Ideal)) v93 v127
  let v129 := ((extractStridedSlice S1x100000 ![1, 0] · slices_S2x100000_S1x100000_1_0) : (⟨S2x100000, .i32⟩ : BufTy).Contents (Elt Ideal) → (⟨S1x100000, .i32⟩ : BufTy).Contents (Elt Ideal)) arg2
  let v130 := shapeCast S100000 v129 shapeCasts_S1x100000_S100000
  let c_26 := (constantI S_ 32 0#32)
  let v131 := (broadcastInDim S100000 ![] bcast_S_S100000 : (⟨S_, .i32⟩ : BufTy).Contents (Elt Ideal) → (⟨S100000, .i32⟩ : BufTy).Contents (Elt Ideal)) c_26
  let v132 := (cmpi .slt : (⟨S100000, .i32⟩ : BufTy).Contents (Elt Ideal) → (⟨S100000, .i32⟩ : BufTy).Contents (Elt Ideal) → (⟨S100000, .i1⟩ : BufTy).Contents (Elt Ideal)) v130 v131
  let c_27 := (constantI S_ 32 50000#32)
  let v133 := (broadcastInDim S100000 ![] bcast_S_S100000 : (⟨S_, .i32⟩ : BufTy).Contents (Elt Ideal) → (⟨S100000, .i32⟩ : BufTy).Contents (Elt Ideal)) c_27
  let v134 := (addi : (⟨S100000, .i32⟩ : BufTy).Contents (Elt Ideal) → (⟨S100000, .i32⟩ : BufTy).Contents (Elt Ideal) → (⟨S100000, .i32⟩ : BufTy).Contents (Elt Ideal)) v130 v133
  let v135 := (select : (⟨S100000, .i1⟩ : BufTy).Contents (Elt Ideal) → (⟨S100000, .i32⟩ : BufTy).Contents (Elt Ideal) → (⟨S100000, .i32⟩ : BufTy).Contents (Elt Ideal) → (⟨S100000, .i32⟩ : BufTy).Contents (Elt Ideal)) v132 v134 v130
  let v136 := (broadcastInDim S100000x1 ![0] bcast_S100000_S100000x1_0 : (⟨S100000, .i32⟩ : BufTy).Contents (Elt Ideal) → (⟨S100000x1, .i32⟩ : BufTy).Contents (Elt Ideal)) v135
  let v137 := ((fun x i => Host.gather gather_S50000x128_S100000x1_S100000x128_1_0_n_n_0_1_1128 x i) : (⟨S50000x128, .f32⟩ : BufTy).Contents (Elt Ideal) → (⟨S100000x1, .i32⟩ : BufTy).Contents (Elt Ideal) → (⟨S100000x128, .f32⟩ : BufTy).Contents (Elt Ideal)) v93 v136
  let v138 := (mulf (F := Ideal) (φ := .f32) : (⟨S100000x128, .f32⟩ : BufTy).Contents (Elt Ideal) → (⟨S100000x128, .f32⟩ : BufTy).Contents (Elt Ideal) → (⟨S100000x128, .f32⟩ : BufTy).Contents (Elt Ideal)) v128 v137
  let cst_28 := (constant (F := Ideal) S_ .f32 0x00000000#32)
  let v139 := ((fun x v => Host.reduceAdd (F := Ideal) (φ := .f32) x v reducesTo_S100000x128_S100000_d1 h_S_) : (⟨S100000x128, .f32⟩ : BufTy).Contents (Elt Ideal) → (⟨S_, .f32⟩ : BufTy).Contents (Elt Ideal) → (⟨S100000, .f32⟩ : BufTy).Contents (Elt Ideal)) v138 cst_28
  let v140 := (Host.negf (F := Ideal) (φ := .f32) : (⟨S100000, .f32⟩ : BufTy).Contents (Elt Ideal) → (⟨S100000, .f32⟩ : BufTy).Contents (Elt Ideal)) v139
  let v141 := (Host.exp (F := Ideal) (φ := .f32) : (⟨S100000, .f32⟩ : BufTy).Contents (Elt Ideal) → (⟨S100000, .f32⟩ : BufTy).Contents (Elt Ideal)) v140
  let cst_29 := (constant (F := Ideal) S_ .f32 0x3F800000#32)
  let v142 := (broadcastInDim S100000 ![] bcast_S_S100000 : (⟨S_, .f32⟩ : BufTy).Contents (Elt Ideal) → (⟨S100000, .f32⟩ : BufTy).Contents (Elt Ideal)) cst_29
  let v143 := (addf (F := Ideal) (φ := .f32) : (⟨S100000, .f32⟩ : BufTy).Contents (Elt Ideal) → (⟨S100000, .f32⟩ : BufTy).Contents (Elt Ideal) → (⟨S100000, .f32⟩ : BufTy).Contents (Elt Ideal)) v142 v141
  let cst_30 := (constant (F := Ideal) S_ .f32 0x3F800000#32)
  let v144 := (broadcastInDim S100000 ![] bcast_S_S100000 : (⟨S_, .f32⟩ : BufTy).Contents (Elt Ideal) → (⟨S100000, .f32⟩ : BufTy).Contents (Elt Ideal)) cst_30
  let v145 := (Host.divf (F := Ideal) (φ := .f32) : (⟨S100000, .f32⟩ : BufTy).Contents (Elt Ideal) → (⟨S100000, .f32⟩ : BufTy).Contents (Elt Ideal) → (⟨S100000, .f32⟩ : BufTy).Contents (Elt Ideal)) v144 v143
  let v146 := ((fun a b => concatenate S200000 0 [⟨S100000, a⟩, ⟨S100000, b⟩] concatenates_S100000_S100000_S200000_d0) : (⟨S100000, .f32⟩ : BufTy).Contents (Elt Ideal) → (⟨S100000, .f32⟩ : BufTy).Contents (Elt Ideal) → (⟨S200000, .f32⟩ : BufTy).Contents (Elt Ideal)) v119 v145
  let cst_31 := (constant (F := Ideal) S_ .f32 0x3F000000#32)
  let v148 := (broadcastInDim S200000 ![] bcast_S_S200000 : (⟨S_, .f32⟩ : BufTy).Contents (Elt Ideal) → (⟨S200000, .f32⟩ : BufTy).Contents (Elt Ideal)) cst_31
  let v149 := (cmpf (F := Ideal) (φ := .f32) .ogt : (⟨S200000, .f32⟩ : BufTy).Contents (Elt Ideal) → (⟨S200000, .f32⟩ : BufTy).Contents (Elt Ideal) → (⟨S200000, .i1⟩ : BufTy).Contents (Elt Ideal)) v146 v148
  let v150 := (uitofp (F := Ideal) .f32 : (⟨S200000, .i1⟩ : BufTy).Contents (Elt Ideal) → (⟨S200000, .f32⟩ : BufTy).Contents (Elt Ideal)) v149
  v150

end Reference

end Cert.Bridge

end
-- ==== Proof.KI.ValsD0.lean ====
/-
  The kernel program's decoder, read back from the run: the candidate-edge scores, the accepted-edge mask and the
  edge lists of the augmented graph. The scores are the tile-wise inner products (the third pallas call's closed
  form) of the padded, re-tiled gathers of z's rows; the mask compares them with zero. Spelt operation by operation
  this is the pure function maskK of z and the two index arrays, which equals the reference's mask (logistic of the
  same inner products compared with one half); the row, column and weight lists are the same concatenations in both
  programs.
-/
import proofs.«128511_j38740605010536_2_alg».proof.Proof.KI.ValsA
import proofs.«128511_j38740605010536_2_alg».proof.Proof.KI.Keep
import proofs.«128511_j38740605010536_2_alg».proof.Proof.LibCat
import proofs.«128511_j38740605010536_2_alg».proof.Proof.KI.Final2
import proofs.«128511_j38740605010536_2_alg».proof.Proof.Bridge.MaskDefs
import proofs.«128511_j38740605010536_2_alg».proof.Proof.RefReadP
import Idealize.ShloMosaic.Lib.StableHlo.Run

set_option maxRecDepth 16384
set_option pp.maxSteps 3000
set_option pp.deepTerms false
set_option pp.proofs false

noncomputable section

namespace Cert.KernelIdeal.HandV

section Pieces
open Cert.KernelIdeal Cert.KernelIdeal.Facts₀ Cert.KernelIdeal.Facts Idealize.ShloMosaic

/-- The concatenated candidate-edge indices, -/
def K94 (arg1 arg2 : (⟨S2x100000, .i32⟩ : BufTy).Contents (Elt Ideal)) : (⟨S2x200000, .i32⟩ : BufTy).Contents (Elt Ideal) :=
  let v94 := ((fun a b => concatenate S2x200000 1 [⟨S2x100000, a⟩, ⟨S2x100000, b⟩] concatenates_S2x100000_S2x100000_S2x200000_d1) : (⟨S2x100000, .i32⟩ : BufTy).Contents (Elt Ideal) → (⟨S2x100000, .i32⟩ : BufTy).Contents (Elt Ideal) → (⟨S2x200000, .i32⟩ : BufTy).Contents (Elt Ideal)) arg1 arg2
  v94
/-- their first row as a flat list, -/
def K96 (arg1 arg2 : (⟨S2x100000, .i32⟩ : BufTy).Contents (Elt Ideal)) : (⟨S200000, .i32⟩ : BufTy).Contents (Elt Ideal) :=
  let v94 := ((fun a b => concatenate S2x200000 1 [⟨S2x100000, a⟩, ⟨S2x100000, b⟩] concatenates_S2x100000_S2x100000_S2x200000_d1) : (⟨S2x100000, .i32⟩ : BufTy).Contents (Elt Ideal) → (⟨S2x100000, .i32⟩ : BufTy).Contents (Elt Ideal) → (⟨S2x200000, .i32⟩ : BufTy).Contents (Elt Ideal)) arg1 arg2
  let v95 := ((extractStridedSlice S1x200000 ![0, 0] · slices_S2x200000_S1x200000_0_0) : (⟨S2x200000, .i32⟩ : BufTy).Contents (Elt Ideal) → (⟨S1x200000, .i32⟩ : BufTy).Contents (Elt Ideal)) v94
  let v96 := shapeCast S200000 v95 shapeCasts_S1x200000_S200000
  v96
/-- and where that row is negative. -/
def K98 (arg1 arg2 : (⟨S2x100000, .i32⟩ : BufTy).Contents (Elt Ideal)) : (⟨S200000, .i1⟩ : BufTy).Contents (Elt Ideal) :=
  let v94 := ((fun a b => concatenate S2x200000 1 [⟨S2x100000, a⟩, ⟨S2x100000, b⟩] concatenates_S2x100000_S2x100000_S2x200000_d1) : (⟨S2x100000, .i32⟩ : BufTy).Contents (Elt Ideal) → (⟨S2x100000, .i32⟩ : BufTy).Contents (Elt Ideal) → (⟨S2x200000, .i32⟩ : BufTy).Contents (Elt Ideal)) arg1 arg2
  let v95 := ((extractStridedSlice S1x200000 ![0, 0] · slices_S2x200000_S1x200000_0_0) : (⟨S2x200000, .i32⟩ : BufTy).Contents (Elt Ideal) → (⟨S1x200000, .i32⟩ : BufTy).Contents (Elt Ideal)) v94
  let v96 := shapeCast S200000 v95 shapeCasts_S1x200000_S200000
  let c_17 := (constantI S_ 32 0#32)
  let v97 := (broadcastInDim S200000 ![] bcast_S_S200000 : (⟨S_, .i32⟩ : BufTy).Contents (Elt Ideal) → (⟨S200000, .i32⟩ : BufTy).Contents (Elt Ideal)) c_17
  let v98 := (cmpi .slt : (⟨S200000, .i32⟩ : BufTy).Contents (Elt Ideal) → (⟨S200000, .i32⟩ : BufTy).Contents (Elt Ideal) → (⟨S200000, .i1⟩ : BufTy).Contents (Elt Ideal)) v96 v97
  v98
/-- The first endpoints' rows of z, padded and re-tiled: the third pallas call's first operand. -/
def K115 (z : (⟨S50000x128, .f32⟩ : BufTy).Contents (Elt Ideal)) (arg1 arg2 : (⟨S2x100000, .i32⟩ : BufTy).Contents (Elt Ideal)) : (⟨S1568x128x128, .f32⟩ : BufTy).Contents (Elt Ideal) :=
  let v93 := z
  let v94 := ((fun a b => concatenate S2x200000 1 [⟨S2x100000, a⟩, ⟨S2x100000, b⟩] concatenates_S2x100000_S2x100000_S2x200000_d1) : (⟨S2x100000, .i32⟩ : BufTy).Contents (Elt Ideal) → (⟨S2x100000, .i32⟩ : BufTy).Contents (Elt Ideal) → (⟨S2x200000, .i32⟩ : BufTy).Contents (Elt Ideal)) arg1 arg2
  let v95 := ((extractStridedSlice S1x200000 ![0, 0] · slices_S2x200000_S1x200000_0_0) : (⟨S2x200000, .i32⟩ : BufTy).Contents (Elt Ideal) → (⟨S1x200000, .i32⟩ : BufTy).Contents (Elt Ideal)) v94
  let v96 := shapeCast S200000 v95 shapeCasts_S1x200000_S200000
  let c_17 := (constantI S_ 32 0#32)
  let v97 := (broadcastInDim S200000 ![] bcast_S_S200000 : (⟨S_, .i32⟩ : BufTy).Contents (Elt Ideal) → (⟨S200000, .i32⟩ : BufTy).Contents (Elt Ideal)) c_17
  let v98 := (cmpi .slt : (⟨S200000, .i32⟩ : BufTy).Contents (Elt Ideal) → (⟨S200000, .i32⟩ : BufTy).Contents (Elt Ideal) → (⟨S200000, .i1⟩ : BufTy).Contents (Elt Ideal)) v96 v97
  let c_18 := (constantI S_ 32 50000#32)
  let v99 := (broadcastInDim S200000 ![] bcast_S_S200000 : (⟨S_, .i32⟩ : BufTy).Contents (Elt Ideal) → (⟨S200000, .i32⟩ : BufTy).Contents (Elt Ideal)) c_18
  let v100 := (addi : (⟨S200000, .i32⟩ : BufTy).Contents (Elt Ideal) → (⟨S200000, .i32⟩ : BufTy).Contents (Elt Ideal) → (⟨S200000, .i32⟩ : BufTy).Contents (Elt Ideal)) v96 v99
  let v101 := (select : (⟨S200000, .i1⟩ : BufTy).Contents (Elt Ideal) → (⟨S200000, .i32⟩ : BufTy).Contents (Elt Ideal) → (⟨S200000, .i32⟩ : BufTy).Contents (Elt Ideal) → (⟨S200000, .i32⟩ : BufTy).Contents (Elt Ideal)) v98 v100 v96
  let v102 := (broadcastInDim S200000x1 ![0] bcast_S200000_S200000x1_0 : (⟨S200000, .i32⟩ : BufTy).Contents (Elt Ideal) → (⟨S200000x1, .i32⟩ : BufTy).Contents (Elt Ideal)) v101
  let v103 := ((fun x i => Host.gather gather_S50000x128_S200000x1_S200000x128_1_0_n_n_0_1_1128 x i) : (⟨S50000x128, .f32⟩ : BufTy).Contents (Elt Ideal) → (⟨S200000x1, .i32⟩ : BufTy).Contents (Elt Ideal) → (⟨S200000x128, .f32⟩ : BufTy).Contents (Elt Ideal)) v93 v102
  let v104 := ((extractStridedSlice S1x200000 ![1, 0] · slices_S2x200000_S1x200000_1_0) : (⟨S2x200000, .i32⟩ : BufTy).Contents (Elt Ideal) → (⟨S1x200000, .i32⟩ : BufTy).Contents (Elt Ideal)) v94
  let v105 := shapeCast S200000 v104 shapeCasts_S1x200000_S200000
  let c_19 := (constantI S_ 32 0#32)
  let v106 := (broadcastInDim S200000 ![] bcast_S_S200000 : (⟨S_, .i32⟩ : BufTy).Contents (Elt Ideal) → (⟨S200000, .i32⟩ : BufTy).Contents (Elt Ideal)) c_19
  let v107 := (cmpi .slt : (⟨S200000, .i32⟩ : BufTy).Contents (Elt Ideal) → (⟨S200000, .i32⟩ : BufTy).Contents (Elt Ideal) → (⟨S200000, .i1⟩ : BufTy).Contents (Elt Ideal)) v105 v106
  let c_20 := (constantI S_ 32 50000#32)
  let v108 := (broadcastInDim S200000 ![] bcast_S_S200000 : (⟨S_, .i32⟩ : BufTy).Contents (Elt Ideal) → (⟨S200000, .i32⟩ : BufTy).Contents (Elt Ideal)) c_20
  let v109 := (addi : (⟨S200000, .i32⟩ : BufTy).Contents (Elt Ideal) → (⟨S200000, .i32⟩ : BufTy).Contents (Elt Ideal) → (⟨S200000, .i32⟩ : BufTy).Contents (Elt Ideal)) v105 v108
  let v110 := (select : (⟨S200000, .i1⟩ : BufTy).Contents (Elt Ideal) → (⟨S200000, .i32⟩ : BufTy).Contents (Elt Ideal) → (⟨S200000, .i32⟩ : BufTy).Contents (Elt Ideal) → (⟨S200000, .i32⟩ : BufTy).Contents (Elt Ideal)) v107 v109 v105
  let v111 := (broadcastInDim S200000x1 ![0] bcast_S200000_S200000x1_0 : (⟨S200000, .i32⟩ : BufTy).Contents (Elt Ideal) → (⟨S200000x1, .i32⟩ : BufTy).Contents (Elt Ideal)) v110
  let v112 := ((fun x i => Host.gather gather_S50000x128_S200000x1_S200000x128_1_0_n_n_0_1_1128 x i) : (⟨S50000x128, .f32⟩ : BufTy).Contents (Elt Ideal) → (⟨S200000x1, .i32⟩ : BufTy).Contents (Elt Ideal) → (⟨S200000x128, .f32⟩ : BufTy).Contents (Elt Ideal)) v93 v111
  let c_21 := (constantI S_ 32 0#32)
  let call1_v0 := ((sitofp (F := Ideal) .f32) : (⟨S_, .i32⟩ : BufTy).Contents (Elt Ideal) → (⟨S_, .f32⟩ : BufTy).Contents (Elt Ideal)) c_21
  let v113 := ((fun x v => pad S200704x128 ![0, 0] ![704, 0] ![0, 0] x v pads_S200000x128_S200704x128_07040_000 h_S_) : (⟨S200000x128, .f32⟩ : BufTy).Contents (Elt Ideal) → (⟨S_, .f32⟩ : BufTy).Contents (Elt Ideal) → (⟨S200704x128, .f32⟩ : BufTy).Contents (Elt Ideal)) v103 call1_v0
  let c_22 := (constantI S_ 32 0#32)
  let call2_v0 := ((sitofp (F := Ideal) .f32) : (⟨S_, .i32⟩ : BufTy).Contents (Elt Ideal) → (⟨S_, .f32⟩ : BufTy).Contents (Elt Ideal)) c_22
  let v114 := ((fun x v => pad S200704x128 ![0, 0] ![704, 0] ![0, 0] x v pads_S200000x128_S200704x128_07040_000 h_S_) : (⟨S200000x128, .f32⟩ : BufTy).Contents (Elt Ideal) → (⟨S_, .f32⟩ : BufTy).Contents (Elt Ideal) → (⟨S200704x128, .f32⟩ : BufTy).Contents (Elt Ideal)) v112 call2_v0
  let v115 := shapeCast S1568x128x128 v113 shapeCasts_S200704x128_S1568x128x128
  v115
/-- The second endpoints' rows of z, padded and re-tiled: its second operand. -/
def K116 (z : (⟨S50000x128, .f32⟩ : BufTy).Contents (Elt Ideal)) (arg1 arg2 : (⟨S2x100000, .i32⟩ : BufTy).Contents (Elt Ideal)) : (⟨S1568x128x128, .f32⟩ : BufTy).Contents (Elt Ideal) :=
  let v93 := z
  let v94 := ((fun a b => concatenate S2x200000 1 [⟨S2x100000, a⟩, ⟨S2x100000, b⟩] concatenates_S2x100000_S2x100000_S2x200000_d1) : (⟨S2x100000, .i32⟩ : BufTy).Contents (Elt Ideal) → (⟨S2x100000, .i32⟩ : BufTy).Contents (Elt Ideal) → (⟨S2x200000, .i32⟩ : BufTy).Contents (Elt Ideal)) arg1 arg2
  let v95 := ((extractStridedSlice S1x200000 ![0, 0] · slices_S2x200000_S1x200000_0_0) : (⟨S2x200000, .i32⟩ : BufTy).Contents (Elt Ideal) → (⟨S1x200000, .i32⟩ : BufTy).Contents (Elt Ideal)) v94
  let v96 := shapeCast S200000 v95 shapeCasts_S1x200000_S200000
  let c_17 := (constantI S_ 32 0#32)
  let v97 := (broadcastInDim S200000 ![] bcast_S_S200000 : (⟨S_, .i32⟩ : BufTy).Contents (Elt Ideal) → (⟨S200000, .i32⟩ : BufTy).Contents (Elt Ideal)) c_17
  let v98 := (cmpi .slt : (⟨S200000, .i32⟩ : BufTy).Contents (Elt Ideal) → (⟨S200000, .i32⟩ : BufTy).Contents (Elt Ideal) → (⟨S200000, .i1⟩ : BufTy).Contents (Elt Ideal)) v96 v97
  let c_18 := (constantI S_ 32 50000#32)
  let v99 := (broadcastInDim S200000 ![] bcast_S_S200000 : (⟨S_, .i32⟩ : BufTy).Contents (Elt Ideal) → (⟨S200000, .i32⟩ : BufTy).Contents (Elt Ideal)) c_18
  let v100 := (addi : (⟨S200000, .i32⟩ : BufTy).Contents (Elt Ideal) → (⟨S200000, .i32⟩ : BufTy).Contents (Elt Ideal) → (⟨S200000, .i32⟩ : BufTy).Contents (Elt Ideal)) v96 v99
  let v101 := (select : (⟨S200000, .i1⟩ : BufTy).Contents (Elt Ideal) → (⟨S200000, .i32⟩ : BufTy).Contents (Elt Ideal) → (⟨S200000, .i32⟩ : BufTy).Contents (Elt Ideal) → (⟨S200000, .i32⟩ : BufTy).Contents (Elt Ideal)) v98 v100 v96
  let v102 := (broadcastInDim S200000x1 ![0] bcast_S200000_S200000x1_0 : (⟨S200000, .i32⟩ : BufTy).Contents (Elt Ideal) → (⟨S200000x1, .i32⟩ : BufTy).Contents (Elt Ideal)) v101
  let v103 := ((fun x i => Host.gather gather_S50000x128_S200000x1_S200000x128_1_0_n_n_0_1_1128 x i) : (⟨S50000x128, .f32⟩ : BufTy).Contents (Elt Ideal) → (⟨S200000x1, .i32⟩ : BufTy).Contents (Elt Ideal) → (⟨S200000x128, .f32⟩ : BufTy).Contents (Elt Ideal)) v93 v102
  let v104 := ((extractStridedSlice S1x200000 ![1, 0] · slices_S2x200000_S1x200000_1_0) : (⟨S2x200000, .i32⟩ : BufTy).Contents (Elt Ideal) → (⟨S1x200000, .i32⟩ : BufTy).Contents (Elt Ideal)) v94
  let v105 := shapeCast S200000 v104 shapeCasts_S1x200000_S200000
  let c_19 := (constantI S_ 32 0#32)
  let v106 := (broadcastInDim S200000 ![] bcast_S_S200000 : (⟨S_, .i32⟩ : BufTy).Contents (Elt Ideal) → (⟨S200000, .i32⟩ : BufTy).Contents (Elt Ideal)) c_19
  let v107 := (cmpi .slt : (⟨S200000, .i32⟩ : BufTy).Contents (Elt Ideal) → (⟨S200000, .i32⟩ : BufTy).Contents (Elt Ideal) → (⟨S200000, .i1⟩ : BufTy).Contents (Elt Ideal)) v105 v106
  let c_20 := (constantI S_ 32 50000#32)
  let v108 := (broadcastInDim S200000 ![] bcast_S_S200000 : (⟨S_, .i32⟩ : BufTy).Contents (Elt Ideal) → (⟨S200000, .i32⟩ : BufTy).Contents (Elt Ideal)) c_20
  let v109 := (addi : (⟨S200000, .i32⟩ : BufTy).Contents (Elt Ideal) → (⟨S200000, .i32⟩ : BufTy).Contents (Elt Ideal) → (⟨S200000, .i32⟩ : BufTy).Contents (Elt Ideal)) v105 v108
  let v110 := (select : (⟨S200000, .i1⟩ : BufTy).Contents (Elt Ideal) → (⟨S200000, .i32⟩ : BufTy).Contents (Elt Ideal) → (⟨S200000, .i32⟩ : BufTy).Contents (Elt Ideal) → (⟨S200000, .i32⟩ : BufTy).Contents (Elt Ideal)) v107 v109 v105
  let v111 := (broadcastInDim S200000x1 ![0] bcast_S200000_S200000x1_0 : (⟨S200000, .i32⟩ : BufTy).Contents (Elt Ideal) → (⟨S200000x1, .i32⟩ : BufTy).Contents (Elt Ideal)) v110
  let v112 := ((fun x i => Host.gather gather_S50000x128_S200000x1_S200000x128_1_0_n_n_0_1_1128 x i) : (⟨S50000x128, .f32⟩ : BufTy).Contents (Elt Ideal) → (⟨S200000x1, .i32⟩ : BufTy).Contents (Elt Ideal) → (⟨S200000x128, .f32⟩ : BufTy).Contents (Elt Ideal)) v93 v111
  let c_21 := (constantI S_ 32 0#32)
  let call1_v0 := ((sitofp (F := Ideal) .f32) : (⟨S_, .i32⟩ : BufTy).Contents (Elt Ideal) → (⟨S_, .f32⟩ : BufTy).Contents (Elt Ideal)) c_21
  let v113 := ((fun x v => pad S200704x128 ![0, 0] ![704, 0] ![0, 0] x v pads_S200000x128_S200704x128_07040_000 h_S_) : (⟨S200000x128, .f32⟩ : BufTy).Contents (Elt Ideal) → (⟨S_, .f32⟩ : BufTy).Contents (Elt Ideal) → (⟨S200704x128, .f32⟩ : BufTy).Contents (Elt Ideal)) v103 call1_v0
  let c_22 := (constantI S_ 32 0#32)
  let call2_v0 := ((sitofp (F := Ideal) .f32) : (⟨S_, .i32⟩ : BufTy).Contents (Elt Ideal) → (⟨S_, .f32⟩ : BufTy).Contents (Elt Ideal)) c_22
  let v114 := ((fun x v => pad S200704x128 ![0, 0] ![704, 0] ![0, 0] x v pads_S200000x128_S200704x128_07040_000 h_S_) : (⟨S200000x128, .f32⟩ : BufTy).Contents (Elt Ideal) → (⟨S_, .f32⟩ : BufTy).Contents (Elt Ideal) → (⟨S200704x128, .f32⟩ : BufTy).Contents (Elt Ideal)) v112 call2_v0
  let v115 := shapeCast S1568x128x128 v113 shapeCasts_S200704x128_S1568x128x128
  let v116 := shapeCast S1568x128x128 v114 shapeCasts_S200704x128_S1568x128x128
  v116
/-- From the two operands to the mask: inner products, flatten, cut the padding off, compare with zero. -/
def Ktail (v115 v116 : (⟨S1568x128x128, .f32⟩ : BufTy).Contents (Elt Ideal)) : (⟨S200000, .f32⟩ : BufTy).Contents (Elt Ideal) :=
  let v117 := Cert.KernelIdeal.HandV.edgeDot v115 v116
  let v118 := shapeCast S200704 v117 shapeCasts_S1568x128_S200704
  let v119 := ((extractStridedSlice S200000 ![0] · slices_S200704_S200000_0) : (⟨S200704, .f32⟩ : BufTy).Contents (Elt Ideal) → (⟨S200000, .f32⟩ : BufTy).Contents (Elt Ideal)) v118
  let cst_23 := (constant (F := Ideal) S_ .f32 0x00000000#32)
  let v120 := (broadcastInDim S200000 ![] bcast_S_S200000 : (⟨S_, .f32⟩ : BufTy).Contents (Elt Ideal) → (⟨S200000, .f32⟩ : BufTy).Contents (Elt Ideal)) cst_23
  let v121 := (cmpf (F := Ideal) (φ := .f32) .ogt : (⟨S200000, .f32⟩ : BufTy).Contents (Elt Ideal) → (⟨S200000, .f32⟩ : BufTy).Contents (Elt Ideal) → (⟨S200000, .i1⟩ : BufTy).Contents (Elt Ideal)) v119 v120
  let v122 := (uitofp (F := Ideal) .f32 : (⟨S200000, .i1⟩ : BufTy).Contents (Elt Ideal) → (⟨S200000, .f32⟩ : BufTy).Contents (Elt Ideal)) v121
  v122

theorem maskK_split (z : (⟨S50000x128, .f32⟩ : BufTy).Contents (Elt Ideal)) (arg1 arg2 : (⟨S2x100000, .i32⟩ : BufTy).Contents (Elt Ideal)) : Cert.Bridge.maskK z arg1 arg2 = Ktail (K115 z arg1 arg2) (K116 z arg1 arg2) := rfl

end Pieces

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The index preparation, at the boundary after z

The stretch that ends with z goes on with the first operations of the decoder's index preparation; it is cut there. -/

/-- The stretch up to and including z, -/
abbrev P1a : List (HloOp τ sig (Elt Ideal)) := (main_part1_ops0 (F := Ideal)).take 52
/-- and the seven operations after it. -/
abbrev P1b : List (HloOp τ sig (Elt Ideal)) :=
  [ StableHlo.binary main_arg1 main_arg2 main_v94 ((fun a b => concatenate S2x200000 1 [⟨S2x100000, a⟩, ⟨S2x100000, b⟩] concatenates_S2x100000_S2x100000_S2x200000_d1) : (⟨S2x100000, .i32⟩ : BufTy).Contents (Elt Ideal) → (⟨S2x100000, .i32⟩ : BufTy).Contents (Elt Ideal) → (⟨S2x200000, .i32⟩ : BufTy).Contents (Elt Ideal)),
    StableHlo.unary main_v94 main_v95 ((extractStridedSlice S1x200000 ![0, 0] · slices_S2x200000_S1x200000_0_0) : (⟨S2x200000, .i32⟩ : BufTy).Contents (Elt Ideal) → (⟨S1x200000, .i32⟩ : BufTy).Contents (Elt Ideal)),
    StableHlo.reshape main_v95 main_v96 rfl shapeCasts_S1x200000_S200000,
    StableHlo.nullary main_c_17 (constantI S_ 32 0#32),
    StableHlo.unary main_c_17 main_v97 (broadcastInDim S200000 ![] bcast_S_S200000 : (⟨S_, .i32⟩ : BufTy).Contents (Elt Ideal) → (⟨S200000, .i32⟩ : BufTy).Contents (Elt Ideal)),
    StableHlo.binary main_v96 main_v97 main_v98 (cmpi .slt : (⟨S200000, .i32⟩ : BufTy).Contents (Elt Ideal) → (⟨S200000, .i32⟩ : BufTy).Contents (Elt Ideal) → (⟨S200000, .i1⟩ : BufTy).Contents (Elt Ideal)),
    StableHlo.nullary main_c_18 (constantI S_ 32 50000#32) ]
theorem p1_split : (main_part1_ops0 (F := Ideal)) = P1a ++ P1b := rfl
theorem p1a_ge : WritesGe 75 P1a :=
  List.forall_iff_forall_mem.mpr fun op h => List.forall_iff_forall_mem.mp (main_part1_ops0_ge (F := Ideal)) op (List.mem_of_mem_take h)

/-- The contents after the stretch's head part, at the two index arguments. -/
theorem y6_arg1 (c : Dev nD) (ha1 : X5 m ρ c (Proc.devRef .tc main_arg1) = (m ((c : Thread nD τ).loc main_arg1))) : StableHlo.after P1a (X5 m ρ c) (Proc.devRef .tc main_arg1) = (m ((c : Thread nD τ).loc main_arg1)) :=
  (after_keep_lt P1a 75 p1a_ge main_arg1 (by decide) _).trans ha1
theorem y6_arg2 (c : Dev nD) (ha2 : X5 m ρ c (Proc.devRef .tc main_arg2) = (m ((c : Thread nD τ).loc main_arg2))) : StableHlo.after P1a (X5 m ρ c) (Proc.devRef .tc main_arg2) = (m ((c : Thread nD τ).loc main_arg2)) :=
  (after_keep_lt P1a 75 p1a_ge main_arg2 (by decide) _).trans ha2

theorem x6_v94 (c : Dev nD) (ha1 : X5 m ρ c (Proc.devRef .tc main_arg1) = (m ((c : Thread nD τ).loc main_arg1))) (ha2 : X5 m ρ c (Proc.devRef .tc main_arg2) = (m ((c : Thread nD τ).loc main_arg2))) :
    X6 m ρ c (Proc.devRef .tc main_v94) = K94 (m ((c : Thread nD τ).loc main_arg1)) (m ((c : Thread nD τ).loc main_arg2)) := by
  show StableHlo.after main_part1_ops0 (X5 m ρ c) (Proc.devRef .tc main_v94) = _
  rw [p1_split, Cert.Lib.after_append]
  have h1 := y6_arg1 m ρ c ha1
  have h2 := y6_arg2 m ρ c ha2
  revert h1 h2
  generalize StableHlo.after P1a (X5 m ρ c) = W
  intro h1 h2
  after_results_simp
  rw [h1, h2]
  rfl

theorem x6_v96 (c : Dev nD) (ha1 : X5 m ρ c (Proc.devRef .tc main_arg1) = (m ((c : Thread nD τ).loc main_arg1))) (ha2 : X5 m ρ c (Proc.devRef .tc main_arg2) = (m ((c : Thread nD τ).loc main_arg2))) :
    X6 m ρ c (Proc.devRef .tc main_v96) = K96 (m ((c : Thread nD τ).loc main_arg1)) (m ((c : Thread nD τ).loc main_arg2)) := by
  show StableHlo.after main_part1_ops0 (X5 m ρ c) (Proc.devRef .tc main_v96) = _
  rw [p1_split, Cert.Lib.after_append]
  have h1 := y6_arg1 m ρ c ha1
  have h2 := y6_arg2 m ρ c ha2
  revert h1 h2
  generalize StableHlo.after P1a (X5 m ρ c) = W
  intro h1 h2
  after_results_simp
  rw [h1, h2]
  rfl

theorem x6_v98 (c : Dev nD) (ha1 : X5 m ρ c (Proc.devRef .tc main_arg1) = (m ((c : Thread nD τ).loc main_arg1))) (ha2 : X5 m ρ c (Proc.devRef .tc main_arg2) = (m ((c : Thread nD τ).loc main_arg2))) :
    X6 m ρ c (Proc.devRef .tc main_v98) = K98 (m ((c : Thread nD τ).loc main_arg1)) (m ((c : Thread nD τ).loc main_arg2)) := by
  show StableHlo.after main_part1_ops0 (X5 m ρ c) (Proc.devRef .tc main_v98) = _
  rw [p1_split, Cert.Lib.after_append]
  have h1 := y6_arg1 m ρ c ha1
  have h2 := y6_arg2 m ρ c ha2
  revert h1 h2
  generalize StableHlo.after P1a (X5 m ρ c) = W
  intro h1 h2
  after_results_simp
  rw [h1, h2]
  rfl
theorem x6_c18 (c : Dev nD) : X6 m ρ c (Proc.devRef .tc main_c_18) = (constantI S_ 32 50000#32 : (⟨S_, .i32⟩ : BufTy).Contents (Elt Ideal)) := by
  show StableHlo.after main_part1_ops0 (X5 m ρ c) (Proc.devRef .tc main_c_18) = _
  rw [p1_split, Cert.Lib.after_append]
  generalize StableHlo.after P1a (X5 m ρ c) = W
  after_results_simp

end Cert.KernelIdeal.HandV

end
-- ==== Proof.KI.ValsF.lean ====
/-
  The last stretch of the program at the ideal values, read against the reference's stages: from the buffers as the last
  pallas call leaves them to the three results computed after it. (1) The second branch's output layer: the normalised
  neighbour aggregation of the last product x·W over the edge lists (a scatter-add of gathered rows weighted by the edge
  weight and both endpoints' inverse square-root degrees), plus the self term and the bias; the program narrows the product
  to bf16 before the gather and widens it after, which at the extended reals changes nothing. (2) The number of kept edges:
  the sum of the 0/1 threshold mask, converted to an integer. (3) The log-softmax of (1) over its 16 columns: each row less
  its maximum, less the logarithm of the row sum of the exponentials. Each is the same chain of operations on both sides, so
  once the inputs are identified the two terms coincide. The softmax is a called function, whose operations the program
  spells over typed references; a typed reference to a literal buffer carries contents along an equation of types that
  holds by computation, so each such operation is the plain one with the same function, and the chain is read as a plain one.
-/
import proofs.«128511_j38740605010536_2_alg».proof.Proof.KI.Run
import proofs.«128511_j38740605010536_2_alg».proof.Proof.RefReadP
import Idealize.ShloMosaic.Lib.StableHlo.Run

set_option maxRecDepth 16384
noncomputable section
namespace Cert.KernelIdeal.HandV
open Cert.KernelIdeal Cert.KernelIdeal.Gen Cert.KernelIdeal.Hand
open Idealize.ShloMosaic Idealize.ShloMosaic.TcCoe Idealize.SL.Sem Idealize.ShloMosaic.StableHlo
variable (m : (ℓ : Loc nD τ sig) → Buf (Elt Ideal) ℓ) (ρ : Dev nD → PrngReg)

/-- A typed reference whose type equation holds by reflexivity moves contents by the identity, so an operation built
    over such references is the operation built over the bare buffers, with the same function. -/
theorem nullary_plain (y : Ref sig .tc) (oy : y.space ≠ .host) (uy : y.isScoped = false) (v : y.ty.Contents (Elt Ideal)) :
    TRef.nullary (τ := τ) (⟨y, rfl, oy, uy⟩ : TRef sig y.ty) v = StableHlo.nullary y v ⟨oy, uy⟩ := rfl

theorem unary_plain (x y : Ref sig .tc) (ox : x.space ≠ .host) (ux : x.isScoped = false) (oy : y.space ≠ .host) (uy : y.isScoped = false)
    (f : x.ty.Contents (Elt Ideal) → y.ty.Contents (Elt Ideal)) :
    TRef.unary (τ := τ) (⟨x, rfl, ox, ux⟩ : TRef sig x.ty) (⟨y, rfl, oy, uy⟩ : TRef sig y.ty) f = StableHlo.unary x y f ⟨ox, ux⟩ ⟨oy, uy⟩ := rfl

theorem binary_plain (a b y : Ref sig .tc) (oa : a.space ≠ .host) (ua : a.isScoped = false) (ob : b.space ≠ .host) (ub : b.isScoped = false)
    (oy : y.space ≠ .host) (uy : y.isScoped = false)
    (f : a.ty.Contents (Elt Ideal) → b.ty.Contents (Elt Ideal) → y.ty.Contents (Elt Ideal)) :
    TRef.binary (τ := τ) (⟨a, rfl, oa, ua⟩ : TRef sig a.ty) (⟨b, rfl, ob, ub⟩ : TRef sig b.ty) (⟨y, rfl, oy, uy⟩ : TRef sig y.ty) f
      = StableHlo.binary a b y f ⟨oa, ua⟩ ⟨ob, ub⟩ ⟨oy, uy⟩ := rfl

/-- The softmax call's fifteen operations, each stated at its buffers' own tensor types: the row maximum, the rows less
    it, their exponentials' row sums, the logarithm, and the difference. -/
abbrev lsmOps : List (HloOp τ sig (Elt Ideal)) :=
  [ StableHlo.nullary main_call4_cst (constant (F := Ideal) S_ .f32 0xFF800000#32),
    StableHlo.binary main_v226 main_call4_cst main_call4_v0 ((fun x v => Host.reduce (FloatOps.maximumf (F := Ideal) (φ := .f32)) x v reducesTo_S50000x16_S50000_d1 h_S_) : (⟨S50000x16, .f32⟩ : BufTy).Contents (Elt Ideal) → (⟨S_, .f32⟩ : BufTy).Contents (Elt Ideal) → (⟨S50000, .f32⟩ : BufTy).Contents (Elt Ideal)),
    StableHlo.nullary main_call4_cst_0 (constant (F := Ideal) S_ .f32 0xFF800000#32),
    StableHlo.unary main_call4_cst_0 main_call4_v1 (broadcastInDim S50000 ![] bcast_S_S50000 : (⟨S_, .f32⟩ : BufTy).Contents (Elt Ideal) → (⟨S50000, .f32⟩ : BufTy).Contents (Elt Ideal)),
    StableHlo.binary main_call4_v1 main_call4_v0 main_call4_v2 (maximumf (F := Ideal) (φ := .f32) : (⟨S50000, .f32⟩ : BufTy).Contents (Elt Ideal) → (⟨S50000, .f32⟩ : BufTy).Contents (Elt Ideal) → (⟨S50000, .f32⟩ : BufTy).Contents (Elt Ideal)),
    StableHlo.unary main_call4_v2 main_call4_v3 (broadcastInDim S50000x1 ![0] bcast_S50000_S50000x1_0 : (⟨S50000, .f32⟩ : BufTy).Contents (Elt Ideal) → (⟨S50000x1, .f32⟩ : BufTy).Contents (Elt Ideal)),
    StableHlo.unary main_call4_v3 main_call4_v4 (broadcastInDim S50000x16 ![0, 1] bcast_S50000x1_S50000x16_0_1 : (⟨S50000x1, .f32⟩ : BufTy).Contents (Elt Ideal) → (⟨S50000x16, .f32⟩ : BufTy).Contents (Elt Ideal)),
    StableHlo.binary main_v226 main_call4_v4 main_call4_v5 (subf (F := Ideal) (φ := .f32) : (⟨S50000x16, .f32⟩ : BufTy).Contents (Elt Ideal) → (⟨S50000x16, .f32⟩ : BufTy).Contents (Elt Ideal) → (⟨S50000x16, .f32⟩ : BufTy).Contents (Elt Ideal)),
    StableHlo.unary main_call4_v5 main_call4_v6 (Host.exp (F := Ideal) (φ := .f32) : (⟨S50000x16, .f32⟩ : BufTy).Contents (Elt Ideal) → (⟨S50000x16, .f32⟩ : BufTy).Contents (Elt Ideal)),
    StableHlo.nullary main_call4_cst_1 (constant (F := Ideal) S_ .f32 0x00000000#32),
    StableHlo.binary main_call4_v6 main_call4_cst_1 main_call4_v7 ((fun x v => Host.reduceAdd (F := Ideal) (φ := .f32) x v reducesTo_S50000x16_S50000_d1 h_S_) : (⟨S50000x16, .f32⟩ : BufTy).Contents (Elt Ideal) → (⟨S_, .f32⟩ : BufTy).Contents (Elt Ideal) → (⟨S50000, .f32⟩ : BufTy).Contents (Elt Ideal)),
    StableHlo.unary main_call4_v7 main_call4_v8 (broadcastInDim S50000x1 ![0] bcast_S50000_S50000x1_0 : (⟨S50000, .f32⟩ : BufTy).Contents (Elt Ideal) → (⟨S50000x1, .f32⟩ : BufTy).Contents (Elt Ideal)),
    StableHlo.unary main_call4_v8 main_call4_v9 (Host.log (F := Ideal) (φ := .f32) : (⟨S50000x1, .f32⟩ : BufTy).Contents (Elt Ideal) → (⟨S50000x1, .f32⟩ : BufTy).Contents (Elt Ideal)),
    StableHlo.unary main_call4_v9 main_call4_v10 (broadcastInDim S50000x16 ![0, 1] bcast_S50000x1_S50000x16_0_1 : (⟨S50000x1, .f32⟩ : BufTy).Contents (Elt Ideal) → (⟨S50000x16, .f32⟩ : BufTy).Contents (Elt Ideal)),
    StableHlo.binary main_call4_v5 main_call4_v10 main_v229 (subf (F := Ideal) (φ := .f32) : (⟨S50000x16, .f32⟩ : BufTy).Contents (Elt Ideal) → (⟨S50000x16, .f32⟩ : BufTy).Contents (Elt Ideal) → (⟨S50000x16, .f32⟩ : BufTy).Contents (Elt Ideal)) ]

/-- The call's operations as the program spells them are these: a typed reference to a literal buffer moves contents
    along an equation of types that holds by computation, which is the identity. -/
theorem ops1_plain : (main_part4_ops1 : List (HloOp τ sig (Elt Ideal))) = lsmOps := by
  refine congrArg₂ List.cons (nullary_plain main_call4_cst _ _ _) ?_
  refine congrArg₂ List.cons (binary_plain main_v226 main_call4_cst main_call4_v0 _ _ _ _ _ _ _) ?_
  refine congrArg₂ List.cons (nullary_plain main_call4_cst_0 _ _ _) ?_
  refine congrArg₂ List.cons (unary_plain main_call4_cst_0 main_call4_v1 _ _ _ _ _) ?_
  refine congrArg₂ List.cons (binary_plain main_call4_v1 main_call4_v0 main_call4_v2 _ _ _ _ _ _ _) ?_
  refine congrArg₂ List.cons (unary_plain main_call4_v2 main_call4_v3 _ _ _ _ _) ?_
  refine congrArg₂ List.cons (unary_plain main_call4_v3 main_call4_v4 _ _ _ _ _) ?_
  refine congrArg₂ List.cons (binary_plain main_v226 main_call4_v4 main_call4_v5 _ _ _ _ _ _ _) ?_
  refine congrArg₂ List.cons (unary_plain main_call4_v5 main_call4_v6 _ _ _ _ _) ?_
  refine congrArg₂ List.cons (nullary_plain main_call4_cst_1 _ _ _) ?_
  refine congrArg₂ List.cons (binary_plain main_call4_v6 main_call4_cst_1 main_call4_v7 _ _ _ _ _ _ _) ?_
  refine congrArg₂ List.cons (unary_plain main_call4_v7 main_call4_v8 _ _ _ _ _) ?_
  refine congrArg₂ List.cons (unary_plain main_call4_v8 main_call4_v9 _ _ _ _ _) ?_
  refine congrArg₂ List.cons (unary_plain main_call4_v9 main_call4_v10 _ _ _ _ _) ?_
  exact congrArg₂ List.cons (binary_plain main_call4_v5 main_call4_v10 main_v229 _ _ _ _ _ _ _) rfl

/-- The second branch's output layer before the softmax: the neighbour aggregation of the last product, the self term and
    the bias, from the edge lists, the edge weights and the product as the last call leaves them. The two changes of float
    format around the neighbour gather are the identity at the extended reals. -/
theorem x21_v226 (c : Dev nD)
    (h127 : X18 m ρ c (Proc.devRef .tc main_v127) = Cert.ReferenceIdeal.ReadP.val_main_v155 (F := Ideal) (m ((c : Thread nD τ).loc main_arg1)) (m ((c : Thread nD τ).loc main_arg2)) (m ((c : Thread nD τ).loc main_arg3)))
    (h132 : X18 m ρ c (Proc.devRef .tc main_v132) = Cert.ReferenceIdeal.ReadP.val_main_v160 (F := Ideal) (m ((c : Thread nD τ).loc main_arg1)) (m ((c : Thread nD τ).loc main_arg2)) (m ((c : Thread nD τ).loc main_arg3)))
    (h133 : X18 m ρ c (Proc.devRef .tc main_v133) = Cert.ReferenceIdeal.ReadP.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h181 : X18 m ρ c (Proc.devRef .tc main_v181) = Cert.ReferenceIdeal.ReadP.val_main_v207 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (ha11 : X18 m ρ c (Proc.devRef .tc main_arg11) = m ((c : Thread nD τ).loc main_arg11)) :
    X20 m ρ c (Proc.devRef .tc main_v226) = Cert.ReferenceIdeal.ReadP.val_main_v250 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after main_part4_ops0 (X19 m ρ c) (Proc.devRef .tc main_v226) = _
  after_results_simp
  rw [h127, h132, h133, h181, ha11]
  simp only [Cert.ReferenceIdeal.ReadP.val_main_cst_41, Cert.ReferenceIdeal.ReadP.val_main_v208, Cert.ReferenceIdeal.ReadP.val_main_v209, Cert.ReferenceIdeal.ReadP.val_main_v210, Cert.ReferenceIdeal.ReadP.val_main_cst_42, Cert.ReferenceIdeal.ReadP.val_main_v211, Cert.ReferenceIdeal.ReadP.val_main_v212, Cert.ReferenceIdeal.ReadP.val_main_v213, Cert.ReferenceIdeal.ReadP.val_main_c_43, Cert.ReferenceIdeal.ReadP.val_main_v214, Cert.ReferenceIdeal.ReadP.val_main_v215, Cert.ReferenceIdeal.ReadP.val_main_c_44, Cert.ReferenceIdeal.ReadP.val_main_v216, Cert.ReferenceIdeal.ReadP.val_main_v217, Cert.ReferenceIdeal.ReadP.val_main_v218, Cert.ReferenceIdeal.ReadP.val_main_v219, Cert.ReferenceIdeal.ReadP.val_main_v220, Cert.ReferenceIdeal.ReadP.val_main_v221, Cert.ReferenceIdeal.ReadP.val_main_c_45, Cert.ReferenceIdeal.ReadP.val_main_v222, Cert.ReferenceIdeal.ReadP.val_main_v223, Cert.ReferenceIdeal.ReadP.val_main_c_46, Cert.ReferenceIdeal.ReadP.val_main_v224, Cert.ReferenceIdeal.ReadP.val_main_v225, Cert.ReferenceIdeal.ReadP.val_main_v226, Cert.ReferenceIdeal.ReadP.val_main_v227, Cert.ReferenceIdeal.ReadP.val_main_v228, Cert.ReferenceIdeal.ReadP.val_main_v229, Cert.ReferenceIdeal.ReadP.val_main_v230, Cert.ReferenceIdeal.ReadP.val_main_c_47, Cert.ReferenceIdeal.ReadP.val_main_v231, Cert.ReferenceIdeal.ReadP.val_main_v232, Cert.ReferenceIdeal.ReadP.val_main_c_48, Cert.ReferenceIdeal.ReadP.val_main_v233, Cert.ReferenceIdeal.ReadP.val_main_v234, Cert.ReferenceIdeal.ReadP.val_main_v235, Cert.ReferenceIdeal.ReadP.val_main_v236, Cert.ReferenceIdeal.ReadP.val_main_v237, Cert.ReferenceIdeal.ReadP.val_main_v238, Cert.ReferenceIdeal.ReadP.val_main_v239, Cert.ReferenceIdeal.ReadP.val_main_cst_49, Cert.ReferenceIdeal.ReadP.val_main_v240, Cert.ReferenceIdeal.ReadP.val_main_v241, Cert.ReferenceIdeal.ReadP.val_main_v242, Cert.ReferenceIdeal.ReadP.val_main_v243, Cert.ReferenceIdeal.ReadP.val_main_v244, Cert.ReferenceIdeal.ReadP.val_main_v245, Cert.ReferenceIdeal.ReadP.val_main_v246, Cert.ReferenceIdeal.ReadP.val_main_v247, Cert.ReferenceIdeal.ReadP.val_main_v248, Cert.ReferenceIdeal.ReadP.val_main_v249, Cert.ReferenceIdeal.ReadP.val_main_v250]
  rfl

/-- The count of kept edges as an integer: the sum of the threshold mask, converted. The softmax's operations after it do
    not touch it. -/
theorem x21_v228 (c : Dev nD)
    (h122 : X18 m ρ c (Proc.devRef .tc main_v122) = Cert.ReferenceIdeal.ReadP.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    X21 m ρ c (Proc.devRef .tc main_v228) = Cert.ReferenceIdeal.ReadP.val_main_v252 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : X21 m ρ c (Proc.devRef .tc main_v228) = X20 m ρ c (Proc.devRef .tc main_v228) := by
    show StableHlo.after main_part4_ops1 (X20 m ρ c) (Proc.devRef .tc main_v228) = _
    rw [ops1_plain]
    generalize X20 m ρ c = W
    after_results_simp
  rw [e]
  show StableHlo.after main_part4_ops0 (X19 m ρ c) (Proc.devRef .tc main_v228) = _
  after_results_simp
  rw [h122]
  simp only [Cert.ReferenceIdeal.ReadP.val_main_cst_50, Cert.ReferenceIdeal.ReadP.val_main_v251, Cert.ReferenceIdeal.ReadP.val_main_v252]

/-- The log-softmax over the 16 classes of the second branch's output layer: each row less its maximum, less the
    logarithm of the row sum of the exponentials. -/
theorem x21_v229 (c : Dev nD)
    (h226 : X20 m ρ c (Proc.devRef .tc main_v226) = Cert.ReferenceIdeal.ReadP.val_main_v250 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :
    X21 m ρ c (Proc.devRef .tc main_v229) = Cert.ReferenceIdeal.ReadP.val_main_v253 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after main_part4_ops1 (X20 m ρ c) (Proc.devRef .tc main_v229) = _
  rw [ops1_plain]
  generalize X20 m ρ c = W at h226 ⊢
  after_results_simp
  rw [h226]
  simp only [Cert.ReferenceIdeal.ReadP.val_main_call2_cst, Cert.ReferenceIdeal.ReadP.val_main_call2_v0, Cert.ReferenceIdeal.ReadP.val_main_call2_cst_0, Cert.ReferenceIdeal.ReadP.val_main_call2_v1, Cert.ReferenceIdeal.ReadP.val_main_call2_v2, Cert.ReferenceIdeal.ReadP.val_main_call2_v3, Cert.ReferenceIdeal.ReadP.val_main_call2_v4, Cert.ReferenceIdeal.ReadP.val_main_call2_v5, Cert.ReferenceIdeal.ReadP.val_main_call2_v6, Cert.ReferenceIdeal.ReadP.val_main_call2_cst_1, Cert.ReferenceIdeal.ReadP.val_main_call2_v7, Cert.ReferenceIdeal.ReadP.val_main_call2_v8, Cert.ReferenceIdeal.ReadP.val_main_call2_v9, Cert.ReferenceIdeal.ReadP.val_main_call2_v10, Cert.ReferenceIdeal.ReadP.val_main_v253]

end Cert.KernelIdeal.HandV
end
-- ==== Proof.KI.ValsD1.lean ====
/-
  The two operands of the edge-dot call, read back from the run. Each is the rows of z gathered at one endpoint of every
  candidate edge (an index below zero wrapped by the row count), padded with zero rows from 200000 up to 200704 = 1568·128
  rows, and re-tiled as 1568 groups of 128 rows. The padding is a called function, whose two operations (the integer zero
  as a float; the padding itself) the program spells over typed references to literal buffers; such a reference carries
  contents along an equation of types that holds by computation, so each operation is the plain one with the same
  function. Read as plain chains from the boundary after z, the first operand depends on the first endpoint row of the
  concatenated index arrays, the second on the second, and both on z alone besides.
-/
import proofs.«128511_j38740605010536_2_alg».proof.Proof.KI.ValsD0
import proofs.«128511_j38740605010536_2_alg».proof.Proof.KI.ValsF
import Idealize.ShloMosaic.Lib.StableHlo.Run

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-- The first padding call's two operations at its buffers' own tensor types: the integer zero as a float, and the rows
    padded with it up to a whole number of tiles. -/
abbrev padOps1 : List (HloOp τ sig (Elt Ideal)) :=
  [ StableHlo.unary main_c_21 main_call1_v0 ((sitofp (F := Ideal) .f32) : (⟨S_, .i32⟩ : BufTy).Contents (Elt Ideal) → (⟨S_, .f32⟩ : BufTy).Contents (Elt Ideal)),
    StableHlo.binary main_v103 main_call1_v0 main_v113 ((fun x v => pad S200704x128 ![0, 0] ![704, 0] ![0, 0] x v pads_S200000x128_S200704x128_07040_000 h_S_) : (⟨S200000x128, .f32⟩ : BufTy).Contents (Elt Ideal) → (⟨S_, .f32⟩ : BufTy).Contents (Elt Ideal) → (⟨S200704x128, .f32⟩ : BufTy).Contents (Elt Ideal)) ]

/-- The second padding call's. -/
abbrev padOps2 : List (HloOp τ sig (Elt Ideal)) :=
  [ StableHlo.unary main_c_22 main_call2_v0 ((sitofp (F := Ideal) .f32) : (⟨S_, .i32⟩ : BufTy).Contents (Elt Ideal) → (⟨S_, .f32⟩ : BufTy).Contents (Elt Ideal)),
    StableHlo.binary main_v112 main_call2_v0 main_v114 ((fun x v => pad S200704x128 ![0, 0] ![704, 0] ![0, 0] x v pads_S200000x128_S200704x128_07040_000 h_S_) : (⟨S200000x128, .f32⟩ : BufTy).Contents (Elt Ideal) → (⟨S_, .f32⟩ : BufTy).Contents (Elt Ideal) → (⟨S200704x128, .f32⟩ : BufTy).Contents (Elt Ideal)) ]

/-- The calls' operations as the program spells them, over typed references to literal buffers, are these. -/
theorem pad1_plain : (main_part2_ops1 : List (HloOp τ sig (Elt Ideal))) = padOps1 := by
  refine congrArg₂ List.cons (unary_plain main_c_21 main_call1_v0 _ _ _ _ _) ?_
  exact congrArg₂ List.cons (binary_plain main_v103 main_call1_v0 main_v113 _ _ _ _ _ _ _) rfl

theorem pad2_plain : (main_part2_ops3 : List (HloOp τ sig (Elt Ideal))) = padOps2 := by
  refine congrArg₂ List.cons (unary_plain main_c_22 main_call2_v0 _ _ _ _ _) ?_
  exact congrArg₂ List.cons (binary_plain main_v112 main_call2_v0 main_v114 _ _ _ _ _ _ _) rfl

/-! ## The third pallas call's operands -/

/-- The first operand: z's rows at the first endpoints, padded and re-tiled. -/
theorem x11_v115 (c : Dev nD)
    (h94 : X6 m ρ c (Proc.devRef .tc main_v94) = K94 (m ((c : Thread nD τ).loc main_arg1)) (m ((c : Thread nD τ).loc main_arg2)))
    (h96 : X6 m ρ c (Proc.devRef .tc main_v96) = K96 (m ((c : Thread nD τ).loc main_arg1)) (m ((c : Thread nD τ).loc main_arg2)))
    (h98 : X6 m ρ c (Proc.devRef .tc main_v98) = K98 (m ((c : Thread nD τ).loc main_arg1)) (m ((c : Thread nD τ).loc main_arg2)))
    (hc18 : X6 m ρ c (Proc.devRef .tc main_c_18) = (constantI S_ 32 50000#32 : (⟨S_, .i32⟩ : BufTy).Contents (Elt Ideal))) :
    X11 m ρ c (Proc.devRef .tc main_v115) = K115 (X6 m ρ c (Proc.devRef .tc main_v93)) (m ((c : Thread nD τ).loc main_arg1)) (m ((c : Thread nD τ).loc main_arg2)) := by
  show StableHlo.after main_part2_ops4 (StableHlo.after main_part2_ops3 (StableHlo.after main_part2_ops2 (StableHlo.after main_part2_ops1 (StableHlo.after main_part2_ops0 (X6 m ρ c))))) (Proc.devRef .tc main_v115) = _
  rw [pad1_plain, pad2_plain]
  revert h94 h96 h98 hc18
  generalize X6 m ρ c = W
  intro h94 h96 h98 hc18
  after_results_simp
  rw [h96, h98, hc18]
  rfl

/-- The second operand: z's rows at the second endpoints, padded and re-tiled. -/
theorem x11_v116 (c : Dev nD)
    (h94 : X6 m ρ c (Proc.devRef .tc main_v94) = K94 (m ((c : Thread nD τ).loc main_arg1)) (m ((c : Thread nD τ).loc main_arg2)))
    (h96 : X6 m ρ c (Proc.devRef .tc main_v96) = K96 (m ((c : Thread nD τ).loc main_arg1)) (m ((c : Thread nD τ).loc main_arg2)))
    (h98 : X6 m ρ c (Proc.devRef .tc main_v98) = K98 (m ((c : Thread nD τ).loc main_arg1)) (m ((c : Thread nD τ).loc main_arg2)))
    (hc18 : X6 m ρ c (Proc.devRef .tc main_c_18) = (constantI S_ 32 50000#32 : (⟨S_, .i32⟩ : BufTy).Contents (Elt Ideal))) :
    X11 m ρ c (Proc.devRef .tc main_v116) = K116 (X6 m ρ c (Proc.devRef .tc main_v93)) (m ((c : Thread nD τ).loc main_arg1)) (m ((c : Thread nD τ).loc main_arg2)) := by
  show StableHlo.after main_part2_ops4 (StableHlo.after main_part2_ops3 (StableHlo.after main_part2_ops2 (StableHlo.after main_part2_ops1 (StableHlo.after main_part2_ops0 (X6 m ρ c))))) (Proc.devRef .tc main_v116) = _
  rw [pad1_plain, pad2_plain]
  revert h94 h96 h98 hc18
  generalize X6 m ρ c = W
  intro h94 h96 h98 hc18
  after_results_simp
  rw [h94]
  rfl

end Cert.KernelIdeal.HandV

end
-- ==== Proof.KI.ValsD2.lean ====
/-
  The kernel program's decoder, second part: the third pallas call's output array is the tile-wise inner products of
  its two operands; flattened, cut and compared with zero it is the mask maskK of z and the index arrays; the weight
  list of the augmented graph is ones followed by the mask twice.
-/
import proofs.«128511_j38740605010536_2_alg».proof.Proof.KI.ValsD1
import proofs.«128511_j38740605010536_2_alg».proof.Proof.KI.Keep
import proofs.«128511_j38740605010536_2_alg».proof.Proof.LibCat
import proofs.«128511_j38740605010536_2_alg».proof.Proof.KI.Final2
import proofs.«128511_j38740605010536_2_alg».proof.Proof.Bridge.MaskDefs
import proofs.«128511_j38740605010536_2_alg».proof.Proof.RefReadP
import Idealize.ShloMosaic.Lib.StableHlo.Run

set_option maxRecDepth 16384
set_option maxHeartbeats 2000000
set_option pp.maxSteps 3000
set_option pp.deepTerms false
set_option pp.proofs false

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-- The third pallas call's output array: the tile-wise inner products of its two operands. -/
theorem x12_v117 (c : Dev nD) : X12 m ρ c (Proc.devRef .tc main_v117) = edgeDot (X11 m ρ c (Proc.devRef .tc main_v115)) (X11 m ρ c (Proc.devRef .tc main_v116)) :=
  (X12_arr m ρ c 2).trans (final2 (V11 m ρ) c)

/-- From the third pallas call's output to the mask: flatten, cut the padding off, compare with zero. -/
theorem tail_read (W : Valuation τ sig (Elt Ideal)) (A B : (⟨S1568x128x128, .f32⟩ : BufTy).Contents (Elt Ideal))
    (h117 : W (Proc.devRef .tc main_v117) = edgeDot A B) :
    StableHlo.after main_part2_ops5 W (Proc.devRef .tc main_v122) = Ktail A B := by
  after_results_simp
  rw [h117]
  rfl

/-- The mask, from the call's operands. -/
theorem x13_v122 (c : Dev nD) : X13 m ρ c (Proc.devRef .tc main_v122) = Ktail (X11 m ρ c (Proc.devRef .tc main_v115)) (X11 m ρ c (Proc.devRef .tc main_v116)) :=
  tail_read (X12 m ρ c) _ _ (x12_v117 m ρ c)

/-- The kernel program's mask is maskK of z and the two candidate-edge index arrays. -/
theorem x13_v122_mask (c : Dev nD) (ha1 : X5 m ρ c (Proc.devRef .tc main_arg1) = (m ((c : Thread nD τ).loc main_arg1))) (ha2 : X5 m ρ c (Proc.devRef .tc main_arg2) = (m ((c : Thread nD τ).loc main_arg2))) :
    X13 m ρ c (Proc.devRef .tc main_v122) = Cert.Bridge.maskK (X6 m ρ c (Proc.devRef .tc main_v93)) (m ((c : Thread nD τ).loc main_arg1)) (m ((c : Thread nD τ).loc main_arg2)) := by
  rw [x13_v122, x11_v115 m ρ c (x6_v94 m ρ c ha1 ha2) (x6_v96 m ρ c ha1 ha2) (x6_v98 m ρ c ha1 ha2) (x6_c18 m ρ c),
    x11_v116 m ρ c (x6_v94 m ρ c ha1 ha2) (x6_v96 m ρ c ha1 ha2) (x6_v98 m ρ c ha1 ha2) (x6_c18 m ρ c), maskK_split]

/-- The stretch after the third pallas call, up to the weight list's concatenation, -/
abbrev P5a : List (HloOp τ sig (Elt Ideal)) := (main_part2_ops5 (F := Ideal)).take 16
/-- and that concatenation. -/
abbrev P5b : List (HloOp τ sig (Elt Ideal)) :=
  [ StableHlo.nary ![main_v4, main_v122, main_v122] main_v133 (fun u => concatenate S1200000 0 [⟨S800000, u 0⟩, ⟨S200000, u 1⟩, ⟨S200000, u 2⟩] concatenates_S800000_S200000_S200000_S1200000_d0) ]
theorem p5_split : (main_part2_ops5 (F := Ideal)) = P5a ++ P5b := rfl
theorem p5a_ge : WritesGe 159 P5a :=
  List.forall_iff_forall_mem.mpr fun op h => List.forall_iff_forall_mem.mp (main_part2_ops5_ge (F := Ideal)) op (List.mem_of_mem_take h)

/-- The weight list of the augmented graph: ones for the base edges, then the mask twice. -/
theorem x13_v133 (c : Dev nD)
    (h4 : X12 m ρ c (Proc.devRef .tc main_v4) = Cert.ReferenceIdeal.ReadP.val_main_v4 (F := Ideal))
    (h122 : X13 m ρ c (Proc.devRef .tc main_v122) = Cert.ReferenceIdeal.ReadP.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    X13 m ρ c (Proc.devRef .tc main_v133) = Cert.ReferenceIdeal.ReadP.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hv4 : StableHlo.after P5a (X12 m ρ c) (Proc.devRef .tc main_v4) = Cert.ReferenceIdeal.ReadP.val_main_v4 (F := Ideal) :=
    (after_keep_lt P5a 159 p5a_ge main_v4 (by decide) _).trans h4
  have hm : StableHlo.after P5a (X12 m ρ c) (Proc.devRef .tc main_v122) = Cert.ReferenceIdeal.ReadP.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
    rw [← h122]
    show _ = StableHlo.after main_part2_ops5 (X12 m ρ c) (Proc.devRef .tc main_v122)
    rw [p5_split, Cert.Lib.after_append]
    generalize StableHlo.after P5a (X12 m ρ c) = W
    after_results_simp
  show StableHlo.after main_part2_ops5 (X12 m ρ c) (Proc.devRef .tc main_v133) = _
  rw [p5_split, Cert.Lib.after_append]
  revert hv4 hm
  generalize StableHlo.after P5a (X12 m ρ c) = W
  intro hv4 hm
  simp only [StableHlo.after_cons, StableHlo.after_nil]
  rw [Cert.Lib.nary3_result, hv4, hm]
  rfl

/-- The concatenated candidate-edge indices are the reference's. -/
theorem K94_eq (x1 x2 : (⟨S2x100000, .i32⟩ : BufTy).Contents (Elt Ideal)) : K94 x1 x2 = Cert.ReferenceIdeal.ReadP.val_main_v147 (F := Ideal) x1 x2 := rfl

end Cert.KernelIdeal.HandV

end
-- ==== Proof.KI.Final3.lean ====
/-
  Pallas call 3 of the program at the extended reals: the output array after every grid point's write-back is the
  matrix product of the two whole input arrays. Each grid point multiplies one block of rows of the left array by the
  whole right array; a row block of a product is the product of the row block, so each written block is the same block
  of the whole product, and the blocks tile the rows.
-/
import proofs.«128511_j38740605010536_2_alg».proof.Proof.KI.Body3
import proofs.«128511_j38740605010536_2_alg».proof.ReferenceIdeal
import proofs.«128511_j38740605010536_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The two products at an index -/

theorem kd3_l0 (i : S5000x128.Idx) (q : dot_S5000x256_S256x128_S5000x128_1_0_0_1_n_n.contr.Idx) : (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem kd3_l1 (i : S5000x128.Idx) (q : dot_S5000x256_S256x128_S5000x128_1_0_0_1_n_n.contr.Idx) : (dot_S5000x256_S256x128_S5000x128_1_0_0_1_n_n.lhsIdx i q 1).val = (q ⟨0, by decide⟩).val :=
  dot_S5000x256_S256x128_S5000x128_1_0_0_1_n_n.lhsIdx_val_of_single rfl i q
theorem kd3_r0 (i : S5000x128.Idx) (q : dot_S5000x256_S256x128_S5000x128_1_0_0_1_n_n.contr.Idx) : (dot_S5000x256_S256x128_S5000x128_1_0_0_1_n_n.rhsIdx i q 0).val = (q ⟨0, by decide⟩).val :=
  dot_S5000x256_S256x128_S5000x128_1_0_0_1_n_n.rhsIdx_val_of_single rfl i q
theorem kd3_r1 (i : S5000x128.Idx) (q : dot_S5000x256_S256x128_S5000x128_1_0_0_1_n_n.contr.Idx) : (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

theorem rd3_l0 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl
theorem rd3_l1 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem rd3_r0 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem rd3_r1 (i : Cert.ReferenceIdeal.S50000x128.Idx) (q : Cert.ReferenceIdeal.dot_S50000x256_S256x128_S50000x128_1_0_0_1_n_n.contr.Idx) : (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-- The body's product at an index: row `p` of the left block against column `q` of the right array (the body's narrowing of both operands to 16-bit floats is the identity on the extended reals). -/
theorem pay3_apply (x0 : Vec Ideal S5000x256 .f32) (x1 : Vec Ideal S256x128 .f32) (p : Fin 5000) (q : Fin 128) :
    k3_pay1 (F := Ideal) x0 x1 (ix2 p q) = ∑ k : Fin 256, x0 (ix2 p k) * x1 (ix2 k q) := by
  unfold k3_pay1
  refine (Ideal.matmul_constant_zero_apply _ none _ _ _).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k :=
    funext fun a => Fin.ext (by
      match a with
      | ⟨0, _⟩ => exact kd3_l0 _ _
      | ⟨1, _⟩ => exact (kd3_l1 _ _).trans hk)
  have er : dot_S5000x256_S256x128_S5000x128_1_0_0_1_n_n.rhsIdx (ix2 p q) ((contrEquiv1 dot_S5000x256_S256x128_S5000x128_1_0_0_1_n_n 256 rfl rfl).symm k) = ix2 k q :=
    funext fun a => Fin.ext (by
      match a with
      | ⟨0, _⟩ => exact (kd3_r0 _ _).trans hk
      | ⟨1, _⟩ => exact kd3_r1 _ _)
  rw [el, er]
  rfl

/-- The whole arrays' product, as the host's `dot_general` of the reference program. -/
abbrev G3 (A : Vec Ideal S50000x256 .f32) (B : Vec Ideal S256x128 .f32) : Vec Ideal S50000x128 .f32 :=
  Host.dotGeneral (F := Ideal) (φ₁ := .f32) (φ₂ := .f32) Cert.ReferenceIdeal.dot_S50000x256_S256x128_S50000x128_1_0_0_1_n_n none A B

/-- The whole arrays' product at an index. -/
theorem G3_apply (A : Vec Ideal S50000x256 .f32) (B : Vec Ideal S256x128 .f32) (r : Fin 50000) (q : Fin 128) :
    G3 A B (ix2 r q) = ∑ k : Fin 256, A (ix2 r k) * B (ix2 k q) := by
  unfold G3
  simp only [Host.dotGeneral]
  refine (Ideal.dotGeneral_apply (φ₁ := .f32) (φ₂ := .f32) _ _ _ _ _ _).trans ?_
  rw [← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 r q) ((contrEquiv1 Cert.ReferenceIdeal.dot_S50000x256_S256x128_S50000x128_1_0_0_1_n_n 256 rfl rfl).symm k) = ix2 r k :=
    funext fun a => Fin.ext (by
      match a with
      | ⟨0, _⟩ => exact rd3_l0 _ _
      | ⟨1, _⟩ => exact (rd3_l1 _ _).trans hk)
  have er : Cert.ReferenceIdeal.dot_S50000x256_S256x128_S50000x128_1_0_0_1_n_n.rhsIdx (ix2 r q) ((contrEquiv1 Cert.ReferenceIdeal.dot_S50000x256_S256x128_S50000x128_1_0_0_1_n_n 256 rfl rfl).symm k) = ix2 k q :=
    funext fun a => Fin.ext (by
      match a with
      | ⟨0, _⟩ => exact (rd3_r0 _ _).trans hk
      | ⟨1, _⟩ => exact rd3_r1 _ _)
  rw [el, er]

/-! ## From the blocks to the array -/

variable (V : (c : Dev nD) → (b : Ref sig .tc) → Buf (Elt Ideal) ((c : Thread nD τ).loc b))

theorem hz3z : (![0, 0] : Fin 2 → Nat) = fun _ => 0 := funext fun a => by fin_cases a <;> rfl

/-- The block indices over the grid: at point `t` the left input and the output are at row block `t`, the right input
    is whole. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left input's block at point `t` is rows `5000 t … 5000 t + 4999` of the left array. -/
theorem iblk3_0_apply (c : Dev nD) (t : Fin cfg3.N) (p : Fin 5000) (k : Fin 256) (r : Fin 50000) (hr : r.val = t.val * 5000 + p.val) :
    (iblk3 V c 0 t : Vec Ideal S5000x256 .f32) (ix2 p k) = (V c main_arg0 : Vec Ideal S50000x256 .f32) (ix2 r k) := by
  obtain ⟨e0, e1, -⟩ := idx_facts3 t
  unfold iblk3
  rw [View.read_apply]
  show V c main_arg0 (((cfg3.win 0).blk t).view.emb (ix2 p k)) = V c main_arg0 (ix2 r k)
  refine congrArg (V c main_arg0) (funext fun a => Fin.ext ?_)
  match a with
  | ⟨0, _⟩ => show win3_0.index t (0 : Fin 2) * 5000 + 1 * p.val = r.val; rw [e0, hr]; omega
  | ⟨1, _⟩ => show win3_0.index t (1 : Fin 2) * 256 + 1 * k.val = k.val; rw [e1]; omega

/-- The right input's block at every point is the right array. -/
theorem iblk3_1_apply (c : Dev nD) (t : Fin cfg3.N) (k : Fin 256) (q : Fin 128) :
    (iblk3 V c 1 t : Vec Ideal S256x128 .f32) (ix2 k q) = (V c main_arg8 : Vec Ideal S256x128 .f32) (ix2 k q) := by
  obtain ⟨-, -, e0, e1, -⟩ := idx_facts3 t
  unfold iblk3
  rw [View.read_apply]
  show V c main_arg8 (((cfg3.win 1).blk t).view.emb (ix2 k q)) = V c main_arg8 (ix2 k q)
  refine congrArg (V c main_arg8) (funext fun a => Fin.ext ?_)
  match a with
  | ⟨0, _⟩ => show win3_1.index t (0 : Fin 2) * 256 + 1 * k.val = k.val; rw [e0]; omega
  | ⟨1, _⟩ => show win3_1.index t (1 : Fin 2) * 128 + 1 * q.val = q.val; rw [e1]; omega

/-- What point `t` writes back is block `t` of the whole arrays' product. -/
theorem flushed3_eq (c : Dev nD) (t : Fin cfg3.N) :
    (dat3 (F := Ideal) V c).flushed 2 t = ((cfg3.win 2).blk t).view.read (Elt Ideal) (G3 (V c main_arg0) (V c main_arg8)) := by
  show (cfg3.win 2).cut (grid3.coords t) ((dat3 V c).after 2 t) = _
  rw [after3_2]
  unfold out3_2
  rw [View.canon_unit_zero hz3z]
  simp only [View.ld_unit_zero (S := S5000x256) hz3z, View.ld_unit_zero (S := S256x128) hz3z]
  obtain ⟨-, -, -, -, e0, e1⟩ := idx_facts3 t
  have ht : t.val < 10 := t.isLt
  funext j
  obtain ⟨p, q, rfl⟩ : ∃ (p : Fin 5000) (q : Fin 128), j = ix2 p q := ⟨j 0, j 1, eq_ix2 j⟩
  have hp : p.val < 5000 := p.isLt
  let r : Fin 50000 := ⟨t.val * 5000 + p.val, by omega⟩
  have he : ((cfg3.win 2).blk t).view.emb (ix2 p q) = (ix2 r q : S50000x128.Idx) := by
    funext a; apply Fin.ext
    match a with
    | ⟨0, _⟩ => show win3_2.index t (0 : Fin 2) * 5000 + 1 * p.val = t.val * 5000 + p.val; rw [e0]; omega
    | ⟨1, _⟩ => show win3_2.index t (1 : Fin 2) * 128 + 1 * q.val = q.val; rw [e1]; omega
  show k3_pay1 (F := Ideal) (iblk3 V c 0 t) (iblk3 V c 1 t) (ix2 p q) = G3 (V c main_arg0) (V c main_arg8) (((cfg3.win 2).blk t).view.emb (ix2 p q))
  refine (pay3_apply (iblk3 V c 0 t) (iblk3 V c 1 t) p q).trans ?_
  refine Eq.trans ?_ (congrArg (G3 (V c main_arg0) (V c main_arg8)) he).symm
  refine Eq.trans ?_ (G3_apply (V c main_arg0) (V c main_arg8) r q).symm
  refine Finset.sum_congr rfl fun k _ => ?_
  exact congrArg₂ (· * ·) (iblk3_0_apply V c t p k r rfl) (iblk3_1_apply V c t k q)

/-- An index of the output array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v134).slice (win3_2.rect t)).set ↔ _
  rw [View.set_slice_whole, Rect.mem_set_unit]
  exact Iff.rfl

/-- The row blocks tile the output array: row `r` is in the block of point `r / 5000`. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  let t : Fin cfg3.N := ⟨(i 0).val / 5000, by show _ < 10; omega⟩
  obtain ⟨-, -, -, -, e0, e1⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e0]; show (i 0).val / 5000 * 5000 ≤ (i 0).val ∧ (i 0).val < (i 0).val / 5000 * 5000 + 5000; omega
  | ⟨1, _⟩ => show win3_2.index t (1 : Fin 2) * 128 ≤ (i 1).val ∧ (i 1).val < win3_2.index t (1 : Fin 2) * 128 + 128; rw [e1]; omega

/-- The output array after the call is the product of the two whole input arrays, as the reference's `dot_general`. -/
theorem final3 (c : Dev nD) :
    (dat3 (F := Ideal) V c).arrAt 2 cfg3.N
      = Host.dotGeneral (F := Ideal) (φ₁ := .f32) (φ₂ := .f32) Cert.ReferenceIdeal.dot_S50000x256_S256x128_S50000x128_1_0_0_1_n_n none (V c main_arg0) (V c main_arg8) :=
  (dat3 (F := Ideal) V c).arrAt_eq_of_cover 2 (G3 (V c main_arg0) (V c main_arg8)) (fun t _ => flushed3_eq V c t) cover3

end Cert.KernelIdeal.HandV

end
-- ==== Proof.KI.Final4.lean ====
/-
  Pallas call 4 of the program at the extended reals: the output array after every grid point's write-back is the
  matrix product of the two whole input arrays. Each grid point multiplies one block of rows of the left array by the
  whole right array; a row block of a product is the product of the row block, so each written block is the same block
  of the whole product, and the blocks tile the rows.
-/
import proofs.«128511_j38740605010536_2_alg».proof.Proof.KI.Body4
import proofs.«128511_j38740605010536_2_alg».proof.ReferenceIdeal
import proofs.«128511_j38740605010536_2_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The two products at an index -/

theorem kd4_l0 (i : S5000x16.Idx) (q : dot_S5000x128_S128x16_S5000x16_1_0_0_1_n_n.contr.Idx) : (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem kd4_l1 (i : S5000x16.Idx) (q : dot_S5000x128_S128x16_S5000x16_1_0_0_1_n_n.contr.Idx) : (dot_S5000x128_S128x16_S5000x16_1_0_0_1_n_n.lhsIdx i q 1).val = (q ⟨0, by decide⟩).val :=
  dot_S5000x128_S128x16_S5000x16_1_0_0_1_n_n.lhsIdx_val_of_single rfl i q
theorem kd4_r0 (i : S5000x16.Idx) (q : dot_S5000x128_S128x16_S5000x16_1_0_0_1_n_n.contr.Idx) : (dot_S5000x128_S128x16_S5000x16_1_0_0_1_n_n.rhsIdx i q 0).val = (q ⟨0, by decide⟩).val :=
  dot_S5000x128_S128x16_S5000x16_1_0_0_1_n_n.rhsIdx_val_of_single rfl i q
theorem kd4_r1 (i : S5000x16.Idx) (q : dot_S5000x128_S128x16_S5000x16_1_0_0_1_n_n.contr.Idx) : (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

theorem rd4_l0 (i : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x16_S50000x16_1_0_0_1_n_n.lhsBatch by decide), dif_pos (show (0 : Fin Cert.ReferenceIdeal.S50000x128.rank) ∈ Cert.ReferenceIdeal.dot_S50000x128_S128x16_S50000x16_1_0_0_1_n_n.lhsNonContracting by decide)]
  rfl
theorem rd4_l1 (i : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.lhsIdx i q 1).val = (q ⟨0, by decide⟩).val :=
  Cert.ReferenceIdeal.dot_S50000x128_S128x16_S50000x16_1_0_0_1_n_n.lhsIdx_val_of_single rfl i q
theorem rd4_r0 (i : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.rhsIdx i q 0).val = (q ⟨0, by decide⟩).val :=
  Cert.ReferenceIdeal.dot_S50000x128_S128x16_S50000x16_1_0_0_1_n_n.rhsIdx_val_of_single rfl i q
theorem rd4_r1 (i : Cert.ReferenceIdeal.S50000x16.Idx) (q : Cert.ReferenceIdeal.dot_S50000x128_S128x16_S50000x16_1_0_0_1_n_n.contr.Idx) : (Cert.ReferenceIdeal.dot_S50000x128_S128x16_S50000x16_1_0_0_1_n_n.rhsIdx i q 1).val = (i 1).val := by
  unfold DotDims.rhsIdx
  rw [dif_neg (show ¬(1 : Fin Cert.ReferenceIdeal.S128x16.rank) ∈ Cert.ReferenceIdeal.dot_S50000x128_S128x16_S50000x16_1_0_0_1_n_n.rhsBatch by decide), dif_pos (show (1 : Fin Cert.ReferenceIdeal.S128x16.rank) ∈ Cert.ReferenceIdeal.dot_S50000x128_S128x16_S50000x16_1_0_0_1_n_n.rhsNonContracting by decide)]
  rfl

/-- The body's product at an index: row `p` of the left block against column `q` of the right array (the body's reshape of the left block to its own shape changes nothing, and its narrowing of both operands to 16-bit floats is the identity on the extended reals). -/
theorem pay4_apply (x0 : Vec Ideal S5000x128 .f32) (x1 : Vec Ideal S128x16 .f32) (p : Fin 5000) (q : Fin 16) :
    k4_pay1 (F := Ideal) x0 x1 (ix2 p q) = ∑ k : Fin 128, x0 (ix2 p k) * x1 (ix2 k q) := by
  unfold k4_pay1
  refine (Ideal.matmul_constant_zero_apply _ none _ _ _).trans ?_
  rw [← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p q) ((contrEquiv1 dot_S5000x128_S128x16_S5000x16_1_0_0_1_n_n 128 rfl rfl).symm k) = ix2 p k :=
    funext fun a => Fin.ext (by
      match a with
      | ⟨0, _⟩ => exact kd4_l0 _ _
      | ⟨1, _⟩ => exact (kd4_l1 _ _).trans hk)
  have er : dot_S5000x128_S128x16_S5000x16_1_0_0_1_n_n.rhsIdx (ix2 p q) ((contrEquiv1 dot_S5000x128_S128x16_S5000x16_1_0_0_1_n_n 128 rfl rfl).symm k) = ix2 k q :=
    funext fun a => Fin.ext (by
      match a with
      | ⟨0, _⟩ => exact (kd4_r0 _ _).trans hk
      | ⟨1, _⟩ => exact kd4_r1 _ _)
  rw [el, er]
  show shapeCast S5000x128 x0 shapeCasts_S5000x128_S5000x128 (ix2 p k) * x1 (ix2 k q) = _
  exact congrArg (· * x1 (ix2 k q)) (congrFun (shapeCast_self x0 _) (ix2 p k))

/-- The whole arrays' product, as the host's `dot_general` of the reference program. -/
abbrev G4 (A : Vec Ideal S50000x128 .f32) (B : Vec Ideal S128x16 .f32) : Vec Ideal S50000x16 .f32 :=
  Host.dotGeneral (F := Ideal) (φ₁ := .f32) (φ₂ := .f32) Cert.ReferenceIdeal.dot_S50000x128_S128x16_S50000x16_1_0_0_1_n_n none A B

/-- The whole arrays' product at an index. -/
theorem G4_apply (A : Vec Ideal S50000x128 .f32) (B : Vec Ideal S128x16 .f32) (r : Fin 50000) (q : Fin 16) :
    G4 A B (ix2 r q) = ∑ k : Fin 128, A (ix2 r k) * B (ix2 k q) := by
  unfold G4
  simp only [Host.dotGeneral]
  refine (Ideal.dotGeneral_apply (φ₁ := .f32) (φ₂ := .f32) _ _ _ _ _ _).trans ?_
  rw [← Equiv.sum_comp (contrEquiv1 Cert.ReferenceIdeal.dot_S50000x128_S128x16_S50000x16_1_0_0_1_n_n 128 rfl rfl).symm]
  refine Finset.sum_congr rfl fun k _ => ?_
  have hk := contrEquiv1_symm_val Cert.ReferenceIdeal.dot_S50000x128_S128x16_S50000x16_1_0_0_1_n_n 128 rfl rfl k
  have el : Cert.ReferenceIdeal.dot_S50000x128_S128x16_S50000x16_1_0_0_1_n_n.lhsIdx (ix2 r q) ((contrEquiv1 Cert.ReferenceIdeal.dot_S50000x128_S128x16_S50000x16_1_0_0_1_n_n 128 rfl rfl).symm k) = ix2 r k :=
    funext fun a => Fin.ext (by
      match a with
      | ⟨0, _⟩ => exact rd4_l0 _ _
      | ⟨1, _⟩ => exact (rd4_l1 _ _).trans hk)
  have er : Cert.ReferenceIdeal.dot_S50000x128_S128x16_S50000x16_1_0_0_1_n_n.rhsIdx (ix2 r q) ((contrEquiv1 Cert.ReferenceIdeal.dot_S50000x128_S128x16_S50000x16_1_0_0_1_n_n 128 rfl rfl).symm k) = ix2 k q :=
    funext fun a => Fin.ext (by
      match a with
      | ⟨0, _⟩ => exact (rd4_r0 _ _).trans hk
      | ⟨1, _⟩ => exact rd4_r1 _ _)
  rw [el, er]

/-! ## From the blocks to the array -/

variable (V : (c : Dev nD) → (b : Ref sig .tc) → Buf (Elt Ideal) ((c : Thread nD τ).loc b))

theorem hz4 : (![0, 0] : Fin 2 → Nat) = fun _ => 0 := funext fun a => by fin_cases a <;> rfl

/-- The block indices over the grid: at point `t` the left input and the output are at row block `t`, the right input
    is whole. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left input's block at point `t` is rows `5000 t … 5000 t + 4999` of the left array. -/
theorem iblk4_0_apply (c : Dev nD) (t : Fin cfg4.N) (p : Fin 5000) (k : Fin 128) (r : Fin 50000) (hr : r.val = t.val * 5000 + p.val) :
    (iblk4 V c 0 t : Vec Ideal S5000x128 .f32) (ix2 p k) = (V c main_v180 : Vec Ideal S50000x128 .f32) (ix2 r k) := by
  obtain ⟨e0, e1, -⟩ := idx_facts4 t
  unfold iblk4
  rw [View.read_apply]
  show V c main_v180 (((cfg4.win 0).blk t).view.emb (ix2 p k)) = V c main_v180 (ix2 r k)
  refine congrArg (V c main_v180) (funext fun a => Fin.ext ?_)
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- The right input's block at every point is the right array. -/
theorem iblk4_1_apply (c : Dev nD) (t : Fin cfg4.N) (k : Fin 128) (q : Fin 16) :
    (iblk4 V c 1 t : Vec Ideal S128x16 .f32) (ix2 k q) = (V c main_arg10 : Vec Ideal S128x16 .f32) (ix2 k q) := by
  obtain ⟨-, -, e0, e1, -⟩ := idx_facts4 t
  unfold iblk4
  rw [View.read_apply]
  show V c main_arg10 (((cfg4.win 1).blk t).view.emb (ix2 k q)) = V c main_arg10 (ix2 k q)
  refine congrArg (V c main_arg10) (funext fun a => Fin.ext ?_)
  match a with
  | ⟨0, _⟩ => show win4_1.index t (0 : Fin 2) * 128 + 1 * k.val = k.val; rw [e0]; omega
  | ⟨1, _⟩ => show win4_1.index t (1 : Fin 2) * 16 + 1 * q.val = q.val; rw [e1]; omega

/-- What point `t` writes back is block `t` of the whole arrays' product. -/
theorem flushed4_eq (c : Dev nD) (t : Fin cfg4.N) :
    (dat4 (F := Ideal) V c).flushed 2 t = ((cfg4.win 2).blk t).view.read (Elt Ideal) (G4 (V c main_v180) (V c main_arg10)) := by
  show (cfg4.win 2).cut (grid4.coords t) ((dat4 V c).after 2 t) = _
  rw [after4_2]
  unfold out4_2
  rw [View.canon_unit_zero hz4]
  simp only [View.ld_unit_zero (S := S5000x128) hz4, View.ld_unit_zero (S := S128x16) hz4]
  obtain ⟨-, -, -, -, e0, e1⟩ := idx_facts4 t
  have ht : t.val < 10 := t.isLt
  funext j
  obtain ⟨p, q, rfl⟩ : ∃ (p : Fin 5000) (q : Fin 16), j = ix2 p q := ⟨j 0, j 1, eq_ix2 j⟩
  have hp : p.val < 5000 := p.isLt
  let r : Fin 50000 := ⟨t.val * 5000 + p.val, by omega⟩
  have he : ((cfg4.win 2).blk t).view.emb (ix2 p q) = (ix2 r q : S50000x16.Idx) := by
    funext a; apply Fin.ext
    match a with
    | ⟨0, _⟩ => show win4_2.index t (0 : Fin 2) * 5000 + 1 * p.val = t.val * 5000 + p.val; rw [e0]; omega
    | ⟨1, _⟩ => show win4_2.index t (1 : Fin 2) * 16 + 1 * q.val = q.val; rw [e1]; omega
  show k4_pay1 (F := Ideal) (iblk4 V c 0 t) (iblk4 V c 1 t) (ix2 p q) = G4 (V c main_v180) (V c main_arg10) (((cfg4.win 2).blk t).view.emb (ix2 p q))
  refine (pay4_apply (iblk4 V c 0 t) (iblk4 V c 1 t) p q).trans ?_
  refine Eq.trans ?_ (congrArg (G4 (V c main_v180) (V c main_arg10)) he).symm
  refine Eq.trans ?_ (G4_apply (V c main_v180) (V c main_arg10) r q).symm
  refine Finset.sum_congr rfl fun k _ => ?_
  exact congrArg₂ (· * ·) (iblk4_0_apply V c t p k r rfl) (iblk4_1_apply V c t k q)

/-- An index of the output array is in point `t`'s block iff each coordinate is in the block's range on its axis. -/
theorem mem_blk4 (t : Fin cfg4.N) (i : S50000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v181).slice (win4_2.rect t)).set ↔ _
  rw [View.set_slice_whole, Rect.mem_set_unit]
  exact Iff.rfl

/-- The row blocks tile the output array: row `r` is in the block of point `r / 5000`. -/
theorem cover4 (i : S50000x16.Idx) : ∃ t : Fin cfg4.N, (cfg4.win 2).flush t = true ∧ i ∈ ((cfg4.win 2).blk t).view.set := by
  have hi0 : (i 0).val < 50000 := (i 0).isLt
  have hi1 : (i 1).val < 16 := (i 1).isLt
  let t : Fin cfg4.N := ⟨(i 0).val / 5000, by show _ < 10; omega⟩
  obtain ⟨-, -, -, -, e0, e1⟩ := idx_facts4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; rw [e0]; show (i 0).val / 5000 * 5000 ≤ (i 0).val ∧ (i 0).val < (i 0).val / 5000 * 5000 + 5000; omega
  | ⟨1, _⟩ => show win4_2.index t (1 : Fin 2) * 16 ≤ (i 1).val ∧ (i 1).val < win4_2.index t (1 : Fin 2) * 16 + 16; rw [e1]; omega

/-- The output array after the call is the product of the two whole input arrays, as the reference's `dot_general`. -/
theorem final4 (c : Dev nD) :
    (dat4 (F := Ideal) V c).arrAt 2 cfg4.N
      = Host.dotGeneral (F := Ideal) (φ₁ := .f32) (φ₂ := .f32) Cert.ReferenceIdeal.dot_S50000x128_S128x16_S50000x16_1_0_0_1_n_n none (V c main_v180) (V c main_arg10) :=
  (dat4 (F := Ideal) V c).arrAt_eq_of_cover 2 (G4 (V c main_v180) (V c main_arg10)) (fun t _ => flushed4_eq V c t) cover4

end Cert.KernelIdeal.HandV

end
-- ==== Proof.KI.ValsE.lean ====
/-
  The second branch's first layer at the extended reals, boundary by boundary: the contents the kernel program's host
  stretches and its two matrix-product calls leave are the reference program's stage functions of the launch arguments.
  Each lemma takes what it reads at the boundary before as hypotheses.
-/
import proofs.«128511_j38740605010536_2_alg».proof.Proof.KI.Run
import proofs.«128511_j38740605010536_2_alg».proof.Proof.KI.Final3
import proofs.«128511_j38740605010536_2_alg».proof.Proof.KI.Final4
import proofs.«128511_j38740605010536_2_alg».proof.Proof.RefReadP
import Idealize.ShloMosaic.Lib.StableHlo.Run

set_option maxRecDepth 16384
set_option pp.maxSteps 3000
set_option pp.deepTerms false
set_option pp.proofs false

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-- Pallas call 3 leaves the product of the node features and the second branch's first weight matrix. -/
theorem x14_v134 (c : Dev nD)
    (ha0 : X13 m ρ c (Proc.devRef .tc main_arg0) = (m ((c : Thread nD τ).loc main_arg0)))
    (ha8 : X13 m ρ c (Proc.devRef .tc main_arg8) = (m ((c : Thread nD τ).loc main_arg8))) :
    X14 m ρ c (Proc.devRef .tc main_v134) = Cert.ReferenceIdeal.ReadP.val_main_v162 (F := Ideal) (m ((c : Thread nD τ).loc main_arg0)) (m ((c : Thread nD τ).loc main_arg8)) := by
  refine ((X14_arr m ρ c 2).trans (final3 (V13 m ρ) c)).trans ?_
  show Host.dotGeneral (F := Ideal) (φ₁ := .f32) (φ₂ := .f32) Cert.ReferenceIdeal.dot_S50000x256_S256x128_S50000x128_1_0_0_1_n_n none
      (X13 m ρ c (Proc.devRef .tc main_arg0)) (X13 m ρ c (Proc.devRef .tc main_arg8)) = _
  rw [ha0, ha8]
  rfl

/-- The first layer of the second branch before its rectifier: the normalised neighbour sum plus the self term plus the bias. -/
theorem x16_v179 (c : Dev nD)
    (h127 : X14 m ρ c (Proc.devRef .tc main_v127) = Cert.ReferenceIdeal.ReadP.val_main_v155 (F := Ideal) (m ((c : Thread nD τ).loc main_arg1)) (m ((c : Thread nD τ).loc main_arg2)) (m ((c : Thread nD τ).loc main_arg3)))
    (h132 : X14 m ρ c (Proc.devRef .tc main_v132) = Cert.ReferenceIdeal.ReadP.val_main_v160 (F := Ideal) (m ((c : Thread nD τ).loc main_arg1)) (m ((c : Thread nD τ).loc main_arg2)) (m ((c : Thread nD τ).loc main_arg3)))
    (h133 : X14 m ρ c (Proc.devRef .tc main_v133) = Cert.ReferenceIdeal.ReadP.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h134 : X14 m ρ c (Proc.devRef .tc main_v134) = Cert.ReferenceIdeal.ReadP.val_main_v162 (F := Ideal) (m ((c : Thread nD τ).loc main_arg0)) (m ((c : Thread nD τ).loc main_arg8)))
    (ha9 : X14 m ρ c (Proc.devRef .tc main_arg9) = (m ((c : Thread nD τ).loc main_arg9))) :
    X16 m ρ c (Proc.devRef .tc main_v179) = Cert.ReferenceIdeal.ReadP.val_main_v205 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after main_part3_ops0 (X15 m ρ c) (Proc.devRef .tc main_v179) = _
  after_results_simp
  rw [h127, h132, h133, h134, ha9]
  simp only [Cert.ReferenceIdeal.ReadP.val_main_cst_32, Cert.ReferenceIdeal.ReadP.val_main_v163, Cert.ReferenceIdeal.ReadP.val_main_v164, Cert.ReferenceIdeal.ReadP.val_main_v165, Cert.ReferenceIdeal.ReadP.val_main_cst_33, Cert.ReferenceIdeal.ReadP.val_main_v166, Cert.ReferenceIdeal.ReadP.val_main_v167, Cert.ReferenceIdeal.ReadP.val_main_v168, Cert.ReferenceIdeal.ReadP.val_main_c_34, Cert.ReferenceIdeal.ReadP.val_main_v169, Cert.ReferenceIdeal.ReadP.val_main_v170, Cert.ReferenceIdeal.ReadP.val_main_c_35, Cert.ReferenceIdeal.ReadP.val_main_v171, Cert.ReferenceIdeal.ReadP.val_main_v172, Cert.ReferenceIdeal.ReadP.val_main_v173, Cert.ReferenceIdeal.ReadP.val_main_v174, Cert.ReferenceIdeal.ReadP.val_main_v175, Cert.ReferenceIdeal.ReadP.val_main_v176, Cert.ReferenceIdeal.ReadP.val_main_c_36, Cert.ReferenceIdeal.ReadP.val_main_v177, Cert.ReferenceIdeal.ReadP.val_main_v178, Cert.ReferenceIdeal.ReadP.val_main_c_37, Cert.ReferenceIdeal.ReadP.val_main_v179, Cert.ReferenceIdeal.ReadP.val_main_v180, Cert.ReferenceIdeal.ReadP.val_main_v181, Cert.ReferenceIdeal.ReadP.val_main_v182, Cert.ReferenceIdeal.ReadP.val_main_v183, Cert.ReferenceIdeal.ReadP.val_main_v184, Cert.ReferenceIdeal.ReadP.val_main_v185, Cert.ReferenceIdeal.ReadP.val_main_c_38, Cert.ReferenceIdeal.ReadP.val_main_v186, Cert.ReferenceIdeal.ReadP.val_main_v187, Cert.ReferenceIdeal.ReadP.val_main_c_39, Cert.ReferenceIdeal.ReadP.val_main_v188, Cert.ReferenceIdeal.ReadP.val_main_v189, Cert.ReferenceIdeal.ReadP.val_main_v190, Cert.ReferenceIdeal.ReadP.val_main_v191, Cert.ReferenceIdeal.ReadP.val_main_v192, Cert.ReferenceIdeal.ReadP.val_main_v193, Cert.ReferenceIdeal.ReadP.val_main_v194, Cert.ReferenceIdeal.ReadP.val_main_cst_40, Cert.ReferenceIdeal.ReadP.val_main_v195, Cert.ReferenceIdeal.ReadP.val_main_v196, Cert.ReferenceIdeal.ReadP.val_main_v197, Cert.ReferenceIdeal.ReadP.val_main_v198, Cert.ReferenceIdeal.ReadP.val_main_v199, Cert.ReferenceIdeal.ReadP.val_main_v200, Cert.ReferenceIdeal.ReadP.val_main_v201, Cert.ReferenceIdeal.ReadP.val_main_v202, Cert.ReferenceIdeal.ReadP.val_main_v203, Cert.ReferenceIdeal.ReadP.val_main_v204, Cert.ReferenceIdeal.ReadP.val_main_v205]
  rfl

/-- The rectifier applied to the first layer: the maximum with zero. -/
theorem relu1 (c : Dev nD) :
    X17 m ρ c (Proc.devRef .tc main_v180)
      = (maximumf (F := Ideal) (φ := .f32) (X16 m ρ c (Proc.devRef .tc main_v179) : (⟨S50000x128, .f32⟩ : BufTy).Contents (Elt Ideal))
          (broadcastInDim S50000x128 ![] bcast_S_S50000x128 (constant (F := Ideal) S_ .f32 0x00000000#32)) : (⟨S50000x128, .f32⟩ : BufTy).Contents (Elt Ideal)) := by
  show StableHlo.after main_part3_ops1 (X16 m ρ c) (Proc.devRef .tc main_v180) = _
  generalize X16 m ρ c = W
  after_results_simp
  simp only [TRef.ofBuf, TRef.toBuf, cast_cast, cast_eq]

/-- The first layer of the second branch, rectified: what pallas call 4 multiplies. -/
theorem x17_v180 (c : Dev nD)
    (h127 : X14 m ρ c (Proc.devRef .tc main_v127) = Cert.ReferenceIdeal.ReadP.val_main_v155 (F := Ideal) (m ((c : Thread nD τ).loc main_arg1)) (m ((c : Thread nD τ).loc main_arg2)) (m ((c : Thread nD τ).loc main_arg3)))
    (h132 : X14 m ρ c (Proc.devRef .tc main_v132) = Cert.ReferenceIdeal.ReadP.val_main_v160 (F := Ideal) (m ((c : Thread nD τ).loc main_arg1)) (m ((c : Thread nD τ).loc main_arg2)) (m ((c : Thread nD τ).loc main_arg3)))
    (h133 : X14 m ρ c (Proc.devRef .tc main_v133) = Cert.ReferenceIdeal.ReadP.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (h134 : X14 m ρ c (Proc.devRef .tc main_v134) = Cert.ReferenceIdeal.ReadP.val_main_v162 (F := Ideal) (m ((c : Thread nD τ).loc main_arg0)) (m ((c : Thread nD τ).loc main_arg8)))
    (ha9 : X14 m ρ c (Proc.devRef .tc main_arg9) = (m ((c : Thread nD τ).loc main_arg9))) :
    X17 m ρ c (Proc.devRef .tc main_v180) = Cert.ReferenceIdeal.ReadP.val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [relu1 m ρ c, x16_v179 m ρ c h127 h132 h133 h134 ha9]
  rfl

/-- Pallas call 4 leaves the product of the first layer's output and the second branch's second weight matrix. -/
theorem x18_v181 (c : Dev nD)
    (h180 : X17 m ρ c (Proc.devRef .tc main_v180) = Cert.ReferenceIdeal.ReadP.val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (ha10 : X17 m ρ c (Proc.devRef .tc main_arg10) = (m ((c : Thread nD τ).loc main_arg10))) :
    X18 m ρ c (Proc.devRef .tc main_v181) = Cert.ReferenceIdeal.ReadP.val_main_v207 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((X18_arr m ρ c 2).trans (final4 (V17 m ρ) c)).trans ?_
  show Host.dotGeneral (F := Ideal) (φ₁ := .f32) (φ₂ := .f32) Cert.ReferenceIdeal.dot_S50000x128_S128x16_S50000x16_1_0_0_1_n_n none
      (X17 m ρ c (Proc.devRef .tc main_v180)) (X17 m ρ c (Proc.devRef .tc main_arg10)) = _
  rw [h180, ha10]
  rfl

end Cert.KernelIdeal.HandV

end
-- ==== Proof.KI.ValsG.lean ====
/-
  The augmented graph's row and column lists at the extended reals: the original edges' endpoints followed by the
  candidate edges' endpoints in both directions, as the kernel program's host stretch builds them, are the reference
  program's stage functions of the launch arguments. Each lemma takes what it reads at the boundary before as hypotheses.
-/
import proofs.«128511_j38740605010536_2_alg».proof.Proof.KI.Run
import proofs.«128511_j38740605010536_2_alg».proof.Proof.RefReadP
import Idealize.ShloMosaic.Lib.StableHlo.Run

set_option maxRecDepth 16384
set_option pp.maxSteps 3000
set_option pp.deepTerms false
set_option pp.proofs false

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-! ## A three-operand concatenation read at its operands -/

section Nary3

variable {τ' : Topo} {sig' : RefSig} {Val : EltTy → Type}

/-- An operation over a literal family of three references, read at its result: the function of each operand's
    contents at its own reference (so that the operands' contents can be read in turn). -/
theorem nary3_result {x a b y : Ref sig' .tc}
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

end Nary3

/-- The operations' results read one rewriting at a time, a three-operand concatenation at its operands. -/
macro "after_results3" : tactic =>
  `(tactic| (simp only [after_cons, after_nil]
             repeat (first
               | rw [nullary_result] | rw [unary_result] | rw [binary_result] | rw [ternary_result] | rw [quaternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-- The augmented graph's row list: the original rows, then the candidates' first endpoints, then their second. -/
theorem x13_v127 (c : Dev nD)
    (h1 : X12 m ρ c (Proc.devRef .tc main_v1) = Cert.ReferenceIdeal.ReadP.val_main_v1 (F := Ideal) (m ((c : Thread nD τ).loc main_arg3)))
    (h94 : X12 m ρ c (Proc.devRef .tc main_v94) = Cert.ReferenceIdeal.ReadP.val_main_v147 (F := Ideal) (m ((c : Thread nD τ).loc main_arg1)) (m ((c : Thread nD τ).loc main_arg2))) :
    X13 m ρ c (Proc.devRef .tc main_v127) = Cert.ReferenceIdeal.ReadP.val_main_v155 (F := Ideal) (m ((c : Thread nD τ).loc main_arg1)) (m ((c : Thread nD τ).loc main_arg2)) (m ((c : Thread nD τ).loc main_arg3)) := by
  show StableHlo.after main_part2_ops5 (X12 m ρ c) (Proc.devRef .tc main_v127) = _
  after_results3
  rw [h1, h94]
  simp only [Cert.ReferenceIdeal.ReadP.val_main_v151, Cert.ReferenceIdeal.ReadP.val_main_v152, Cert.ReferenceIdeal.ReadP.val_main_v153, Cert.ReferenceIdeal.ReadP.val_main_v154, Cert.ReferenceIdeal.ReadP.val_main_v155]
  rfl

/-- The augmented graph's column list: the original columns, then the candidates' second endpoints, then their first. -/
theorem x13_v132 (c : Dev nD)
    (h3 : X12 m ρ c (Proc.devRef .tc main_v3) = Cert.ReferenceIdeal.ReadP.val_main_v3 (F := Ideal) (m ((c : Thread nD τ).loc main_arg3)))
    (h94 : X12 m ρ c (Proc.devRef .tc main_v94) = Cert.ReferenceIdeal.ReadP.val_main_v147 (F := Ideal) (m ((c : Thread nD τ).loc main_arg1)) (m ((c : Thread nD τ).loc main_arg2))) :
    X13 m ρ c (Proc.devRef .tc main_v132) = Cert.ReferenceIdeal.ReadP.val_main_v160 (F := Ideal) (m ((c : Thread nD τ).loc main_arg1)) (m ((c : Thread nD τ).loc main_arg2)) (m ((c : Thread nD τ).loc main_arg3)) := by
  show StableHlo.after main_part2_ops5 (X12 m ρ c) (Proc.devRef .tc main_v132) = _
  after_results3
  rw [h3, h94]
  simp only [Cert.ReferenceIdeal.ReadP.val_main_v156, Cert.ReferenceIdeal.ReadP.val_main_v157, Cert.ReferenceIdeal.ReadP.val_main_v158, Cert.ReferenceIdeal.ReadP.val_main_v159, Cert.ReferenceIdeal.ReadP.val_main_v160]
  rfl

end Cert.KernelIdeal.HandV

end
-- ==== Proof.Bridge.Sigmoid.lean ====
/-
  The threshold law of the logistic function on the extended reals: 1 / (1 + exp (−d)) exceeds one half exactly
  when d exceeds zero. At d = +∞ the logistic value is 1 (exp (−∞) = 0) and at d = −∞ it is 0 (1 / +∞ = 0), so the
  equivalence holds at the two infinities as well as at every real, where it is the monotonicity of exp.
-/
import Idealize.ShloMosaic.Lib.IdealHost

namespace Cert.Bridge

open Idealize.ShloMosaic

/-- The f32 pattern `0x3F000000` is the real one half. -/
theorem ofBits_half_f32 : Ideal.ofBits .f32 0x3F000000#32 = (((1 : ℝ) / 2 : ℝ) : EReal) := by
  simp [Ideal.ofBits, Ideal.ieee, -EReal.coe_mul]; norm_num

/-- On the reals: 1 / (1 + exp (−r)) > 1/2 iff 1 + exp (−r) < 2 iff exp (−r) < exp 0 iff r > 0. -/
theorem half_lt_inv_one_add_exp_neg_iff (r : ℝ) : (1 : ℝ) / 2 < (1 + Real.exp (-r))⁻¹ ↔ 0 < r := by
  have hpos : (0 : ℝ) < 1 + Real.exp (-r) := by positivity
  rw [lt_inv_comm₀ (by norm_num) hpos, show ((1 : ℝ) / 2)⁻¹ = 2 by norm_num]
  constructor
  · intro h
    have h1 : Real.exp (-r) < Real.exp 0 := by rw [Real.exp_zero]; linarith
    have := Real.exp_lt_exp.mp h1; linarith
  · intro h
    have h1 : Real.exp (-r) < Real.exp 0 := Real.exp_lt_exp.mpr (by linarith)
    rw [Real.exp_zero] at h1; linarith

/-- On the extended reals, the infinities included. -/
theorem half_lt_logistic_iff (d : EReal) : (((1 : ℝ) / 2 : ℝ) : EReal) < Ideal.logistic d ↔ 0 < d := by
  induction d using EReal.rec with
  | bot =>
    rw [Ideal.logistic_bot]
    constructor
    · intro h; exact absurd h (not_lt.mpr (by exact_mod_cast (by norm_num : (0 : ℝ) ≤ 1 / 2)))
    · intro h; exact absurd h (not_lt.mpr bot_le)
  | top =>
    rw [Ideal.logistic_top]
    constructor
    · intro _; exact EReal.zero_lt_top
    · intro _; exact_mod_cast (by norm_num : (1 : ℝ) / 2 < 1)
  | coe r =>
    rw [Ideal.logistic_coe, EReal.coe_lt_coe_iff, half_lt_inv_one_add_exp_neg_iff]
    exact_mod_cast Iff.rfl

/-- The two comparisons the programs make agree: the reference's, of the logistic value spelt with the patterns of
    one, one and one half, and the kernel program's, of the score with the pattern of zero. -/
theorem cmp_logistic_half (d : EReal) :
    Ideal.cmp .ogt (Ideal.div (Ideal.ofBits .f32 0x3F800000#32) (Ideal.ofBits .f32 0x3F800000#32 + Ideal.exp (-d)))
        (Ideal.ofBits .f32 0x3F000000#32)
      = Ideal.cmp .ogt d (Ideal.ofBits .f32 0x00000000#32) := by
  rw [Ideal.ofBits_one_f32, ofBits_half_f32, Ideal.ofBits_zero_f32]
  show BitVec.ofBool (decide ((((1 : ℝ) / 2 : ℝ) : EReal) < Ideal.logistic d)) = BitVec.ofBool (decide (0 < d))
  rw [decide_eq_decide.mpr (half_lt_logistic_iff d)]

end Cert.Bridge
-- ==== Proof.Bridge.Gather.lean ====
/-
  A gather of whole rows read at an index. What `x[idx]` of a matrix `x : [N, C]` at a column of row numbers
  `idx : [R, 1]` lowers to: offset axis 1, collapsed slice axis 0, start index map [0], index vector axis 1, slice
  sizes [1, C]. Result element (r, c) is `x` at row `idx[r, 0]`, read signed and clamped into [0, N − 1], column c.
-/
import Idealize.ShloMosaic.Lib.ValueIdx

namespace Cert.Bridge

open Idealize.ShloMosaic Idealize.ShloMosaic.ValueIdx

variable {α : Type}

/-- Those dimension numbers for an operand [N, C], start indices [R, 1] and result [R, C]. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A start index read signed and clamped into [0, N − 1]. -/
def clampRow (N : Nat) (hN : 0 < N) {w : Nat} (v : BitVec w) : Fin N := ⟨min v.toInt.toNat (N - 1), by omega⟩

/-- The row gather read at (r, c): the operand at row `idx[r, 0]`, read signed and clamped into [0, N − 1],
    and column c. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 (clampRow N hN (idx (ix2 r ⟨0, Nat.one_pos⟩))) c) := by
  unfold Host.gather
  congr 1
  funext a
  refine Fin.ext ?_
  show (rowDims N C R wf).start (ix2 r c) idx a + (rowDims N C R wf).batchCoord (ix2 r c) a
    + (rowDims N C R wf).offCoord (ix2 r c) a = _
  rw [GatherDims.batchCoord_eq_zero _ _ _ List.not_mem_nil]
  have ha : a = (0 : Fin 2) ∨ a = (1 : Fin 2) := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  · have h1 : (1 : Fin 2) ∉ (rowDims N C R wf).startIndexMap := by
      show (1 : Fin 2) ∉ ([0] : List (Fin 2)); decide
    have h2 : (1 : Fin 2) ∈ (rowDims N C R wf).sKept :=
      (GatherDims.mem_sKept _ _).mpr ⟨by show (1 : Fin 2) ∉ ([0] : List (Fin 2)); decide, List.not_mem_nil⟩
    unfold GatherDims.start GatherDims.offCoord
    rw [dif_neg h1, dif_pos h2]
    simp only [Nat.add_zero, Nat.zero_add]
    rfl

end Cert.Bridge
-- ==== Proof.Bridge.Layout.lean ====
/-
  The stages of the two edge decoders read at an index, at any sizes.

  * The negative-index wrap followed by a row gather: row r of the result is the operand's row `clampRow (wrapRow t[r])`.
  * The two index arrays concatenated along the edge axis, one row sliced out and flattened: entry j is the first
    array's entry j below its length, and the second array's entry j − length from there on.
  * The padded, tiled, tile-wise-summed and cut-back score: entry j < 200000 of the result is the inner product of
    rows j of the two unpadded operands — row j sits in tile j / 128 at position j % 128, and the padding rows
    (200000 and beyond) are never read back.
  * The host's sum over the second axis of an entrywise product: the initial value plus the inner product of the rows.
-/
import Idealize.ShloMosaic.Lib.IdealHost
import Idealize.ShloMosaic.Lib.KernelVsHost
import Idealize.ShloMosaic.Lib.Pipeline.Value
import proofs.«128511_j38740605010536_2_alg».proof.Proof.Bridge.Gather

set_option maxRecDepth 16384

namespace Cert.Bridge

open Idealize.ShloMosaic Idealize.ShloMosaic.ValueIdx
open scoped BigOperators

variable {α : Type}

/-- The rank-zero shape. -/
abbrev S0 : Shape := ⟨0, ![]⟩

/-- A negative row number counts from the end: `w < 0 ? w + 50000 : w` on 32-bit words. -/
def wrapRow (w : BitVec 32) : BitVec 32 := Scalar.select (IntOp.cmpi .slt w 0#32) (IntOp.addi w 50000#32) w

/-- The wrap and the gather: row r of `x[wrap t]` is row `clampRow (wrapRow t[r])` of `x`. -/
theorem rows_apply {N C R : Nat} (hN : 0 < N)
    (wf : GatherDims.WF ⟨2, ![N, C]⟩ ⟨2, ![R, 1]⟩ ⟨2, ![R, C]⟩ [1] [0] [] [0] [] 1 ![1, C])
    (hb0 : S0.BroadcastsInDim ⟨1, ![R]⟩ (![] : Fin 0 → Fin 1))
    (hb1 : (⟨1, ![R]⟩ : Shape).BroadcastsInDim ⟨2, ![R, 1]⟩ (![0] : Fin 1 → Fin 2))
    (x : (⟨2, ![N, C]⟩ : Shape).Idx → α) (t : IVec ⟨1, ![R]⟩ 32) (r : Fin R) (c : Fin C) :
    Host.gather (rowDims N C R wf) x
        (broadcastInDim ⟨2, ![R, 1]⟩ ![0] hb1
          (select (cmpi .slt t (broadcastInDim ⟨1, ![R]⟩ ![] hb0 (constantI S0 32 0#32)))
            (addi t (broadcastInDim ⟨1, ![R]⟩ ![] hb0 (constantI S0 32 50000#32))) t)) (ix2 r c)
      = x (ix2 (clampRow N hN (wrapRow (t (ix1 r)))) c) := by
  refine (gather_row_apply hN wf x _ r c).trans ?_
  have e : broadcastInDim ⟨2, ![R, 1]⟩ ![0] hb1
        (select (cmpi .slt t (broadcastInDim ⟨1, ![R]⟩ ![] hb0 (constantI S0 32 0#32)))
          (addi t (broadcastInDim ⟨1, ![R]⟩ ![] hb0 (constantI S0 32 50000#32))) t) (ix2 r ⟨0, Nat.one_pos⟩)
      = wrapRow (t (ix1 r)) := by
    refine (broadcastInDim_apply _ hb1 _ _ (ix1 r) ?_).trans rfl
    intro a
    match a with
    | ⟨0, _⟩ =>
      show r.val = if R = 1 then 0 else r.val
      split
      · have := r.isLt; omega
      · rfl
  exact congrArg (fun w => x (ix2 (clampRow N hN w) c)) e

/-- Row o of an index array sliced out and flattened: entry j is the array's entry (o, j). -/
theorem row_slice {n o : Nat} (ho : o < 2)
    (hs : (⟨2, ![2, n]⟩ : Shape).Slices ![o, 0] ⟨2, ![1, n]⟩)
    (hsc : (⟨2, ![1, n]⟩ : Shape).ShapeCasts ⟨1, ![n]⟩)
    (a : (⟨2, ![2, n]⟩ : Shape).Idx → α) (j : Fin n) :
    shapeCast ⟨1, ![n]⟩ (extractStridedSlice ⟨2, ![1, n]⟩ ![o, 0] a hs) hsc (ix1 j) = a (ix2 ⟨o, ho⟩ j) := by
  refine (shapeCast_apply _ hsc (ix1 j) (ix2 ⟨0, Nat.one_pos⟩ j) ?_).trans ?_
  · rw [Shape.rowMajor_val_two, Shape.rowMajor_val_one]
    show 0 * n + j.val = j.val
    omega
  refine extractStridedSlice_apply _ _ hs (ix2 ⟨0, Nat.one_pos⟩ j) (ix2 ⟨o, ho⟩ j) ?_
  intro a
  match a with
  | ⟨0, _⟩ => show o = o + 0; rfl
  | ⟨1, _⟩ => show j.val = 0 + j.val; omega

/-- Entry j of row o of the concatenated index arrays, below the first array's length: the first array's. -/
theorem tei_left {n m o : Nat} (ho : o < 2)
    (hc : Shape.Concatenates [(⟨2, ![2, n]⟩ : Shape), ⟨2, ![2, n]⟩] ⟨2, ![2, m]⟩ 1)
    (hs : (⟨2, ![2, m]⟩ : Shape).Slices ![o, 0] ⟨2, ![1, m]⟩)
    (hsc : (⟨2, ![1, m]⟩ : Shape).ShapeCasts ⟨1, ![m]⟩)
    (a1 a2 : (⟨2, ![2, n]⟩ : Shape).Idx → α) (j : Fin m) (hj : j.val < n) :
    shapeCast ⟨1, ![m]⟩ (extractStridedSlice ⟨2, ![1, m]⟩ ![o, 0]
        (concatenate ⟨2, ![2, m]⟩ 1 [⟨⟨2, ![2, n]⟩, a1⟩, ⟨⟨2, ![2, n]⟩, a2⟩] hc) hs) hsc (ix1 j)
      = a1 (ix2 ⟨o, ho⟩ ⟨j.val, hj⟩) := by
  refine (shapeCast_apply _ hsc (ix1 j) (ix2 ⟨0, Nat.one_pos⟩ j) ?_).trans ?_
  · rw [Shape.rowMajor_val_two, Shape.rowMajor_val_one]
    show 0 * m + j.val = j.val
    omega
  refine (extractStridedSlice_apply _ _ hs (ix2 ⟨0, Nat.one_pos⟩ j) (ix2 ⟨o, ho⟩ j) ?_).trans ?_
  · intro a
    match a with
    | ⟨0, _⟩ => show o = o + 0; rfl
    | ⟨1, _⟩ => show j.val = 0 + j.val; omega
  exact concatenate_pair_apply_left 1 a1 a2 hc (ix2 ⟨o, ho⟩ j) rfl (ix2 ⟨o, ho⟩ ⟨j.val, hj⟩)
    (fun b => match b with | ⟨0, _⟩ => rfl | ⟨1, _⟩ => rfl)

/-- Entry j of row o of the concatenated index arrays, from the first array's length on: the second array's entry
    j − length. -/
theorem tei_right {n m o : Nat} (ho : o < 2)
    (hc : Shape.Concatenates [(⟨2, ![2, n]⟩ : Shape), ⟨2, ![2, n]⟩] ⟨2, ![2, m]⟩ 1)
    (hs : (⟨2, ![2, m]⟩ : Shape).Slices ![o, 0] ⟨2, ![1, m]⟩)
    (hsc : (⟨2, ![1, m]⟩ : Shape).ShapeCasts ⟨1, ![m]⟩)
    (a1 a2 : (⟨2, ![2, n]⟩ : Shape).Idx → α) (j : Fin m) (hj : n ≤ j.val) (hj' : j.val - n < n) :
    shapeCast ⟨1, ![m]⟩ (extractStridedSlice ⟨2, ![1, m]⟩ ![o, 0]
        (concatenate ⟨2, ![2, m]⟩ 1 [⟨⟨2, ![2, n]⟩, a1⟩, ⟨⟨2, ![2, n]⟩, a2⟩] hc) hs) hsc (ix1 j)
      = a2 (ix2 ⟨o, ho⟩ ⟨j.val - n, hj'⟩) := by
  refine (shapeCast_apply _ hsc (ix1 j) (ix2 ⟨0, Nat.one_pos⟩ j) ?_).trans ?_
  · rw [Shape.rowMajor_val_two, Shape.rowMajor_val_one]
    show 0 * m + j.val = j.val
    omega
  refine (extractStridedSlice_apply _ _ hs (ix2 ⟨0, Nat.one_pos⟩ j) (ix2 ⟨o, ho⟩ j) ?_).trans ?_
  · intro a
    match a with
    | ⟨0, _⟩ => show o = o + 0; rfl
    | ⟨1, _⟩ => show j.val = 0 + j.val; omega
  exact concatenate_pair_apply_right 1 a1 a2 hc (ix2 ⟨o, ho⟩ j) rfl rfl (ix2 ⟨o, ho⟩ ⟨j.val - n, hj'⟩)
    (fun b hb => match b, hb with
      | ⟨0, _⟩, _ => rfl
      | ⟨1, _⟩, hb => absurd rfl hb)
    (by show j.val - n + n = j.val; omega)

/-- Entry j of a concatenation of two vectors, below the first's length. -/
theorem cat_left {n m : Nat} (hc : Shape.Concatenates [(⟨1, ![n]⟩ : Shape), ⟨1, ![n]⟩] ⟨1, ![m]⟩ 0)
    (x1 x2 : (⟨1, ![n]⟩ : Shape).Idx → α) (j : Fin m) (hj : j.val < n) :
    concatenate ⟨1, ![m]⟩ 0 [⟨⟨1, ![n]⟩, x1⟩, ⟨⟨1, ![n]⟩, x2⟩] hc (ix1 j) = x1 (ix1 ⟨j.val, hj⟩) :=
  concatenate_pair_apply_left 0 x1 x2 hc (ix1 j) rfl (ix1 ⟨j.val, hj⟩) (fun b => match b with | ⟨0, _⟩ => rfl)

/-- Entry j of a concatenation of two vectors, from the first's length on. -/
theorem cat_right {n m : Nat} (hc : Shape.Concatenates [(⟨1, ![n]⟩ : Shape), ⟨1, ![n]⟩] ⟨1, ![m]⟩ 0)
    (x1 x2 : (⟨1, ![n]⟩ : Shape).Idx → α) (j : Fin m) (hj : n ≤ j.val) (hj' : j.val - n < n) :
    concatenate ⟨1, ![m]⟩ 0 [⟨⟨1, ![n]⟩, x1⟩, ⟨⟨1, ![n]⟩, x2⟩] hc (ix1 j) = x2 (ix1 ⟨j.val - n, hj'⟩) :=
  concatenate_pair_apply_right 0 x1 x2 hc (ix1 j) rfl rfl (ix1 ⟨j.val - n, hj'⟩)
    (fun b hb => match b, hb with | ⟨0, _⟩, hb => absurd rfl hb)
    (by show j.val - n + n = j.val; omega)

/-- The padded, tiled score cut back: entry j of the result is the inner product of rows j of the unpadded operands,
    for any tile-wise operation `E` that is the sum over the last axis of the entrywise product. -/
theorem kscore_apply
    (hpad : (⟨2, ![200000, 128]⟩ : Shape).Pads ![0, 0] ![704, 0] ![0, 0] ⟨2, ![200704, 128]⟩) (hu : 0 < S0.numel)
    (hsc : (⟨2, ![200704, 128]⟩ : Shape).ShapeCasts ⟨3, ![1568, 128, 128]⟩)
    (hsc2 : (⟨2, ![1568, 128]⟩ : Shape).ShapeCasts ⟨1, ![200704]⟩)
    (hsl : (⟨1, ![200704]⟩ : Shape).Slices ![0] ⟨1, ![200000]⟩)
    (E : ((⟨3, ![1568, 128, 128]⟩ : Shape).Idx → EReal) → ((⟨3, ![1568, 128, 128]⟩ : Shape).Idx → EReal)
      → (⟨2, ![1568, 128]⟩ : Shape).Idx → EReal)
    (hE : ∀ A B (g : Fin 1568) (l : Fin 128), E A B (ix2 g l) = ∑ h : Fin 128, A (ix3 g l h) * B (ix3 g l h))
    (A B : (⟨2, ![200000, 128]⟩ : Shape).Idx → EReal) (pa pb : S0.Idx → EReal) (j : Fin 200000) :
    extractStridedSlice ⟨1, ![200000]⟩ ![0]
        (shapeCast ⟨1, ![200704]⟩
          (E (shapeCast ⟨3, ![1568, 128, 128]⟩ (pad ⟨2, ![200704, 128]⟩ ![0, 0] ![704, 0] ![0, 0] A pa hpad hu) hsc)
            (shapeCast ⟨3, ![1568, 128, 128]⟩ (pad ⟨2, ![200704, 128]⟩ ![0, 0] ![704, 0] ![0, 0] B pb hpad hu) hsc))
          hsc2) hsl (ix1 j)
      = ∑ h : Fin 128, A (ix2 j h) * B (ix2 j h) := by
  have hj := j.isLt
  refine (extractStridedSlice_apply _ _ hsl (ix1 j) (ix1 ⟨j.val, by omega⟩) ?_).trans ?_
  · intro a
    match a with
    | ⟨0, _⟩ => show j.val = 0 + j.val; omega
  refine (shapeCast_apply _ hsc2 _ (ix2 ⟨j.val / 128, by omega⟩ ⟨j.val % 128, by omega⟩) ?_).trans ?_
  · rw [Shape.rowMajor_val_two, Shape.rowMajor_val_one]
    show j.val / 128 * 128 + j.val % 128 = j.val
    omega
  rw [hE]
  refine Finset.sum_congr rfl fun h _ => ?_
  have key : ∀ (X : (⟨2, ![200000, 128]⟩ : Shape).Idx → EReal) (p : S0.Idx → EReal),
      shapeCast ⟨3, ![1568, 128, 128]⟩ (pad ⟨2, ![200704, 128]⟩ ![0, 0] ![704, 0] ![0, 0] X p hpad hu) hsc
          (ix3 ⟨j.val / 128, by omega⟩ ⟨j.val % 128, by omega⟩ h) = X (ix2 j h) := by
    intro X p
    refine (shapeCast_apply _ hsc _ (ix2 ⟨j.val, by omega⟩ h) ?_).trans ?_
    · rw [Shape.rowMajor_val_three, Shape.rowMajor_val_two]
      show j.val * 128 + h.val = (j.val / 128 * 128 + j.val % 128) * 128 + h.val
      omega
    exact pad_apply_of_inside _ _ _ X p hpad hu _ (ix2 j h) (fun a => match a with
      | ⟨0, _⟩ => by show j.val = 0 + j.val * (0 + 1); omega
      | ⟨1, _⟩ => by show h.val = 0 + h.val * (0 + 1); omega)
  rw [key A pa, key B pb]

/-- The host's sum over the second axis of an entrywise product: the initial value plus the rows' inner product. -/
theorem rscore_apply {R : Nat} (hred' : (⟨2, ![R, 128]⟩ : Shape).ReducesTo [1] ⟨1, ![R]⟩) (hu : 0 < S0.numel)
    (A B : FVec Ideal ⟨2, ![R, 128]⟩ .f32) (init : S0.Idx → EReal) (j : Fin R) :
    Host.reduceAdd (F := Ideal) (φ := .f32) (mulf (F := Ideal) (φ := .f32) A B) init hred' hu (ix1 j)
      = init (Shape.Idx.first hu) + ∑ h : Fin 128, A (ix2 j h) * B (ix2 j h) := by
  have hred : (⟨2, ![R, 128]⟩ : Shape).Reduces [1] ⟨1, ![R]⟩ := ⟨hred'.1, Nat.one_pos, hred'.2⟩
  refine (Ideal.hostReduceAdd_single hred' hred _ _ (ix1 j)).trans ?_
  congr 1
  refine Finset.sum_congr rfl fun h _ => ?_
  have e : hred.lift (ix1 j) h = ix2 j h := by
    funext c
    refine Fin.ext ?_
    match c with
    | ⟨0, _⟩ => rfl
    | ⟨1, _⟩ => rfl
  rw [e]
  rfl

end Cert.Bridge
-- ==== Proof.Bridge.Mask.lean ====
/-
  The two programs accept the same candidate edges.

  Entry j of either mask is decided by the score of candidate edge j: the inner product of two rows of the node
  embedding z, the rows named by column j of the two index arrays laid side by side (column j of the first array for
  j < 100000, column j − 100000 of the second from there on), each row number wrapped when negative and clamped
  into the embedding's rows.

  * The kernel program concatenates the index arrays, gathers the 200000 row pairs, pads both gathered arrays with 704
    rows, reshapes them to 1568 tiles of 128 rows, sums the products tile by tile and flattens: row j lands in tile
    j / 128 at position j % 128, the padding rows land at positions 200000 … 200703, and the slice [0, 200000) reads
    none of them. It accepts edge j when the score exceeds zero.
  * The reference computes the same score for each index array separately, applies 1 / (1 + exp (−d)), concatenates the
    two halves, and accepts edge j when the result exceeds one half — which is when d exceeds zero, at every extended
    real d.
-/
import proofs.«128511_j38740605010536_2_alg».proof.Proof.Bridge.MaskDefs
import proofs.«128511_j38740605010536_2_alg».proof.Proof.Bridge.Sigmoid
import proofs.«128511_j38740605010536_2_alg».proof.Proof.Bridge.Layout

set_option maxRecDepth 16384

noncomputable section

namespace Cert.Bridge

open Idealize.ShloMosaic Idealize.ShloMosaic.ValueIdx
open scoped BigOperators

/-- Column j of row o of the two index arrays laid side by side. -/
def teiAt (a1 a2 : (⟨2, ![2, 100000]⟩ : Shape).Idx → BitVec 32) (o : Fin 2) (j : Fin 200000) : BitVec 32 :=
  if h : j.val < 100000 then a1 (ix2 o ⟨j.val, h⟩) else a2 (ix2 o ⟨j.val - 100000, by have := j.isLt; omega⟩)

/-- The embedding row that column j of row o names. -/
def rowAt (a1 a2 : (⟨2, ![2, 100000]⟩ : Shape).Idx → BitVec 32) (o : Fin 2) (j : Fin 200000) : Fin 50000 :=
  clampRow 50000 (by decide) (wrapRow (teiAt a1 a2 o j))

/-- The score of candidate edge j. -/
def scoreAt (z : (⟨2, ![50000, 128]⟩ : Shape).Idx → EReal) (a1 a2 : (⟨2, ![2, 100000]⟩ : Shape).Idx → BitVec 32)
    (j : Fin 200000) : EReal :=
  ∑ h : Fin 128, z (ix2 (rowAt a1 a2 0 j) h) * z (ix2 (rowAt a1 a2 1 j) h)

/-- Row o of the concatenated index arrays, flattened, at j. -/
theorem tei_apply {o : Nat} (ho : o < 2)
    (hc : Shape.Concatenates [(⟨2, ![2, 100000]⟩ : Shape), ⟨2, ![2, 100000]⟩] ⟨2, ![2, 200000]⟩ 1)
    (hs : (⟨2, ![2, 200000]⟩ : Shape).Slices ![o, 0] ⟨2, ![1, 200000]⟩)
    (hsc : (⟨2, ![1, 200000]⟩ : Shape).ShapeCasts ⟨1, ![200000]⟩)
    (a1 a2 : (⟨2, ![2, 100000]⟩ : Shape).Idx → BitVec 32) (j : Fin 200000) :
    shapeCast ⟨1, ![200000]⟩ (extractStridedSlice ⟨2, ![1, 200000]⟩ ![o, 0]
        (concatenate ⟨2, ![2, 200000]⟩ 1 [⟨⟨2, ![2, 100000]⟩, a1⟩, ⟨⟨2, ![2, 100000]⟩, a2⟩] hc) hs) hsc (ix1 j)
      = teiAt a1 a2 ⟨o, ho⟩ j := by
  have hj2 := j.isLt
  unfold teiAt
  by_cases hj : j.val < 100000
  · rw [dif_pos hj]; exact tei_left ho hc hs hsc a1 a2 j hj
  · rw [dif_neg hj]; exact tei_right ho hc hs hsc a1 a2 j (by omega) (by omega)

/-- The host's exponential at an index. -/
theorem hostExp_apply {s : Shape} {φ : FTy} (y : FVec Ideal s φ) (i : s.Idx) :
    Host.exp (F := Ideal) y i = Ideal.exp (y i) := rfl

/-- The host's negation at an index. -/
theorem hostNegf_apply {s : Shape} {φ : FTy} (y : FVec Ideal s φ) (i : s.Idx) :
    Host.negf (F := Ideal) y i = -(y i) := rfl

section Kernel
open Cert.KernelIdeal Cert.KernelIdeal.Facts₀ Cert.KernelIdeal.Facts
variable [Cert.KernelIdeal.Facts]

/-- Entry j of the kernel program's mask: the score compared with zero. -/
theorem maskK_apply (z : (⟨S50000x128, .f32⟩ : BufTy).Contents (Elt Ideal))
    (a1 a2 : (⟨S2x100000, .i32⟩ : BufTy).Contents (Elt Ideal)) (j : Fin 200000) :
    maskK z a1 a2 (ix1 j)
      = FloatOps.uitofp (F := Ideal) .f32
          (Ideal.cmp .ogt (scoreAt z a1 a2 j) (Ideal.ofBits .f32 0x00000000#32)) := by
  unfold maskK
  dsimp only
  refine congrArg (fun s => FloatOps.uitofp (F := Ideal) .f32 (Ideal.cmp .ogt s (Ideal.ofBits .f32 0x00000000#32))) ?_
  refine (kscore_apply pads_S200000x128_S200704x128_07040_000 h_S_ shapeCasts_S200704x128_S1568x128x128
    shapeCasts_S1568x128_S200704 slices_S200704_S200000_0 Cert.KernelIdeal.HandV.edgeDot (fun _ _ _ _ => rfl)
    _ _ _ _ j).trans ?_
  unfold scoreAt rowAt
  refine Finset.sum_congr rfl fun h _ => ?_
  congr 1
  · refine (rows_apply (by decide) gather_S50000x128_S200000x1_S200000x128_1_0_n_n_0_1_1128_wf bcast_S_S200000
      bcast_S200000_S200000x1_0 z _ j h).trans ?_
    exact congrArg (fun w => z (ix2 (clampRow 50000 (by decide) (wrapRow w)) h))
      (tei_apply (o := 0) (by decide) concatenates_S2x100000_S2x100000_S2x200000_d1 slices_S2x200000_S1x200000_0_0
        shapeCasts_S1x200000_S200000 a1 a2 j)
  · refine (rows_apply (by decide) gather_S50000x128_S200000x1_S200000x128_1_0_n_n_0_1_1128_wf bcast_S_S200000
      bcast_S200000_S200000x1_0 z _ j h).trans ?_
    exact congrArg (fun w => z (ix2 (clampRow 50000 (by decide) (wrapRow w)) h))
      (tei_apply (o := 1) (by decide) concatenates_S2x100000_S2x100000_S2x200000_d1 slices_S2x200000_S1x200000_1_0
        shapeCasts_S1x200000_S200000 a1 a2 j)

end Kernel

section Reference
open Cert.ReferenceIdeal Cert.ReferenceIdeal.Facts₀ Cert.ReferenceIdeal.Facts
variable [Cert.ReferenceIdeal.Facts]

/-- One decoder of the reference at entry j of its index array `a`: the logistic function of the score of the edge
    that column j of `a` names. -/
theorem dec_apply (z : (⟨S50000x128, .f32⟩ : BufTy).Contents (Elt Ideal))
    (a : (⟨S2x100000, .i32⟩ : BufTy).Contents (Elt Ideal)) (j : Fin 100000) :
    Host.divf (F := Ideal) (φ := .f32)
        (broadcastInDim S100000 ![] bcast_S_S100000 (constant (F := Ideal) S_ .f32 0x3F800000#32))
        (addf (F := Ideal) (φ := .f32)
          (broadcastInDim S100000 ![] bcast_S_S100000 (constant (F := Ideal) S_ .f32 0x3F800000#32))
          (Host.exp (F := Ideal) (φ := .f32) (Host.negf (F := Ideal) (φ := .f32)
            (Host.reduceAdd (F := Ideal) (φ := .f32)
              (mulf (F := Ideal) (φ := .f32)
                (Host.gather gather_S50000x128_S100000x1_S100000x128_1_0_n_n_0_1_1128 z
                  (broadcastInDim S100000x1 ![0] bcast_S100000_S100000x1_0
                    (select
                      (cmpi .slt
                        (shapeCast S100000 (extractStridedSlice S1x100000 ![0, 0] a slices_S2x100000_S1x100000_0_0)
                          shapeCasts_S1x100000_S100000)
                        (broadcastInDim S100000 ![] bcast_S_S100000 (constantI S_ 32 0#32)))
                      (addi
                        (shapeCast S100000 (extractStridedSlice S1x100000 ![0, 0] a slices_S2x100000_S1x100000_0_0)
                          shapeCasts_S1x100000_S100000)
                        (broadcastInDim S100000 ![] bcast_S_S100000 (constantI S_ 32 50000#32)))
                      (shapeCast S100000 (extractStridedSlice S1x100000 ![0, 0] a slices_S2x100000_S1x100000_0_0)
                        shapeCasts_S1x100000_S100000))))
                (Host.gather gather_S50000x128_S100000x1_S100000x128_1_0_n_n_0_1_1128 z
                  (broadcastInDim S100000x1 ![0] bcast_S100000_S100000x1_0
                    (select
                      (cmpi .slt
                        (shapeCast S100000 (extractStridedSlice S1x100000 ![1, 0] a slices_S2x100000_S1x100000_1_0)
                          shapeCasts_S1x100000_S100000)
                        (broadcastInDim S100000 ![] bcast_S_S100000 (constantI S_ 32 0#32)))
                      (addi
                        (shapeCast S100000 (extractStridedSlice S1x100000 ![1, 0] a slices_S2x100000_S1x100000_1_0)
                          shapeCasts_S1x100000_S100000)
                        (broadcastInDim S100000 ![] bcast_S_S100000 (constantI S_ 32 50000#32)))
                      (shapeCast S100000 (extractStridedSlice S1x100000 ![1, 0] a slices_S2x100000_S1x100000_1_0)
                        shapeCasts_S1x100000_S100000)))))
              (constant (F := Ideal) S_ .f32 0x00000000#32) reducesTo_S100000x128_S100000_d1 h_S_))))
        (ix1 j)
      = Ideal.div (Ideal.ofBits .f32 0x3F800000#32) (Ideal.ofBits .f32 0x3F800000#32 + Ideal.exp (-(
          ∑ h : Fin 128, z (ix2 (clampRow 50000 (by decide) (wrapRow (a (ix2 0 j)))) h)
            * z (ix2 (clampRow 50000 (by decide) (wrapRow (a (ix2 1 j)))) h)))) := by
  refine (hostDivf_apply _ _ _).trans ?_
  refine congrArg₂ Ideal.div ((broadcastInDim_scalar_apply _ _ _).trans (constant_apply _ _)) ?_
  refine (addf_apply _ _ _).trans ?_
  refine congrArg₂ (· + ·) ((broadcastInDim_scalar_apply _ _ _).trans (constant_apply _ _)) ?_
  refine (hostExp_apply _ _).trans (congrArg Ideal.exp ?_)
  refine (hostNegf_apply _ _).trans (congrArg Neg.neg ?_)
  refine (rscore_apply reducesTo_S100000x128_S100000_d1 h_S_ _ _ _ j).trans ?_
  refine (congrArg (· + _) (show (constant (F := Ideal) S_ .f32 0x00000000#32) (Shape.Idx.first h_S_) = 0 from
    Ideal.ofBits_zero_f32)).trans ?_
  rw [zero_add]
  refine Finset.sum_congr rfl fun h _ => ?_
  congr 1
  · refine (rows_apply (by decide) gather_S50000x128_S100000x1_S100000x128_1_0_n_n_0_1_1128_wf bcast_S_S100000
      bcast_S100000_S100000x1_0 z _ j h).trans ?_
    exact congrArg (fun w => z (ix2 (clampRow 50000 (by decide) (wrapRow w)) h))
      (row_slice (o := 0) (by decide) slices_S2x100000_S1x100000_0_0 shapeCasts_S1x100000_S100000 a j)
  · refine (rows_apply (by decide) gather_S50000x128_S100000x1_S100000x128_1_0_n_n_0_1_1128_wf bcast_S_S100000
      bcast_S100000_S100000x1_0 z _ j h).trans ?_
    exact congrArg (fun w => z (ix2 (clampRow 50000 (by decide) (wrapRow w)) h))
      (row_slice (o := 1) (by decide) slices_S2x100000_S1x100000_1_0 shapeCasts_S1x100000_S100000 a j)

/-- Entry j of the reference's mask: the logistic function of the score compared with one half. -/
theorem maskR_apply (z : (⟨S50000x128, .f32⟩ : BufTy).Contents (Elt Ideal))
    (a1 a2 : (⟨S2x100000, .i32⟩ : BufTy).Contents (Elt Ideal)) (j : Fin 200000) :
    maskR z a1 a2 (ix1 j)
      = FloatOps.uitofp (F := Ideal) .f32
          (Ideal.cmp .ogt
            (Ideal.div (Ideal.ofBits .f32 0x3F800000#32)
              (Ideal.ofBits .f32 0x3F800000#32 + Ideal.exp (-(scoreAt z a1 a2 j))))
            (Ideal.ofBits .f32 0x3F000000#32)) := by
  have hj2 := j.isLt
  unfold maskR
  dsimp only
  refine congrArg (fun s => FloatOps.uitofp (F := Ideal) .f32 (Ideal.cmp .ogt s (Ideal.ofBits .f32 0x3F000000#32))) ?_
  by_cases hj : j.val < 100000
  · refine (cat_left concatenates_S100000_S100000_S200000_d0 _ _ j hj).trans ?_
    refine (dec_apply z a1 ⟨j.val, hj⟩).trans ?_
    unfold scoreAt rowAt teiAt
    simp only [dif_pos hj]
  · refine (cat_right concatenates_S100000_S100000_S200000_d0 _ _ j (by omega) (by omega)).trans ?_
    refine (dec_apply z a2 ⟨j.val - 100000, by omega⟩).trans ?_
    unfold scoreAt rowAt teiAt
    simp only [dif_neg hj]

end Reference

/-- THE MASKS AGREE: the kernel program's accepted-edge mask is the reference's, for every node embedding and every
    pair of candidate-edge index arrays. -/
theorem mask_eq [Cert.KernelIdeal.Facts] [Cert.ReferenceIdeal.Facts]
    (z : (⟨Cert.KernelIdeal.S50000x128, .f32⟩ : BufTy).Contents (Elt Ideal))
    (a1 a2 : (⟨Cert.KernelIdeal.S2x100000, .i32⟩ : BufTy).Contents (Elt Ideal)) :
    maskK z a1 a2 = maskR z a1 a2 := by
  funext i
  rw [eq_ix1 i]
  exact (maskK_apply z a1 a2 (i 0)).trans
    ((congrArg (FloatOps.uitofp (F := Ideal) .f32) (cmp_logistic_half (scoreAt z a1 a2 (i 0))).symm).trans
      (maskR_apply z a1 a2 (i 0)).symm)

end Cert.Bridge

end
-- ==== Proof.Bridge.MaskVal.lean ====
/-
  The reference's mask, spelt operation by operation, is the value its stage functions give the comparison's
  conversion: the same operations applied to the same operands, the node embedding being the stage function of the
  encoder's last addition.
-/
import proofs.«128511_j38740605010536_2_alg».proof.Proof.Bridge.MaskDefs
import proofs.«128511_j38740605010536_2_alg».proof.Proof.RefReadP

set_option maxRecDepth 16384

noncomputable section

namespace Cert.Bridge

open Idealize.ShloMosaic
open Cert.ReferenceIdeal Cert.ReferenceIdeal.Gen Cert.ReferenceIdeal.ReadP

/-- The reference's mask at the encoder's output is the stage function of its last conversion. -/
theorem maskR_val (x0 : (⟨S50000x256, .f32⟩ : BufTy).Contents (Elt Ideal)) (x1 x2 : (⟨S2x100000, .i32⟩ : BufTy).Contents (Elt Ideal))
    (x3 : (⟨S2x800000, .i32⟩ : BufTy).Contents (Elt Ideal)) (x4 : (⟨S256x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    maskR (val_main_v93 (F := Ideal) x0 x3 x4 x5 x6 x7) x1 x2 = val_main_v150 (F := Ideal) x0 x1 x2 x3 x4 x5 x6 x7 := by
  unfold maskR
  simp only [val_main_v94, val_main_v95, val_main_c_17, val_main_v96, val_main_v97, val_main_c_18, val_main_v98, val_main_v99, val_main_v100, val_main_v101, val_main_v102, val_main_v103, val_main_v104, val_main_c_19, val_main_v105, val_main_v106, val_main_c_20, val_main_v107, val_main_v108, val_main_v109, val_main_v110, val_main_v111, val_main_v112, val_main_cst_21, val_main_v113, val_main_v114, val_main_v115, val_main_cst_22, val_main_v116, val_main_v117, val_main_cst_23, val_main_v118, val_main_v119, val_main_v120, val_main_v121, val_main_c_24, val_main_v122, val_main_v123, val_main_c_25, val_main_v124, val_main_v125, val_main_v126, val_main_v127, val_main_v128, val_main_v129, val_main_v130, val_main_c_26, val_main_v131, val_main_v132, val_main_c_27, val_main_v133, val_main_v134, val_main_v135, val_main_v136, val_main_v137, val_main_v138, val_main_cst_28, val_main_v139, val_main_v140, val_main_v141, val_main_cst_29, val_main_v142, val_main_v143, val_main_cst_30, val_main_v144, val_main_v145, val_main_v146, val_main_cst_31, val_main_v148, val_main_v149, val_main_v150]

end Cert.Bridge

end
-- ==== Proof.KI.Vals.lean ====
/-
  The kernel program's three results as the reference's stage functions of the arguments: the pieces chained along
  the run. z is the second layer's output; the mask is maskK of z, which is the reference's mask; the row, column and
  weight lists follow; the second branch's two layers and the closing log-softmax apply the same host operations as the
  reference to equal operands, each pallas call's output array being the reference's matrix product.
-/
import proofs.«128511_j38740605010536_2_alg».proof.Proof.KI.Keep
import proofs.«128511_j38740605010536_2_alg».proof.Proof.KI.ValsA
import proofs.«128511_j38740605010536_2_alg».proof.Proof.KI.ValsD2
import proofs.«128511_j38740605010536_2_alg».proof.Proof.KI.ValsE
import proofs.«128511_j38740605010536_2_alg».proof.Proof.KI.ValsF
import proofs.«128511_j38740605010536_2_alg».proof.Proof.KI.ValsG
import proofs.«128511_j38740605010536_2_alg».proof.Proof.Bridge.Mask
import proofs.«128511_j38740605010536_2_alg».proof.Proof.Bridge.MaskVal
import proofs.«128511_j38740605010536_2_alg».proof.Proof.RefReadP
import Idealize.ShloMosaic.Lib.StableHlo.Run

set_option maxRecDepth 16384
set_option pp.maxSteps 3000
set_option pp.deepTerms false
set_option pp.proofs false

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-- z at the boundary where it is written. -/
theorem z6 (c : Dev nD) : X6 m ρ c (Proc.devRef .tc main_v93) = Cert.ReferenceIdeal.ReadP.val_main_v93 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) :=
  x6_v93 m ρ c ((keep_5_2_v1 m ρ c).trans (x2_v1 m ρ c)) ((keep_5_2_v3 m ρ c).trans (x2_v3 m ρ c)) ((keep_5_2_v4 m ρ c).trans (x2_v4 m ρ c))
    (x5_v50 m ρ c (X2_arg m ρ c main_arg5 (by decide)) (X4_arg m ρ c main_arg6 (by decide))) (X5_arg m ρ c main_arg7 (by decide))

/-- The kernel program's mask is the reference's. -/
theorem m13 (c : Dev nD) : X13 m ρ c (Proc.devRef .tc main_v122) = Cert.ReferenceIdeal.ReadP.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [x13_v122_mask m ρ c (X5_arg m ρ c main_arg1 (by decide)) (X5_arg m ρ c main_arg2 (by decide)), z6 m ρ c]
  exact (Cert.Bridge.mask_eq _ _ _).trans (Cert.Bridge.maskR_val _ _ _ _ _ _ _ _)

theorem tei12 (c : Dev nD) : X12 m ρ c (Proc.devRef .tc main_v94) = Cert.ReferenceIdeal.ReadP.val_main_v147 (F := Ideal) (m ((c : Thread nD τ).loc main_arg1)) (m ((c : Thread nD τ).loc main_arg2)) :=
  (keep_12_6_v94 m ρ c).trans ((x6_v94 m ρ c (X5_arg m ρ c main_arg1 (by decide)) (X5_arg m ρ c main_arg2 (by decide))).trans (K94_eq _ _))

theorem rows13 (c : Dev nD) : X13 m ρ c (Proc.devRef .tc main_v127) = Cert.ReferenceIdeal.ReadP.val_main_v155 (F := Ideal) (m ((c : Thread nD τ).loc main_arg1)) (m ((c : Thread nD τ).loc main_arg2)) (m ((c : Thread nD τ).loc main_arg3)) :=
  x13_v127 m ρ c ((keep_12_5_v1 m ρ c).trans ((keep_5_2_v1 m ρ c).trans (x2_v1 m ρ c))) (tei12 m ρ c)
theorem cols13 (c : Dev nD) : X13 m ρ c (Proc.devRef .tc main_v132) = Cert.ReferenceIdeal.ReadP.val_main_v160 (F := Ideal) (m ((c : Thread nD τ).loc main_arg1)) (m ((c : Thread nD τ).loc main_arg2)) (m ((c : Thread nD τ).loc main_arg3)) :=
  x13_v132 m ρ c ((keep_12_5_v3 m ρ c).trans ((keep_5_2_v3 m ρ c).trans (x2_v3 m ρ c))) (tei12 m ρ c)
theorem wts13 (c : Dev nD) : X13 m ρ c (Proc.devRef .tc main_v133) = Cert.ReferenceIdeal.ReadP.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  x13_v133 m ρ c ((keep_12_5_v4 m ρ c).trans ((keep_5_2_v4 m ρ c).trans (x2_v4 m ρ c))) (m13 m ρ c)

theorem h2_17 (c : Dev nD) : X17 m ρ c (Proc.devRef .tc main_v180) = Cert.ReferenceIdeal.ReadP.val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  x17_v180 m ρ c ((keep_14_13_v127 m ρ c).trans (rows13 m ρ c)) ((keep_14_13_v132 m ρ c).trans (cols13 m ρ c)) ((keep_14_13_v133 m ρ c).trans (wts13 m ρ c))
    (x14_v134 m ρ c (X13_arg m ρ c main_arg0 (by decide)) (X13_arg m ρ c main_arg8 (by decide))) (X14_arg m ρ c main_arg9 (by decide))

theorem out20 (c : Dev nD) : X20 m ρ c (Proc.devRef .tc main_v226) = Cert.ReferenceIdeal.ReadP.val_main_v250 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  x21_v226 m ρ c ((keep_18_13_v127 m ρ c).trans (rows13 m ρ c)) ((keep_18_13_v132 m ρ c).trans (cols13 m ρ c)) ((keep_18_13_v133 m ρ c).trans (wts13 m ρ c))
    (x18_v181 m ρ c (h2_17 m ρ c) (X17_arg m ρ c main_arg10 (by decide))) (X18_arg m ρ c main_arg11 (by decide))

/-- The three results at the end of the run. -/
theorem kernel_vals (c : Dev nD) :
    X21 m ρ c (Proc.devRef .tc main_v229) = Cert.ReferenceIdeal.ReadP.val_main_v253 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    ∧ X21 m ρ c (Proc.devRef .tc main_v93) = Cert.ReferenceIdeal.ReadP.val_main_v93 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))
    ∧ X21 m ρ c (Proc.devRef .tc main_v228) = Cert.ReferenceIdeal.ReadP.val_main_v252 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ⟨x21_v229 m ρ c (out20 m ρ c), (keep_21_6_v93 m ρ c).trans (z6 m ρ c), x21_v228 m ρ c ((keep_18_13_v122 m ρ c).trans (m13 m ρ c))⟩

end Cert.KernelIdeal.HandV

end
-- ==== Proof.lean ====
/-
  The certificate: a two-layer graph convolution with an edge-dot decoder and a second, mask-weighted branch closed
  by a log-softmax, computed by a program of five pallas calls among host operations, against its plain reference.

  Frames. The two kernel programs (word level and idealized; the same text) run as 21 segments: the host stretches
  apply their operations to the buffers, each pallas call stages its blocks, runs its body at every grid point and
  writes the output blocks back; no segment writes an argument array. The reference is a straight line of host
  operations.

  Values, at the ideal instance (a float an extended real, every operation exact, a change of float format the
  identity). Each pallas call's output array is the reference's matrix product of the same operands (four calls: a
  block of rows of the product is the product of the block of rows), or the tile-wise inner products of the decoder's
  two gathered operands (one call). Between the calls the two programs apply the same host operations to equal
  values, except in the decoder: the kernel program concatenates the candidate edges first, pads and re-tiles the
  gathered rows, and thresholds the raw inner product at zero, where the reference takes the logistic of each
  candidate list's inner products and thresholds at one half; the two masks agree entry by entry because
  1 / (1 + exp (−d)) > 1/2 exactly when d > 0, at the infinities too. So no finiteness of the inputs is used.
-/
import proofs.«128511_j38740605010536_2_alg».proof.Defs
import proofs.«128511_j38740605010536_2_alg».proof.Proof.Frames
import proofs.«128511_j38740605010536_2_alg».proof.Proof.RefVals
import proofs.«128511_j38740605010536_2_alg».proof.Proof.KI.Frame
import proofs.«128511_j38740605010536_2_alg».proof.Proof.KI.Vals

set_option maxRecDepth 16384

noncomputable section

namespace Cert.Proof

open Idealize.ShloMosaic Idealize.ShloMosaic.TcCoe Idealize.SL.Sem

/-- The ideal pass rewrote nothing: the idealized program is the program's own text read at the ideal instance. -/
theorem preserves : Cert.preserves_Kernel_KernelIdeal := trivial

/-- The two idealized programs, run from memories agreeing on the arguments, end with equal results: each of the
    kernel program's three results is the reference's stage function of the arguments, and so is the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v253 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.ReadP.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.ReadP.val_main_v252 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c).1.trans (Cert.KernelIdeal.HandV.kernel_vals m ρ c).1, (h c).2.1.trans (Cert.KernelIdeal.HandV.kernel_vals m ρ c).2.1,
        (h c).2.2.1.trans (Cert.KernelIdeal.HandV.kernel_vals m ρ c).2.2, (h c).2.2.2⟩)
      (Cert.KernelIdeal.Hand.run_vals_raw (F := Ideal) m ρ)
  · refine (θ_run Cert.ReferenceIdeal.defs _ _).mono (fun r h c => ?_) (Cert.ReferenceIdeal.RefValue.run_vals m' ρ')
    obtain ⟨h0, h1, h2, hargs⟩ := h c
    obtain ⟨e0, e1, e2, e3, e4, e5, e6, e7, e8, e9, e10, e11⟩ := hagree c
    refine ⟨?_, ?_, ?_, hargs⟩
    · rw [h0, e0, e1, e2, e3, e4, e5, e6, e7, e8, e9, e10, e11]
    · rw [h1, e0, e3, e4, e5, e6, e7]
    · rw [h2, e0, e1, e2, e3, e4, e5, e6, e7]

theorem claim : Cert.Claim := ⟨Cert.Kernel.Gen.facts, Cert.KernelIdeal.Gen.facts, Cert.ReferenceIdeal.Gen.facts, Cert.Pre_finite_inputs.Gen.facts,
  Cert.Proof.Frames.frame_p, Cert.Proof.Frames.frame_pi, Cert.Proof.RefClaims.frame_ri, preserves, algebraic⟩

end Cert.Proof

end
